-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x19 : Shape := ⟨2, ![50000, 19]⟩
abbrev S600000x2 : Shape := ⟨2, ![600000, 2]⟩
abbrev S600000x6 : Shape := ⟨2, ![600000, 6]⟩
abbrev S19x128 : Shape := ⟨2, ![19, 128]⟩
abbrev S128 : Shape := ⟨1, ![128]⟩
abbrev S6x128 : Shape := ⟨2, ![6, 128]⟩
abbrev S128x128 : Shape := ⟨2, ![128, 128]⟩
abbrev S_ : Shape := ⟨0, ![]⟩

class Facts : Prop where
  bcast_S_S50000x19 : S_.BroadcastsInDim S50000x19 (![] : Fin 0 → Fin S50000x19.rank)
  reducesTo_S50000x19_S_d0_1 : S50000x19.ReducesTo [0, 1] S_
  h_S_ : 0 < S_.numel
  bcast_S_S600000x6 : S_.BroadcastsInDim S600000x6 (![] : Fin 0 → Fin S600000x6.rank)
  reducesTo_S600000x6_S_d0_1 : S600000x6.ReducesTo [0, 1] S_
  bcast_S_S19x128 : S_.BroadcastsInDim S19x128 (![] : Fin 0 → Fin S19x128.rank)
  reducesTo_S19x128_S_d0_1 : S19x128.ReducesTo [0, 1] S_
  bcast_S_S128 : S_.BroadcastsInDim S128 (![] : Fin 0 → Fin S128.rank)
  reducesTo_S128_S_d0 : S128.ReducesTo [0] S_
  bcast_S_S6x128 : S_.BroadcastsInDim S6x128 (![] : Fin 0 → Fin S6x128.rank)
  reducesTo_S6x128_S_d0_1 : S6x128.ReducesTo [0, 1] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg19 : FVec F S128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg15 : FVec F S128x128 .f32) (main_arg16 : FVec F S128 .f32) (main_arg17 : FVec F S6x128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S6x128 .f32 := Host.absf main_arg17
  let main_cst_30 : FVec F S_ .f32 := constant S_ .f32 0x7F800000#32
  let main_v80 : FVec F S6x128 .f32 := broadcastInDim S6x128 ![] bcast_S_S6x128 main_cst_30
  let main_v81 : IVec S6x128 1 := cmpf .olt main_v79 main_v80
  let main_c_31 : IVec S_ 1 := constantI S_ 1 1#1
  let main_v82 : IVec S_ 1 := (fun x v => Host.reduce IntOp.andi x v reducesTo_S6x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128 .f32) (main_arg13 : FVec F S128 .f32) (main_arg14 : FVec F S128 .f32) (main_arg15 : FVec F S128x128 .f32) (main_arg16 : FVec F S128 .f32) (main_arg17 : FVec F S6x128 .f32) (main_arg18 : FVec F S128 .f32) (main_arg19 : FVec F S128 .f32) (main_arg20 : FVec F S128 .f32) (main_v48 : IVec S_ 1) (main_v49 : FVec F S6x128 .f32) (main_v50 : FVec F S6x128 .f32) : IVec S_ 1 :=
  let main_v51 : IVec S6x128 1 := cmpf .olt main_v49 main_v50
  let main_c_19 : IVec S_ 1 := constantI S_ 1 1#1
  let main_v52 : IVec S_ 1 := (fun x v => Host.reduce IntOp.andi x v reducesTo_S6x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128x128 .f32) (main_arg10 : FVec F S128 .f32) (main_arg11 : FVec F S6x128 .f32) (main_arg12 : FVec F S128 .f32) (main_arg13 : FVec F S128 .f32) (main_arg14 : FVec F S128 .f32) (main_arg15 : FVec F S128x128 .f32) (main_arg16 : FVec F S128 .f32) (main_arg17 : FVec F S6x128 .f32) (main_arg18 : FVec F S128 .f32) (main_arg19 : FVec F S128 .f32) (main_arg20 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S6x128 .f32 := Host.absf main_arg11
  let main_cst_18 : FVec F S_ .f32 := constant S_ .f32 0x7F800000#32
  let main_v50 : FVec F S6x128 .f32 := broadcastInDim S6x128 ![] bcast_S_S6x128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S6x128 .f32) (main_arg6 : FVec F S128 .f32) (main_arg7 : FVec F S128 .f32) (main_arg8 : FVec F S128 .f32) (main_arg9 : FVec F S128x128 .f32) (main_arg10 : FVec F S128 .f32) (main_arg11 : FVec F S6x128 .f32) (main_arg12 : FVec F S128 .f32) (main_arg13 : FVec F S128 .f32) (main_arg14 : FVec F S128 .f32) (main_arg15 : FVec F S128x128 .f32) (main_arg16 : FVec F S128 .f32) (main_arg17 : FVec F S6x128 .f32) (main_arg18 : FVec F S128 .f32) (main_arg19 : FVec F S128 .f32) (main_arg20 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S6x128 .f32 := Host.absf main_arg5
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S50000x19 .f32) (main_arg1 : IVec S600000x2 32) (main_arg2 : FVec F S600000x6 .f32) (main_arg3 : FVec F S19x128 .f32) (main_arg4 : FVec F S128 .f32) (main_arg5 : FVec F S6x128 .f32) (main_arg6 : FVec F S128 .f32) (main_arg7 : FVec F S128 .f32) (main_arg8 : FVec F S128 .f32) (main_arg9 : FVec F S128x128 .f32) (main_arg10 : FVec F S128 .f32) (main_arg11 : FVec F S6x128 .f32) (main_arg12 : FVec F S128 .f32) (main_arg13 : FVec F S128 .f32) (main_arg14 : FVec F S128 .f32) (main_arg15 : FVec F S128x128 .f32) (main_arg16 : FVec F S128 .f32) (main_arg17 : FVec F S6x128 .f32) (main_arg18 : FVec F S128 .f32) (main_arg19 : FVec F S128 .f32) (main_arg20 : FVec F S128 .f32) : IVec S_ 1 :=
  let main_v0 : FVec F S50000x19 .f32 := Host.absf main_arg0
  let main_cst : FVec F S_ .f32 := constant S_ .f32 0x7F800000#32
  let main_v1 : FVec F S50000x19 .f32 := broadcastInDim S50000x19 ![] bcast_S_S50000x19 main_cst
  let main_v2 : IVec S50000x19 1 := cmpf .olt main_v0 main_v1
  let main_c : IVec S_ 1 := constantI S_ 1 1#1
  let main_v3 : IVec S_ 1 := (fun x v => Host.reduce IntOp.andi x v reducesTo_S50000x19_S_d0_1 h_S_) main_v2 main_c
  let main_v4 : FVec F S600000x6 .f32 := Host.absf main_arg2
  let main_cst_0 : FVec F S_ .f32 := constant S_ .f32 0x7F800000#32
  let main_v5 : FVec F S600000x6 .f32 := broadcastInDim S600000x6 ![] bcast_S_S600000x6 main_cst_0
  let main_v6 : IVec S600000x6 1 := cmpf .olt main_v4 main_v5
  let main_c_1 : IVec S_ 1 := constantI S_ 1 1#1
  let main_v7 : IVec S_ 1 := (fun x v => Host.reduce IntOp.andi x v reducesTo_S600000x6_S_d0_1 h_S_) main_v6 main_c_1
  let main_v8 : IVec S_ 1 := andi main_v3 main_v7
  let main_v9 : FVec F S19x128 .f32 := Host.absf main_arg3
  let main_cst_2 : FVec F S_ .f32 := constant S_ .f32 0x7F800000#32
  let main_v10 : FVec F S19x128 .f32 := broadcastInDim S19x128 ![] bcast_S_S19x128 main_cst_2
  let main_v11 : IVec S19x128 1 := cmpf .olt main_v9 main_v10
  let main_c_3 : IVec S_ 1 := constantI S_ 1 1#1
  let main_v12 : IVec S_ 1 := (fun x v => Host.reduce IntOp.andi x v reducesTo_S19x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x19 : Shape := ⟨2, ![50000, 19]⟩
abbrev S600000x2 : Shape := ⟨2, ![600000, 2]⟩
abbrev S600000x6 : Shape := ⟨2, ![600000, 6]⟩
abbrev S19x128 : Shape := ⟨2, ![19, 128]⟩
abbrev S128 : Shape := ⟨1, ![128]⟩
abbrev S6x128 : Shape := ⟨2, ![6, 128]⟩
abbrev S128x128 : Shape := ⟨2, ![128, 128]⟩
abbrev S600000x1 : Shape := ⟨2, ![600000, 1]⟩
abbrev S600000 : Shape := ⟨1, ![600000]⟩
abbrev S1x128 : Shape := ⟨2, ![1, 128]⟩
abbrev S50000x128 : Shape := ⟨2, ![50000, 128]⟩
abbrev S10000x19 : Shape := ⟨2, ![10000, 19]⟩
abbrev S10000x128 : Shape := ⟨2, ![10000, 128]⟩
abbrev S600000x128 : Shape := ⟨2, ![600000, 128]⟩
abbrev S10000x6 : Shape := ⟨2, ![10000, 6]⟩
abbrev S_ : Shape := ⟨0, ![]⟩

abbrev nBuf : Space → Nat
  | .hbm => 138
  | .vmem => 78
  | .smem => 0
  | _ => 0

abbrev hbmTy0_0 (i : Nat) : BufTy := match i % 128 with
  | 0 => ⟨S50000x19, .f32⟩
  | 1 => ⟨S600000x2, .i32⟩
  | 2 => ⟨S600000x6, .f32⟩
  | 3 => ⟨S19x128, .f32⟩
  | 4 => ⟨S128, .f32⟩
  | 5 => ⟨S6x128, .f32⟩
  | 6 => ⟨S128, .f32⟩
  | 7 => ⟨S128, .f32⟩
  | 8 => ⟨S128, .f32⟩
  | 9 => ⟨S128x128, .f32⟩
  | 10 => ⟨S128, .f32⟩
  | 11 => ⟨S6x128, .f32⟩
  | 12 => ⟨S128, .f32⟩
  | 13 => ⟨S128, .f32⟩
  | 14 => ⟨S128, .f32⟩
  | 15 => ⟨S128x128, .f32⟩
  | 16 => ⟨S128, .f32⟩
  | 17 => ⟨S6x128, .f32⟩
  | 18 => ⟨S128, .f32⟩
  | 19 => ⟨S128, .f32⟩
  | 20 => ⟨S128, .f32⟩
  | 21 => ⟨S600000x1, .i32⟩
  | 22 => ⟨S600000, .i32⟩
  | 23 => ⟨S600000x1, .i32⟩
  | 24 => ⟨S600000, .i32⟩
  | 25 => ⟨S1x128, .f32⟩
  | 26 => ⟨S50000x128, .f32⟩
  | 27 => ⟨S1x128, .f32⟩
  | 28 => ⟨S600000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S600000x128, .f32⟩
  | 39 => ⟨S_, .f32⟩
  | 40 => ⟨S50000x128, .f32⟩
  | 41 => ⟨S600000x1, .i32⟩
  | 42 => ⟨S50000x128, .f32⟩
  | 43 => ⟨S50000x128, .f32⟩
  | 44 => ⟨S1x128, .f32⟩
  | 45 => ⟨S1x128, .f32⟩
  | 46 => ⟨S128, .f32⟩
  | 47 => ⟨S_, .f32⟩
  | 48 => ⟨S128, .f32⟩
  | 49 => ⟨S128, .f32⟩
  | 50 => ⟨S128, .f32⟩
  | 51 => ⟨S_, .f32⟩
  | 52 => ⟨S128, .f32⟩
  | 53 => ⟨S128, .f32⟩
  | 54 => ⟨S128, .f32⟩
  | 55 => ⟨S128, .f32⟩
  | 56 => ⟨S1x128, .f32⟩
  | 57 => ⟨S1x128, .f32⟩
  | 58 => ⟨S1x128, .f32⟩
  | 59 => ⟨S1x128, .f32⟩
  | 60 => ⟨S50000x128, .f32⟩
  | 61 => ⟨S1x128, .f32⟩
  | 62 => ⟨S50000x128, .f32⟩
  | 63 => ⟨S1x128, .f32⟩
  | 64 => ⟨S600000x128, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S600000x128, .f32⟩
  | 74 => ⟨S600000x128, .f32⟩
  | 75 => ⟨S_, .f32⟩
  | 76 => ⟨S50000x128, .f32⟩
  | 77 => ⟨S600000x1, .i32⟩
  | 78 => ⟨S50000x128, .f32⟩
  | 79 => ⟨S50000x128, .f32⟩
  | 80 => ⟨S1x128, .f32⟩
  | 81 => ⟨S1x128, .f32⟩
  | 82 => ⟨S128, .f32⟩
  | 83 => ⟨S_, .f32⟩
  | 84 => ⟨S128, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S128, .f32⟩
  | 92 => ⟨S1x128, .f32⟩
  | 93 => ⟨S1x128, .f32⟩
  | 94 => ⟨S1x128, .f32⟩
  | 95 => ⟨S1x128, .f32⟩
  | 96 => ⟨S50000x128, .f32⟩
  | 97 => ⟨S1x128, .f32⟩
  | 98 => ⟨S50000x128, .f32⟩
  | 99 => ⟨S1x128, .f32⟩
  | 100 => ⟨S600000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S600000x128, .f32⟩
  | 111 => ⟨S_, .f32⟩
  | 112 => ⟨S50000x128, .f32⟩
  | 113 => ⟨S600000x1, .i32⟩
  | 114 => ⟨S50000x128, .f32⟩
  | 115 => ⟨S50000x128, .f32⟩
  | 116 => ⟨S1x128, .f32⟩
  | 117 => ⟨S1x128, .f32⟩
  | 118 => ⟨S128, .f32⟩
  | 119 => ⟨S_, .f32⟩
  | 120 => ⟨S128, .f32⟩
  | 121 => ⟨S128, .f32⟩
  | 122 => ⟨S128, .f32⟩
  | 123 => ⟨S_, .f32⟩
  | 124 => ⟨S128, .f32⟩
  | 125 => ⟨S128, .f32⟩
  | 126 => ⟨S128, .f32⟩
  | 127 => ⟨S128, .f32⟩
  | _ => ⟨S50000x19, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | _ => ⟨S50000x19, .f32⟩

abbrev hbmTy (i : Nat) : BufTy := match i / 128 with
  | 0 => hbmTy0_0 i
  | 1 => hbmTy0_1 i
  | _ => ⟨S50000x19, .f32⟩

abbrev bufTy : (tb : Table) → Fin (tcTables nBuf tb) → BufTy
  | .hbm, ⟨i, _⟩ => hbmTy i
  | .local _ .vmem, ⟨0, _⟩ => ⟨S10000x19, .f32⟩
  | .local _ .vmem, ⟨1, _⟩ => ⟨S10000x19, .f32⟩
  | .local _ .vmem, ⟨2, _⟩ => ⟨S19x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x6, .f32⟩
  | .local _ .vmem, ⟨7, _⟩ => ⟨S10000x6, .f32⟩
  | .local _ .vmem, ⟨8, _⟩ => ⟨S6x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S128x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x6, .f32⟩
  | .local _ .vmem, ⟨33, _⟩ => ⟨S10000x6, .f32⟩
  | .local _ .vmem, ⟨34, _⟩ => ⟨S6x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S1x128, .f32⟩
  | .local _ .vmem, ⟨43, _⟩ => ⟨S1x128, .f32⟩
  | .local _ .vmem, ⟨44, _⟩ => ⟨S10000x128, .f32⟩
  | .local _ .vmem, ⟨45, _⟩ => ⟨S10000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S10000x128, .f32⟩
  | .local _ .vmem, ⟨51, _⟩ => ⟨S10000x128, .f32⟩
  | .local _ .vmem, ⟨52, _⟩ => ⟨S10000x128, .f32⟩
  | .local _ .vmem, ⟨53, _⟩ => ⟨S10000x128, .f32⟩
  | .local _ .vmem, ⟨54, _⟩ => ⟨S128x128, .f32⟩
  | .local _ .vmem, ⟨55, _⟩ => ⟨S1x128, .f32⟩
  | .local _ .vmem, ⟨56, _⟩ => ⟨S10000x128, .f32⟩
  | .local _ .vmem, ⟨57, _⟩ => ⟨S10000x128, .f32⟩
  | .local _ .vmem, ⟨58, _⟩ => ⟨S10000x6, .f32⟩
  | .local _ .vmem, ⟨59, _⟩ => ⟨S10000x6, .f32⟩
  | .local _ .vmem, ⟨60, _⟩ => ⟨S6x128, .f32⟩
  | .local _ .vmem, ⟨61, _⟩ => ⟨S1x128, .f32⟩
  | .local _ .vmem, ⟨62, _⟩ => ⟨S10000x128, .f32⟩
  | .local _ .vmem, ⟨63, _⟩ => ⟨S10000x128, .f32⟩
  | .local _ .vmem, ⟨64, _⟩ => ⟨S10000x128, .f32⟩
  | .local _ .vmem, ⟨65, _⟩ => ⟨S10000x128, .f32⟩
  | .local _ .vmem, ⟨66, _⟩ => ⟨S10000x128, .f32⟩
  | .local _ .vmem, ⟨67, _⟩ => ⟨S10000x128, .f32⟩
  | .local _ .vmem, ⟨68, _⟩ => ⟨S1x128, .f32⟩
  | .local _ .vmem, ⟨69, _⟩ => ⟨S1x128, .f32⟩
  | .local _ .vmem, ⟨70, _⟩ => ⟨S10000x128, .f32⟩
  | .local _ .vmem, ⟨71, _⟩ => ⟨S10000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S10000x128, .f32⟩
  | .local _ .vmem, ⟨77, _⟩ => ⟨S10000x128, .f32⟩
  | _, _ => ⟨S50000x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19_0 : Ref sig .tc := ⟨.hbm, 43, rfl⟩
abbrev main_v19_1 : Ref sig .tc := ⟨.hbm, 44, rfl⟩
abbrev main_v19_2 : Ref sig .tc := ⟨.hbm, 45, rfl⟩
abbrev main_v20 : Ref sig .tc := ⟨.hbm, 46, rfl⟩
abbrev main_cst_1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_3 : Ref sig .tc := ⟨.hbm, 65, rfl⟩
abbrev main_v37 : Ref sig .tc := ⟨.hbm, 66, rfl⟩
abbrev main_v38 : Ref sig .tc := ⟨.hbm, 67, rfl⟩
abbrev main_c_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48_0 : Ref sig .tc := ⟨.hbm, 79, rfl⟩
abbrev main_v48_1 : Ref sig .tc := ⟨.hbm, 80, rfl⟩
abbrev main_v48_2 : Ref sig .tc := ⟨.hbm, 81, rfl⟩
abbrev main_v49 : Ref sig .tc := ⟨.hbm, 82, rfl⟩
abbrev main_cst_6 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_7 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_8 : Ref sig .tc := ⟨.hbm, 101, rfl⟩
abbrev main_v66 : Ref sig .tc := ⟨.hbm, 102, rfl⟩
abbrev main_v67 : Ref sig .tc := ⟨.hbm, 103, rfl⟩
abbrev main_c_9 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_10 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77_0 : Ref sig .tc := ⟨.hbm, 115, rfl⟩
abbrev main_v77_1 : Ref sig .tc := ⟨.hbm, 116, rfl⟩
abbrev main_v77_2 : Ref sig .tc := ⟨.hbm, 117, rfl⟩
abbrev main_v78 : Ref sig .tc := ⟨.hbm, 118, rfl⟩
abbrev main_cst_11 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_12 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_13 : Ref sig .tc := ⟨.hbm, 133, rfl⟩
abbrev main_v91 : Ref sig .tc := ⟨.hbm, 134, rfl⟩
abbrev main_cst_14 : Ref sig .tc := ⟨.hbm, 135, rfl⟩
abbrev main_v92 : Ref sig .tc := ⟨.hbm, 136, rfl⟩
abbrev main_v93 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg3_0 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg5_0 : Ref sig .tc := ⟨.vmem, 50, rfl⟩
abbrev cc7_stg5_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg3_1 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg3_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg1_1 : Ref sig .tc := ⟨.vmem, 67, rfl⟩
abbrev cc10_stg2_0 : Ref sig .tc := ⟨.vmem, 68, rfl⟩
abbrev cc10_stg3_0 : Ref sig .tc := ⟨.vmem, 69, rfl⟩
abbrev cc11_stg0_0 : Ref sig .tc := ⟨.vmem, 70, rfl⟩
abbrev cc11_stg0_1 : Ref sig .tc := ⟨.vmem, 71, rfl⟩
abbrev cc11_stg1_0 : Ref sig .tc := ⟨.vmem, 72, rfl⟩
abbrev cc11_stg2_0 : Ref sig .tc := ⟨.vmem, 73, rfl⟩
abbrev cc11_stg3_0 : Ref sig .tc := ⟨.vmem, 74, rfl⟩
abbrev cc11_stg4_0 : Ref sig .tc := ⟨.vmem, 75, rfl⟩
abbrev cc11_stg5_0 : Ref sig .tc := ⟨.vmem, 76, rfl⟩
abbrev cc11_stg5_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem3_0 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem5_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem3_1 : DmaSem sig := 57
abbrev cc9_sem0_0 : DmaSem sig := 58
abbrev cc9_sem0_1 : DmaSem sig := 59
abbrev cc9_sem1_0 : DmaSem sig := 60
abbrev cc9_sem2_0 : DmaSem sig := 61
abbrev cc9_sem3_0 : DmaSem sig := 62
abbrev cc9_sem3_1 : DmaSem sig := 63
abbrev cc10_sem0_0 : DmaSem sig := 64
abbrev cc10_sem0_1 : DmaSem sig := 65
abbrev cc10_sem1_0 : DmaSem sig := 66
abbrev cc10_sem1_1 : DmaSem sig := 67
abbrev cc10_sem2_0 : DmaSem sig := 68
abbrev cc10_sem3_0 : DmaSem sig := 69
abbrev cc11_sem0_0 : DmaSem sig := 70
abbrev cc11_sem0_1 : DmaSem sig := 71
abbrev cc11_sem1_0 : DmaSem sig := 72
abbrev cc11_sem2_0 : DmaSem sig := 73
abbrev cc11_sem3_0 : DmaSem sig := 74
abbrev cc11_sem4_0 : DmaSem sig := 75
abbrev cc11_sem5_0 : DmaSem sig := 76
abbrev cc11_sem5_1 : DmaSem sig := 77

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S19x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![60], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x6 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S6x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![60], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x6 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S6x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  shapeCasts_S128_S1x128 : S128.ShapeCasts S1x128
  inb_S10000x19_S10000x19_0_0 : ∀ a, (![0, 0] : Fin 2 → Nat) a + S10000x19.size a ≤ S10000x19.size a
  h_S10000x19 : 0 < S10000x19.numel
  bitsLt_bf16_f32 : FTy.bits .bf16 < FTy.bits .f32
  inb_S19x128_S19x128_0_0 : ∀ a, (![0, 0] : Fin 2 → Nat) a + S19x128.size a ≤ S19x128.size a
  h_S19x128 : 0 < S19x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  inb_S10000x6_S10000x6_0_0 : ∀ a, (![0, 0] : Fin 2 → Nat) a + S10000x6.size a ≤ S10000x6.size a
  h_S10000x6 : 0 < S10000x6.numel
  inb_S6x128_S6x128_0_0 : ∀ a, (![0, 0] : Fin 2 → Nat) a + S6x128.size a ≤ S6x128.size a
  h_S6x128 : 0 < S6x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S10000x128_S10000x128 : S10000x128.ShapeCasts S10000x128
  reduces_S10000x128_S128 : S10000x128.Reduces [0] S128
  shapeCasts_S1x128_S128 : S1x128.ShapeCasts S128
  bcast_S_S128 : S_.BroadcastsInDim S128 (![] : Fin 0 → Fin S128.rank)
  inb_S128x128_S128x128_0_0 : ∀ a, (![0, 0] : Fin 2 → Nat) a + S128x128.size a ≤ S128x128.size a
  h_S128x128 : 0 < S128x128.numel
  reducesTo_S50000x128_S128_d0 : S50000x128.ReducesTo [0] S128
  h_S_ : 0 < S_.numel
  dot_S10000x19_S19x128_S10000x128_1_0_0_1_n_n_wf : DotDims.WF S10000x19 S19x128 S10000x128 [1] [0] [0] [1] [] []
  dot_S10000x6_S6x128_S10000x128_1_0_0_1_n_n_wf : DotDims.WF S10000x6 S6x128 S10000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x19.size a ≤ S50000x19.size a
  hwx0_0 : ∀ i : grid0.Coords, EltTy.bits .f32 = 32 ∨ (Rect.block (s := S50000x19) S10000x19.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S19x128.size a ≤ S19x128.size a
  hwx0_1 : ∀ i : grid0.Coords, EltTy.bits .f32 = 32 ∨ (Rect.block (s := S19x128) S19x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x6.size a ≤ S600000x6.size a
  hwx1_0 : ∀ i : grid1.Coords, EltTy.bits .f32 = 32 ∨ (Rect.block (s := S600000x6) S10000x6.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x128.size a ≤ S6x128.size a
  hwx1_1 : ∀ i : grid1.Coords, EltTy.bits .f32 = 32 ∨ (Rect.block (s := S6x128) S6x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S600000x128.size a
  hwx1_3 : ∀ i : grid1.Coords, EltTy.bits .f32 = 32 ∨ (Rect.block (s := S600000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S50000x128.size a
  hwx4_3 : ∀ i : grid4.Coords, EltTy.bits .f32 = 32 ∨ (Rect.block (s := S50000x128) S10000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x6.size a ≤ S600000x6.size a
  hwx5_0 : ∀ i : grid5.Coords, EltTy.bits .f32 = 32 ∨ (Rect.block (s := S600000x6) S10000x6.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S6x128.size a ≤ S6x128.size a
  hwx5_1 : ∀ i : grid5.Coords, EltTy.bits .f32 = 32 ∨ (Rect.block (s := S6x128) S6x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S600000x128.size a
  hwx5_3 : ∀ i : grid5.Coords, EltTy.bits .f32 = 32 ∨ (Rect.block (s := S600000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S50000x128.size a
  hwx6_1 : ∀ i : grid6.Coords, EltTy.bits .f32 = 32 ∨ (Rect.block (s := S50000x128) S10000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S50000x128.size a
  hwx7_5 : ∀ i : grid7.Coords, EltTy.bits .f32 = 32 ∨ (Rect.block (s := S50000x128) S10000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .f32 = 32 ∨ (Rect.block (s := S50000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x128.size a ≤ S50000x128.size a
  hwx8_3 : ∀ i : grid8.Coords, EltTy.bits .f32 = 32 ∨ (Rect.block (s := S50000x128) S10000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x6.size a ≤ S600000x6.size a
  hwx9_0 : ∀ i : grid9.Coords, EltTy.bits .f32 = 32 ∨ (Rect.block (s := S600000x6) S10000x6.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S6x128.size a ≤ S6x128.size a
  hwx9_1 : ∀ i : grid9.Coords, EltTy.bits .f32 = 32 ∨ (Rect.block (s := S6x128) S6x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x128.size a ≤ S600000x128.size a
  hwx9_3 : ∀ i : grid9.Coords, EltTy.bits .f32 = 32 ∨ (Rect.block (s := S600000x128) S10000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S50000x128.size a
  hwx10_0 : ∀ i : grid10.Coords, EltTy.bits .f32 = 32 ∨ (Rect.block (s := S50000x128) S10000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x128.size a ≤ S50000x128.size a
  hwx10_1 : ∀ i : grid10.Coords, EltTy.bits .f32 = 32 ∨ (Rect.block (s := S50000x128) S10000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S50000x128.size a
  hwx11_0 : ∀ i : grid11.Coords, EltTy.bits .f32 = 32 ∨ (Rect.block (s := S50000x128) S10000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x128.size a ≤ S50000x128.size a
  hwx11_5 : ∀ i : grid11.Coords, EltTy.bits .f32 = 32 ∨ (Rect.block (s := S50000x128) S10000x128.size (cc11_transform_5 i) (hinb11_5 i)).WholeWords (EltTy.packing .f32)

variable [Facts₀]

def dot_S10000x19_S19x128_S10000x128_1_0_0_1_n_n : DotDims S10000x19 S19x128 S10000x128 where
  lhsContracting := [1]
  rhsContracting := [0]
  lhsNonContracting := [0]
  rhsNonContracting := [1]
  lhsBatch := []
  rhsBatch := []
  wf := dot_S10000x19_S19x128_S10000x128_1_0_0_1_n_n_wf
def dot_S10000x6_S6x128_S10000x128_1_0_0_1_n_n : DotDims S10000x6 S6x128 S10000x128 where
  lhsContracting := [1]
  rhsContracting := [0]
  lhsNonContracting := [0]
  rhsNonContracting := [1]
  lhsBatch := []
  rhsBatch := []
  wf := dot_S10000x6_S6x128_S10000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S19x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S10000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S6x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19_0) S10000x128.size cc2_transform_1 reads2_1 true false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19_1) S1x128.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19_2) S1x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v32) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S10000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg2) S10000x6.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S6x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v35) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v36) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v47) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v48_0) S10000x128.size cc6_transform_1 reads6_1 true false 2 stage6_1 sem6_1
    hrank6 hreads6_1 hinb6_1 nbuf6_1 (Memref.isWhole_whole _) hwx6_1 hstage6_1

abbrev win6_2 : Pipeline.Window sig grid6 :=
  Pipeline.Window.ofSpec (Memref.whole main_v48_1) S1x128.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v48_2) S1x128.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v48_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v57) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v58) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v59) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v60) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v61) S10000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v61) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg15) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v62) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v63) S10000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_arg2) S10000x6.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg17) S6x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v64) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v65) S10000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v76) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v77_0) S10000x128.size cc10_transform_1 reads10_1 true false 2 stage10_1 sem10_1
    hrank10 hreads10_1 hinb10_1 nbuf10_1 (Memref.isWhole_whole _) hwx10_1 hstage10_1

abbrev win10_2 : Pipeline.Window sig grid10 :=
  Pipeline.Window.ofSpec (Memref.whole main_v77_1) S1x128.size cc10_transform_2 reads10_2 true true 1 stage10_2 sem10_2
    hrank10 hreads10_2 hinb10_2 nbuf10_2 (Memref.isWhole_whole _) hwx10_2 hstage10_2

abbrev win10_3 : Pipeline.Window sig grid10 :=
  Pipeline.Window.ofSpec (Memref.whole main_v77_2) S1x128.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v77_0) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v86) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v87) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v88) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v89) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v90) S10000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S50000x19 : Shape := ⟨2, ![50000, 19]⟩
abbrev S600000x2 : Shape := ⟨2, ![600000, 2]⟩
abbrev S600000x6 : Shape := ⟨2, ![600000, 6]⟩
abbrev S19x128 : Shape := ⟨2, ![19, 128]⟩
abbrev S128 : Shape := ⟨1, ![128]⟩
abbrev S6x128 : Shape := ⟨2, ![6, 128]⟩
abbrev S128x128 : Shape := ⟨2, ![128, 128]⟩
abbrev S600000x1 : Shape := ⟨2, ![600000, 1]⟩
abbrev S600000 : Shape := ⟨1, ![600000]⟩
abbrev S50000x128 : Shape := ⟨2, ![50000, 128]⟩
abbrev S1x128 : Shape := ⟨2, ![1, 128]⟩
abbrev S600000x128 : Shape := ⟨2, ![600000, 128]⟩
abbrev S_ : Shape := ⟨0, ![]⟩

abbrev nBuf : Space → Nat
  | .hbm => 237
  | .vmem => 0
  | .smem => 0
  | _ => 0

abbrev hbmTy0_0 (i : Nat) : BufTy := match i % 128 with
  | 0 => ⟨S50000x19, .f32⟩
  | 1 => ⟨S600000x2, .i32⟩
  | 2 => ⟨S600000x6, .f32⟩
  | 3 => ⟨S19x128, .f32⟩
  | 4 => ⟨S128, .f32⟩
  | 5 => ⟨S6x128, .f32⟩
  | 6 => ⟨S128, .f32⟩
  | 7 => ⟨S128, .f32⟩
  | 8 => ⟨S128, .f32⟩
  | 9 => ⟨S128x128, .f32⟩
  | 10 => ⟨S128, .f32⟩
  | 11 => ⟨S6x128, .f32⟩
  | 12 => ⟨S128, .f32⟩
  | 13 => ⟨S128, .f32⟩
  | 14 => ⟨S128, .f32⟩
  | 15 => ⟨S128x128, .f32⟩
  | 16 => ⟨S128, .f32⟩
  | 17 => ⟨S6x128, .f32⟩
  | 18 => ⟨S128, .f32⟩
  | 19 => ⟨S128, .f32⟩
  | 20 => ⟨S128, .f32⟩
  | 21 => ⟨S600000x1, .i32⟩
  | 22 => ⟨S600000, .i32⟩
  | 23 => ⟨S600000x1, .i32⟩
  | 24 => ⟨S600000, .i32⟩
  | 25 => ⟨S50000x128, .f32⟩
  | 26 => ⟨S1x128, .f32⟩
  | 27 => ⟨S50000x128, .f32⟩
  | 28 => ⟨S50000x128, .f32⟩
  | 29 => ⟨S600000x128, .f32⟩
  | 30 => ⟨S1x128, .f32⟩
  | 31 => ⟨S600000x128, .f32⟩
  | 32 => ⟨S600000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S600000x128, .f32⟩
  | 43 => ⟨S_, .f32⟩
  | 44 => ⟨S50000x128, .f32⟩
  | 45 => ⟨S600000x1, .i32⟩
  | 46 => ⟨S50000x128, .f32⟩
  | 47 => ⟨S_, .f32⟩
  | 48 => ⟨S50000x128, .f32⟩
  | 49 => ⟨S50000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S50000x128, .f32⟩
  | 63 => ⟨S50000x128, .f32⟩
  | 64 => ⟨S50000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S600000x128, .f32⟩
  | 99 => ⟨S1x128, .f32⟩
  | 100 => ⟨S600000x128, .f32⟩
  | 101 => ⟨S600000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S600000x128, .f32⟩
  | 112 => ⟨S_, .f32⟩
  | 113 => ⟨S50000x128, .f32⟩
  | 114 => ⟨S600000x1, .i32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S128, .f32⟩
  | 121 => ⟨S_, .f32⟩
  | 122 => ⟨S128, .f32⟩
  | 123 => ⟨S128, .f32⟩
  | 124 => ⟨S_, .i32⟩
  | 125 => ⟨S_, .f32⟩
  | 126 => ⟨S128, .f32⟩
  | 127 => ⟨S1x128, .f32⟩
  | _ => ⟨S50000x19, .f32⟩

abbrev hbmTy0_1 (i : Nat) : BufTy := match i % 128 with
  | 0 => ⟨S_, .f32⟩
  | 1 => ⟨S1x128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S128, .f32⟩
  | 25 => ⟨S128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S600000x128, .f32⟩
  | 40 => ⟨S1x128, .f32⟩
  | 41 => ⟨S600000x128, .f32⟩
  | 42 => ⟨S600000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S_, .f32⟩
  | 58 => ⟨S50000x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S128, .f32⟩
  | 106 => ⟨S_, .f32⟩
  | 107 => ⟨S128, .f32⟩
  | 108 => ⟨S128, .f32⟩
  | _ => ⟨S50000x19, .f32⟩

abbrev hbmTy (i : Nat) : BufTy := match i / 128 with
  | 0 => hbmTy0_0 i
  | 1 => hbmTy0_1 i
  | _ => ⟨S50000x19, .f32⟩

abbrev bufTy : (tb : Table) → Fin (tcTables nBuf tb) → BufTy
  | .hbm, ⟨i, _⟩ => hbmTy i
  | _, _ => ⟨S50000x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call0_cst : Ref sig .tc := ⟨.hbm, 47, rfl⟩
abbrev main_call0_v0 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_c_3 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_cst_2 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_cst_3 : Ref sig .tc := ⟨.hbm, 72, rfl⟩
abbrev main_call1_v12 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst_4 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_c_5 : Ref sig .tc := ⟨.hbm, 102, rfl⟩
abbrev main_v51 : Ref sig .tc := ⟨.hbm, 103, rfl⟩
abbrev main_v52 : Ref sig .tc := ⟨.hbm, 104, rfl⟩
abbrev main_c_6 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_7 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_call2_cst : Ref sig .tc := ⟨.hbm, 116, rfl⟩
abbrev main_call2_v0 : Ref sig .tc := ⟨.hbm, 117, rfl⟩
abbrev main_v62 : Ref sig .tc := ⟨.hbm, 118, rfl⟩
abbrev main_cst_8 : Ref sig .tc := ⟨.hbm, 119, rfl⟩
abbrev main_v63 : Ref sig .tc := ⟨.hbm, 120, rfl⟩
abbrev main_cst_9 : Ref sig .tc := ⟨.hbm, 121, rfl⟩
abbrev main_v64 : Ref sig .tc := ⟨.hbm, 122, rfl⟩
abbrev main_v65 : Ref sig .tc := ⟨.hbm, 123, rfl⟩
abbrev main_c_10 : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_cst_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_v7 : Ref sig .tc := ⟨.hbm, 134, rfl⟩
abbrev main_call3_cst_1 : Ref sig .tc := ⟨.hbm, 135, rfl⟩
abbrev main_call3_v8 : Ref sig .tc := ⟨.hbm, 136, rfl⟩
abbrev main_call3_cst_2 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_cst_3 : Ref sig .tc := ⟨.hbm, 141, rfl⟩
abbrev main_call3_v12 : Ref sig .tc := ⟨.hbm, 142, rfl⟩
abbrev main_call3_cst_4 : Ref sig .tc := ⟨.hbm, 143, rfl⟩
abbrev main_call3_call0_v0 : Ref sig .tc := ⟨.hbm, 144, rfl⟩
abbrev main_call3_call0_v1 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_cst_11 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_c_12 : Ref sig .tc := ⟨.hbm, 171, rfl⟩
abbrev main_v90 : Ref sig .tc := ⟨.hbm, 172, rfl⟩
abbrev main_v91 : Ref sig .tc := ⟨.hbm, 173, rfl⟩
abbrev main_c_13 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_cst_14 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_call4_cst : Ref sig .tc := ⟨.hbm, 185, rfl⟩
abbrev main_call4_v0 : Ref sig .tc := ⟨.hbm, 186, rfl⟩
abbrev main_v101 : Ref sig .tc := ⟨.hbm, 187, rfl⟩
abbrev main_cst_15 : Ref sig .tc := ⟨.hbm, 188, rfl⟩
abbrev main_v102 : Ref sig .tc := ⟨.hbm, 189, rfl⟩
abbrev main_cst_16 : Ref sig .tc := ⟨.hbm, 190, rfl⟩
abbrev main_v103 : Ref sig .tc := ⟨.hbm, 191, rfl⟩
abbrev main_v104 : Ref sig .tc := ⟨.hbm, 192, rfl⟩
abbrev main_c_17 : Ref sig .tc := ⟨.hbm, 193, rfl⟩
abbrev main_call5_cst : Ref sig .tc := ⟨.hbm, 194, rfl⟩
abbrev main_call5_v0 : Ref sig .tc := ⟨.hbm, 195, rfl⟩
abbrev main_call5_v1 : Ref sig .tc := ⟨.hbm, 196, rfl⟩
abbrev main_call5_cst_0 : Ref sig .tc := ⟨.hbm, 197, rfl⟩
abbrev main_call5_v2 : Ref sig .tc := ⟨.hbm, 198, rfl⟩
abbrev main_call5_v3 : Ref sig .tc := ⟨.hbm, 199, rfl⟩
abbrev main_call5_v4 : Ref sig .tc := ⟨.hbm, 200, rfl⟩
abbrev main_call5_v5 : Ref sig .tc := ⟨.hbm, 201, rfl⟩
abbrev main_call5_v6 : Ref sig .tc := ⟨.hbm, 202, rfl⟩
abbrev main_call5_v7 : Ref sig .tc := ⟨.hbm, 203, rfl⟩
abbrev main_call5_cst_1 : Ref sig .tc := ⟨.hbm, 204, rfl⟩
abbrev main_call5_v8 : Ref sig .tc := ⟨.hbm, 205, rfl⟩
abbrev main_call5_cst_2 : Ref sig .tc := ⟨.hbm, 206, rfl⟩
abbrev main_call5_v9 : Ref sig .tc := ⟨.hbm, 207, rfl⟩
abbrev main_call5_v10 : Ref sig .tc := ⟨.hbm, 208, rfl⟩
abbrev main_call5_v11 : Ref sig .tc := ⟨.hbm, 209, rfl⟩
abbrev main_call5_cst_3 : Ref sig .tc := ⟨.hbm, 210, rfl⟩
abbrev main_call5_v12 : Ref sig .tc := ⟨.hbm, 211, rfl⟩
abbrev main_call5_cst_4 : Ref sig .tc := ⟨.hbm, 212, rfl⟩
abbrev main_call5_call0_v0 : Ref sig .tc := ⟨.hbm, 213, rfl⟩
abbrev main_call5_call0_v1 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_cst_18 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_cst_19 : Ref sig .tc := ⟨.hbm, 232, rfl⟩
abbrev main_v121 : Ref sig .tc := ⟨.hbm, 233, rfl⟩
abbrev main_cst_20 : Ref sig .tc := ⟨.hbm, 234, rfl⟩
abbrev main_v122 : Ref sig .tc := ⟨.hbm, 235, rfl⟩
abbrev main_v123 : Ref sig .tc := ⟨.hbm, 236, rfl⟩

abbrev nD : Nat := 1
abbrev τ : Topo := Topo.v7x

variable {F : FTy → Type} [FloatOps F]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S50000x19_S19x128_S50000x128_1_0_0_1_n_n_wf : DotDims.WF S50000x19 S19x128 S50000x128 [1] [0] [0] [1] [] []
  dot_S600000x6_S6x128_S600000x128_1_0_0_1_n_n_wf : DotDims.WF S600000x6 S6x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def dot_S50000x19_S19x128_S50000x128_1_0_0_1_n_n : DotDims S50000x19 S19x128 S50000x128 where
  lhsContracting := [1]
  rhsContracting := [0]
  lhsNonContracting := [0]
  rhsNonContracting := [1]
  lhsBatch := []
  rhsBatch := []
  wf := dot_S50000x19_S19x128_S50000x128_1_0_0_1_n_n_wf
def dot_S600000x6_S6x128_S600000x128_1_0_0_1_n_n : DotDims S600000x6 S6x128 S600000x128 where
  lhsContracting := [1]
  rhsContracting := [0]
  lhsNonContracting := [0]
  rhsNonContracting := [1]
  lhsBatch := []
  rhsBatch := []
  wf := dot_S600000x6_S6x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The run of the kernel program with its result named.

  The program is thirteen stretches of host operations around twelve pipelined regions.  Its run terminates from
  any memory with zero counters, and the final memory holds, at every unscoped buffer of a core, the contents the
  fold of the segments leaves there.  Read at the result buffer this names the program's result as the fold's
  last valuation at that buffer; read at the twenty-one argument buffers it gives the frame: they end as launched.
-/
import proofs.«152577_j46067819217044_1_alg».proof.Proof.Gen.KernelIdeal.Frame
import Idealize.ShloMosaic.PureOps.Ideal

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program on the TensorCores, from any memory with zero counters, terminates,
    nothing faulting; every final state holds at the result buffer what the fold of the twenty-five segments leaves
    there, and the argument arrays as launched. -/
theorem run_value : θ_run defs (onTc (τ := τ) (main (F := Ideal))) ⟨m, fun _ => 0, ρ⟩ (fun r => ∀ c : Dev nD,
      r.2.mem ((c.tc : Thread nD τ).loc main_v93) = W25 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v93 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c),
       (h c _ (mem_uc main_arg15 (by decide))).trans (W25_main_arg15 m ρ c),
       (h c _ (mem_uc main_arg16 (by decide))).trans (W25_main_arg16 m ρ c),
       (h c _ (mem_uc main_arg17 (by decide))).trans (W25_main_arg17 m ρ c),
       (h c _ (mem_uc main_arg18 (by decide))).trans (W25_main_arg18 m ρ c),
       (h c _ (mem_uc main_arg19 (by decide))).trans (W25_main_arg19 m ρ c),
       (h c _ (mem_uc main_arg20 (by decide))).trans (W25_main_arg20 m ρ c)⟩)

end Cert.KernelIdeal.KVal

end
-- ==== Proof.KWalk.lean ====
/-
  Buffers that a segment of the program leaves alone.

  The program's run is a fold over twenty-five segments: thirteen stretches of host operations and twelve
  pipelined regions.  A stretch of host operations changes only the buffers its operations write; a region changes
  only its output arrays (an input array is read, never written, and every buffer outside its windows is
  untouched).  So a buffer that no segment between two boundaries writes holds the same contents at both.
-/
import proofs.«152577_j46067819217044_1_alg».proof.Proof.Gen.KernelIdeal.Frame
import Idealize.ShloMosaic.PureOps.Ideal

set_option maxRecDepth 16384

noncomputable section

namespace Cert.KernelIdeal.KVal

open Idealize.ShloMosaic Idealize.ShloMosaic.TcCoe
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## One segment -/

/-- A buffer that none of the operations of host stretch 0 writes is unchanged across it. -/
theorem keepH0 (b : Ref sig .tc) (hb : b ∉ ([main_v0, main_v1, main_v2, main_v3, main_v4] : List (Ref sig .tc))) :
    W1 m ρ c (Proc.devRef .tc b) = W0 m ρ c (Proc.devRef .tc b) := by
  have hne := List.forall_mem_ne.mpr hb
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 0 is unchanged across it: an input array is handed back as
    entered, a buffer outside the windows is not touched. -/
theorem keepR0 (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hio : (cfg0.win w).isOut with
      | false => rfl
      | true => exact absurd rfl (hb w hio)
    exact (W2_arr m ρ c w).trans (((dat0 (V1 m ρ) c).arrAt_in w hin _).trans (A_eq0 (V1 m ρ) c w))
  · exact W2_of_ne m ρ c b (fun w e => h ⟨w, e⟩)
/-- A buffer that none of the operations of host stretch 1 writes is unchanged across it. -/
theorem keepH1 (b : Ref sig .tc) (hb : b ∉ ([main_v6] : List (Ref sig .tc))) :
    W3 m ρ c (Proc.devRef .tc b) = W2 m ρ c (Proc.devRef .tc b) := by
  have hne := List.forall_mem_ne.mpr hb
  exact StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 1 is unchanged across it: an input array is handed back as
    entered, a buffer outside the windows is not touched. -/
theorem keepR1 (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hio : (cfg1.win w).isOut with
      | false => rfl
      | true => exact absurd rfl (hb w hio)
    exact (W4_arr m ρ c w).trans (((dat1 (V3 m ρ) c).arrAt_in w hin _).trans (A_eq1 (V3 m ρ) c w))
  · exact W4_of_ne m ρ c b (fun w e => h ⟨w, e⟩)
/-- A buffer that none of the operations of host stretch 2 writes is unchanged across it. -/
theorem keepH2 (b : Ref sig .tc) (hb : b ∉ ([main_c, main_v8, main_v9, main_c_0, main_v10, main_v11, main_v12, main_v13, main_v14, main_v15, main_cst, main_v16, main_v17, main_v18] : List (Ref sig .tc))) :
    W5 m ρ c (Proc.devRef .tc b) = W4 m ρ c (Proc.devRef .tc b) := by
  have hne := List.forall_mem_ne.mpr hb
  exact StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 2 is unchanged across it: an input array is handed back as
    entered, a buffer outside the windows is not touched. -/
theorem keepR2 (b : Ref sig .tc) (hb : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hio : (cfg2.win w).isOut with
      | false => rfl
      | true => exact absurd rfl (hb w hio)
    exact (W6_arr m ρ c w).trans (((dat2 (V5 m ρ) c).arrAt_in w hin _).trans (A_eq2 (V5 m ρ) c w))
  · exact W6_of_ne m ρ c b (fun w e => h ⟨w, e⟩)
/-- A buffer that none of the operations of host stretch 3 writes is unchanged across it. -/
theorem keepH3 (b : Ref sig .tc) (hb : b ∉ ([main_v20, main_cst_1, main_v21, main_v22, main_v23, main_cst_2, main_v24, main_v25, main_v26, main_v27, main_v28, main_v29, main_v30, main_v31] : List (Ref sig .tc))) :
    W7 m ρ c (Proc.devRef .tc b) = W6 m ρ c (Proc.devRef .tc b) := by
  have hne := List.forall_mem_ne.mpr hb
  exact StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 3 is unchanged across it: an input array is handed back as
    entered, a buffer outside the windows is not touched. -/
theorem keepR3 (b : Ref sig .tc) (hb : ∀ w, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hio : (cfg3.win w).isOut with
      | false => rfl
      | true => exact absurd rfl (hb w hio)
    exact (W8_arr m ρ c w).trans (((dat3 (V7 m ρ) c).arrAt_in w hin _).trans (A_eq3 (V7 m ρ) c w))
  · exact W8_of_ne m ρ c b (fun w e => h ⟨w, e⟩)
/-- A buffer that none of the operations of host stretch 4 writes is unchanged across it. -/
theorem keepH4 (b : Ref sig .tc) (hb : b ∉ ([main_v33] : List (Ref sig .tc))) :
    W9 m ρ c (Proc.devRef .tc b) = W8 m ρ c (Proc.devRef .tc b) := by
  have hne := List.forall_mem_ne.mpr hb
  exact StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 4 is unchanged across it: an input array is handed back as
    entered, a buffer outside the windows is not touched. -/
theorem keepR4 (b : Ref sig .tc) (hb : ∀ w, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases hio : (cfg4.win w).isOut with
      | false => rfl
      | true => exact absurd rfl (hb w hio)
    exact (W10_arr m ρ c w).trans (((dat4 (V9 m ρ) c).arrAt_in w hin _).trans (A_eq4 (V9 m ρ) c w))
  · exact W10_of_ne m ρ c b (fun w e => h ⟨w, e⟩)
/-- A buffer that none of the operations of host stretch 5 writes is unchanged across it. -/
theorem keepH5 (b : Ref sig .tc) (hb : b ∉ ([main_v35] : List (Ref sig .tc))) :
    W11 m ρ c (Proc.devRef .tc b) = W10 m ρ c (Proc.devRef .tc b) := by
  have hne := List.forall_mem_ne.mpr hb
  exact StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 5 is unchanged across it: an input array is handed back as
    entered, a buffer outside the windows is not touched. -/
theorem keepR5 (b : Ref sig .tc) (hb : ∀ w, (cfg5.win w).isOut = true → Pipeline.arrRef spec5 w ≠ b) :
    W12 m ρ c (Proc.devRef .tc b) = W11 m ρ c (Proc.devRef .tc b) := by
  by_cases h : ∃ w, Pipeline.arrRef spec5 w = b
  · obtain ⟨w, rfl⟩ := h
    have hin : (cfg5.win w).isOut = false := by
      cases hio : (cfg5.win w).isOut with
      | false => rfl
      | true => exact absurd rfl (hb w hio)
    exact (W12_arr m ρ c w).trans (((dat5 (V11 m ρ) c).arrAt_in w hin _).trans (A_eq5 (V11 m ρ) c w))
  · exact W12_of_ne m ρ c b (fun w e => h ⟨w, e⟩)
/-- A buffer that none of the operations of host stretch 6 writes is unchanged across it. -/
theorem keepH6 (b : Ref sig .tc) (hb : b ∉ ([main_c_3, main_v37, main_v38, main_c_4, main_v39, main_v40, main_v41, main_v42, main_v43, main_v44, main_cst_5, main_v45, main_v46, main_v47] : List (Ref sig .tc))) :
    W13 m ρ c (Proc.devRef .tc b) = W12 m ρ c (Proc.devRef .tc b) := by
  have hne := List.forall_mem_ne.mpr hb
  exact StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 6 is unchanged across it: an input array is handed back as
    entered, a buffer outside the windows is not touched. -/
theorem keepR6 (b : Ref sig .tc) (hb : ∀ w, (cfg6.win w).isOut = true → Pipeline.arrRef spec6 w ≠ b) :
    W14 m ρ c (Proc.devRef .tc b) = W13 m ρ c (Proc.devRef .tc b) := by
  by_cases h : ∃ w, Pipeline.arrRef spec6 w = b
  · obtain ⟨w, rfl⟩ := h
    have hin : (cfg6.win w).isOut = false := by
      cases hio : (cfg6.win w).isOut with
      | false => rfl
      | true => exact absurd rfl (hb w hio)
    exact (W14_arr m ρ c w).trans (((dat6 (V13 m ρ) c).arrAt_in w hin _).trans (A_eq6 (V13 m ρ) c w))
  · exact W14_of_ne m ρ c b (fun w e => h ⟨w, e⟩)
/-- A buffer that none of the operations of host stretch 7 writes is unchanged across it. -/
theorem keepH7 (b : Ref sig .tc) (hb : b ∉ ([main_v49, main_cst_6, main_v50, main_v51, main_v52, main_cst_7, main_v53, main_v54, main_v55, main_v56, main_v57, main_v58, main_v59, main_v60] : List (Ref sig .tc))) :
    W15 m ρ c (Proc.devRef .tc b) = W14 m ρ c (Proc.devRef .tc b) := by
  have hne := List.forall_mem_ne.mpr hb
  exact StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 7 is unchanged across it: an input array is handed back as
    entered, a buffer outside the windows is not touched. -/
theorem keepR7 (b : Ref sig .tc) (hb : ∀ w, (cfg7.win w).isOut = true → Pipeline.arrRef spec7 w ≠ b) :
    W16 m ρ c (Proc.devRef .tc b) = W15 m ρ c (Proc.devRef .tc b) := by
  by_cases h : ∃ w, Pipeline.arrRef spec7 w = b
  · obtain ⟨w, rfl⟩ := h
    have hin : (cfg7.win w).isOut = false := by
      cases hio : (cfg7.win w).isOut with
      | false => rfl
      | true => exact absurd rfl (hb w hio)
    exact (W16_arr m ρ c w).trans (((dat7 (V15 m ρ) c).arrAt_in w hin _).trans (A_eq7 (V15 m ρ) c w))
  · exact W16_of_ne m ρ c b (fun w e => h ⟨w, e⟩)
/-- A buffer that none of the operations of host stretch 8 writes is unchanged across it. -/
theorem keepH8 (b : Ref sig .tc) (hb : b ∉ ([main_v62] : List (Ref sig .tc))) :
    W17 m ρ c (Proc.devRef .tc b) = W16 m ρ c (Proc.devRef .tc b) := by
  have hne := List.forall_mem_ne.mpr hb
  exact StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 8 is unchanged across it: an input array is handed back as
    entered, a buffer outside the windows is not touched. -/
theorem keepR8 (b : Ref sig .tc) (hb : ∀ w, (cfg8.win w).isOut = true → Pipeline.arrRef spec8 w ≠ b) :
    W18 m ρ c (Proc.devRef .tc b) = W17 m ρ c (Proc.devRef .tc b) := by
  by_cases h : ∃ w, Pipeline.arrRef spec8 w = b
  · obtain ⟨w, rfl⟩ := h
    have hin : (cfg8.win w).isOut = false := by
      cases hio : (cfg8.win w).isOut with
      | false => rfl
      | true => exact absurd rfl (hb w hio)
    exact (W18_arr m ρ c w).trans (((dat8 (V17 m ρ) c).arrAt_in w hin _).trans (A_eq8 (V17 m ρ) c w))
  · exact W18_of_ne m ρ c b (fun w e => h ⟨w, e⟩)
/-- A buffer that none of the operations of host stretch 9 writes is unchanged across it. -/
theorem keepH9 (b : Ref sig .tc) (hb : b ∉ ([main_v64] : List (Ref sig .tc))) :
    W19 m ρ c (Proc.devRef .tc b) = W18 m ρ c (Proc.devRef .tc b) := by
  have hne := List.forall_mem_ne.mpr hb
  exact StableHlo.after_of_forall_not_mem (b := Proc.devRef .tc b) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 9 is unchanged across it: an input array is handed back as
    entered, a buffer outside the windows is not touched. -/
theorem keepR9 (b : Ref sig .tc) (hb : ∀ w, (cfg9.win w).isOut = true → Pipeline.arrRef spec9 w ≠ b) :
    W20 m ρ c (Proc.devRef .tc b) = W19 m ρ c (Proc.devRef .tc b) := by
  by_cases h : ∃ w, Pipeline.arrRef spec9 w = b
  · obtain ⟨w, rfl⟩ := h
    have hin : (cfg9.win w).isOut = false := by
      cases hio : (cfg9.win w).isOut with
      | false => rfl
      | true => exact absurd rfl (hb w hio)
    exact (W20_arr m ρ c w).trans (((dat9 (V19 m ρ) c).arrAt_in w hin _).trans (A_eq9 (V19 m ρ) c w))
  · exact W20_of_ne m ρ c b (fun w e => h ⟨w, e⟩)
/-- A buffer that none of the operations of host stretch 10 writes is unchanged across it. -/
theorem keepH10 (b : Ref sig .tc) (hb : b ∉ ([main_c_8, main_v66, main_v67, main_c_9, main_v68, main_v69, main_v70, main_v71, main_v72, main_v73, main_cst_10, main_v74, main_v75, main_v76] : List (Ref sig .tc))) :
    W21 m ρ c (Proc.devRef .tc b) = W20 m ρ c (Proc.devRef .tc b) := by
  have hne := List.forall_mem_ne.mpr hb
  exact StableHlo.after_of_forall_not_mem (b := Proc.devRef .tc b) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 10 is unchanged across it: an input array is handed back as
    entered, a buffer outside the windows is not touched. -/
theorem keepR10 (b : Ref sig .tc) (hb : ∀ w, (cfg10.win w).isOut = true → Pipeline.arrRef spec10 w ≠ b) :
    W22 m ρ c (Proc.devRef .tc b) = W21 m ρ c (Proc.devRef .tc b) := by
  by_cases h : ∃ w, Pipeline.arrRef spec10 w = b
  · obtain ⟨w, rfl⟩ := h
    have hin : (cfg10.win w).isOut = false := by
      cases hio : (cfg10.win w).isOut with
      | false => rfl
      | true => exact absurd rfl (hb w hio)
    exact (W22_arr m ρ c w).trans (((dat10 (V21 m ρ) c).arrAt_in w hin _).trans (A_eq10 (V21 m ρ) c w))
  · exact W22_of_ne m ρ c b (fun w e => h ⟨w, e⟩)
/-- A buffer that none of the operations of host stretch 11 writes is unchanged across it. -/
theorem keepH11 (b : Ref sig .tc) (hb : b ∉ ([main_v78, main_cst_11, main_v79, main_v80, main_v81, main_cst_12, main_v82, main_v83, main_v84, main_v85, main_v86, main_v87, main_v88, main_v89] : List (Ref sig .tc))) :
    W23 m ρ c (Proc.devRef .tc b) = W22 m ρ c (Proc.devRef .tc b) := by
  have hne := List.forall_mem_ne.mpr hb
  exact StableHlo.after_of_forall_not_mem (b := Proc.devRef .tc b) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))
/-- A buffer that is not an output array of region 11 is unchanged across it: an input array is handed back as
    entered, a buffer outside the windows is not touched. -/
theorem keepR11 (b : Ref sig .tc) (hb : ∀ w, (cfg11.win w).isOut = true → Pipeline.arrRef spec11 w ≠ b) :
    W24 m ρ c (Proc.devRef .tc b) = W23 m ρ c (Proc.devRef .tc b) := by
  by_cases h : ∃ w, Pipeline.arrRef spec11 w = b
  · obtain ⟨w, rfl⟩ := h
    have hin : (cfg11.win w).isOut = false := by
      cases hio : (cfg11.win w).isOut with
      | false => rfl
      | true => exact absurd rfl (hb w hio)
    exact (W24_arr m ρ c w).trans (((dat11 (V23 m ρ) c).arrAt_in w hin _).trans (A_eq11 (V23 m ρ) c w))
  · exact W24_of_ne m ρ c b (fun w e => h ⟨w, e⟩)
/-- A buffer that none of the operations of host stretch 12 writes is unchanged across it. -/
theorem keepH12 (b : Ref sig .tc) (hb : b ∉ ([main_cst_13, main_v91, main_cst_14, main_v92, main_v93] : List (Ref sig .tc))) :
    W25 m ρ c (Proc.devRef .tc b) = W24 m ρ c (Proc.devRef .tc b) := by
  have hne := List.forall_mem_ne.mpr hb
  exact StableHlo.after_of_forall_not_mem (b := Proc.devRef .tc b) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hne _ (by decide))))

/-! ## From one boundary to a later one -/

theorem at4_v1 : W4 m ρ c (Proc.devRef .tc main_v1) = W1 m ρ c (Proc.devRef .tc main_v1) :=
  (keepR1 m ρ c main_v1 (by decide)).trans
    ((keepH1 m ρ c main_v1 (by decide)).trans
    ((keepR0 m ρ c main_v1 (by decide))))
theorem at12_v1 : W12 m ρ c (Proc.devRef .tc main_v1) = W1 m ρ c (Proc.devRef .tc main_v1) :=
  (keepR5 m ρ c main_v1 (by decide)).trans
    ((keepH5 m ρ c main_v1 (by decide)).trans
    ((keepR4 m ρ c main_v1 (by decide)).trans
    ((keepH4 m ρ c main_v1 (by decide)).trans
    ((keepR3 m ρ c main_v1 (by decide)).trans
    ((keepH3 m ρ c main_v1 (by decide)).trans
    ((keepR2 m ρ c main_v1 (by decide)).trans
    ((keepH2 m ρ c main_v1 (by decide)).trans
    ((keepR1 m ρ c main_v1 (by decide)).trans
    ((keepH1 m ρ c main_v1 (by decide)).trans
    ((keepR0 m ρ c main_v1 (by decide))))))))))))
theorem at20_v1 : W20 m ρ c (Proc.devRef .tc main_v1) = W1 m ρ c (Proc.devRef .tc main_v1) :=
  (keepR9 m ρ c main_v1 (by decide)).trans
    ((keepH9 m ρ c main_v1 (by decide)).trans
    ((keepR8 m ρ c main_v1 (by decide)).trans
    ((keepH8 m ρ c main_v1 (by decide)).trans
    ((keepR7 m ρ c main_v1 (by decide)).trans
    ((keepH7 m ρ c main_v1 (by decide)).trans
    ((keepR6 m ρ c main_v1 (by decide)).trans
    ((keepH6 m ρ c main_v1 (by decide)).trans
    ((keepR5 m ρ c main_v1 (by decide)).trans
    ((keepH5 m ρ c main_v1 (by decide)).trans
    ((keepR4 m ρ c main_v1 (by decide)).trans
    ((keepH4 m ρ c main_v1 (by decide)).trans
    ((keepR3 m ρ c main_v1 (by decide)).trans
    ((keepH3 m ρ c main_v1 (by decide)).trans
    ((keepR2 m ρ c main_v1 (by decide)).trans
    ((keepH2 m ρ c main_v1 (by decide)).trans
    ((keepR1 m ρ c main_v1 (by decide)).trans
    ((keepH1 m ρ c main_v1 (by decide)).trans
    ((keepR0 m ρ c main_v1 (by decide))))))))))))))))))))
theorem at4_v3 : W4 m ρ c (Proc.devRef .tc main_v3) = W1 m ρ c (Proc.devRef .tc main_v3) :=
  (keepR1 m ρ c main_v3 (by decide)).trans
    ((keepH1 m ρ c main_v3 (by decide)).trans
    ((keepR0 m ρ c main_v3 (by decide))))
theorem at12_v3 : W12 m ρ c (Proc.devRef .tc main_v3) = W1 m ρ c (Proc.devRef .tc main_v3) :=
  (keepR5 m ρ c main_v3 (by decide)).trans
    ((keepH5 m ρ c main_v3 (by decide)).trans
    ((keepR4 m ρ c main_v3 (by decide)).trans
    ((keepH4 m ρ c main_v3 (by decide)).trans
    ((keepR3 m ρ c main_v3 (by decide)).trans
    ((keepH3 m ρ c main_v3 (by decide)).trans
    ((keepR2 m ρ c main_v3 (by decide)).trans
    ((keepH2 m ρ c main_v3 (by decide)).trans
    ((keepR1 m ρ c main_v3 (by decide)).trans
    ((keepH1 m ρ c main_v3 (by decide)).trans
    ((keepR0 m ρ c main_v3 (by decide))))))))))))
theorem at20_v3 : W20 m ρ c (Proc.devRef .tc main_v3) = W1 m ρ c (Proc.devRef .tc main_v3) :=
  (keepR9 m ρ c main_v3 (by decide)).trans
    ((keepH9 m ρ c main_v3 (by decide)).trans
    ((keepR8 m ρ c main_v3 (by decide)).trans
    ((keepH8 m ρ c main_v3 (by decide)).trans
    ((keepR7 m ρ c main_v3 (by decide)).trans
    ((keepH7 m ρ c main_v3 (by decide)).trans
    ((keepR6 m ρ c main_v3 (by decide)).trans
    ((keepH6 m ρ c main_v3 (by decide)).trans
    ((keepR5 m ρ c main_v3 (by decide)).trans
    ((keepH5 m ρ c main_v3 (by decide)).trans
    ((keepR4 m ρ c main_v3 (by decide)).trans
    ((keepH4 m ρ c main_v3 (by decide)).trans
    ((keepR3 m ρ c main_v3 (by decide)).trans
    ((keepH3 m ρ c main_v3 (by decide)).trans
    ((keepR2 m ρ c main_v3 (by decide)).trans
    ((keepH2 m ρ c main_v3 (by decide)).trans
    ((keepR1 m ρ c main_v3 (by decide)).trans
    ((keepH1 m ρ c main_v3 (by decide)).trans
    ((keepR0 m ρ c main_v3 (by decide))))))))))))))))))))
theorem at1_arg0 : W1 m ρ c (Proc.devRef .tc main_arg0) = m ((c : Thread nD τ).loc main_arg0) :=
  (keepH0 m ρ c main_arg0 (by decide))
theorem at1_arg3 : W1 m ρ c (Proc.devRef .tc main_arg3) = m ((c : Thread nD τ).loc main_arg3) :=
  (keepH0 m ρ c main_arg3 (by decide))
theorem at3_arg2 : W3 m ρ c (Proc.devRef .tc main_arg2) = m ((c : Thread nD τ).loc main_arg2) :=
  (keepH1 m ρ c main_arg2 (by decide)).trans
    ((keepR0 m ρ c main_arg2 (by decide)).trans
    ((keepH0 m ρ c main_arg2 (by decide))))
theorem at11_arg2 : W11 m ρ c (Proc.devRef .tc main_arg2) = m ((c : Thread nD τ).loc main_arg2) :=
  (keepH5 m ρ c main_arg2 (by decide)).trans
    ((keepR4 m ρ c main_arg2 (by decide)).trans
    ((keepH4 m ρ c main_arg2 (by decide)).trans
    ((keepR3 m ρ c main_arg2 (by decide)).trans
    ((keepH3 m ρ c main_arg2 (by decide)).trans
    ((keepR2 m ρ c main_arg2 (by decide)).trans
    ((keepH2 m ρ c main_arg2 (by decide)).trans
    ((keepR1 m ρ c main_arg2 (by decide)).trans
    ((keepH1 m ρ c main_arg2 (by decide)).trans
    ((keepR0 m ρ c main_arg2 (by decide)).trans
    ((keepH0 m ρ c main_arg2 (by decide))))))))))))
theorem at19_arg2 : W19 m ρ c (Proc.devRef .tc main_arg2) = m ((c : Thread nD τ).loc main_arg2) :=
  (keepH9 m ρ c main_arg2 (by decide)).trans
    ((keepR8 m ρ c main_arg2 (by decide)).trans
    ((keepH8 m ρ c main_arg2 (by decide)).trans
    ((keepR7 m ρ c main_arg2 (by decide)).trans
    ((keepH7 m ρ c main_arg2 (by decide)).trans
    ((keepR6 m ρ c main_arg2 (by decide)).trans
    ((keepH6 m ρ c main_arg2 (by decide)).trans
    ((keepR5 m ρ c main_arg2 (by decide)).trans
    ((keepH5 m ρ c main_arg2 (by decide)).trans
    ((keepR4 m ρ c main_arg2 (by decide)).trans
    ((keepH4 m ρ c main_arg2 (by decide)).trans
    ((keepR3 m ρ c main_arg2 (by decide)).trans
    ((keepH3 m ρ c main_arg2 (by decide)).trans
    ((keepR2 m ρ c main_arg2 (by decide)).trans
    ((keepH2 m ρ c main_arg2 (by decide)).trans
    ((keepR1 m ρ c main_arg2 (by decide)).trans
    ((keepH1 m ρ c main_arg2 (by decide)).trans
    ((keepR0 m ρ c main_arg2 (by decide)).trans
    ((keepH0 m ρ c main_arg2 (by decide))))))))))))))))))))
theorem at3_arg5 : W3 m ρ c (Proc.devRef .tc main_arg5) = m ((c : Thread nD τ).loc main_arg5) :=
  (keepH1 m ρ c main_arg5 (by decide)).trans
    ((keepR0 m ρ c main_arg5 (by decide)).trans
    ((keepH0 m ρ c main_arg5 (by decide))))
theorem at2_arg6 : W2 m ρ c (Proc.devRef .tc main_arg6) = m ((c : Thread nD τ).loc main_arg6) :=
  (keepR0 m ρ c main_arg6 (by decide)).trans
    ((keepH0 m ρ c main_arg6 (by decide)))
theorem at4_v5 : W4 m ρ c (Proc.devRef .tc main_v5) = W2 m ρ c (Proc.devRef .tc main_v5) :=
  (keepR1 m ρ c main_v5 (by decide)).trans
    ((keepH1 m ρ c main_v5 (by decide)))
theorem at6_arg7 : W6 m ρ c (Proc.devRef .tc main_arg7) = m ((c : Thread nD τ).loc main_arg7) :=
  (keepR2 m ρ c main_arg7 (by decide)).trans
    ((keepH2 m ρ c main_arg7 (by decide)).trans
    ((keepR1 m ρ c main_arg7 (by decide)).trans
    ((keepH1 m ρ c main_arg7 (by decide)).trans
    ((keepR0 m ρ c main_arg7 (by decide)).trans
    ((keepH0 m ρ c main_arg7 (by decide)))))))
theorem at6_arg8 : W6 m ρ c (Proc.devRef .tc main_arg8) = m ((c : Thread nD τ).loc main_arg8) :=
  (keepR2 m ρ c main_arg8 (by decide)).trans
    ((keepH2 m ρ c main_arg8 (by decide)).trans
    ((keepR1 m ρ c main_arg8 (by decide)).trans
    ((keepH1 m ρ c main_arg8 (by decide)).trans
    ((keepR0 m ρ c main_arg8 (by decide)).trans
    ((keepH0 m ρ c main_arg8 (by decide)))))))
theorem at7_v19_0 : W7 m ρ c (Proc.devRef .tc main_v19_0) = W6 m ρ c (Proc.devRef .tc main_v19_0) :=
  (keepH3 m ρ c main_v19_0 (by decide))
theorem at9_v32 : W9 m ρ c (Proc.devRef .tc main_v32) = W8 m ρ c (Proc.devRef .tc main_v32) :=
  (keepH4 m ρ c main_v32 (by decide))
theorem at9_arg9 : W9 m ρ c (Proc.devRef .tc main_arg9) = m ((c : Thread nD τ).loc main_arg9) :=
  (keepH4 m ρ c main_arg9 (by decide)).trans
    ((keepR3 m ρ c main_arg9 (by decide)).trans
    ((keepH3 m ρ c main_arg9 (by decide)).trans
    ((keepR2 m ρ c main_arg9 (by decide)).trans
    ((keepH2 m ρ c main_arg9 (by decide)).trans
    ((keepR1 m ρ c main_arg9 (by decide)).trans
    ((keepH1 m ρ c main_arg9 (by decide)).trans
    ((keepR0 m ρ c main_arg9 (by decide)).trans
    ((keepH0 m ρ c main_arg9 (by decide))))))))))
theorem at8_arg10 : W8 m ρ c (Proc.devRef .tc main_arg10) = m ((c : Thread nD τ).loc main_arg10) :=
  (keepR3 m ρ c main_arg10 (by decide)).trans
    ((keepH3 m ρ c main_arg10 (by decide)).trans
    ((keepR2 m ρ c main_arg10 (by decide)).trans
    ((keepH2 m ρ c main_arg10 (by decide)).trans
    ((keepR1 m ρ c main_arg10 (by decide)).trans
    ((keepH1 m ρ c main_arg10 (by decide)).trans
    ((keepR0 m ρ c main_arg10 (by decide)).trans
    ((keepH0 m ρ c main_arg10 (by decide)))))))))
theorem at11_arg11 : W11 m ρ c (Proc.devRef .tc main_arg11) = m ((c : Thread nD τ).loc main_arg11) :=
  (keepH5 m ρ c main_arg11 (by decide)).trans
    ((keepR4 m ρ c main_arg11 (by decide)).trans
    ((keepH4 m ρ c main_arg11 (by decide)).trans
    ((keepR3 m ρ c main_arg11 (by decide)).trans
    ((keepH3 m ρ c main_arg11 (by decide)).trans
    ((keepR2 m ρ c main_arg11 (by decide)).trans
    ((keepH2 m ρ c main_arg11 (by decide)).trans
    ((keepR1 m ρ c main_arg11 (by decide)).trans
    ((keepH1 m ρ c main_arg11 (by decide)).trans
    ((keepR0 m ρ c main_arg11 (by decide)).trans
    ((keepH0 m ρ c main_arg11 (by decide))))))))))))
theorem at10_arg12 : W10 m ρ c (Proc.devRef .tc main_arg12) = m ((c : Thread nD τ).loc main_arg12) :=
  (keepR4 m ρ c main_arg12 (by decide)).trans
    ((keepH4 m ρ c main_arg12 (by decide)).trans
    ((keepR3 m ρ c main_arg12 (by decide)).trans
    ((keepH3 m ρ c main_arg12 (by decide)).trans
    ((keepR2 m ρ c main_arg12 (by decide)).trans
    ((keepH2 m ρ c main_arg12 (by decide)).trans
    ((keepR1 m ρ c main_arg12 (by decide)).trans
    ((keepH1 m ρ c main_arg12 (by decide)).trans
    ((keepR0 m ρ c main_arg12 (by decide)).trans
    ((keepH0 m ρ c main_arg12 (by decide)))))))))))
theorem at12_v34 : W12 m ρ c (Proc.devRef .tc main_v34) = W10 m ρ c (Proc.devRef .tc main_v34) :=
  (keepR5 m ρ c main_v34 (by decide)).trans
    ((keepH5 m ρ c main_v34 (by decide)))
theorem at14_arg13 : W14 m ρ c (Proc.devRef .tc main_arg13) = m ((c : Thread nD τ).loc main_arg13) :=
  (keepR6 m ρ c main_arg13 (by decide)).trans
    ((keepH6 m ρ c main_arg13 (by decide)).trans
    ((keepR5 m ρ c main_arg13 (by decide)).trans
    ((keepH5 m ρ c main_arg13 (by decide)).trans
    ((keepR4 m ρ c main_arg13 (by decide)).trans
    ((keepH4 m ρ c main_arg13 (by decide)).trans
    ((keepR3 m ρ c main_arg13 (by decide)).trans
    ((keepH3 m ρ c main_arg13 (by decide)).trans
    ((keepR2 m ρ c main_arg13 (by decide)).trans
    ((keepH2 m ρ c main_arg13 (by decide)).trans
    ((keepR1 m ρ c main_arg13 (by decide)).trans
    ((keepH1 m ρ c main_arg13 (by decide)).trans
    ((keepR0 m ρ c main_arg13 (by decide)).trans
    ((keepH0 m ρ c main_arg13 (by decide)))))))))))))))
theorem at14_arg14 : W14 m ρ c (Proc.devRef .tc main_arg14) = m ((c : Thread nD τ).loc main_arg14) :=
  (keepR6 m ρ c main_arg14 (by decide)).trans
    ((keepH6 m ρ c main_arg14 (by decide)).trans
    ((keepR5 m ρ c main_arg14 (by decide)).trans
    ((keepH5 m ρ c main_arg14 (by decide)).trans
    ((keepR4 m ρ c main_arg14 (by decide)).trans
    ((keepH4 m ρ c main_arg14 (by decide)).trans
    ((keepR3 m ρ c main_arg14 (by decide)).trans
    ((keepH3 m ρ c main_arg14 (by decide)).trans
    ((keepR2 m ρ c main_arg14 (by decide)).trans
    ((keepH2 m ρ c main_arg14 (by decide)).trans
    ((keepR1 m ρ c main_arg14 (by decide)).trans
    ((keepH1 m ρ c main_arg14 (by decide)).trans
    ((keepR0 m ρ c main_arg14 (by decide)).trans
    ((keepH0 m ρ c main_arg14 (by decide)))))))))))))))
theorem at15_v48_0 : W15 m ρ c (Proc.devRef .tc main_v48_0) = W14 m ρ c (Proc.devRef .tc main_v48_0) :=
  (keepH7 m ρ c main_v48_0 (by decide))
theorem at17_v61 : W17 m ρ c (Proc.devRef .tc main_v61) = W16 m ρ c (Proc.devRef .tc main_v61) :=
  (keepH8 m ρ c main_v61 (by decide))
theorem at17_arg15 : W17 m ρ c (Proc.devRef .tc main_arg15) = m ((c : Thread nD τ).loc main_arg15) :=
  (keepH8 m ρ c main_arg15 (by decide)).trans
    ((keepR7 m ρ c main_arg15 (by decide)).trans
    ((keepH7 m ρ c main_arg15 (by decide)).trans
    ((keepR6 m ρ c main_arg15 (by decide)).trans
    ((keepH6 m ρ c main_arg15 (by decide)).trans
    ((keepR5 m ρ c main_arg15 (by decide)).trans
    ((keepH5 m ρ c main_arg15 (by decide)).trans
    ((keepR4 m ρ c main_arg15 (by decide)).trans
    ((keepH4 m ρ c main_arg15 (by decide)).trans
    ((keepR3 m ρ c main_arg15 (by decide)).trans
    ((keepH3 m ρ c main_arg15 (by decide)).trans
    ((keepR2 m ρ c main_arg15 (by decide)).trans
    ((keepH2 m ρ c main_arg15 (by decide)).trans
    ((keepR1 m ρ c main_arg15 (by decide)).trans
    ((keepH1 m ρ c main_arg15 (by decide)).trans
    ((keepR0 m ρ c main_arg15 (by decide)).trans
    ((keepH0 m ρ c main_arg15 (by decide))))))))))))))))))
theorem at16_arg16 : W16 m ρ c (Proc.devRef .tc main_arg16) = m ((c : Thread nD τ).loc main_arg16) :=
  (keepR7 m ρ c main_arg16 (by decide)).trans
    ((keepH7 m ρ c main_arg16 (by decide)).trans
    ((keepR6 m ρ c main_arg16 (by decide)).trans
    ((keepH6 m ρ c main_arg16 (by decide)).trans
    ((keepR5 m ρ c main_arg16 (by decide)).trans
    ((keepH5 m ρ c main_arg16 (by decide)).trans
    ((keepR4 m ρ c main_arg16 (by decide)).trans
    ((keepH4 m ρ c main_arg16 (by decide)).trans
    ((keepR3 m ρ c main_arg16 (by decide)).trans
    ((keepH3 m ρ c main_arg16 (by decide)).trans
    ((keepR2 m ρ c main_arg16 (by decide)).trans
    ((keepH2 m ρ c main_arg16 (by decide)).trans
    ((keepR1 m ρ c main_arg16 (by decide)).trans
    ((keepH1 m ρ c main_arg16 (by decide)).trans
    ((keepR0 m ρ c main_arg16 (by decide)).trans
    ((keepH0 m ρ c main_arg16 (by decide)))))))))))))))))
theorem at19_arg17 : W19 m ρ c (Proc.devRef .tc main_arg17) = m ((c : Thread nD τ).loc main_arg17) :=
  (keepH9 m ρ c main_arg17 (by decide)).trans
    ((keepR8 m ρ c main_arg17 (by decide)).trans
    ((keepH8 m ρ c main_arg17 (by decide)).trans
    ((keepR7 m ρ c main_arg17 (by decide)).trans
    ((keepH7 m ρ c main_arg17 (by decide)).trans
    ((keepR6 m ρ c main_arg17 (by decide)).trans
    ((keepH6 m ρ c main_arg17 (by decide)).trans
    ((keepR5 m ρ c main_arg17 (by decide)).trans
    ((keepH5 m ρ c main_arg17 (by decide)).trans
    ((keepR4 m ρ c main_arg17 (by decide)).trans
    ((keepH4 m ρ c main_arg17 (by decide)).trans
    ((keepR3 m ρ c main_arg17 (by decide)).trans
    ((keepH3 m ρ c main_arg17 (by decide)).trans
    ((keepR2 m ρ c main_arg17 (by decide)).trans
    ((keepH2 m ρ c main_arg17 (by decide)).trans
    ((keepR1 m ρ c main_arg17 (by decide)).trans
    ((keepH1 m ρ c main_arg17 (by decide)).trans
    ((keepR0 m ρ c main_arg17 (by decide)).trans
    ((keepH0 m ρ c main_arg17 (by decide))))))))))))))))))))
theorem at18_arg18 : W18 m ρ c (Proc.devRef .tc main_arg18) = m ((c : Thread nD τ).loc main_arg18) :=
  (keepR8 m ρ c main_arg18 (by decide)).trans
    ((keepH8 m ρ c main_arg18 (by decide)).trans
    ((keepR7 m ρ c main_arg18 (by decide)).trans
    ((keepH7 m ρ c main_arg18 (by decide)).trans
    ((keepR6 m ρ c main_arg18 (by decide)).trans
    ((keepH6 m ρ c main_arg18 (by decide)).trans
    ((keepR5 m ρ c main_arg18 (by decide)).trans
    ((keepH5 m ρ c main_arg18 (by decide)).trans
    ((keepR4 m ρ c main_arg18 (by decide)).trans
    ((keepH4 m ρ c main_arg18 (by decide)).trans
    ((keepR3 m ρ c main_arg18 (by decide)).trans
    ((keepH3 m ρ c main_arg18 (by decide)).trans
    ((keepR2 m ρ c main_arg18 (by decide)).trans
    ((keepH2 m ρ c main_arg18 (by decide)).trans
    ((keepR1 m ρ c main_arg18 (by decide)).trans
    ((keepH1 m ρ c main_arg18 (by decide)).trans
    ((keepR0 m ρ c main_arg18 (by decide)).trans
    ((keepH0 m ρ c main_arg18 (by decide)))))))))))))))))))
theorem at20_v63 : W20 m ρ c (Proc.devRef .tc main_v63) = W18 m ρ c (Proc.devRef .tc main_v63) :=
  (keepR9 m ρ c main_v63 (by decide)).trans
    ((keepH9 m ρ c main_v63 (by decide)))
theorem at22_arg19 : W22 m ρ c (Proc.devRef .tc main_arg19) = m ((c : Thread nD τ).loc main_arg19) :=
  (keepR10 m ρ c main_arg19 (by decide)).trans
    ((keepH10 m ρ c main_arg19 (by decide)).trans
    ((keepR9 m ρ c main_arg19 (by decide)).trans
    ((keepH9 m ρ c main_arg19 (by decide)).trans
    ((keepR8 m ρ c main_arg19 (by decide)).trans
    ((keepH8 m ρ c main_arg19 (by decide)).trans
    ((keepR7 m ρ c main_arg19 (by decide)).trans
    ((keepH7 m ρ c main_arg19 (by decide)).trans
    ((keepR6 m ρ c main_arg19 (by decide)).trans
    ((keepH6 m ρ c main_arg19 (by decide)).trans
    ((keepR5 m ρ c main_arg19 (by decide)).trans
    ((keepH5 m ρ c main_arg19 (by decide)).trans
    ((keepR4 m ρ c main_arg19 (by decide)).trans
    ((keepH4 m ρ c main_arg19 (by decide)).trans
    ((keepR3 m ρ c main_arg19 (by decide)).trans
    ((keepH3 m ρ c main_arg19 (by decide)).trans
    ((keepR2 m ρ c main_arg19 (by decide)).trans
    ((keepH2 m ρ c main_arg19 (by decide)).trans
    ((keepR1 m ρ c main_arg19 (by decide)).trans
    ((keepH1 m ρ c main_arg19 (by decide)).trans
    ((keepR0 m ρ c main_arg19 (by decide)).trans
    ((keepH0 m ρ c main_arg19 (by decide)))))))))))))))))))))))
theorem at22_arg20 : W22 m ρ c (Proc.devRef .tc main_arg20) = m ((c : Thread nD τ).loc main_arg20) :=
  (keepR10 m ρ c main_arg20 (by decide)).trans
    ((keepH10 m ρ c main_arg20 (by decide)).trans
    ((keepR9 m ρ c main_arg20 (by decide)).trans
    ((keepH9 m ρ c main_arg20 (by decide)).trans
    ((keepR8 m ρ c main_arg20 (by decide)).trans
    ((keepH8 m ρ c main_arg20 (by decide)).trans
    ((keepR7 m ρ c main_arg20 (by decide)).trans
    ((keepH7 m ρ c main_arg20 (by decide)).trans
    ((keepR6 m ρ c main_arg20 (by decide)).trans
    ((keepH6 m ρ c main_arg20 (by decide)).trans
    ((keepR5 m ρ c main_arg20 (by decide)).trans
    ((keepH5 m ρ c main_arg20 (by decide)).trans
    ((keepR4 m ρ c main_arg20 (by decide)).trans
    ((keepH4 m ρ c main_arg20 (by decide)).trans
    ((keepR3 m ρ c main_arg20 (by decide)).trans
    ((keepH3 m ρ c main_arg20 (by decide)).trans
    ((keepR2 m ρ c main_arg20 (by decide)).trans
    ((keepH2 m ρ c main_arg20 (by decide)).trans
    ((keepR1 m ρ c main_arg20 (by decide)).trans
    ((keepH1 m ρ c main_arg20 (by decide)).trans
    ((keepR0 m ρ c main_arg20 (by decide)).trans
    ((keepH0 m ρ c main_arg20 (by decide)))))))))))))))))))))))
theorem at23_v77_0 : W23 m ρ c (Proc.devRef .tc main_v77_0) = W22 m ρ c (Proc.devRef .tc main_v77_0) :=
  (keepH11 m ρ c main_v77_0 (by decide))

end Cert.KernelIdeal.KVal

end
-- ==== Proof.Spec.lean ====
/-
  The mathematics of one message-passing layer with batch normalisation, on the extended reals, over the literal
  shapes of this network (50000 nodes, 600000 edges, 128 features).

  A layer maps node features x to  bn(relu(A(x·W + b, e·We + be)))  where A is the aggregation of the two linear
  images through the edge list (a gather, a sum and an accumulating scatter, kept abstract here: a function of
  the two arrays), relu is the maximum with zero, and bn subtracts the column mean, multiplies by the reciprocal
  square root of the column variance plus epsilon, scales and shifts.  The column variance is written two ways:
  the mean of the squares minus the squared mean (one pass of column sums), and the mean of the squared
  deviations from the mean (two passes).  They agree on real entries.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- node features × 128 -/
abbrev SN : Shape := ⟨2, ![50000, 128]⟩
/-- edge features × 128 -/
abbrev SE : Shape := ⟨2, ![600000, 128]⟩
/-- a feature vector -/
abbrev SV : Shape := ⟨1, ![128]⟩
/-- a feature vector as one row -/
abbrev SR : Shape := ⟨2, ![1, 128]⟩

/-- The number of rows, 50000, as the single-precision word both programs divide by. -/
def cnt : EReal := Ideal.ofBits .f32 0x47435000#32
/-- The epsilon both programs add to the variance, as its single-precision word. -/
def eps : EReal := Ideal.ofBits .f32 0x3727C5AC#32

/-- An extended real that is a real number. -/
def IsReal (x : EReal) : Prop := ∃ r : ℝ, x = (r : EReal)

/-- x·W + b at entry (r, c): the sum over k of x(r,k)·W(k,c), plus b(c). -/
def lin {M K : Nat} (x : FVec Ideal (⟨2, ![M, K]⟩ : Shape) .f32) (W : FVec Ideal (⟨2, ![K, 128]⟩ : Shape) .f32)
    (b : FVec Ideal SV .f32) : FVec Ideal (⟨2, ![M, 128]⟩ : Shape) .f32 :=
  fun j => (∑ k : Fin K, x (ix2 (j 0) k) * W (ix2 k (j 1))) + b (ix1 (j 1))

/-- The same with the bias held as one row. -/
def linRow {M K : Nat} (x : FVec Ideal (⟨2, ![M, K]⟩ : Shape) .f32) (W : FVec Ideal (⟨2, ![K, 128]⟩ : Shape) .f32)
    (b : FVec Ideal SR .f32) : FVec Ideal (⟨2, ![M, 128]⟩ : Shape) .f32 :=
  fun j => (∑ k : Fin K, x (ix2 (j 0) k) * W (ix2 k (j 1))) + b (ix2 (0 : Fin 1) (j 1))

/-- A feature vector as one row. -/
def rowOf (v : FVec Ideal SV .f32) : FVec Ideal SR .f32 := fun j => v (ix1 (j 1))

/-- The maximum with zero, entry by entry. -/
def relu (a : FVec Ideal SN .f32) : FVec Ideal SN .f32 := fun j => max (a j) 0

/-- The square, entry by entry. -/
def sq (h : FVec Ideal SN .f32) : FVec Ideal SN .f32 := fun j => h j * h j

/-- The sum of each column over the 50000 rows. -/
def colSum (h : FVec Ideal SN .f32) : FVec Ideal SV .f32 := fun j => ∑ r : Fin 50000, h (ix2 r (j 0))

/-- The column mean: the column sum divided by the count. -/
def mean (h : FVec Ideal SN .f32) : FVec Ideal SV .f32 := fun j => Ideal.div (colSum h j) cnt

/-- The column variance, one pass: mean of the squares minus the squared mean. -/
def varOnePass (h : FVec Ideal SN .f32) : FVec Ideal SV .f32 :=
  fun j => Ideal.div (colSum (sq h) j) cnt - mean h j * mean h j

/-- The column variance, two passes: mean of the squared deviations from the mean. -/
def varTwoPass (h : FVec Ideal SN .f32) : FVec Ideal SV .f32 :=
  fun j => Ideal.div (∑ r : Fin 50000, (h (ix2 r (j 0)) - mean h j) * (h (ix2 r (j 0)) - mean h j)) cnt

/-- Batch normalisation with given column statistics, scale and shift. -/
def bn (h : FVec Ideal SN .f32) (mu var g bt : FVec Ideal SV .f32) : FVec Ideal SN .f32 :=
  fun j => (h j - mu (ix1 (j 1))) * Ideal.rsqrt (var (ix1 (j 1)) + eps) * g (ix1 (j 1)) + bt (ix1 (j 1))

/-- The same with the four vectors held as rows. -/
def bnRow (h : FVec Ideal SN .f32) (mu var g bt : FVec Ideal SR .f32) : FVec Ideal SN .f32 :=
  fun j => (h j - mu (ix2 (0 : Fin 1) (j 1))) * Ideal.rsqrt (var (ix2 (0 : Fin 1) (j 1)) + eps) * g (ix2 (0 : Fin 1) (j 1))
    + bt (ix2 (0 : Fin 1) (j 1))

theorem bnRow_rowOf (h : FVec Ideal SN .f32) (mu var g bt : FVec Ideal SV .f32) :
    bnRow h (rowOf mu) (rowOf var) (rowOf g) (rowOf bt) = bn h mu var g bt := rfl

theorem linRow_rowOf {M K : Nat} (x : FVec Ideal (⟨2, ![M, K]⟩ : Shape) .f32) (W : FVec Ideal (⟨2, ![K, 128]⟩ : Shape) .f32)
    (b : FVec Ideal SV .f32) : linRow x W (rowOf b) = lin x W b := rfl

/-- One layer with the one-pass variance (the aggregation A abstract). -/
def layerOnePass {K : Nat} (A : FVec Ideal SN .f32 → FVec Ideal SE .f32 → FVec Ideal SN .f32)
    (x : FVec Ideal (⟨2, ![50000, K]⟩ : Shape) .f32) (W : FVec Ideal (⟨2, ![K, 128]⟩ : Shape) .f32) (b : FVec Ideal SV .f32)
    (e : FVec Ideal (⟨2, ![600000, 6]⟩ : Shape) .f32) (We : FVec Ideal (⟨2, ![6, 128]⟩ : Shape) .f32) (be : FVec Ideal SV .f32)
    (g bt : FVec Ideal SV .f32) : FVec Ideal SN .f32 :=
  bn (relu (A (lin x W b) (lin e We be))) (mean (relu (A (lin x W b) (lin e We be))))
    (varOnePass (relu (A (lin x W b) (lin e We be)))) g bt

/-- One layer with the two-pass variance. -/
def layerTwoPass {K : Nat} (A : FVec Ideal SN .f32 → FVec Ideal SE .f32 → FVec Ideal SN .f32)
    (x : FVec Ideal (⟨2, ![50000, K]⟩ : Shape) .f32) (W : FVec Ideal (⟨2, ![K, 128]⟩ : Shape) .f32) (b : FVec Ideal SV .f32)
    (e : FVec Ideal (⟨2, ![600000, 6]⟩ : Shape) .f32) (We : FVec Ideal (⟨2, ![6, 128]⟩ : Shape) .f32) (be : FVec Ideal SV .f32)
    (g bt : FVec Ideal SV .f32) : FVec Ideal SN .f32 :=
  bn (relu (A (lin x W b) (lin e We be))) (mean (relu (A (lin x W b) (lin e We be))))
    (varTwoPass (relu (A (lin x W b) (lin e We be)))) g bt

/-- The three layers in sequence, one-pass variance. -/
def netOnePass (A : FVec Ideal SN .f32 → FVec Ideal SE .f32 → FVec Ideal SN .f32)
    (x0 : FVec Ideal (⟨2, ![50000, 19]⟩ : Shape) .f32) (e : FVec Ideal (⟨2, ![600000, 6]⟩ : Shape) .f32)
    (W0 : FVec Ideal (⟨2, ![19, 128]⟩ : Shape) .f32) (b0 : FVec Ideal SV .f32) (We0 : FVec Ideal (⟨2, ![6, 128]⟩ : Shape) .f32) (be0 g0 bt0 : FVec Ideal SV .f32)
    (W1 : FVec Ideal (⟨2, ![128, 128]⟩ : Shape) .f32) (b1 : FVec Ideal SV .f32) (We1 : FVec Ideal (⟨2, ![6, 128]⟩ : Shape) .f32) (be1 g1 bt1 : FVec Ideal SV .f32)
    (W2 : FVec Ideal (⟨2, ![128, 128]⟩ : Shape) .f32) (b2 : FVec Ideal SV .f32) (We2 : FVec Ideal (⟨2, ![6, 128]⟩ : Shape) .f32) (be2 g2 bt2 : FVec Ideal SV .f32) :
    FVec Ideal SN .f32 :=
  layerOnePass A (layerOnePass A (layerOnePass A x0 W0 b0 e We0 be0 g0 bt0) W1 b1 e We1 be1 g1 bt1) W2 b2 e We2 be2 g2 bt2

/-- The three layers in sequence, two-pass variance. -/
def netTwoPass (A : FVec Ideal SN .f32 → FVec Ideal SE .f32 → FVec Ideal SN .f32)
    (x0 : FVec Ideal (⟨2, ![50000, 19]⟩ : Shape) .f32) (e : FVec Ideal (⟨2, ![600000, 6]⟩ : Shape) .f32)
    (W0 : FVec Ideal (⟨2, ![19, 128]⟩ : Shape) .f32) (b0 : FVec Ideal SV .f32) (We0 : FVec Ideal (⟨2, ![6, 128]⟩ : Shape) .f32) (be0 g0 bt0 : FVec Ideal SV .f32)
    (W1 : FVec Ideal (⟨2, ![128, 128]⟩ : Shape) .f32) (b1 : FVec Ideal SV .f32) (We1 : FVec Ideal (⟨2, ![6, 128]⟩ : Shape) .f32) (be1 g1 bt1 : FVec Ideal SV .f32)
    (W2 : FVec Ideal (⟨2, ![128, 128]⟩ : Shape) .f32) (b2 : FVec Ideal SV .f32) (We2 : FVec Ideal (⟨2, ![6, 128]⟩ : Shape) .f32) (be2 g2 bt2 : FVec Ideal SV .f32) :
    FVec Ideal SN .f32 :=
  layerTwoPass A (layerTwoPass A (layerTwoPass A x0 W0 b0 e We0 be0 g0 bt0) W1 b1 e We1 be1 g1 bt1) W2 b2 e We2 be2 g2 bt2

end Cert.Spec

end
-- ==== Proof.LibRows.lean ====
/-
  Two facts about one-row arrays, over literal lengths.

  A vector of length K reshaped to a 1 × K array holds, at column k of its one row, the vector's entry k; and a
  splat of the zero word holds the real number zero at every index.
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRows

open Idealize.ShloMosaic Idealize.ShloMosaic.ValueIdx

/-- A vector reshaped to one row, read in that row: entry `k` of the vector. -/
theorem row_apply {K : Nat} (v : FVec Ideal ⟨1, ![K]⟩ .f32) (h : (⟨1, ![K]⟩ : Shape).ShapeCasts ⟨2, ![1, K]⟩) (k : Fin K) :
    shapeCast (⟨2, ![1, K]⟩ : Shape) v h (ix2 (0 : Fin 1) k) = v (ix1 k) := by
  refine (shapeCast_addUnit_apply ![K] v h (ix2 (0 : Fin 1) k)).trans (congrArg v ?_)
  funext a; match a with | ⟨0, _⟩ => rfl

/-- A splat of the zero word over a vector's shape, read anywhere: the real number zero. -/
theorem zeros_apply {K : Nat} (h : (⟨0, ![]⟩ : Shape).BroadcastsInDim ⟨1, ![K]⟩ ![]) (j : (⟨1, ![K]⟩ : Shape).Idx) :
    broadcastInDim (⟨1, ![K]⟩ : Shape) ![] h (constant (F := Ideal) ⟨0, ![]⟩ .f32 0x00000000#32) j = 0 := by
  rw [broadcastInDim_apply ![] h _ j ix0 (fun a => a.elim0)]
  exact Ideal.ofBits_zero_f32

/-- The zero vector reshaped to one row is zero in every column. -/
theorem zero_row_apply {K : Nat} (hb : (⟨0, ![]⟩ : Shape).BroadcastsInDim ⟨1, ![K]⟩ ![])
    (h : (⟨1, ![K]⟩ : Shape).ShapeCasts ⟨2, ![1, K]⟩) (k : Fin K) :
    shapeCast (⟨2, ![1, K]⟩ : Shape) (broadcastInDim (⟨1, ![K]⟩ : Shape) ![] hb (constant (F := Ideal) ⟨0, ![]⟩ .f32 0x00000000#32)) h
      (ix2 (0 : Fin 1) k) = 0 := by
  rw [row_apply]; exact zeros_apply hb _

end Cert.LibRows

end
-- ==== Proof.KHost.lean ====
/-
  The host operations of the program, as functions of the arrays they read, and what they compute.

  Between the pipelined regions the program runs host operations: the two columns of the edge list are sliced out;
  a bias or scale vector is reshaped to one row; the aggregation gathers the rows of the node image at the source
  nodes (a negative index wrapped by the number of nodes), adds the edge image and accumulates the sums at the
  destination nodes into an array of zeros; the two rows of column sums are divided by the number of rows to give
  the column mean and, the squared mean subtracted, the column variance; and at the end the column sums of the last
  layer's output are divided by the number of rows.  Each stretch is named here as one function, the gather and
  the accumulating scatter kept closed, and the arithmetic ones are read in the words of the layer's mathematics.
-/
import proofs.«152577_j46067819217044_1_alg».proof.Proof.Gen.KernelIdeal.Frame
import proofs.«152577_j46067819217044_1_alg».proof.Proof.Spec
import proofs.«152577_j46067819217044_1_alg».proof.Proof.LibRows
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen

/-! ## The stretches as functions -/

/-- The source nodes of the edges: column 0 of the edge list. -/
def edgeSrc (idx : (⟨S600000x2, .i32⟩ : BufTy).Contents (Elt Ideal)) : (⟨S600000, .i32⟩ : BufTy).Contents (Elt Ideal) :=
  fun i => shapeCast S600000 (extractStridedSlice S600000x1 ![0, 0] idx slices_S600000x2_S600000x1_0_0) shapeCasts_S600000x1_S600000 i

/-- The destination nodes of the edges: column 1 of the edge list. -/
def edgeDst (idx : (⟨S600000x2, .i32⟩ : BufTy).Contents (Elt Ideal)) : (⟨S600000, .i32⟩ : BufTy).Contents (Elt Ideal) :=
  fun i => shapeCast S600000 (extractStridedSlice S600000x1 ![0, 1] idx slices_S600000x2_S600000x1_0_1) shapeCasts_S600000x1_S600000 i

/-- The aggregation from the two index vectors: the rows of `T` gathered at the source nodes (a negative index wrapped
    by 50000), the edge image `msg` added, the sums accumulated at the destination nodes into zeros. -/
def aggOf (src dst : (⟨S600000, .i32⟩ : BufTy).Contents (Elt Ideal)) (T : (⟨S50000x128, .f32⟩ : BufTy).Contents (Elt Ideal)) (msg : (⟨S600000x128, .f32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (addf (F := Ideal)
      (Host.gather gather_S50000x128_S600000x1_S600000x128_1_0_n_n_0_1_1128 T
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src)))
      msg)

/-- The aggregation through the edge list `idx`, a function of the node image and the edge image. -/
def aggK (idx : (⟨S600000x2, .i32⟩ : BufTy).Contents (Elt Ideal)) :
    FVec Ideal Cert.Spec.SN .f32 → FVec Ideal Cert.Spec.SE .f32 → FVec Ideal Cert.Spec.SN .f32 :=
  fun T msg => aggOf (edgeSrc idx) (edgeDst idx) T msg

/-- A vector reshaped to one row. -/
def rowVec (v : (⟨S128, .f32⟩ : BufTy).Contents (Elt Ideal)) : (⟨S1x128, .f32⟩ : BufTy).Contents (Elt Ideal) :=
  fun i => shapeCast S1x128 v shapeCasts_S128_S1x128 i

/-- The column mean from the row of column sums: the row read as a vector, divided by the number of rows. -/
def meanVec (S : (⟨S1x128, .f32⟩ : BufTy).Contents (Elt Ideal)) : (⟨S128, .f32⟩ : BufTy).Contents (Elt Ideal) :=
  Host.divf (F := Ideal) (fun i => shapeCast S128 S shapeCasts_S1x128_S128 i) (broadcastInDim S128 ![] bcast_S_S128 (constant (F := Ideal) S_ .f32 0x47435000#32))

/-- The column variance from the rows of column sums and of column sums of squares: the mean of the squares minus
    the squared mean. -/
def varVec (S Q : (⟨S1x128, .f32⟩ : BufTy).Contents (Elt Ideal)) : (⟨S128, .f32⟩ : BufTy).Contents (Elt Ideal) :=
  subf (F := Ideal) (Host.divf (F := Ideal) (fun i => shapeCast S128 Q shapeCasts_S1x128_S128 i) (broadcastInDim S128 ![] bcast_S_S128 (constant (F := Ideal) S_ .f32 0x47435000#32)))
    (mulf (F := Ideal) (meanVec S) (meanVec S))

/-- The column mean of an array: its column sums from zero, divided by the number of rows. -/
def meanOut (x : (⟨S50000x128, .f32⟩ : BufTy).Contents (Elt Ideal)) : (⟨S128, .f32⟩ : BufTy).Contents (Elt Ideal) :=
  Host.divf (F := Ideal) (Host.reduceAdd (F := Ideal) x (constant (F := Ideal) S_ .f32 0x00000000#32) reducesTo_S50000x128_S128_d0 h_S_) (broadcastInDim S128 ![] bcast_S_S128 (constant (F := Ideal) S_ .f32 0x47435000#32))

/-! ## What each stretch leaves, from any contents `X` -/

section Stretches
variable (X : Valuation τ sig (Elt Ideal))

theorem src_stretch0 : StableHlo.after hostOps0 X (Proc.devRef .tc main_v1) = edgeSrc (X (Proc.devRef .tc main_arg1)) := by
  dsimp only [hostOps0]; after_results; rfl
theorem dst_stretch0 : StableHlo.after hostOps0 X (Proc.devRef .tc main_v3) = edgeDst (X (Proc.devRef .tc main_arg1)) := by
  dsimp only [hostOps0]; after_results; rfl
theorem row_stretch0 : StableHlo.after hostOps0 X (Proc.devRef .tc main_v4) = rowVec (X (Proc.devRef .tc main_arg4)) := by
  dsimp only [hostOps0]; after_results; rfl
theorem row_stretch1 : StableHlo.after hostOps1 X (Proc.devRef .tc main_v6) = rowVec (X (Proc.devRef .tc main_arg6)) := by
  dsimp only [hostOps1]; after_results; rfl
theorem row_stretch4 : StableHlo.after hostOps4 X (Proc.devRef .tc main_v33) = rowVec (X (Proc.devRef .tc main_arg10)) := by
  dsimp only [hostOps4]; after_results; rfl
theorem row_stretch5 : StableHlo.after hostOps5 X (Proc.devRef .tc main_v35) = rowVec (X (Proc.devRef .tc main_arg12)) := by
  dsimp only [hostOps5]; after_results; rfl
theorem row_stretch8 : StableHlo.after hostOps8 X (Proc.devRef .tc main_v62) = rowVec (X (Proc.devRef .tc main_arg16)) := by
  dsimp only [hostOps8]; after_results; rfl
theorem row_stretch9 : StableHlo.after hostOps9 X (Proc.devRef .tc main_v64) = rowVec (X (Proc.devRef .tc main_arg18)) := by
  dsimp only [hostOps9]; after_results; rfl
set_option maxHeartbeats 2000000 in
theorem agg_stretch2 : StableHlo.after hostOps2 X (Proc.devRef .tc main_v18)
    = aggOf (X (Proc.devRef .tc main_v1)) (X (Proc.devRef .tc main_v3)) (X (Proc.devRef .tc main_v5)) (X (Proc.devRef .tc main_v7)) := by
  dsimp only [hostOps2]; after_results_simp; rfl
theorem mean_stretch3 : StableHlo.after hostOps3 X (Proc.devRef .tc main_v28) = rowVec (meanVec (X (Proc.devRef .tc main_v19_1))) := by
  dsimp only [hostOps3]; after_results; rfl
theorem var_stretch3 : StableHlo.after hostOps3 X (Proc.devRef .tc main_v29)
    = rowVec (varVec (X (Proc.devRef .tc main_v19_1)) (X (Proc.devRef .tc main_v19_2))) := by
  dsimp only [hostOps3]; after_results; rfl
theorem scale_stretch3 : StableHlo.after hostOps3 X (Proc.devRef .tc main_v30) = rowVec (X (Proc.devRef .tc main_arg7)) := by
  dsimp only [hostOps3]; after_results; rfl
theorem shift_stretch3 : StableHlo.after hostOps3 X (Proc.devRef .tc main_v31) = rowVec (X (Proc.devRef .tc main_arg8)) := by
  dsimp only [hostOps3]; after_results; rfl
set_option maxHeartbeats 2000000 in
theorem agg_stretch6 : StableHlo.after hostOps6 X (Proc.devRef .tc main_v47)
    = aggOf (X (Proc.devRef .tc main_v1)) (X (Proc.devRef .tc main_v3)) (X (Proc.devRef .tc main_v34)) (X (Proc.devRef .tc main_v36)) := by
  dsimp only [hostOps6]; after_results_simp; rfl
theorem mean_stretch7 : StableHlo.after hostOps7 X (Proc.devRef .tc main_v57) = rowVec (meanVec (X (Proc.devRef .tc main_v48_1))) := by
  dsimp only [hostOps7]; after_results; rfl
theorem var_stretch7 : StableHlo.after hostOps7 X (Proc.devRef .tc main_v58)
    = rowVec (varVec (X (Proc.devRef .tc main_v48_1)) (X (Proc.devRef .tc main_v48_2))) := by
  dsimp only [hostOps7]; after_results; rfl
theorem scale_stretch7 : StableHlo.after hostOps7 X (Proc.devRef .tc main_v59) = rowVec (X (Proc.devRef .tc main_arg13)) := by
  dsimp only [hostOps7]; after_results; rfl
theorem shift_stretch7 : StableHlo.after hostOps7 X (Proc.devRef .tc main_v60) = rowVec (X (Proc.devRef .tc main_arg14)) := by
  dsimp only [hostOps7]; after_results; rfl
set_option maxHeartbeats 2000000 in
theorem agg_stretch10 : StableHlo.after hostOps10 X (Proc.devRef .tc main_v76)
    = aggOf (X (Proc.devRef .tc main_v1)) (X (Proc.devRef .tc main_v3)) (X (Proc.devRef .tc main_v63)) (X (Proc.devRef .tc main_v65)) := by
  dsimp only [hostOps10]; after_results_simp; rfl
theorem mean_stretch11 : StableHlo.after hostOps11 X (Proc.devRef .tc main_v86) = rowVec (meanVec (X (Proc.devRef .tc main_v77_1))) := by
  dsimp only [hostOps11]; after_results; rfl
theorem var_stretch11 : StableHlo.after hostOps11 X (Proc.devRef .tc main_v87)
    = rowVec (varVec (X (Proc.devRef .tc main_v77_1)) (X (Proc.devRef .tc main_v77_2))) := by
  dsimp only [hostOps11]; after_results; rfl
theorem scale_stretch11 : StableHlo.after hostOps11 X (Proc.devRef .tc main_v88) = rowVec (X (Proc.devRef .tc main_arg19)) := by
  dsimp only [hostOps11]; after_results; rfl
theorem shift_stretch11 : StableHlo.after hostOps11 X (Proc.devRef .tc main_v89) = rowVec (X (Proc.devRef .tc main_arg20)) := by
  dsimp only [hostOps11]; after_results; rfl
theorem out_stretch12 : StableHlo.after hostOps12 X (Proc.devRef .tc main_v93) = meanOut (X (Proc.devRef .tc main_v90)) := by
  dsimp only [hostOps12]; after_results; rfl

end Stretches

/-! ## The arithmetic stretches in the words of the layer's mathematics -/

/-- The word the programs divide by, broadcast over a vector, is the count at every index. -/
theorem cnt_apply (j : S128.Idx) : (broadcastInDim S128 ![] bcast_S_S128 (constant (F := Ideal) S_ .f32 0x47435000#32)) j = Cert.Spec.cnt := by
  rw [broadcastInDim_apply ![] bcast_S_S128 _ j ix0 (fun a => a.elim0)]
  rfl

/-- A vector reshaped to one row is the vector as a row. -/
theorem rowVec_eq (v : FVec Ideal Cert.Spec.SV .f32) : rowVec v = Cert.Spec.rowOf v := by
  funext j
  obtain ⟨a, k, rfl⟩ : ∃ a k, j = ix2 a k := ⟨j 0, j 1, eq_ix2 j⟩
  exact shapeCast_a_1a_apply v shapeCasts_S128_S1x128 a k

/-- A row read as a vector, at column `k`: the row's entry in that column. -/
theorem vecOfRow_apply (S : FVec Ideal Cert.Spec.SR .f32) (k : Fin 128) :
    shapeCast S128 S shapeCasts_S1x128_S128 (ix1 k) = S (ix2 (0 : Fin 1) k) :=
  shapeCast_1a_a_apply S shapeCasts_S1x128_S128 k

/-- The mean stretch applied to the row of column sums is the column mean. -/
theorem meanVec_rowOf (h : FVec Ideal Cert.Spec.SN .f32) :
    meanVec (Cert.Spec.rowOf (Cert.Spec.colSum h)) = Cert.Spec.mean h := by
  funext j
  obtain ⟨k, rfl⟩ : ∃ k, j = ix1 k := ⟨j 0, eq_ix1 j⟩
  show Ideal.div (shapeCast S128 (Cert.Spec.rowOf (Cert.Spec.colSum h)) shapeCasts_S1x128_S128 (ix1 k)) ((broadcastInDim S128 ![] bcast_S_S128 (constant (F := Ideal) S_ .f32 0x47435000#32)) (ix1 k)) = _
  rw [vecOfRow_apply, cnt_apply]
  rfl

/-- The variance stretch applied to the rows of column sums and of column sums of squares is the one-pass variance. -/
theorem varVec_rowOf (h : FVec Ideal Cert.Spec.SN .f32) :
    varVec (Cert.Spec.rowOf (Cert.Spec.colSum h)) (Cert.Spec.rowOf (Cert.Spec.colSum (Cert.Spec.sq h))) = Cert.Spec.varOnePass h := by
  funext j
  obtain ⟨k, rfl⟩ : ∃ k, j = ix1 k := ⟨j 0, eq_ix1 j⟩
  show Ideal.div (shapeCast S128 (Cert.Spec.rowOf (Cert.Spec.colSum (Cert.Spec.sq h))) shapeCasts_S1x128_S128 (ix1 k)) ((broadcastInDim S128 ![] bcast_S_S128 (constant (F := Ideal) S_ .f32 0x47435000#32)) (ix1 k))
      - meanVec (Cert.Spec.rowOf (Cert.Spec.colSum h)) (ix1 k) * meanVec (Cert.Spec.rowOf (Cert.Spec.colSum h)) (ix1 k) = _
  rw [vecOfRow_apply, cnt_apply, meanVec_rowOf]
  rfl

/-- The host's sum over the rows of an array with `n` rows, read in column `j`: the initial value plus the sum of the
    column's `n` entries. -/
theorem hostReduceAdd_rows {n k : Nat} (h' : (⟨2, ![n, k]⟩ : Shape).ReducesTo [0] ⟨1, ![k]⟩)
    (h : (⟨2, ![n, k]⟩ : Shape).Reduces [0] ⟨1, ![k]⟩) (x : (⟨2, ![n, k]⟩ : Shape).Idx → EReal) (init : EReal) (j : Fin k) :
    Ideal.hostReduceAdd h' x init (ix1 j) = init + ∑ r : Fin n, x (ix2 r j) := by
  rw [Ideal.hostReduceAdd_single h' h x init (ix1 j)]
  refine congrArg (fun s => init + s) ?_
  refine Finset.sum_congr rfl (fun r _ => congrArg x ?_)
  funext a
  apply Fin.ext
  match a with
  | ⟨0, _⟩ => rfl
  | ⟨1, _⟩ => rfl

/-- The closing stretch is the column mean. -/
theorem meanOut_eq (x : FVec Ideal Cert.Spec.SN .f32) : meanOut x = Cert.Spec.mean x := by
  funext j
  obtain ⟨k, rfl⟩ : ∃ k, j = ix1 k := ⟨j 0, eq_ix1 j⟩
  show Ideal.div (Ideal.hostReduceAdd reducesTo_S50000x128_S128_d0 x (Ideal.ofBits .f32 0x00000000#32) (ix1 k)) ((broadcastInDim S128 ![] bcast_S_S128 (constant (F := Ideal) S_ .f32 0x47435000#32)) (ix1 k)) = _
  rw [hostReduceAdd_rows reducesTo_S50000x128_S128_d0 (by decide) x _ k, Ideal.ofBits_zero_f32, zero_add, cnt_apply]
  rfl

/-- One layer, from the regions' results and the host stretches between them, is the layer of the mathematics. -/
theorem layer_eq (A : FVec Ideal Cert.Spec.SN .f32 → FVec Ideal Cert.Spec.SE .f32 → FVec Ideal Cert.Spec.SN .f32) {K : Nat}
    (x : FVec Ideal (⟨2, ![50000, K]⟩ : Shape) .f32) (W : FVec Ideal (⟨2, ![K, 128]⟩ : Shape) .f32) (b : FVec Ideal Cert.Spec.SV .f32)
    (e : FVec Ideal (⟨2, ![600000, 6]⟩ : Shape) .f32) (We : FVec Ideal (⟨2, ![6, 128]⟩ : Shape) .f32) (be g bt : FVec Ideal Cert.Spec.SV .f32) :
    Cert.Spec.bnRow (Cert.Spec.relu (A (Cert.Spec.linRow x W (rowVec b)) (Cert.Spec.linRow e We (rowVec be))))
        (rowVec (meanVec (Cert.Spec.rowOf (Cert.Spec.colSum (Cert.Spec.relu (A (Cert.Spec.linRow x W (rowVec b)) (Cert.Spec.linRow e We (rowVec be))))))))
        (rowVec (varVec (Cert.Spec.rowOf (Cert.Spec.colSum (Cert.Spec.relu (A (Cert.Spec.linRow x W (rowVec b)) (Cert.Spec.linRow e We (rowVec be))))))
          (Cert.Spec.rowOf (Cert.Spec.colSum (Cert.Spec.sq (Cert.Spec.relu (A (Cert.Spec.linRow x W (rowVec b)) (Cert.Spec.linRow e We (rowVec be)))))))))
        (rowVec g) (rowVec bt)
      = Cert.Spec.layerOnePass A x W b e We be g bt := by
  rw [meanVec_rowOf, varVec_rowOf, rowVec_eq, rowVec_eq, rowVec_eq, rowVec_eq, rowVec_eq, rowVec_eq, Cert.Spec.linRow_rowOf,
    Cert.Spec.linRow_rowOf, Cert.Spec.bnRow_rowOf]
  rfl

end Cert.KernelIdeal.KVal

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LinPayload.lean ====
/-
  The linear kernels' arithmetic at an entry.  Each of the six linear regions runs one body: the tile of the left
  operand and the weight matrix are narrowed (the identity on the extended reals), multiplied into a zero accumulator,
  and the bias, held as one row, is broadcast over the rows and added.  At entry (p, q) of the tile the result is the sum
  over k of x(p, k) · W(k, q), plus b(0, q).  Three shapes occur: 19, 6 and 128 columns of the left operand.
  Then the same read against the whole arrays: a tile of 10000 rows of x gives the same 10000 rows of x·W + b.
-/
import proofs.«152577_j46067819217044_1_alg».proof.Proof.Gen.KernelIdeal.Skeleton
import proofs.«152577_j46067819217044_1_alg».proof.Proof.LibPlainDot
import proofs.«152577_j46067819217044_1_alg».proof.Proof.Spec
import Idealize.ShloMosaic.Lib.Pipeline.Value
import Idealize.ShloMosaic.Lib.ValueLayout
import Idealize.ShloMosaic.Lib.ValueIdx

noncomputable section

namespace Cert.KernelIdeal.LinRegions

open Cert.KernelIdeal Cert.KernelIdeal.Gen Idealize.ShloMosaic Idealize.ShloMosaic.ValueIdx

/-- The zero offsets of a whole-tile access, as a constant function. -/
theorem zeroOffsets : (![0, 0] : Fin 2 → Nat) = fun _ => 0 := funext fun a => by fin_cases a <;> rfl

/-- Region 0's body (19 columns) at entry (p, q) of its tile. -/
theorem pay0_apply (x : Vec Ideal S10000x19 .f32) (W : Vec Ideal S19x128 .f32) (b : Vec Ideal S1x128 .f32)
    (p : Fin 10000) (q : Fin 128) :
    k0_pay1 (F := Ideal) x W b (ix2 p q) = (∑ k : Fin 19, x (ix2 p k) * W (ix2 k q)) + b (ix2 (0 : Fin 1) q) := by
  unfold k0_pay1
  rw [addf_apply, shapeCast_self, broadcastTo_1b_ab_apply]
  exact congrArg (· + b (ix2 (0 : Fin 1) q))
    (Cert.LibPlainDot.matmul_zero_apply dot_S10000x19_S19x128_S10000x128_1_0_0_1_n_n rfl rfl rfl rfl (fun _ _ => rfl) (fun _ _ => rfl) none
      (truncf .bf16 x bitsLt_bf16_f32) (truncf .bf16 W bitsLt_bf16_f32) p q)

/-- Region 1's body (6 columns) at entry (p, q) of its tile. -/
theorem pay1_apply (x : Vec Ideal S10000x6 .f32) (W : Vec Ideal S6x128 .f32) (b : Vec Ideal S1x128 .f32)
    (p : Fin 10000) (q : Fin 128) :
    k1_pay1 (F := Ideal) x W b (ix2 p q) = (∑ k : Fin 6, x (ix2 p k) * W (ix2 k q)) + b (ix2 (0 : Fin 1) q) := by
  unfold k1_pay1
  rw [addf_apply, shapeCast_self, broadcastTo_1b_ab_apply]
  exact congrArg (· + b (ix2 (0 : Fin 1) q))
    (Cert.LibPlainDot.matmul_zero_apply dot_S10000x6_S6x128_S10000x128_1_0_0_1_n_n rfl rfl rfl rfl (fun _ _ => rfl) (fun _ _ => rfl) none
      (truncf .bf16 x bitsLt_bf16_f32) (truncf .bf16 W bitsLt_bf16_f32) p q)

/-- Region 4's body (128 columns; the tile passes a cast to its own shape first) at entry (p, q) of its tile. -/
theorem pay4_apply (x : Vec Ideal S10000x128 .f32) (W : Vec Ideal S128x128 .f32) (b : Vec Ideal S1x128 .f32)
    (p : Fin 10000) (q : Fin 128) :
    k4_pay1 (F := Ideal) x W b (ix2 p q) = (∑ k : Fin 128, x (ix2 p k) * W (ix2 k q)) + b (ix2 (0 : Fin 1) q) := by
  unfold k4_pay1
  rw [addf_apply, shapeCast_self, shapeCast_self, broadcastTo_1b_ab_apply]
  exact congrArg (· + b (ix2 (0 : Fin 1) q))
    (Cert.LibPlainDot.matmul_zero_apply dot_S10000x128_S128x128_S10000x128_1_0_0_1_n_n rfl rfl rfl rfl (fun _ _ => rfl) (fun _ _ => rfl) none
      (truncf .bf16 x bitsLt_bf16_f32) (truncf .bf16 W bitsLt_bf16_f32) p q)

/-- Region 5's body: region 1's over again. -/
theorem pay5_apply (x : Vec Ideal S10000x6 .f32) (W : Vec Ideal S6x128 .f32) (b : Vec Ideal S1x128 .f32)
    (p : Fin 10000) (q : Fin 128) :
    k5_pay1 (F := Ideal) x W b (ix2 p q) = (∑ k : Fin 6, x (ix2 p k) * W (ix2 k q)) + b (ix2 (0 : Fin 1) q) := by
  unfold k5_pay1
  rw [addf_apply, shapeCast_self, broadcastTo_1b_ab_apply]
  exact congrArg (· + b (ix2 (0 : Fin 1) q))
    (Cert.LibPlainDot.matmul_zero_apply dot_S10000x6_S6x128_S10000x128_1_0_0_1_n_n rfl rfl rfl rfl (fun _ _ => rfl) (fun _ _ => rfl) none
      (truncf .bf16 x bitsLt_bf16_f32) (truncf .bf16 W bitsLt_bf16_f32) p q)

/-- Region 8's body: region 4's over again. -/
theorem pay8_apply (x : Vec Ideal S10000x128 .f32) (W : Vec Ideal S128x128 .f32) (b : Vec Ideal S1x128 .f32)
    (p : Fin 10000) (q : Fin 128) :
    k8_pay1 (F := Ideal) x W b (ix2 p q) = (∑ k : Fin 128, x (ix2 p k) * W (ix2 k q)) + b (ix2 (0 : Fin 1) q) := by
  unfold k8_pay1
  rw [addf_apply, shapeCast_self, shapeCast_self, broadcastTo_1b_ab_apply]
  exact congrArg (· + b (ix2 (0 : Fin 1) q))
    (Cert.LibPlainDot.matmul_zero_apply dot_S10000x128_S128x128_S10000x128_1_0_0_1_n_n rfl rfl rfl rfl (fun _ _ => rfl) (fun _ _ => rfl) none
      (truncf .bf16 x bitsLt_bf16_f32) (truncf .bf16 W bitsLt_bf16_f32) p q)

/-- Region 9's body: region 1's over again. -/
theorem pay9_apply (x : Vec Ideal S10000x6 .f32) (W : Vec Ideal S6x128 .f32) (b : Vec Ideal S1x128 .f32)
    (p : Fin 10000) (q : Fin 128) :
    k9_pay1 (F := Ideal) x W b (ix2 p q) = (∑ k : Fin 6, x (ix2 p k) * W (ix2 k q)) + b (ix2 (0 : Fin 1) q) := by
  unfold k9_pay1
  rw [addf_apply, shapeCast_self, broadcastTo_1b_ab_apply]
  exact congrArg (· + b (ix2 (0 : Fin 1) q))
    (Cert.LibPlainDot.matmul_zero_apply dot_S10000x6_S6x128_S10000x128_1_0_0_1_n_n rfl rfl rfl rfl (fun _ _ => rfl) (fun _ _ => rfl) none
      (truncf .bf16 x bitsLt_bf16_f32) (truncf .bf16 W bitsLt_bf16_f32) p q)

/-- Region 0: a tile's body result is the tile of the whole product.  When the tile x holds rows n·10000 + p of the
    array X, the body's result at entry j of the tile is x·W + b of the whole array at the entry i that lies n·10000 rows
    further down, in the same column. -/
theorem tile0_apply (x : Vec Ideal S10000x19 .f32) (W : Vec Ideal S19x128 .f32) (b : Vec Ideal S1x128 .f32)
    (X : FVec Ideal (⟨2, ![50000, 19]⟩ : Shape) .f32) (n : Nat)
    (hx : ∀ (p : Fin 10000) (r : Fin 50000) (k : Fin 19), r.val = n * 10000 + p.val → x (ix2 p k) = X (ix2 r k))
    (j : S10000x128.Idx) (i : S50000x128.Idx)
    (h0 : (i 0).val = n * 10000 + (j 0).val) (h1 : (i 1).val = (j 1).val) :
    k0_pay1 (F := Ideal) x W b j = Cert.Spec.linRow X W b i := by
  obtain ⟨p, q, rfl⟩ : ∃ (p : Fin 10000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext h1
  rw [pay0_apply]
  show _ = (∑ k : Fin 19, X (ix2 r k) * W (ix2 k s)) + b (ix2 (0 : Fin 1) s)
  congr 1
  exact Finset.sum_congr rfl fun k _ => by rw [hx p r k h0]

/-- Region 1: a tile's body result is the tile of the whole product.  When the tile x holds rows n·10000 + p of the
    array X, the body's result at entry j of the tile is x·W + b of the whole array at the entry i that lies n·10000 rows
    further down, in the same column. -/
theorem tile1_apply (x : Vec Ideal S10000x6 .f32) (W : Vec Ideal S6x128 .f32) (b : Vec Ideal S1x128 .f32)
    (X : FVec Ideal (⟨2, ![600000, 6]⟩ : Shape) .f32) (n : Nat)
    (hx : ∀ (p : Fin 10000) (r : Fin 600000) (k : Fin 6), r.val = n * 10000 + p.val → x (ix2 p k) = X (ix2 r k))
    (j : S10000x128.Idx) (i : S600000x128.Idx)
    (h0 : (i 0).val = n * 10000 + (j 0).val) (h1 : (i 1).val = (j 1).val) :
    k1_pay1 (F := Ideal) x W b j = Cert.Spec.linRow X W b i := by
  obtain ⟨p, q, rfl⟩ : ∃ (p : Fin 10000) (q : Fin 128), j = ix2 p q := ⟨j 0, j 1, eq_ix2 j⟩
  obtain ⟨r, s, rfl⟩ : ∃ (r : Fin 600000) (s : Fin 128), i = ix2 r s := ⟨i 0, i 1, eq_ix2 i⟩
  obtain rfl : s = q := Fin.ext h1
  rw [pay1_apply]
  show _ = (∑ k : Fin 6, X (ix2 r k) * W (ix2 k s)) + b (ix2 (0 : Fin 1) s)
  congr 1
  exact Finset.sum_congr rfl fun k _ => by rw [hx p r k h0]

/-- Region 4: a tile's body result is the tile of the whole product.  When the tile x holds rows n·10000 + p of the
    array X, the body's result at entry j of the tile is x·W + b of the whole array at the entry i that lies n·10000 rows
    further down, in the same column. -/
theorem tile4_apply (x : Vec Ideal S10000x128 .f32) (W : Vec Ideal S128x128 .f32) (b : Vec Ideal S1x128 .f32)
    (X : FVec Ideal (⟨2, ![50000, 128]⟩ : Shape) .f32) (n : Nat)
    (hx : ∀ (p : Fin 10000) (r : Fin 50000) (k : Fin 128), r.val = n * 10000 + p.val → x (ix2 p k) = X (ix2 r k))
    (j : S10000x128.Idx) (i : S50000x128.Idx)
    (h0 : (i 0).val = n * 10000 + (j 0).val) (h1 : (i 1).val = (j 1).val) :
    k4_pay1 (F := Ideal) x W b j = Cert.Spec.linRow X W b i := by
  obtain ⟨p, q, rfl⟩ : ∃ (p : Fin 10000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext h1
  rw [pay4_apply]
  show _ = (∑ k : Fin 128, X (ix2 r k) * W (ix2 k s)) + b (ix2 (0 : Fin 1) s)
  congr 1
  exact Finset.sum_congr rfl fun k _ => by rw [hx p r k h0]

/-- Region 5: a tile's body result is the tile of the whole product.  When the tile x holds rows n·10000 + p of the
    array X, the body's result at entry j of the tile is x·W + b of the whole array at the entry i that lies n·10000 rows
    further down, in the same column. -/
theorem tile5_apply (x : Vec Ideal S10000x6 .f32) (W : Vec Ideal S6x128 .f32) (b : Vec Ideal S1x128 .f32)
    (X : FVec Ideal (⟨2, ![600000, 6]⟩ : Shape) .f32) (n : Nat)
    (hx : ∀ (p : Fin 10000) (r : Fin 600000) (k : Fin 6), r.val = n * 10000 + p.val → x (ix2 p k) = X (ix2 r k))
    (j : S10000x128.Idx) (i : S600000x128.Idx)
    (h0 : (i 0).val = n * 10000 + (j 0).val) (h1 : (i 1).val = (j 1).val) :
    k5_pay1 (F := Ideal) x W b j = Cert.Spec.linRow X W b i := by
  obtain ⟨p, q, rfl⟩ : ∃ (p : Fin 10000) (q : Fin 128), j = ix2 p q := ⟨j 0, j 1, eq_ix2 j⟩
  obtain ⟨r, s, rfl⟩ : ∃ (r : Fin 600000) (s : Fin 128), i = ix2 r s := ⟨i 0, i 1, eq_ix2 i⟩
  obtain rfl : s = q := Fin.ext h1
  rw [pay5_apply]
  show _ = (∑ k : Fin 6, X (ix2 r k) * W (ix2 k s)) + b (ix2 (0 : Fin 1) s)
  congr 1
  exact Finset.sum_congr rfl fun k _ => by rw [hx p r k h0]

/-- Region 8: a tile's body result is the tile of the whole product.  When the tile x holds rows n·10000 + p of the
    array X, the body's result at entry j of the tile is x·W + b of the whole array at the entry i that lies n·10000 rows
    further down, in the same column. -/
theorem tile8_apply (x : Vec Ideal S10000x128 .f32) (W : Vec Ideal S128x128 .f32) (b : Vec Ideal S1x128 .f32)
    (X : FVec Ideal (⟨2, ![50000, 128]⟩ : Shape) .f32) (n : Nat)
    (hx : ∀ (p : Fin 10000) (r : Fin 50000) (k : Fin 128), r.val = n * 10000 + p.val → x (ix2 p k) = X (ix2 r k))
    (j : S10000x128.Idx) (i : S50000x128.Idx)
    (h0 : (i 0).val = n * 10000 + (j 0).val) (h1 : (i 1).val = (j 1).val) :
    k8_pay1 (F := Ideal) x W b j = Cert.Spec.linRow X W b i := by
  obtain ⟨p, q, rfl⟩ : ∃ (p : Fin 10000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext h1
  rw [pay8_apply]
  show _ = (∑ k : Fin 128, X (ix2 r k) * W (ix2 k s)) + b (ix2 (0 : Fin 1) s)
  congr 1
  exact Finset.sum_congr rfl fun k _ => by rw [hx p r k h0]

/-- Region 9: a tile's body result is the tile of the whole product.  When the tile x holds rows n·10000 + p of the
    array X, the body's result at entry j of the tile is x·W + b of the whole array at the entry i that lies n·10000 rows
    further down, in the same column. -/
theorem tile9_apply (x : Vec Ideal S10000x6 .f32) (W : Vec Ideal S6x128 .f32) (b : Vec Ideal S1x128 .f32)
    (X : FVec Ideal (⟨2, ![600000, 6]⟩ : Shape) .f32) (n : Nat)
    (hx : ∀ (p : Fin 10000) (r : Fin 600000) (k : Fin 6), r.val = n * 10000 + p.val → x (ix2 p k) = X (ix2 r k))
    (j : S10000x128.Idx) (i : S600000x128.Idx)
    (h0 : (i 0).val = n * 10000 + (j 0).val) (h1 : (i 1).val = (j 1).val) :
    k9_pay1 (F := Ideal) x W b j = Cert.Spec.linRow X W b i := by
  obtain ⟨p, q, rfl⟩ : ∃ (p : Fin 10000) (q : Fin 128), j = ix2 p q := ⟨j 0, j 1, eq_ix2 j⟩
  obtain ⟨r, s, rfl⟩ : ∃ (r : Fin 600000) (s : Fin 128), i = ix2 r s := ⟨i 0, i 1, eq_ix2 i⟩
  obtain rfl : s = q := Fin.ext h1
  rw [pay9_apply]
  show _ = (∑ k : Fin 6, X (ix2 r k) * W (ix2 k s)) + b (ix2 (0 : Fin 1) s)
  congr 1
  exact Finset.sum_congr rfl fun k _ => by rw [hx p r k h0]

end Cert.KernelIdeal.LinRegions

end
-- ==== Proof.LinRegion0.lean ====
/-
  Linear region 0: the output array after the region is x·W + b of the three operand arrays as the region finds
  them.  The grid has 5 points; point t reads rows t·10000 … t·10000 + 9999 of the left operand, the whole weight matrix
  and the whole bias row, and writes back the same rows of the output.  So what point t writes back is block t of
  x·W + b of the whole arrays; the 5 blocks cover the 50000 rows (row r lies in block r / 10000); hence the array.
-/
import proofs.«152577_j46067819217044_1_alg».proof.Proof.Gen.KernelIdeal.Frame
import proofs.«152577_j46067819217044_1_alg».proof.Proof.Spec
import proofs.«152577_j46067819217044_1_alg».proof.Proof.LinPayload
import Idealize.ShloMosaic.Lib.Pipeline.Value
import Idealize.ShloMosaic.Lib.Tactic

noncomputable section

namespace Cert.KernelIdeal.LinRegions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the grid: the left operand's and the output's blocks move down with the point, the weight
    matrix's and the bias row's stay at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight window's block at any point is the whole weight matrix. -/
theorem wblk0 (c : Dev nD) (t : Fin cfg0.N) :
    (iblk0 (F := Ideal) V c 1 t : Vec Ideal S19x128 .f32) = (V c (Pipeline.arrRef spec0 1) : S19x128.Idx → Elt Ideal .f32) := by
  obtain ⟨-, -, e0, e1, -⟩ := idx0 t
  funext y
  unfold iblk0
  rw [View.read_apply]
  refine congrArg (V c (Pipeline.arrRef spec0 1)) ?_
  funext a; apply Fin.ext
  match a with
  | ⟨0, _⟩ => show win0_1.index t (0 : Fin 2) * 19 + 1 * (y 0).val = (y 0).val; omega
  | ⟨1, _⟩ => show win0_1.index t (1 : Fin 2) * 128 + 1 * (y 1).val = (y 1).val; omega

/-- The bias window's block at any point is the whole bias row. -/
theorem bblk0 (c : Dev nD) (t : Fin cfg0.N) :
    (iblk0 (F := Ideal) V c 2 t : Vec Ideal S1x128 .f32) = (V c (Pipeline.arrRef spec0 2) : S1x128.Idx → Elt Ideal .f32) := by
  obtain ⟨-, -, -, -, e0, e1, -⟩ := idx0 t
  funext y
  unfold iblk0
  rw [View.read_apply]
  refine congrArg (V c (Pipeline.arrRef spec0 2)) ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The left operand's block at point t, at (p, k), is the array at (t·10000 + p, k). -/
theorem xblk0 (c : Dev nD) (t : Fin cfg0.N) (p : Fin 10000) (r : Fin 50000) (k : Fin 19) (h : r.val = t.val * 10000 + p.val) :
    (iblk0 (F := Ideal) V c 0 t : Vec Ideal S10000x19 .f32) (ix2 p k) = (V c (Pipeline.arrRef spec0 0) : S50000x19.Idx → Elt Ideal .f32) (ix2 r k) := by
  obtain ⟨e0, e1, -⟩ := idx0 t
  unfold iblk0
  rw [View.read_apply]
  refine congrArg (V c (Pipeline.arrRef spec0 0)) ?_
  funext a; apply Fin.ext
  match a with
  | ⟨0, _⟩ => show win0_0.index t (0 : Fin 2) * 10000 + 1 * p.val = r.val; omega
  | ⟨1, _⟩ => show win0_0.index t (1 : Fin 2) * 19 + 1 * k.val = k.val; omega

/-- What point t writes back is block t of x·W + b of the whole arrays. -/
theorem flushed0_eq (c : Dev nD) (t : Fin cfg0.N) :
    (dat0 (F := Ideal) V c).flushed 3 t = ((cfg0.win 3).blk t).view.read (Elt Ideal)
      (Cert.Spec.linRow (V c (Pipeline.arrRef spec0 0) : S50000x19.Idx → Elt Ideal .f32)
        (V c (Pipeline.arrRef spec0 1) : S19x128.Idx → Elt Ideal .f32) (V c (Pipeline.arrRef spec0 2) : S1x128.Idx → Elt Ideal .f32)) := by
  show (cfg0.win 3).cut (grid0.coords t) ((dat0 V c).after 3 t) = _
  rw [after0_3]
  unfold out0_3
  rw [View.canon_unit_zero zeroOffsets]
  simp only [View.ld_unit_zero (S := S10000x19) zeroOffsets, View.ld_unit_zero (S := S19x128) zeroOffsets, View.ld_unit_zero (S := S1x128) zeroOffsets]
  rw [wblk0, bblk0]
  obtain ⟨-, -, -, -, -, -, e0, e1⟩ := idx0 t
  funext j
  refine tile0_apply _ _ _ _ t.val (fun p r k h => xblk0 V c t p r k h) j (((cfg0.win 3).blk t).view.emb j) ?_ ?_
  · show win0_3.index t (0 : Fin 2) * 10000 + 1 * (j 0).val = t.val * 10000 + (j 0).val; omega
  · show win0_3.index t (1 : Fin 2) * 128 + 1 * (j 1).val = (j 1).val; omega

/-- An entry of the output array is in point t's block iff each coordinate is in the block's range on its axis. -/
theorem mem_blk0 (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v5).slice (win0_3.rect t)).set ↔ _
  rw [View.set_slice_whole, Rect.mem_set_unit]
  exact Iff.rfl

/-- Every entry is in some point's block: row r is in block r / 10000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, -, -, e0, e1⟩ := idx0 t
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The output array after region 0 is x·W + b of the three operand arrays as the region finds them. -/
theorem final0 (c : Dev nD) :
    (dat0 (F := Ideal) V c).arrAt 3 cfg0.N = Cert.Spec.linRow (V c (Pipeline.arrRef spec0 0) : S50000x19.Idx → Elt Ideal .f32)
        (V c (Pipeline.arrRef spec0 1) : S19x128.Idx → Elt Ideal .f32) (V c (Pipeline.arrRef spec0 2) : S1x128.Idx → Elt Ideal .f32) :=
  (dat0 V c).arrAt_eq_of_cover 3 _ (fun t _ => flushed0_eq V c t) cover0

end Cert.KernelIdeal.LinRegions

end
-- ==== Proof.LinRegion1.lean ====
/-
  Linear region 1: the output array after the region is x·W + b of the three operand arrays as the region finds
  them.  The grid has 60 points; point t reads rows t·10000 … t·10000 + 9999 of the left operand, the whole weight matrix
  and the whole bias row, and writes back the same rows of the output.  So what point t writes back is block t of
  x·W + b of the whole arrays; the 60 blocks cover the 600000 rows (row r lies in block r / 10000); hence the array.
-/
import proofs.«152577_j46067819217044_1_alg».proof.Proof.Gen.KernelIdeal.Frame
import proofs.«152577_j46067819217044_1_alg».proof.Proof.Spec
import proofs.«152577_j46067819217044_1_alg».proof.Proof.LinPayload
import Idealize.ShloMosaic.Lib.Pipeline.Value
import Idealize.ShloMosaic.Lib.Tactic

noncomputable section

namespace Cert.KernelIdeal.LinRegions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the grid: the left operand's and the output's blocks move down with the point, the weight
    matrix's and the bias row's stay at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The weight window's block at any point is the whole weight matrix. -/
theorem wblk1 (c : Dev nD) (t : Fin cfg1.N) :
    (iblk1 (F := Ideal) V c 1 t : Vec Ideal S6x128 .f32) = (V c (Pipeline.arrRef spec1 1) : S6x128.Idx → Elt Ideal .f32) := by
  obtain ⟨-, -, e0, e1, -⟩ := idx1 t
  funext y
  unfold iblk1
  rw [View.read_apply]
  refine congrArg (V c (Pipeline.arrRef spec1 1)) ?_
  funext a; apply Fin.ext
  match a with
  | ⟨0, _⟩ => show win1_1.index t (0 : Fin 2) * 6 + 1 * (y 0).val = (y 0).val; omega
  | ⟨1, _⟩ => show win1_1.index t (1 : Fin 2) * 128 + 1 * (y 1).val = (y 1).val; omega

/-- The bias window's block at any point is the whole bias row. -/
theorem bblk1 (c : Dev nD) (t : Fin cfg1.N) :
    (iblk1 (F := Ideal) V c 2 t : Vec Ideal S1x128 .f32) = (V c (Pipeline.arrRef spec1 2) : S1x128.Idx → Elt Ideal .f32) := by
  obtain ⟨-, -, -, -, e0, e1, -⟩ := idx1 t
  funext y
  unfold iblk1
  rw [View.read_apply]
  refine congrArg (V c (Pipeline.arrRef spec1 2)) ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The left operand's block at point t, at (p, k), is the array at (t·10000 + p, k). -/
theorem xblk1 (c : Dev nD) (t : Fin cfg1.N) (p : Fin 10000) (r : Fin 600000) (k : Fin 6) (h : r.val = t.val * 10000 + p.val) :
    (iblk1 (F := Ideal) V c 0 t : Vec Ideal S10000x6 .f32) (ix2 p k) = (V c (Pipeline.arrRef spec1 0) : S600000x6.Idx → Elt Ideal .f32) (ix2 r k) := by
  obtain ⟨e0, e1, -⟩ := idx1 t
  unfold iblk1
  rw [View.read_apply]
  refine congrArg (V c (Pipeline.arrRef spec1 0)) ?_
  funext a; apply Fin.ext
  match a with
  | ⟨0, _⟩ => show win1_0.index t (0 : Fin 2) * 10000 + 1 * p.val = r.val; omega
  | ⟨1, _⟩ => show win1_0.index t (1 : Fin 2) * 6 + 1 * k.val = k.val; omega

/-- What point t writes back is block t of x·W + b of the whole arrays. -/
theorem flushed1_eq (c : Dev nD) (t : Fin cfg1.N) :
    (dat1 (F := Ideal) V c).flushed 3 t = ((cfg1.win 3).blk t).view.read (Elt Ideal)
      (Cert.Spec.linRow (V c (Pipeline.arrRef spec1 0) : S600000x6.Idx → Elt Ideal .f32)
        (V c (Pipeline.arrRef spec1 1) : S6x128.Idx → Elt Ideal .f32) (V c (Pipeline.arrRef spec1 2) : S1x128.Idx → Elt Ideal .f32)) := by
  show (cfg1.win 3).cut (grid1.coords t) ((dat1 V c).after 3 t) = _
  rw [after1_3]
  unfold out1_3
  rw [View.canon_unit_zero zeroOffsets]
  simp only [View.ld_unit_zero (S := S10000x6) zeroOffsets, View.ld_unit_zero (S := S6x128) zeroOffsets, View.ld_unit_zero (S := S1x128) zeroOffsets]
  rw [wblk1, bblk1]
  obtain ⟨-, -, -, -, -, -, e0, e1⟩ := idx1 t
  funext j
  refine tile1_apply _ _ _ _ t.val (fun p r k h => xblk1 V c t p r k h) j (((cfg1.win 3).blk t).view.emb j) ?_ ?_
  · show win1_3.index t (0 : Fin 2) * 10000 + 1 * (j 0).val = t.val * 10000 + (j 0).val; omega
  · show win1_3.index t (1 : Fin 2) * 128 + 1 * (j 1).val = (j 1).val; omega

/-- An entry of the output array is in point t's block iff each coordinate is in the block's range on its axis. -/
theorem mem_blk1 (t : Fin cfg1.N) (i : S600000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v7).slice (win1_3.rect t)).set ↔ _
  rw [View.set_slice_whole, Rect.mem_set_unit]
  exact Iff.rfl

/-- Every entry is in some point's block: row r is in block r / 10000. -/
theorem cover1 (i : S600000x128.Idx) : ∃ t : Fin cfg1.N, (cfg1.win 3).flush t = true ∧ i ∈ ((cfg1.win 3).blk t).view.set := by
  have hi0 : (i 0).val < 600000 := (i 0).isLt
  have hi1 : (i 1).val < 128 := (i 1).isLt
  have hN : cfg1.N = 60 := N_1
  obtain ⟨t, ht⟩ : ∃ t : Fin cfg1.N, t.val = (i 0).val / 10000 := ⟨⟨(i 0).val / 10000, by rw [hN]; omega⟩, rfl⟩
  obtain ⟨-, -, -, -, -, -, e0, e1⟩ := idx1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after region 1 is x·W + b of the three operand arrays as the region finds them. -/
theorem final1 (c : Dev nD) :
    (dat1 (F := Ideal) V c).arrAt 3 cfg1.N = Cert.Spec.linRow (V c (Pipeline.arrRef spec1 0) : S600000x6.Idx → Elt Ideal .f32)
        (V c (Pipeline.arrRef spec1 1) : S6x128.Idx → Elt Ideal .f32) (V c (Pipeline.arrRef spec1 2) : S1x128.Idx → Elt Ideal .f32) :=
  (dat1 V c).arrAt_eq_of_cover 3 _ (fun t _ => flushed1_eq V c t) cover1

end Cert.KernelIdeal.LinRegions

end
-- ==== Proof.LinRegion4.lean ====
/-
  Linear region 4: the output array after the region is x·W + b of the three operand arrays as the region finds
  them.  The grid has 5 points; point t reads rows t·10000 … t·10000 + 9999 of the left operand, the whole weight matrix
  and the whole bias row, and writes back the same rows of the output.  So what point t writes back is block t of
  x·W + b of the whole arrays; the 5 blocks cover the 50000 rows (row r lies in block r / 10000); hence the array.
-/
import proofs.«152577_j46067819217044_1_alg».proof.Proof.Gen.KernelIdeal.Frame
import proofs.«152577_j46067819217044_1_alg».proof.Proof.Spec
import proofs.«152577_j46067819217044_1_alg».proof.Proof.LinPayload
import Idealize.ShloMosaic.Lib.Pipeline.Value
import Idealize.ShloMosaic.Lib.Tactic

noncomputable section

namespace Cert.KernelIdeal.LinRegions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the grid: the left operand's and the output's blocks move down with the point, the weight
    matrix's and the bias row's stay at the origin. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The weight window's block at any point is the whole weight matrix. -/
theorem wblk4 (c : Dev nD) (t : Fin cfg4.N) :
    (iblk4 (F := Ideal) V c 1 t : Vec Ideal S128x128 .f32) = (V c (Pipeline.arrRef spec4 1) : S128x128.Idx → Elt Ideal .f32) := by
  obtain ⟨-, -, e0, e1, -⟩ := idx4 t
  funext y
  unfold iblk4
  rw [View.read_apply]
  refine congrArg (V c (Pipeline.arrRef spec4 1)) ?_
  funext a; apply Fin.ext
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- The bias window's block at any point is the whole bias row. -/
theorem bblk4 (c : Dev nD) (t : Fin cfg4.N) :
    (iblk4 (F := Ideal) V c 2 t : Vec Ideal S1x128 .f32) = (V c (Pipeline.arrRef spec4 2) : S1x128.Idx → Elt Ideal .f32) := by
  obtain ⟨-, -, -, -, e0, e1, -⟩ := idx4 t
  funext y
  unfold iblk4
  rw [View.read_apply]
  refine congrArg (V c (Pipeline.arrRef spec4 2)) ?_
  funext a; apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The left operand's block at point t, at (p, k), is the array at (t·10000 + p, k). -/
theorem xblk4 (c : Dev nD) (t : Fin cfg4.N) (p : Fin 10000) (r : Fin 50000) (k : Fin 128) (h : r.val = t.val * 10000 + p.val) :
    (iblk4 (F := Ideal) V c 0 t : Vec Ideal S10000x128 .f32) (ix2 p k) = (V c (Pipeline.arrRef spec4 0) : S50000x128.Idx → Elt Ideal .f32) (ix2 r k) := by
  obtain ⟨e0, e1, -⟩ := idx4 t
  unfold iblk4
  rw [View.read_apply]
  refine congrArg (V c (Pipeline.arrRef spec4 0)) ?_
  funext a; apply Fin.ext
  match a with
  | ⟨0, _⟩ => show win4_0.index t (0 : Fin 2) * 10000 + 1 * p.val = r.val; omega
  | ⟨1, _⟩ => show win4_0.index t (1 : Fin 2) * 128 + 1 * k.val = k.val; omega

/-- What point t writes back is block t of x·W + b of the whole arrays. -/
theorem flushed4_eq (c : Dev nD) (t : Fin cfg4.N) :
    (dat4 (F := Ideal) V c).flushed 3 t = ((cfg4.win 3).blk t).view.read (Elt Ideal)
      (Cert.Spec.linRow (V c (Pipeline.arrRef spec4 0) : S50000x128.Idx → Elt Ideal .f32)
        (V c (Pipeline.arrRef spec4 1) : S128x128.Idx → Elt Ideal .f32) (V c (Pipeline.arrRef spec4 2) : S1x128.Idx → Elt Ideal .f32)) := by
  show (cfg4.win 3).cut (grid4.coords t) ((dat4 V c).after 3 t) = _
  rw [after4_3]
  unfold out4_3
  rw [View.canon_unit_zero zeroOffsets]
  simp only [View.ld_unit_zero (S := S10000x128) zeroOffsets, View.ld_unit_zero (S := S128x128) zeroOffsets, View.ld_unit_zero (S := S1x128) zeroOffsets]
  rw [wblk4, bblk4]
  obtain ⟨-, -, -, -, -, -, e0, e1⟩ := idx4 t
  funext j
  refine tile4_apply _ _ _ _ t.val (fun p r k h => xblk4 V c t p r k h) j (((cfg4.win 3).blk t).view.emb j) ?_ ?_
  · show win4_3.index t (0 : Fin 2) * 10000 + 1 * (j 0).val = t.val * 10000 + (j 0).val; omega
  · show win4_3.index t (1 : Fin 2) * 128 + 1 * (j 1).val = (j 1).val; omega

/-- An entry of the output array is in point t's block iff each coordinate is in the block's range on its axis. -/
theorem mem_blk4 (t : Fin cfg4.N) (i : S50000x128.Idx) :
    i ∈ ((cfg4.win 3).blk t).view.set ↔ ∀ a : Fin 2, win4_3.index t a * S10000x128.size a ≤ (i a).val ∧ (i a).val < win4_3.index t a * S10000x128.size a + S10000x128.size a := by
  show i ∈ ((View.whole main_v34).slice (win4_3.rect t)).set ↔ _
  rw [View.set_slice_whole, Rect.mem_set_unit]
  exact Iff.rfl

/-- Every entry is in some point's block: row r is in block r / 10000. -/
theorem cover4 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 5 := N_4
  obtain ⟨t, ht⟩ : ∃ t : Fin cfg4.N, t.val = (i 0).val / 10000 := ⟨⟨(i 0).val / 10000, by rw [hN]; omega⟩, rfl⟩
  obtain ⟨-, -, -, -, -, -, e0, e1⟩ := idx4 t
  refine ⟨t, flush4_3 t, ?_⟩
  rw [mem_blk4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 128 ≤ (i 1).val ∧ (i 1).val < win4_3.index t (1 : Fin 2) * 128 + 128; omega

/-- The output array after region 4 is x·W + b of the three operand arrays as the region finds them. -/
theorem final4 (c : Dev nD) :
    (dat4 (F := Ideal) V c).arrAt 3 cfg4.N = Cert.Spec.linRow (V c (Pipeline.arrRef spec4 0) : S50000x128.Idx → Elt Ideal .f32)
        (V c (Pipeline.arrRef spec4 1) : S128x128.Idx → Elt Ideal .f32) (V c (Pipeline.arrRef spec4 2) : S1x128.Idx → Elt Ideal .f32) :=
  (dat4 V c).arrAt_eq_of_cover 3 _ (fun t _ => flushed4_eq V c t) cover4

end Cert.KernelIdeal.LinRegions

end
-- ==== Proof.LinRegion5.lean ====
/-
  Linear region 5: the output array after the region is x·W + b of the three operand arrays as the region finds
  them.  The grid has 60 points; point t reads rows t·10000 … t·10000 + 9999 of the left operand, the whole weight matrix
  and the whole bias row, and writes back the same rows of the output.  So what point t writes back is block t of
  x·W + b of the whole arrays; the 60 blocks cover the 600000 rows (row r lies in block r / 10000); hence the array.
-/
import proofs.«152577_j46067819217044_1_alg».proof.Proof.Gen.KernelIdeal.Frame
import proofs.«152577_j46067819217044_1_alg».proof.Proof.Spec
import proofs.«152577_j46067819217044_1_alg».proof.Proof.LinPayload
import Idealize.ShloMosaic.Lib.Pipeline.Value
import Idealize.ShloMosaic.Lib.Tactic

noncomputable section

namespace Cert.KernelIdeal.LinRegions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the grid: the left operand's and the output's blocks move down with the point, the weight
    matrix's and the bias row's stay at the origin. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The weight window's block at any point is the whole weight matrix. -/
theorem wblk5 (c : Dev nD) (t : Fin cfg5.N) :
    (iblk5 (F := Ideal) V c 1 t : Vec Ideal S6x128 .f32) = (V c (Pipeline.arrRef spec5 1) : S6x128.Idx → Elt Ideal .f32) := by
  obtain ⟨-, -, e0, e1, -⟩ := idx5 t
  funext y
  unfold iblk5
  rw [View.read_apply]
  refine congrArg (V c (Pipeline.arrRef spec5 1)) ?_
  funext a; apply Fin.ext
  match a with
  | ⟨0, _⟩ => show win5_1.index t (0 : Fin 2) * 6 + 1 * (y 0).val = (y 0).val; omega
  | ⟨1, _⟩ => show win5_1.index t (1 : Fin 2) * 128 + 1 * (y 1).val = (y 1).val; omega

/-- The bias window's block at any point is the whole bias row. -/
theorem bblk5 (c : Dev nD) (t : Fin cfg5.N) :
    (iblk5 (F := Ideal) V c 2 t : Vec Ideal S1x128 .f32) = (V c (Pipeline.arrRef spec5 2) : S1x128.Idx → Elt Ideal .f32) := by
  obtain ⟨-, -, -, -, e0, e1, -⟩ := idx5 t
  funext y
  unfold iblk5
  rw [View.read_apply]
  refine congrArg (V c (Pipeline.arrRef spec5 2)) ?_
  funext a; apply Fin.ext
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The left operand's block at point t, at (p, k), is the array at (t·10000 + p, k). -/
theorem xblk5 (c : Dev nD) (t : Fin cfg5.N) (p : Fin 10000) (r : Fin 600000) (k : Fin 6) (h : r.val = t.val * 10000 + p.val) :
    (iblk5 (F := Ideal) V c 0 t : Vec Ideal S10000x6 .f32) (ix2 p k) = (V c (Pipeline.arrRef spec5 0) : S600000x6.Idx → Elt Ideal .f32) (ix2 r k) := by
  obtain ⟨e0, e1, -⟩ := idx5 t
  unfold iblk5
  rw [View.read_apply]
  refine congrArg (V c (Pipeline.arrRef spec5 0)) ?_
  funext a; apply Fin.ext
  match a with
  | ⟨0, _⟩ => show win5_0.index t (0 : Fin 2) * 10000 + 1 * p.val = r.val; omega
  | ⟨1, _⟩ => show win5_0.index t (1 : Fin 2) * 6 + 1 * k.val = k.val; omega

/-- What point t writes back is block t of x·W + b of the whole arrays. -/
theorem flushed5_eq (c : Dev nD) (t : Fin cfg5.N) :
    (dat5 (F := Ideal) V c).flushed 3 t = ((cfg5.win 3).blk t).view.read (Elt Ideal)
      (Cert.Spec.linRow (V c (Pipeline.arrRef spec5 0) : S600000x6.Idx → Elt Ideal .f32)
        (V c (Pipeline.arrRef spec5 1) : S6x128.Idx → Elt Ideal .f32) (V c (Pipeline.arrRef spec5 2) : S1x128.Idx → Elt Ideal .f32)) := by
  show (cfg5.win 3).cut (grid5.coords t) ((dat5 V c).after 3 t) = _
  rw [after5_3]
  unfold out5_3
  rw [View.canon_unit_zero zeroOffsets]
  simp only [View.ld_unit_zero (S := S10000x6) zeroOffsets, View.ld_unit_zero (S := S6x128) zeroOffsets, View.ld_unit_zero (S := S1x128) zeroOffsets]
  rw [wblk5, bblk5]
  obtain ⟨-, -, -, -, -, -, e0, e1⟩ := idx5 t
  funext j
  refine tile5_apply _ _ _ _ t.val (fun p r k h => xblk5 V c t p r k h) j (((cfg5.win 3).blk t).view.emb j) ?_ ?_
  · show win5_3.index t (0 : Fin 2) * 10000 + 1 * (j 0).val = t.val * 10000 + (j 0).val; omega
  · show win5_3.index t (1 : Fin 2) * 128 + 1 * (j 1).val = (j 1).val; omega

/-- An entry of the output array is in point t's block iff each coordinate is in the block's range on its axis. -/
theorem mem_blk5 (t : Fin cfg5.N) (i : S600000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v36).slice (win5_3.rect t)).set ↔ _
  rw [View.set_slice_whole, Rect.mem_set_unit]
  exact Iff.rfl

/-- Every entry is in some point's block: row r is in block r / 10000. -/
theorem cover5 (i : S600000x128.Idx) : ∃ t : Fin cfg5.N, (cfg5.win 3).flush t = true ∧ i ∈ ((cfg5.win 3).blk t).view.set := by
  have hi0 : (i 0).val < 600000 := (i 0).isLt
  have hi1 : (i 1).val < 128 := (i 1).isLt
  have hN : cfg5.N = 60 := N_5
  obtain ⟨t, ht⟩ : ∃ t : Fin cfg5.N, t.val = (i 0).val / 10000 := ⟨⟨(i 0).val / 10000, by rw [hN]; omega⟩, rfl⟩
  obtain ⟨-, -, -, -, -, -, e0, e1⟩ := idx5 t
  refine ⟨t, flush5_3 t, ?_⟩
  rw [mem_blk5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 128 ≤ (i 1).val ∧ (i 1).val < win5_3.index t (1 : Fin 2) * 128 + 128; omega

/-- The output array after region 5 is x·W + b of the three operand arrays as the region finds them. -/
theorem final5 (c : Dev nD) :
    (dat5 (F := Ideal) V c).arrAt 3 cfg5.N = Cert.Spec.linRow (V c (Pipeline.arrRef spec5 0) : S600000x6.Idx → Elt Ideal .f32)
        (V c (Pipeline.arrRef spec5 1) : S6x128.Idx → Elt Ideal .f32) (V c (Pipeline.arrRef spec5 2) : S1x128.Idx → Elt Ideal .f32) :=
  (dat5 V c).arrAt_eq_of_cover 3 _ (fun t _ => flushed5_eq V c t) cover5

end Cert.KernelIdeal.LinRegions

end
-- ==== Proof.LinRegion8.lean ====
/-
  Linear region 8: the output array after the region is x·W + b of the three operand arrays as the region finds
  them.  The grid has 5 points; point t reads rows t·10000 … t·10000 + 9999 of the left operand, the whole weight matrix
  and the whole bias row, and writes back the same rows of the output.  So what point t writes back is block t of
  x·W + b of the whole arrays; the 5 blocks cover the 50000 rows (row r lies in block r / 10000); hence the array.
-/
import proofs.«152577_j46067819217044_1_alg».proof.Proof.Gen.KernelIdeal.Frame
import proofs.«152577_j46067819217044_1_alg».proof.Proof.Spec
import proofs.«152577_j46067819217044_1_alg».proof.Proof.LinPayload
import Idealize.ShloMosaic.Lib.Pipeline.Value
import Idealize.ShloMosaic.Lib.Tactic

noncomputable section

namespace Cert.KernelIdeal.LinRegions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the grid: the left operand's and the output's blocks move down with the point, the weight
    matrix's and the bias row's stay at the origin. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The weight window's block at any point is the whole weight matrix. -/
theorem wblk8 (c : Dev nD) (t : Fin cfg8.N) :
    (iblk8 (F := Ideal) V c 1 t : Vec Ideal S128x128 .f32) = (V c (Pipeline.arrRef spec8 1) : S128x128.Idx → Elt Ideal .f32) := by
  obtain ⟨-, -, e0, e1, -⟩ := idx8 t
  funext y
  unfold iblk8
  rw [View.read_apply]
  refine congrArg (V c (Pipeline.arrRef spec8 1)) ?_
  funext a; apply Fin.ext
  match a with
  | ⟨0, _⟩ => show win8_1.index t (0 : Fin 2) * 128 + 1 * (y 0).val = (y 0).val; omega
  | ⟨1, _⟩ => show win8_1.index t (1 : Fin 2) * 128 + 1 * (y 1).val = (y 1).val; omega

/-- The bias window's block at any point is the whole bias row. -/
theorem bblk8 (c : Dev nD) (t : Fin cfg8.N) :
    (iblk8 (F := Ideal) V c 2 t : Vec Ideal S1x128 .f32) = (V c (Pipeline.arrRef spec8 2) : S1x128.Idx → Elt Ideal .f32) := by
  obtain ⟨-, -, -, -, e0, e1, -⟩ := idx8 t
  funext y
  unfold iblk8
  rw [View.read_apply]
  refine congrArg (V c (Pipeline.arrRef spec8 2)) ?_
  funext a; apply Fin.ext
  match a with
  | ⟨0, _⟩ => show win8_2.index t (0 : Fin 2) * 1 + 1 * (y 0).val = (y 0).val; omega
  | ⟨1, _⟩ => show win8_2.index t (1 : Fin 2) * 128 + 1 * (y 1).val = (y 1).val; omega

/-- The left operand's block at point t, at (p, k), is the array at (t·10000 + p, k). -/
theorem xblk8 (c : Dev nD) (t : Fin cfg8.N) (p : Fin 10000) (r : Fin 50000) (k : Fin 128) (h : r.val = t.val * 10000 + p.val) :
    (iblk8 (F := Ideal) V c 0 t : Vec Ideal S10000x128 .f32) (ix2 p k) = (V c (Pipeline.arrRef spec8 0) : S50000x128.Idx → Elt Ideal .f32) (ix2 r k) := by
  obtain ⟨e0, e1, -⟩ := idx8 t
  unfold iblk8
  rw [View.read_apply]
  refine congrArg (V c (Pipeline.arrRef spec8 0)) ?_
  funext a; apply Fin.ext
  match a with
  | ⟨0, _⟩ => show win8_0.index t (0 : Fin 2) * 10000 + 1 * p.val = r.val; omega
  | ⟨1, _⟩ => show win8_0.index t (1 : Fin 2) * 128 + 1 * k.val = k.val; omega

/-- What point t writes back is block t of x·W + b of the whole arrays. -/
theorem flushed8_eq (c : Dev nD) (t : Fin cfg8.N) :
    (dat8 (F := Ideal) V c).flushed 3 t = ((cfg8.win 3).blk t).view.read (Elt Ideal)
      (Cert.Spec.linRow (V c (Pipeline.arrRef spec8 0) : S50000x128.Idx → Elt Ideal .f32)
        (V c (Pipeline.arrRef spec8 1) : S128x128.Idx → Elt Ideal .f32) (V c (Pipeline.arrRef spec8 2) : S1x128.Idx → Elt Ideal .f32)) := by
  show (cfg8.win 3).cut (grid8.coords t) ((dat8 V c).after 3 t) = _
  rw [after8_3]
  unfold out8_3
  rw [View.canon_unit_zero zeroOffsets]
  simp only [View.ld_unit_zero (S := S10000x128) zeroOffsets, View.ld_unit_zero (S := S128x128) zeroOffsets, View.ld_unit_zero (S := S1x128) zeroOffsets]
  rw [wblk8, bblk8]
  obtain ⟨-, -, -, -, -, -, e0, e1⟩ := idx8 t
  funext j
  refine tile8_apply _ _ _ _ t.val (fun p r k h => xblk8 V c t p r k h) j (((cfg8.win 3).blk t).view.emb j) ?_ ?_
  · show win8_3.index t (0 : Fin 2) * 10000 + 1 * (j 0).val = t.val * 10000 + (j 0).val; omega
  · show win8_3.index t (1 : Fin 2) * 128 + 1 * (j 1).val = (j 1).val; omega

/-- An entry of the output array is in point t's block iff each coordinate is in the block's range on its axis. -/
theorem mem_blk8 (t : Fin cfg8.N) (i : S50000x128.Idx) :
    i ∈ ((cfg8.win 3).blk t).view.set ↔ ∀ a : Fin 2, win8_3.index t a * S10000x128.size a ≤ (i a).val ∧ (i a).val < win8_3.index t a * S10000x128.size a + S10000x128.size a := by
  show i ∈ ((View.whole main_v63).slice (win8_3.rect t)).set ↔ _
  rw [View.set_slice_whole, Rect.mem_set_unit]
  exact Iff.rfl

/-- Every entry is in some point's block: row r is in block r / 10000. -/
theorem cover8 (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  have hN : cfg8.N = 5 := N_8
  obtain ⟨t, ht⟩ : ∃ t : Fin cfg8.N, t.val = (i 0).val / 10000 := ⟨⟨(i 0).val / 10000, by rw [hN]; omega⟩, rfl⟩
  obtain ⟨-, -, -, -, -, -, e0, e1⟩ := idx8 t
  refine ⟨t, flush8_3 t, ?_⟩
  rw [mem_blk8]
  intro a
  match a with
  | ⟨0, _⟩ => show win8_3.index t (0 : Fin 2) * 10000 ≤ (i 0).val ∧ (i 0).val < win8_3.index t (0 : Fin 2) * 10000 + 10000; omega
  | ⟨1, _⟩ => show win8_3.index t (1 : Fin 2) * 128 ≤ (i 1).val ∧ (i 1).val < win8_3.index t (1 : Fin 2) * 128 + 128; omega

/-- The output array after region 8 is x·W + b of the three operand arrays as the region finds them. -/
theorem final8 (c : Dev nD) :
    (dat8 (F := Ideal) V c).arrAt 3 cfg8.N = Cert.Spec.linRow (V c (Pipeline.arrRef spec8 0) : S50000x128.Idx → Elt Ideal .f32)
        (V c (Pipeline.arrRef spec8 1) : S128x128.Idx → Elt Ideal .f32) (V c (Pipeline.arrRef spec8 2) : S1x128.Idx → Elt Ideal .f32) :=
  (dat8 V c).arrAt_eq_of_cover 3 _ (fun t _ => flushed8_eq V c t) cover8

end Cert.KernelIdeal.LinRegions

end
-- ==== Proof.LinRegion9.lean ====
/-
  Linear region 9: the output array after the region is x·W + b of the three operand arrays as the region finds
  them.  The grid has 60 points; point t reads rows t·10000 … t·10000 + 9999 of the left operand, the whole weight matrix
  and the whole bias row, and writes back the same rows of the output.  So what point t writes back is block t of
  x·W + b of the whole arrays; the 60 blocks cover the 600000 rows (row r lies in block r / 10000); hence the array.
-/
import proofs.«152577_j46067819217044_1_alg».proof.Proof.Gen.KernelIdeal.Frame
import proofs.«152577_j46067819217044_1_alg».proof.Proof.Spec
import proofs.«152577_j46067819217044_1_alg».proof.Proof.LinPayload
import Idealize.ShloMosaic.Lib.Pipeline.Value
import Idealize.ShloMosaic.Lib.Tactic

noncomputable section

namespace Cert.KernelIdeal.LinRegions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the grid: the left operand's and the output's blocks move down with the point, the weight
    matrix's and the bias row's stay at the origin. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The weight window's block at any point is the whole weight matrix. -/
theorem wblk9 (c : Dev nD) (t : Fin cfg9.N) :
    (iblk9 (F := Ideal) V c 1 t : Vec Ideal S6x128 .f32) = (V c (Pipeline.arrRef spec9 1) : S6x128.Idx → Elt Ideal .f32) := by
  obtain ⟨-, -, e0, e1, -⟩ := idx9 t
  funext y
  unfold iblk9
  rw [View.read_apply]
  refine congrArg (V c (Pipeline.arrRef spec9 1)) ?_
  funext a; apply Fin.ext
  match a with
  | ⟨0, _⟩ => show win9_1.index t (0 : Fin 2) * 6 + 1 * (y 0).val = (y 0).val; omega
  | ⟨1, _⟩ => show win9_1.index t (1 : Fin 2) * 128 + 1 * (y 1).val = (y 1).val; omega

/-- The bias window's block at any point is the whole bias row. -/
theorem bblk9 (c : Dev nD) (t : Fin cfg9.N) :
    (iblk9 (F := Ideal) V c 2 t : Vec Ideal S1x128 .f32) = (V c (Pipeline.arrRef spec9 2) : S1x128.Idx → Elt Ideal .f32) := by
  obtain ⟨-, -, -, -, e0, e1, -⟩ := idx9 t
  funext y
  unfold iblk9
  rw [View.read_apply]
  refine congrArg (V c (Pipeline.arrRef spec9 2)) ?_
  funext a; apply Fin.ext
  match a with
  | ⟨0, _⟩ => show win9_2.index t (0 : Fin 2) * 1 + 1 * (y 0).val = (y 0).val; omega
  | ⟨1, _⟩ => show win9_2.index t (1 : Fin 2) * 128 + 1 * (y 1).val = (y 1).val; omega

/-- The left operand's block at point t, at (p, k), is the array at (t·10000 + p, k). -/
theorem xblk9 (c : Dev nD) (t : Fin cfg9.N) (p : Fin 10000) (r : Fin 600000) (k : Fin 6) (h : r.val = t.val * 10000 + p.val) :
    (iblk9 (F := Ideal) V c 0 t : Vec Ideal S10000x6 .f32) (ix2 p k) = (V c (Pipeline.arrRef spec9 0) : S600000x6.Idx → Elt Ideal .f32) (ix2 r k) := by
  obtain ⟨e0, e1, -⟩ := idx9 t
  unfold iblk9
  rw [View.read_apply]
  refine congrArg (V c (Pipeline.arrRef spec9 0)) ?_
  funext a; apply Fin.ext
  match a with
  | ⟨0, _⟩ => show win9_0.index t (0 : Fin 2) * 10000 + 1 * p.val = r.val; omega
  | ⟨1, _⟩ => show win9_0.index t (1 : Fin 2) * 6 + 1 * k.val = k.val; omega

/-- What point t writes back is block t of x·W + b of the whole arrays. -/
theorem flushed9_eq (c : Dev nD) (t : Fin cfg9.N) :
    (dat9 (F := Ideal) V c).flushed 3 t = ((cfg9.win 3).blk t).view.read (Elt Ideal)
      (Cert.Spec.linRow (V c (Pipeline.arrRef spec9 0) : S600000x6.Idx → Elt Ideal .f32)
        (V c (Pipeline.arrRef spec9 1) : S6x128.Idx → Elt Ideal .f32) (V c (Pipeline.arrRef spec9 2) : S1x128.Idx → Elt Ideal .f32)) := by
  show (cfg9.win 3).cut (grid9.coords t) ((dat9 V c).after 3 t) = _
  rw [after9_3]
  unfold out9_3
  rw [View.canon_unit_zero zeroOffsets]
  simp only [View.ld_unit_zero (S := S10000x6) zeroOffsets, View.ld_unit_zero (S := S6x128) zeroOffsets, View.ld_unit_zero (S := S1x128) zeroOffsets]
  rw [wblk9, bblk9]
  obtain ⟨-, -, -, -, -, -, e0, e1⟩ := idx9 t
  funext j
  refine tile9_apply _ _ _ _ t.val (fun p r k h => xblk9 V c t p r k h) j (((cfg9.win 3).blk t).view.emb j) ?_ ?_
  · show win9_3.index t (0 : Fin 2) * 10000 + 1 * (j 0).val = t.val * 10000 + (j 0).val; omega
  · show win9_3.index t (1 : Fin 2) * 128 + 1 * (j 1).val = (j 1).val; omega

/-- An entry of the output array is in point t's block iff each coordinate is in the block's range on its axis. -/
theorem mem_blk9 (t : Fin cfg9.N) (i : S600000x128.Idx) :
    i ∈ ((cfg9.win 3).blk t).view.set ↔ ∀ a : Fin 2, win9_3.index t a * S10000x128.size a ≤ (i a).val ∧ (i a).val < win9_3.index t a * S10000x128.size a + S10000x128.size a := by
  show i ∈ ((View.whole main_v65).slice (win9_3.rect t)).set ↔ _
  rw [View.set_slice_whole, Rect.mem_set_unit]
  exact Iff.rfl

/-- Every entry is in some point's block: row r is in block r / 10000. -/
theorem cover9 (i : S600000x128.Idx) : ∃ t : Fin cfg9.N, (cfg9.win 3).flush t = true ∧ i ∈ ((cfg9.win 3).blk t).view.set := by
  have hi0 : (i 0).val < 600000 := (i 0).isLt
  have hi1 : (i 1).val < 128 := (i 1).isLt
  have hN : cfg9.N = 60 := N_9
  obtain ⟨t, ht⟩ : ∃ t : Fin cfg9.N, t.val = (i 0).val / 10000 := ⟨⟨(i 0).val / 10000, by rw [hN]; omega⟩, rfl⟩
  obtain ⟨-, -, -, -, -, -, e0, e1⟩ := idx9 t
  refine ⟨t, flush9_3 t, ?_⟩
  rw [mem_blk9]
  intro a
  match a with
  | ⟨0, _⟩ => show win9_3.index t (0 : Fin 2) * 10000 ≤ (i 0).val ∧ (i 0).val < win9_3.index t (0 : Fin 2) * 10000 + 10000; omega
  | ⟨1, _⟩ => show win9_3.index t (1 : Fin 2) * 128 ≤ (i 1).val ∧ (i 1).val < win9_3.index t (1 : Fin 2) * 128 + 128; omega

/-- The output array after region 9 is x·W + b of the three operand arrays as the region finds them. -/
theorem final9 (c : Dev nD) :
    (dat9 (F := Ideal) V c).arrAt 3 cfg9.N = Cert.Spec.linRow (V c (Pipeline.arrRef spec9 0) : S600000x6.Idx → Elt Ideal .f32)
        (V c (Pipeline.arrRef spec9 1) : S6x128.Idx → Elt Ideal .f32) (V c (Pipeline.arrRef spec9 2) : S1x128.Idx → Elt Ideal .f32) :=
  (dat9 V c).arrAt_eq_of_cover 3 _ (fun t _ => flushed9_eq V c t) cover9

end Cert.KernelIdeal.LinRegions

end
-- ==== Proof.LinRegions.lean ====
/-
  The six linear regions together: after region K (K = 0, 1, 4, 5, 8, 9) its output array is x·W + b of the three
  operand arrays as the region finds them (final0, final1, final4, final5, final8, final9).
-/
import proofs.«152577_j46067819217044_1_alg».proof.Proof.LinRegion0
import proofs.«152577_j46067819217044_1_alg».proof.Proof.LinRegion1
import proofs.«152577_j46067819217044_1_alg».proof.Proof.LinRegion4
import proofs.«152577_j46067819217044_1_alg».proof.Proof.LinRegion5
import proofs.«152577_j46067819217044_1_alg».proof.Proof.LinRegion8
import proofs.«152577_j46067819217044_1_alg».proof.Proof.LinRegion9
-- ==== Proof.StatPayload.lean ====
/-
  The relu-and-column-statistics body: what each of its two control cases leaves in the three output buffers,
  and those values at an index.

  The body reads one tile of 10000 rows.  It stores the tile's relu in the relu output's buffer, and adds the
  tile's column sums (of the relu, and of its square) to the two one-row accumulators; at the first tile it first
  stores the zero row in both accumulators.  At an index: the relu is the maximum with zero, and a column sum is
  a sum over the tile's 10000 rows.  The three statistics kernels of the network are the same text.
-/
import proofs.«152577_j46067819217044_1_alg».proof.Proof.Gen.KernelIdeal.Frame
import proofs.«152577_j46067819217044_1_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.StatRegions

open Idealize.ShloMosaic Idealize.ShloMosaic.TcCoe Idealize.ShloMosaic.ValueIdx Idealize.ShloMosaic.Tactic
open Idealize.SL.Sem
open Cert.KernelIdeal Cert.KernelIdeal.Gen

theorem hz : (![0, 0] : Fin 2 → Nat) = fun _ => 0 := funext fun a => by fin_cases a <;> rfl

/-! ## The payloads at an index, on the extended reals -/

/-- The zero row is zero in every column. -/
theorem k2_pay1_apply (q : Fin 128) : k2_pay1 (F := Ideal) (ix2 (0 : Fin 1) q) = 0 := Ideal.ofBits_zero_f32
theorem k2_pay2_apply (q : Fin 128) : k2_pay2 (F := Ideal) (ix2 (0 : Fin 1) q) = 0 := Ideal.ofBits_zero_f32

/-- The relu of the tile at row `r`, column `q`. -/
theorem k2_pay3_apply (v3 : Vec Ideal S10000x128 .f32) (r : Fin 10000) (q : Fin 128) :
    k2_pay3 (F := Ideal) v3 (ix2 r q) = max (v3 (ix2 r q)) 0 := by
  unfold k2_pay3
  simp only [shapeCast_self]
  exact congrArg (max (v3 (ix2 r q))) Ideal.ofBits_zero_f32

/-- A sum over the rows of a tile, kept as one row: at column `q` the sum over the 10000 rows. -/
theorem colsum_apply (src : FVec Ideal S10000x128 .f32) (q : Fin 128) :
    shapeCast S1x128 (multiReduction .add [0] S128 src 0x00000000#32 reduces_S10000x128_S128 (.inl rfl) rfl)
        shapeCasts_S128_S1x128 (ix2 (0 : Fin 1) q) = ∑ r : Fin 10000, src (ix2 r q) := by
  refine (shapeCast_a_1a_apply _ shapeCasts_S128_S1x128 (0 : Fin 1) q).trans ?_
  refine (Ideal.multiReduction_add_single src 0x00000000#32 reduces_S10000x128_S128 (.inl rfl) rfl (ix1 q)).trans ?_
  refine Finset.sum_congr rfl fun r _ => congrArg src ?_
  funext c; apply Fin.ext
  match c with
  | ⟨0, _⟩ => rfl
  | ⟨1, _⟩ => rfl

/-- The sum accumulator after a tile: what it held plus the column sums of the tile's relu. -/
theorem k2_pay4_apply (v3 : Vec Ideal S10000x128 .f32) (v8 : Vec Ideal S1x128 .f32) (q : Fin 128) :
    k2_pay4 (F := Ideal) v3 v8 (ix2 (0 : Fin 1) q)
      = v8 (ix2 (0 : Fin 1) q) + ∑ r : Fin 10000, max (v3 (ix2 r q)) 0 := by
  unfold k2_pay4
  simp only [shapeCast_self]
  refine (addf_apply _ _ _).trans ?_
  refine congrArg (v8 (ix2 (0 : Fin 1) q) + ·) ?_
  refine (colsum_apply (k2_pay3 v3) q).trans ?_
  exact Finset.sum_congr rfl fun r _ => k2_pay3_apply v3 r q

/-- The sum-of-squares accumulator after a tile: what it held plus the column sums of the squared relu. -/
theorem k2_pay5_apply (v3 : Vec Ideal S10000x128 .f32) (v14 : Vec Ideal S1x128 .f32) (q : Fin 128) :
    k2_pay5 (F := Ideal) v3 v14 (ix2 (0 : Fin 1) q)
      = v14 (ix2 (0 : Fin 1) q) + ∑ r : Fin 10000, max (v3 (ix2 r q)) 0 * max (v3 (ix2 r q)) 0 := by
  unfold k2_pay5
  simp only [shapeCast_self]
  refine (addf_apply _ _ _).trans ?_
  refine congrArg (v14 (ix2 (0 : Fin 1) q) + ·) ?_
  refine (colsum_apply (mulf (k2_pay3 v3) (k2_pay3 v3)) q).trans ?_
  refine Finset.sum_congr rfl fun r _ => ?_
  refine (mulf_apply _ _ _).trans ?_
  rw [k2_pay3_apply]

/-- The second and third statistics kernels have the same payloads. -/
theorem k6_pay1_eq : @k6_pay1 Ideal _ = @k2_pay1 Ideal _ := rfl
theorem k6_pay2_eq : @k6_pay2 Ideal _ = @k2_pay2 Ideal _ := rfl
theorem k6_pay3_eq : @k6_pay3 Ideal _ = @k2_pay3 Ideal _ := rfl
theorem k6_pay4_eq : @k6_pay4 Ideal _ = @k2_pay4 Ideal _ := rfl
theorem k6_pay5_eq : @k6_pay5 Ideal _ = @k2_pay5 Ideal _ := rfl
theorem k10_pay1_eq : @k10_pay1 Ideal _ = @k2_pay1 Ideal _ := rfl
theorem k10_pay2_eq : @k10_pay2 Ideal _ = @k2_pay2 Ideal _ := rfl
theorem k10_pay3_eq : @k10_pay3 Ideal _ = @k2_pay3 Ideal _ := rfl
theorem k10_pay4_eq : @k10_pay4 Ideal _ = @k2_pay4 Ideal _ := rfl
theorem k10_pay5_eq : @k10_pay5 Ideal _ = @k2_pay5 Ideal _ := rfl

/-! ## What each control case leaves in the output buffers, as payloads of the buffers it reads -/

section Pieces
variable {F : FTy → Type} [FloatOps F]

/-! ### Region 2 -/

/-- After the first tile the relu output's buffer holds the relu of the tile. -/
theorem out2_A_1_eq (c : Dev nD) (i : grid2.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : cond2_0 i) (x0 : Vec F S10000x128 .f32) :
    out2_A_1 c i a1 h1 a2 h2 a3 h3 a4 h4 hc x0 = k2_pay3 x0 := by
  unfold out2_A_1
  rw [View.read_writes_eq_canon _ _ _ (cover2_A_1 c i a1 h1 a2 h2 a3 h3 a4 h4 hc x0)]
  unfold kernelRun2_A
  dsimp only
  sl_unfold_words
  rw [View.canon_unit_zero hz]
  simp only [View.readAt_eq_ld, h1.read_unread, View.ld_unit_zero (S := S10000x128) hz]

/-- After the first tile the sum accumulator holds the zero row plus the tile's column sums. -/
theorem out2_A_2_eq (c : Dev nD) (i : grid2.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : cond2_0 i) (x0 : Vec F S10000x128 .f32) :
    out2_A_2 c i a1 h1 a2 h2 a3 h3 a4 h4 hc x0 = k2_pay4 x0 k2_pay1 := by
  unfold out2_A_2
  rw [View.read_writes_eq_canon _ _ _ (cover2_A_2 c i a1 h1 a2 h2 a3 h3 a4 h4 hc x0)]
  unfold kernelRun2_A
  dsimp only
  sl_unfold_words
  rw [View.canon_cons_unit_zero (S := S1x128) hz, View.readCov_unit_zero (S := S1x128) _ hz]
  simp only [View.readAt_eq_ld, h1.read_unread, View.ld_unit_zero (S := S10000x128) hz]

/-- After the first tile the sum-of-squares accumulator holds the zero row plus the tile's column sums of squares. -/
theorem out2_A_3_eq (c : Dev nD) (i : grid2.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : cond2_0 i) (x0 : Vec F S10000x128 .f32) :
    out2_A_3 c i a1 h1 a2 h2 a3 h3 a4 h4 hc x0 = k2_pay5 x0 k2_pay2 := by
  unfold out2_A_3
  rw [View.read_writes_eq_canon _ _ _ (cover2_A_3 c i a1 h1 a2 h2 a3 h3 a4 h4 hc x0)]
  unfold kernelRun2_A
  dsimp only
  sl_unfold_words
  rw [View.canon_cons_unit_zero (S := S1x128) hz, View.readCov_unit_zero (S := S1x128) _ hz]
  simp only [View.readAt_eq_ld, h1.read_unread, View.ld_unit_zero (S := S10000x128) hz]

/-- After a later tile the relu output's buffer holds the relu of the tile. -/
theorem out2_B_1_eq (c : Dev nD) (i : grid2.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : ¬cond2_0 i) (x0 : Vec F S10000x128 .f32) (xo2 xo3 : Vec F S1x128 .f32) :
    out2_B_1 c i a1 h1 a2 h2 a3 h3 a4 h4 hc x0 xo2 xo3 = k2_pay3 x0 := by
  unfold out2_B_1
  rw [View.read_writes_eq_canon _ _ _ (cover2_B_1 c i a1 h1 a2 h2 a3 h3 a4 h4 hc x0 xo2 xo3)]
  unfold kernelRun2_B
  dsimp only
  sl_unfold_words
  rw [View.canon_unit_zero hz]
  simp only [View.readAt_eq_ld, h1.read_unread, View.ld_unit_zero (S := S10000x128) hz]

/-- After a later tile the sum accumulator holds what it held plus the tile's column sums. -/
theorem out2_B_2_eq (c : Dev nD) (i : grid2.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : ¬cond2_0 i) (x0 : Vec F S10000x128 .f32) (xo2 xo3 : Vec F S1x128 .f32) :
    out2_B_2 c i a1 h1 a2 h2 a3 h3 a4 h4 hc x0 xo2 xo3 = k2_pay4 x0 xo2 := by
  unfold out2_B_2
  rw [View.read_writes_eq_canon _ _ _ (cover2_B_2 c i a1 h1 a2 h2 a3 h3 a4 h4 hc x0 xo2 xo3)]
  unfold kernelRun2_B
  dsimp only
  sl_unfold_words
  rw [View.canon_unit_zero hz]
  simp only [View.readAt_eq_ld, h1.read_unread, h3.read_unread, View.ld_unit_zero (S := S10000x128) hz, View.ld_unit_zero (S := S1x128) hz]

/-- After a later tile the sum-of-squares accumulator holds what it held plus the tile's column sums of squares. -/
theorem out2_B_3_eq (c : Dev nD) (i : grid2.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : ¬cond2_0 i) (x0 : Vec F S10000x128 .f32) (xo2 xo3 : Vec F S1x128 .f32) :
    out2_B_3 c i a1 h1 a2 h2 a3 h3 a4 h4 hc x0 xo2 xo3 = k2_pay5 x0 xo3 := by
  unfold out2_B_3
  rw [View.read_writes_eq_canon _ _ _ (cover2_B_3 c i a1 h1 a2 h2 a3 h3 a4 h4 hc x0 xo2 xo3)]
  unfold kernelRun2_B
  dsimp only
  sl_unfold_words
  rw [View.canon_unit_zero hz]
  simp only [View.readAt_eq_ld, h1.read_unread, h4.read_unread, View.ld_unit_zero (S := S10000x128) hz, View.ld_unit_zero (S := S1x128) hz]

/-! ### Region 6 -/

/-- After the first tile the relu output's buffer holds the relu of the tile. -/
theorem out6_A_1_eq (c : Dev nD) (i : grid6.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : cond6_0 i) (x0 : Vec F S10000x128 .f32) :
    out6_A_1 c i a1 h1 a2 h2 a3 h3 a4 h4 hc x0 = k6_pay3 x0 := by
  unfold out6_A_1
  rw [View.read_writes_eq_canon _ _ _ (cover6_A_1 c i a1 h1 a2 h2 a3 h3 a4 h4 hc x0)]
  unfold kernelRun6_A
  dsimp only
  sl_unfold_words
  rw [View.canon_unit_zero hz]
  simp only [View.readAt_eq_ld, h1.read_unread, View.ld_unit_zero (S := S10000x128) hz]

/-- After the first tile the sum accumulator holds the zero row plus the tile's column sums. -/
theorem out6_A_2_eq (c : Dev nD) (i : grid6.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : cond6_0 i) (x0 : Vec F S10000x128 .f32) :
    out6_A_2 c i a1 h1 a2 h2 a3 h3 a4 h4 hc x0 = k6_pay4 x0 k6_pay1 := by
  unfold out6_A_2
  rw [View.read_writes_eq_canon _ _ _ (cover6_A_2 c i a1 h1 a2 h2 a3 h3 a4 h4 hc x0)]
  unfold kernelRun6_A
  dsimp only
  sl_unfold_words
  rw [View.canon_cons_unit_zero (S := S1x128) hz, View.readCov_unit_zero (S := S1x128) _ hz]
  simp only [View.readAt_eq_ld, h1.read_unread, View.ld_unit_zero (S := S10000x128) hz]

/-- After the first tile the sum-of-squares accumulator holds the zero row plus the tile's column sums of squares. -/
theorem out6_A_3_eq (c : Dev nD) (i : grid6.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : cond6_0 i) (x0 : Vec F S10000x128 .f32) :
    out6_A_3 c i a1 h1 a2 h2 a3 h3 a4 h4 hc x0 = k6_pay5 x0 k6_pay2 := by
  unfold out6_A_3
  rw [View.read_writes_eq_canon _ _ _ (cover6_A_3 c i a1 h1 a2 h2 a3 h3 a4 h4 hc x0)]
  unfold kernelRun6_A
  dsimp only
  sl_unfold_words
  rw [View.canon_cons_unit_zero (S := S1x128) hz, View.readCov_unit_zero (S := S1x128) _ hz]
  simp only [View.readAt_eq_ld, h1.read_unread, View.ld_unit_zero (S := S10000x128) hz]

/-- After a later tile the relu output's buffer holds the relu of the tile. -/
theorem out6_B_1_eq (c : Dev nD) (i : grid6.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : ¬cond6_0 i) (x0 : Vec F S10000x128 .f32) (xo2 xo3 : Vec F S1x128 .f32) :
    out6_B_1 c i a1 h1 a2 h2 a3 h3 a4 h4 hc x0 xo2 xo3 = k6_pay3 x0 := by
  unfold out6_B_1
  rw [View.read_writes_eq_canon _ _ _ (cover6_B_1 c i a1 h1 a2 h2 a3 h3 a4 h4 hc x0 xo2 xo3)]
  unfold kernelRun6_B
  dsimp only
  sl_unfold_words
  rw [View.canon_unit_zero hz]
  simp only [View.readAt_eq_ld, h1.read_unread, View.ld_unit_zero (S := S10000x128) hz]

/-- After a later tile the sum accumulator holds what it held plus the tile's column sums. -/
theorem out6_B_2_eq (c : Dev nD) (i : grid6.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : ¬cond6_0 i) (x0 : Vec F S10000x128 .f32) (xo2 xo3 : Vec F S1x128 .f32) :
    out6_B_2 c i a1 h1 a2 h2 a3 h3 a4 h4 hc x0 xo2 xo3 = k6_pay4 x0 xo2 := by
  unfold out6_B_2
  rw [View.read_writes_eq_canon _ _ _ (cover6_B_2 c i a1 h1 a2 h2 a3 h3 a4 h4 hc x0 xo2 xo3)]
  unfold kernelRun6_B
  dsimp only
  sl_unfold_words
  rw [View.canon_unit_zero hz]
  simp only [View.readAt_eq_ld, h1.read_unread, h3.read_unread, View.ld_unit_zero (S := S10000x128) hz, View.ld_unit_zero (S := S1x128) hz]

/-- After a later tile the sum-of-squares accumulator holds what it held plus the tile's column sums of squares. -/
theorem out6_B_3_eq (c : Dev nD) (i : grid6.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : ¬cond6_0 i) (x0 : Vec F S10000x128 .f32) (xo2 xo3 : Vec F S1x128 .f32) :
    out6_B_3 c i a1 h1 a2 h2 a3 h3 a4 h4 hc x0 xo2 xo3 = k6_pay5 x0 xo3 := by
  unfold out6_B_3
  rw [View.read_writes_eq_canon _ _ _ (cover6_B_3 c i a1 h1 a2 h2 a3 h3 a4 h4 hc x0 xo2 xo3)]
  unfold kernelRun6_B
  dsimp only
  sl_unfold_words
  rw [View.canon_unit_zero hz]
  simp only [View.readAt_eq_ld, h1.read_unread, h4.read_unread, View.ld_unit_zero (S := S10000x128) hz, View.ld_unit_zero (S := S1x128) hz]

/-! ### Region 10 -/

/-- After the first tile the relu output's buffer holds the relu of the tile. -/
theorem out10_A_1_eq (c : Dev nD) (i : grid10.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : cond10_0 i) (x0 : Vec F S10000x128 .f32) :
    out10_A_1 c i a1 h1 a2 h2 a3 h3 a4 h4 hc x0 = k10_pay3 x0 := by
  unfold out10_A_1
  rw [View.read_writes_eq_canon _ _ _ (cover10_A_1 c i a1 h1 a2 h2 a3 h3 a4 h4 hc x0)]
  unfold kernelRun10_A
  dsimp only
  sl_unfold_words
  rw [View.canon_unit_zero hz]
  simp only [View.readAt_eq_ld, h1.read_unread, View.ld_unit_zero (S := S10000x128) hz]

/-- After the first tile the sum accumulator holds the zero row plus the tile's column sums. -/
theorem out10_A_2_eq (c : Dev nD) (i : grid10.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : cond10_0 i) (x0 : Vec F S10000x128 .f32) :
    out10_A_2 c i a1 h1 a2 h2 a3 h3 a4 h4 hc x0 = k10_pay4 x0 k10_pay1 := by
  unfold out10_A_2
  rw [View.read_writes_eq_canon _ _ _ (cover10_A_2 c i a1 h1 a2 h2 a3 h3 a4 h4 hc x0)]
  unfold kernelRun10_A
  dsimp only
  sl_unfold_words
  rw [View.canon_cons_unit_zero (S := S1x128) hz, View.readCov_unit_zero (S := S1x128) _ hz]
  simp only [View.readAt_eq_ld, h1.read_unread, View.ld_unit_zero (S := S10000x128) hz]

/-- After the first tile the sum-of-squares accumulator holds the zero row plus the tile's column sums of squares. -/
theorem out10_A_3_eq (c : Dev nD) (i : grid10.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : cond10_0 i) (x0 : Vec F S10000x128 .f32) :
    out10_A_3 c i a1 h1 a2 h2 a3 h3 a4 h4 hc x0 = k10_pay5 x0 k10_pay2 := by
  unfold out10_A_3
  rw [View.read_writes_eq_canon _ _ _ (cover10_A_3 c i a1 h1 a2 h2 a3 h3 a4 h4 hc x0)]
  unfold kernelRun10_A
  dsimp only
  sl_unfold_words
  rw [View.canon_cons_unit_zero (S := S1x128) hz, View.readCov_unit_zero (S := S1x128) _ hz]
  simp only [View.readAt_eq_ld, h1.read_unread, View.ld_unit_zero (S := S10000x128) hz]

/-- After a later tile the relu output's buffer holds the relu of the tile. -/
theorem out10_B_1_eq (c : Dev nD) (i : grid10.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : ¬cond10_0 i) (x0 : Vec F S10000x128 .f32) (xo2 xo3 : Vec F S1x128 .f32) :
    out10_B_1 c i a1 h1 a2 h2 a3 h3 a4 h4 hc x0 xo2 xo3 = k10_pay3 x0 := by
  unfold out10_B_1
  rw [View.read_writes_eq_canon _ _ _ (cover10_B_1 c i a1 h1 a2 h2 a3 h3 a4 h4 hc x0 xo2 xo3)]
  unfold kernelRun10_B
  dsimp only
  sl_unfold_words
  rw [View.canon_unit_zero hz]
  simp only [View.readAt_eq_ld, h1.read_unread, View.ld_unit_zero (S := S10000x128) hz]

/-- After a later tile the sum accumulator holds what it held plus the tile's column sums. -/
theorem out10_B_2_eq (c : Dev nD) (i : grid10.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : ¬cond10_0 i) (x0 : Vec F S10000x128 .f32) (xo2 xo3 : Vec F S1x128 .f32) :
    out10_B_2 c i a1 h1 a2 h2 a3 h3 a4 h4 hc x0 xo2 xo3 = k10_pay4 x0 xo2 := by
  unfold out10_B_2
  rw [View.read_writes_eq_canon _ _ _ (cover10_B_2 c i a1 h1 a2 h2 a3 h3 a4 h4 hc x0 xo2 xo3)]
  unfold kernelRun10_B
  dsimp only
  sl_unfold_words
  rw [View.canon_unit_zero hz]
  simp only [View.readAt_eq_ld, h1.read_unread, h3.read_unread, View.ld_unit_zero (S := S10000x128) hz, View.ld_unit_zero (S := S1x128) hz]

/-- After a later tile the sum-of-squares accumulator holds what it held plus the tile's column sums of squares. -/
theorem out10_B_3_eq (c : Dev nD) (i : grid10.Coords) (a1 : Memref sig .tc .vmem S10000x128 .f32) (h1 : a1.IsWhole) (a2 : Memref sig .tc .vmem S10000x128 .f32) (h2 : a2.IsWhole) (a3 : Memref sig .tc .vmem S1x128 .f32) (h3 : a3.IsWhole) (a4 : Memref sig .tc .vmem S1x128 .f32) (h4 : a4.IsWhole) (hc : ¬cond10_0 i) (x0 : Vec F S10000x128 .f32) (xo2 xo3 : Vec F S1x128 .f32) :
    out10_B_3 c i a1 h1 a2 h2 a3 h3 a4 h4 hc x0 xo2 xo3 = k10_pay5 x0 xo3 := by
  unfold out10_B_3
  rw [View.read_writes_eq_canon _ _ _ (cover10_B_3 c i a1 h1 a2 h2 a3 h3 a4 h4 hc x0 xo2 xo3)]
  unfold kernelRun10_B
  dsimp only
  sl_unfold_words
  rw [View.canon_unit_zero hz]
  simp only [View.readAt_eq_ld, h1.read_unread, h4.read_unread, View.ld_unit_zero (S := S10000x128) hz, View.ld_unit_zero (S := S1x128) hz]

end Pieces

end Cert.KernelIdeal.StatRegions

end
-- ==== Proof.LibBatchStats.lean ====
/-
  Batch statistics on the extended reals.

  * The coercion of a finite sum of real numbers into the extended reals is the sum of the coercions.
  * The population variance of finitely many REAL numbers, computed as the mean of the squared deviations from
    the mean, equals the mean of the squares minus the squared mean; stated over the reals and, with the mean taken
    as a product with the reciprocal of the count, over the extended reals at real (finite) entries.  Over the
    extended reals the identity needs the entries finite: with an infinite entry the deviation is a difference
    of infinities.
  * A sum over a range of `a * b` indices is the sum, block by block, of the `a` consecutive blocks of `b` indices
    (a column sum accumulated one row block at a time against the sum over all rows); it holds in every
    commutative additive monoid, the extended reals included, with no finiteness hypothesis.
-/
import Mathlib.Data.EReal.Inv
import Mathlib.Algebra.BigOperators.Fin
import Mathlib.Tactic

namespace Cert.Lib.BatchStats

open Finset

/-- The coercion `ℝ → EReal` commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Mean of squared deviations = mean of squares − squared mean, over the reals; `n` is the number of entries. -/
theorem var_real {ι : Type*} [Fintype ι] (z : ι → ℝ) (n : ℝ) (hn : n ≠ 0)
    (hcard : (Fintype.card ι : ℝ) = n) :
    (∑ i, (z i - (∑ j, z j) / n) * (z i - (∑ j, z j) / n)) / n
      = (∑ i, z i * z i) / n - ((∑ j, z j) / n) * ((∑ j, z j) / n) := by
  have h1 : ∑ i, (z i - (∑ j, z j) / n) * (z i - (∑ j, z j) / n)
      = (∑ i, z i * z i) - 2 * ((∑ j, z j) / n) * (∑ j, z j) + n * (((∑ j, z j) / n) * ((∑ j, z j) / n)) := by
    have h2 : ∀ i, (z i - (∑ j, z j) / n) * (z i - (∑ j, z j) / n)
        = z i * z i - 2 * ((∑ j, z j) / n) * z i + ((∑ j, z j) / n) * ((∑ j, z j) / n) := fun i => by ring
    simp only [h2, Finset.sum_add_distrib, Finset.sum_sub_distrib, ← Finset.mul_sum, Finset.sum_const,
      Finset.card_univ, nsmul_eq_mul, hcard]
    ring
  rw [h1]
  field_simp
  ring

/-- The same identity over the extended reals at real entries, the divisions by the count `n` written as
    products with the real `1 / n` (what a quotient by a nonzero real constant is on the extended reals). -/
theorem var_ereal {ι : Type*} [Fintype ι] (x : ι → ℝ) (n : ℝ) (hn : n ≠ 0)
    (hcard : (Fintype.card ι : ℝ) = n) :
    (∑ i, ((x i : EReal) - (∑ j, (x j : EReal)) * ((1 / n : ℝ) : EReal))
          * ((x i : EReal) - (∑ j, (x j : EReal)) * ((1 / n : ℝ) : EReal))) * ((1 / n : ℝ) : EReal)
      = (∑ i, (x i : EReal) * (x i : EReal)) * ((1 / n : ℝ) : EReal)
        - ((∑ j, (x j : EReal)) * ((1 / n : ℝ) : EReal)) * ((∑ j, (x j : EReal)) * ((1 / n : ℝ) : EReal)) := by
  have hr := var_real x n hn hcard
  simp only [div_eq_mul_inv] at hr
  simp only [one_div]
  have e1 : (∑ j, (x j : EReal)) * ((n⁻¹ : ℝ) : EReal) = (((∑ j, x j) * n⁻¹ : ℝ) : EReal) := by
    rw [← coe_sum, ← EReal.coe_mul]
  rw [e1]
  have e2 : ∀ i, ((x i : EReal) - (((∑ j, x j) * n⁻¹ : ℝ) : EReal)) * ((x i : EReal) - (((∑ j, x j) * n⁻¹ : ℝ) : EReal))
      = (((x i - (∑ j, x j) * n⁻¹) * (x i - (∑ j, x j) * n⁻¹) : ℝ) : EReal) := fun i => by
    rw [← EReal.coe_sub, ← EReal.coe_mul]
  have e3 : ∀ i, (x i : EReal) * (x i : EReal) = ((x i * x i : ℝ) : EReal) := fun i => (EReal.coe_mul _ _).symm
  rw [Finset.sum_congr rfl (fun i _ => e2 i), Finset.sum_congr rfl (fun i _ => e3 i), ← coe_sum, ← coe_sum,
    ← EReal.coe_mul, ← EReal.coe_mul, ← EReal.coe_mul, ← EReal.coe_sub]
  exact congrArg _ hr

/-- A sum over `a * b` consecutive indices, block by block: block `t` holds the indices `r + b * t`, `r < b`. -/
theorem sum_blocks {M : Type*} [AddCommMonoid M] (a b : ℕ) (f : Fin (a * b) → M) :
    ∑ i, f i = ∑ t : Fin a, ∑ r : Fin b, f (finProdFinEquiv (t, r)) := by
  rw [← Fintype.sum_prod_type' (f := fun (t : Fin a) (r : Fin b) => f (finProdFinEquiv (t, r)))]
  exact (Fintype.sum_equiv finProdFinEquiv _ _ (fun _ => rfl)).symm

/-- The index of row `r` of block `t`. -/
theorem block_index_val (a b : ℕ) (t : Fin a) (r : Fin b) :
    (finProdFinEquiv (t, r) : Fin (a * b)).val = r.val + b * t.val := rfl

end Cert.Lib.BatchStats
-- ==== Proof.StatRegions.lean ====
/-
  The three relu-and-column-statistics regions: the three output arrays after each region.

  Each region walks five tiles of 10000 rows.  The relu output is written back tile by tile, so it ends as the
  relu of the input array.  The two one-row accumulators stay in their buffers across the five points: reset at
  the first, then at every point the tile's column sums (of the relu, of its square) are added, and after the
  last point they are written back once.  By induction on the point the accumulators hold the column sums over
  the tiles seen so far; five tiles of 10000 rows are the 50000 rows of the array, so the written rows are the
  column sums of the relu and of its square over the whole array.
-/
import proofs.«152577_j46067819217044_1_alg».proof.Proof.Gen.KernelIdeal.Frame
import proofs.«152577_j46067819217044_1_alg».proof.Proof.StatPayload
import proofs.«152577_j46067819217044_1_alg».proof.Proof.LibBatchStats
import Idealize.ShloMosaic.Lib.Pipeline.Value

set_option maxRecDepth 16384

noncomputable section

namespace Cert.KernelIdeal.StatRegions

open Idealize.ShloMosaic Idealize.ShloMosaic.TcCoe Idealize.ShloMosaic.ValueIdx
open Idealize.SL.Sem
open Idealize.ShloMosaic.Pipeline (Dat)
open Cert.KernelIdeal Cert.KernelIdeal.Gen

/-! ## Sums over the rows, tile by tile -/

/-- Row `r` of tile `s`, as a row of the array. -/
def rowIdx (s : Fin 5) (r : Fin 10000) : Fin 50000 := ⟨r.val + 10000 * s.val, by have := s.isLt; have := r.isLt; omega⟩

/-- A sum over the 50000 rows is the sum, tile by tile, over the five tiles of 10000 rows. -/
theorem sum_rows (f : Fin 50000 → EReal) : ∑ i, f i = ∑ s : Fin 5, ∑ r : Fin 10000, f (rowIdx s r) :=
  Cert.Lib.BatchStats.sum_blocks 5 10000 f

/-- The column sums of the relu over tile `s` (nothing beyond the five tiles). -/
def partS (A : S50000x128.Idx → EReal) (q : Fin 128) (s : ℕ) : EReal :=
  if h : s < 5 then ∑ r : Fin 10000, max (A (ix2 (rowIdx ⟨s, h⟩ r) q)) 0 else 0

/-- The column sums of the squared relu over tile `s`. -/
def partQ (A : S50000x128.Idx → EReal) (q : Fin 128) (s : ℕ) : EReal :=
  if h : s < 5 then ∑ r : Fin 10000, max (A (ix2 (rowIdx ⟨s, h⟩ r) q)) 0 * max (A (ix2 (rowIdx ⟨s, h⟩ r) q)) 0 else 0

/-- The specification's column sum of the relu, kept as one row, at column `q`. -/
theorem colSum_relu_apply (A : S50000x128.Idx → EReal) (q : Fin 128) :
    Cert.Spec.rowOf (Cert.Spec.colSum (Cert.Spec.relu A)) (ix2 (0 : Fin 1) q) = ∑ i : Fin 50000, max (A (ix2 i q)) 0 := by
  unfold Cert.Spec.rowOf Cert.Spec.colSum Cert.Spec.relu
  exact Finset.sum_congr rfl fun i _ => rfl

/-- The specification's column sum of the squared relu, kept as one row, at column `q`. -/
theorem colSum_sq_relu_apply (A : S50000x128.Idx → EReal) (q : Fin 128) :
    Cert.Spec.rowOf (Cert.Spec.colSum (Cert.Spec.sq (Cert.Spec.relu A))) (ix2 (0 : Fin 1) q)
      = ∑ i : Fin 50000, max (A (ix2 i q)) 0 * max (A (ix2 i q)) 0 := by
  unfold Cert.Spec.rowOf Cert.Spec.colSum Cert.Spec.sq Cert.Spec.relu
  exact Finset.sum_congr rfl fun i _ => rfl

/-- The five tiles' column sums of the relu add up to the column sum over the array. -/
theorem total_S (A : S50000x128.Idx → EReal) (q : Fin 128) :
    ∑ s ∈ Finset.range (4 + 1), partS A q s = Cert.Spec.rowOf (Cert.Spec.colSum (Cert.Spec.relu A)) (ix2 (0 : Fin 1) q) := by
  refine Eq.trans ?_ (colSum_relu_apply A q).symm
  rw [Finset.sum_range, sum_rows (fun i => max (A (ix2 i q)) 0)]
  refine Finset.sum_congr rfl fun s _ => ?_
  unfold partS
  rw [dif_pos s.isLt]

/-- The five tiles' column sums of the squared relu add up to the column sum over the array. -/
theorem total_Q (A : S50000x128.Idx → EReal) (q : Fin 128) :
    ∑ s ∈ Finset.range (4 + 1), partQ A q s
      = Cert.Spec.rowOf (Cert.Spec.colSum (Cert.Spec.sq (Cert.Spec.relu A))) (ix2 (0 : Fin 1) q) := by
  refine Eq.trans ?_ (colSum_sq_relu_apply A q).symm
  rw [Finset.sum_range, sum_rows (fun i => max (A (ix2 i q)) 0 * max (A (ix2 i q)) 0)]
  refine Finset.sum_congr rfl fun s _ => ?_
  unfold partQ
  rw [dif_pos s.isLt]

variable (V : (c : Dev nD) → (b : Ref sig .tc) → Buf (Elt Ideal) ((c : Thread nD τ).loc b))

/-! ## Region 2 -/

/-- The printed index maps over the five points: the input tile and the relu tile are block `t` of their arrays,
    the two accumulators stay at their only block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Row `r` of the input tile of point `t` is row `r + 10000·t` of the array. -/
theorem emb2_0 (t : Fin cfg2.N) (ht : t.val < 5) (r : Fin 10000) (q : Fin 128) :
    ((cfg2.win 0).blk t).view.emb (ix2 r q) = ix2 (rowIdx ⟨t.val, ht⟩ r) q := by
  obtain ⟨e00, e01, -⟩ := idx2 t
  funext a; apply Fin.ext
  match a with
  | ⟨0, _⟩ => show win2_0.index t (0 : Fin 2) * 10000 + 1 * r.val = r.val + 10000 * t.val; omega
  | ⟨1, _⟩ => show win2_0.index t (1 : Fin 2) * 128 + 1 * q.val = q.val; omega

theorem tile2 (c : Dev nD) (t : Fin cfg2.N) (ht : t.val < 5) (r : Fin 10000) (q : Fin 128) :
    iblk2 V c 0 t (ix2 r q) = (V c (Pipeline.arrRef spec2 0)) (ix2 (rowIdx ⟨t.val, ht⟩ r) q) :=
  congrArg (V c (Pipeline.arrRef spec2 0)) (emb2_0 t ht r q)

/-- The input tile and the relu tile of a point sit at the same rows of their arrays. -/
theorem emb2_1 (t : Fin cfg2.N) (r : Fin 10000) (q : Fin 128) :
    ((cfg2.win 0).blk t).view.emb (ix2 r q) = ((cfg2.win 1).blk t).view.emb (ix2 r q) := by
  obtain ⟨e00, e01, e10, e11, -⟩ := idx2 t
  funext a; apply Fin.ext
  match a with
  | ⟨0, _⟩ => show win2_0.index t (0 : Fin 2) * 10000 + 1 * r.val = win2_1.index t (0 : Fin 2) * 10000 + 1 * r.val; omega
  | ⟨1, _⟩ => show win2_0.index t (1 : Fin 2) * 128 + 1 * q.val = win2_1.index t (1 : Fin 2) * 128 + 1 * q.val; omega

theorem blk2_1 (c : Dev nD) (t : Fin cfg2.N) (r : Fin 10000) (q : Fin 128) :
    iblk2 V c 0 t (ix2 r q) = (V c (Pipeline.arrRef spec2 0)) (((cfg2.win 1).blk t).view.emb (ix2 r q)) :=
  congrArg (V c (Pipeline.arrRef spec2 0)) (emb2_1 t r q)

/-- An accumulator's one block is the whole one-row array. -/
theorem emb2_2 (t : Fin cfg2.N) (q : Fin 128) :
    ((cfg2.win 2).blk t).view.emb (ix2 (0 : Fin 1) q) = ix2 (0 : Fin 1) q := by
  obtain ⟨e00, e01, e10, e11, e20, e21, e30, e31⟩ := idx2 t
  funext a; apply Fin.ext
  match a with
  | ⟨0, _⟩ => show win2_2.index t (0 : Fin 2) * 1 + 1 * 0 = 0; omega
  | ⟨1, _⟩ => show win2_2.index t (1 : Fin 2) * 128 + 1 * q.val = q.val; omega
theorem emb2_3 (t : Fin cfg2.N) (q : Fin 128) :
    ((cfg2.win 3).blk t).view.emb (ix2 (0 : Fin 1) q) = ix2 (0 : Fin 1) q := by
  obtain ⟨e00, e01, e10, e11, e20, e21, e30, e31⟩ := idx2 t
  funext a; apply Fin.ext
  match a with
  | ⟨0, _⟩ => show win2_3.index t (0 : Fin 2) * 1 + 1 * 0 = 0; omega
  | ⟨1, _⟩ => show win2_3.index t (1 : Fin 2) * 128 + 1 * q.val = q.val; omega

/-! ### The relu output -/

/-- After every point the relu output's buffer holds the relu of the point's tile. -/
theorem outs2_1 (c : Dev nD) (t : Fin cfg2.N) : (outsAt2 V c t.val t.isLt).1 = k2_pay3 (iblk2 V c 0 t) := by
  by_cases h0 : t.val % 5 = 0
  · rw [outsAt2_A V c t h0]
    dsimp only
    exact out2_A_1_eq (F := Ideal) c (grid2.coords t) (ms2_0 t) (hs2_0 t) (ms2_1 t) (hs2_1 t) (ms2_2 t) (hs2_2 t) (ms2_3 t) (hs2_3 t) ((hcond2_0 t).mpr h0) (iblk2 V c 0 t)
  · rw [outsAt2_B V c t h0]
    dsimp only
    exact out2_B_1_eq (F := Ideal) c (grid2.coords t) (ms2_0 t) (hs2_0 t) (ms2_1 t) (hs2_1 t) (ms2_2 t) (hs2_2 t) (ms2_3 t) (hs2_3 t) (fun h => h0 ((hcond2_0 t).mp h)) (iblk2 V c 0 t) (outsAt2 V c (t.val - 1) (Nat.lt_of_le_of_lt (Nat.sub_le _ _) t.isLt)).2.1 (outsAt2 V c (t.val - 1) (Nat.lt_of_le_of_lt (Nat.sub_le _ _) t.isLt)).2.2

set_option maxHeartbeats 1000000 in
/-- What point `t` writes back to the relu output is block `t` of the relu of the input array. -/
theorem flushed2_1_eq (c : Dev nD) (t : Fin cfg2.N) :
    (dat2 (F := Ideal) V c).flushed 1 t = ((cfg2.win 1).blk t).view.read (Elt Ideal) (Cert.Spec.relu (V c (Pipeline.arrRef spec2 0))) := by
  show (cfg2.win 1).cut (grid2.coords t) ((dat2 V c).after 1 t) = _
  rw [after2_1, outs2_1]
  funext j
  obtain ⟨r, q, rfl⟩ : ∃ (r : Fin 10000) (q : Fin 128), j = ix2 r q := ⟨j 0, j 1, eq_ix2 j⟩
  show k2_pay3 (iblk2 V c 0 t) (ix2 r q) = Cert.Spec.relu (V c (Pipeline.arrRef spec2 0)) (((cfg2.win 1).blk t).view.emb (ix2 r q))
  refine (k2_pay3_apply (iblk2 V c 0 t) r q).trans ?_
  exact congrArg (max · 0) (blk2_1 V c t r q)

/-- An index of the relu output is in point `t`'s block iff each coordinate is in the block's range. -/
theorem mem_blk2_1 (t : Fin cfg2.N) (i : S50000x128.Idx) :
    i ∈ ((cfg2.win 1).blk t).view.set ↔ ∀ a : Fin 2, win2_1.index t a * S10000x128.size a ≤ (i a).val ∧ (i a).val < win2_1.index t a * S10000x128.size a + S10000x128.size a := by
  show i ∈ ((View.whole main_v19_0).slice (win2_1.rect t)).set ↔ _
  rw [View.set_slice_whole, Rect.mem_set_unit]
  exact Iff.rfl

/-- Every row of the relu output lies in the block of the point numbered by its tile. -/
theorem cover2_1 (i : S50000x128.Idx) :
    ∃ t : Fin cfg2.N, (cfg2.win 1).flush t = true ∧ i ∈ ((cfg2.win 1).blk t).view.set := by
  have hi0 : (i 0).val < 50000 := (i 0).isLt
  have hi1 : (i 1).val < 128 := (i 1).isLt
  have hN : grid2.N = 5 := N_2
  have ht : (i 0).val / 10000 < cfg2.N := by show _ < grid2.N; rw [hN]; omega
  obtain ⟨e00, e01, e10, e11, -⟩ := idx2 ⟨(i 0).val / 10000, ht⟩
  have e10' : win2_1.index ⟨(i 0).val / 10000, ht⟩ (0 : Fin 2) = (i 0).val / 10000 := e10
  refine ⟨⟨(i 0).val / 10000, ht⟩, flush2_1 _, ?_⟩
  rw [mem_blk2_1]
  intro a
  match a with
  | ⟨0, _⟩ => show win2_1.index ⟨(i 0).val / 10000, ht⟩ (0 : Fin 2) * 10000 ≤ (i 0).val ∧ (i 0).val < win2_1.index ⟨(i 0).val / 10000, ht⟩ (0 : Fin 2) * 10000 + 10000; omega
  | ⟨1, _⟩ => show win2_1.index ⟨(i 0).val / 10000, ht⟩ (1 : Fin 2) * 128 ≤ (i 1).val ∧ (i 1).val < win2_1.index ⟨(i 0).val / 10000, ht⟩ (1 : Fin 2) * 128 + 128; omega

/-- The relu output after the region: the relu of the input array. -/
theorem final2_1 (c : Dev nD) :
    (dat2 (F := Ideal) V c).arrAt 1 cfg2.N = Cert.Spec.relu (V c (Pipeline.arrRef spec2 0)) :=
  (dat2 (F := Ideal) V c).arrAt_eq_of_cover 1 _ (fun t _ => flushed2_1_eq V c t) (cover2_1)

/-! ### The two accumulators -/

/-- One tile added to the sum accumulator: the tile's column sums of the relu. -/
theorem step2_S (c : Dev nD) (t : Fin cfg2.N) (ht : t.val < 5) (q : Fin 128) (xo : Vec Ideal S1x128 .f32) :
    k2_pay4 (iblk2 V c 0 t) xo (ix2 (0 : Fin 1) q) = xo (ix2 (0 : Fin 1) q) + partS (V c (Pipeline.arrRef spec2 0)) q t.val := by
  refine (k2_pay4_apply (iblk2 V c 0 t) xo q).trans ?_
  refine congrArg (xo (ix2 (0 : Fin 1) q) + ·) ?_
  unfold partS
  rw [dif_pos ht]
  exact Finset.sum_congr rfl fun r _ => congrArg (max · 0) (tile2 V c t ht r q)

/-- One tile added to the sum-of-squares accumulator: the tile's column sums of the squared relu. -/
theorem step2_Q (c : Dev nD) (t : Fin cfg2.N) (ht : t.val < 5) (q : Fin 128) (xo : Vec Ideal S1x128 .f32) :
    k2_pay5 (iblk2 V c 0 t) xo (ix2 (0 : Fin 1) q) = xo (ix2 (0 : Fin 1) q) + partQ (V c (Pipeline.arrRef spec2 0)) q t.val := by
  refine (k2_pay5_apply (iblk2 V c 0 t) xo q).trans ?_
  refine congrArg (xo (ix2 (0 : Fin 1) q) + ·) ?_
  unfold partQ
  rw [dif_pos ht]
  exact Finset.sum_congr rfl fun r _ => by rw [tile2 V c t ht r q]

/-- At the first point the accumulators are reset and hold the first tile's column sums. -/
theorem acc2_A (c : Dev nD) (t : Fin cfg2.N) (h0 : t.val % 5 = 0) (ht : t.val < 5) (q : Fin 128) :
    (outsAt2 V c t.val t.isLt).2.1 (ix2 (0 : Fin 1) q) = partS (V c (Pipeline.arrRef spec2 0)) q t.val
    ∧ (outsAt2 V c t.val t.isLt).2.2 (ix2 (0 : Fin 1) q) = partQ (V c (Pipeline.arrRef spec2 0)) q t.val := by
  rw [outsAt2_A V c t h0]
  dsimp only
  constructor
  · refine (congrFun (out2_A_2_eq (F := Ideal) c (grid2.coords t) (ms2_0 t) (hs2_0 t) (ms2_1 t) (hs2_1 t) (ms2_2 t) (hs2_2 t) (ms2_3 t) (hs2_3 t) ((hcond2_0 t).mpr h0) (iblk2 V c 0 t)) (ix2 (0 : Fin 1) q)).trans ?_
    refine (step2_S V c t ht q (k2_pay1 (F := Ideal))).trans ?_
    rw [k2_pay1_apply, zero_add]
  · refine (congrFun (out2_A_3_eq (F := Ideal) c (grid2.coords t) (ms2_0 t) (hs2_0 t) (ms2_1 t) (hs2_1 t) (ms2_2 t) (hs2_2 t) (ms2_3 t) (hs2_3 t) ((hcond2_0 t).mpr h0) (iblk2 V c 0 t)) (ix2 (0 : Fin 1) q)).trans ?_
    refine (step2_Q V c t ht q (k2_pay2 (F := Ideal))).trans ?_
    rw [k2_pay2_apply, zero_add]

/-- At a later point each accumulator holds what the point before left plus the tile's column sums. -/
theorem acc2_B (c : Dev nD) (t : Fin cfg2.N) (h0 : ¬t.val % 5 = 0) (ht : t.val < 5) (q : Fin 128) :
    (outsAt2 V c t.val t.isLt).2.1 (ix2 (0 : Fin 1) q)
        = (outsAt2 V c (t.val - 1) (Nat.lt_of_le_of_lt (Nat.sub_le _ _) t.isLt)).2.1 (ix2 (0 : Fin 1) q) + partS (V c (Pipeline.arrRef spec2 0)) q t.val
    ∧ (outsAt2 V c t.val t.isLt).2.2 (ix2 (0 : Fin 1) q)
        = (outsAt2 V c (t.val - 1) (Nat.lt_of_le_of_lt (Nat.sub_le _ _) t.isLt)).2.2 (ix2 (0 : Fin 1) q) + partQ (V c (Pipeline.arrRef spec2 0)) q t.val := by
  rw [outsAt2_B V c t h0]
  dsimp only
  constructor
  · refine (congrFun (out2_B_2_eq (F := Ideal) c (grid2.coords t) (ms2_0 t) (hs2_0 t) (ms2_1 t) (hs2_1 t) (ms2_2 t) (hs2_2 t) (ms2_3 t) (hs2_3 t) (fun h => h0 ((hcond2_0 t).mp h)) (iblk2 V c 0 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
    exact step2_S V c t ht q (outsAt2 V c (t.val - 1) (Nat.lt_of_le_of_lt (Nat.sub_le _ _) t.isLt)).2.1
  · refine (congrFun (out2_B_3_eq (F := Ideal) c (grid2.coords t) (ms2_0 t) (hs2_0 t) (ms2_1 t) (hs2_1 t) (ms2_2 t) (hs2_2 t) (ms2_3 t) (hs2_3 t) (fun h => h0 ((hcond2_0 t).mp h)) (iblk2 V c 0 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
    exact step2_Q V c t ht q (outsAt2 V c (t.val - 1) (Nat.lt_of_le_of_lt (Nat.sub_le _ _) t.isLt)).2.2

/-- After point `n` the accumulators hold the column sums over the first `n + 1` tiles. -/
theorem outsAt2_eq (c : Dev nD) (q : Fin 128) : ∀ (n : ℕ) (h : n < cfg2.N),
    (outsAt2 V c n h).2.1 (ix2 (0 : Fin 1) q) = ∑ s ∈ Finset.range (n + 1), partS (V c (Pipeline.arrRef spec2 0)) q s
    ∧ (outsAt2 V c n h).2.2 (ix2 (0 : Fin 1) q) = ∑ s ∈ Finset.range (n + 1), partQ (V c (Pipeline.arrRef spec2 0)) q s
  | 0, h => by
    have st := acc2_A V c ⟨0, h⟩ rfl (Nat.succ_pos 4) q
    rw [Finset.sum_range_one, Finset.sum_range_one]
    exact st
  | n + 1, h => by
    have hN : grid2.N = 5 := N_2
    have h' : n + 1 < grid2.N := h
    have ht : n + 1 < 5 := by omega
    have hB : ¬(n + 1) % 5 = 0 := by omega
    have ih := outsAt2_eq c q n (Nat.lt_of_succ_lt h)
    have st := acc2_B V c ⟨n + 1, h⟩ hB ht q
    rw [Finset.sum_range_succ _ (n + 1), Finset.sum_range_succ _ (n + 1)]
    exact ⟨st.1.trans (congrArg (· + partS (V c (Pipeline.arrRef spec2 0)) q (n + 1)) ih.1), st.2.trans (congrArg (· + partQ (V c (Pipeline.arrRef spec2 0)) q (n + 1)) ih.2)⟩

/-- The one write-back of accumulator 2, at the last point, writes the column sums over all 50000 rows. -/
theorem flushed2_2_eq (c : Dev nD) (t : Fin cfg2.N) (hf : (cfg2.win 2).flush t = true) :
    (dat2 (F := Ideal) V c).flushed 2 t = ((cfg2.win 2).blk t).view.read (Elt Ideal)
      (Cert.Spec.rowOf (Cert.Spec.colSum (Cert.Spec.relu (V c (Pipeline.arrRef spec2 0))))) := by
  have hN : grid2.N = 5 := N_2
  have htl : t.val < grid2.N := t.isLt
  have h4 : t.val = 4 := by have := (flush2_2 t).mp hf; omega
  generalize hG : Cert.Spec.rowOf (Cert.Spec.colSum (Cert.Spec.relu (V c (Pipeline.arrRef spec2 0)))) = G
  show (cfg2.win 2).cut (grid2.coords t) ((dat2 V c).after 2 t) = _
  rw [after2_2]
  funext j
  obtain ⟨u, q, rfl⟩ : ∃ (u : Fin 1) (q : Fin 128), j = ix2 u q := ⟨j 0, j 1, eq_ix2 j⟩
  obtain rfl : u = 0 := Subsingleton.elim _ _
  show (outsAt2 V c t.val t.isLt).2.1 (ix2 (0 : Fin 1) q) = G (((cfg2.win 2).blk t).view.emb (ix2 (0 : Fin 1) q))
  rw [emb2_2 t q, ← hG]
  refine ((outsAt2_eq V c q t.val t.isLt).1).trans ?_
  rw [h4]
  exact total_S (V c (Pipeline.arrRef spec2 0)) q

/-- The last point's block of accumulator 2 is the whole one-row array. -/
theorem cover2_2 (i : S1x128.Idx) :
    ∃ t : Fin cfg2.N, (cfg2.win 2).flush t = true ∧ i ∈ ((cfg2.win 2).blk t).view.set := by
  have hi0 : (i 0).val < 1 := (i 0).isLt
  have hi1 : (i 1).val < 128 := (i 1).isLt
  obtain ⟨e00, e01, e10, e11, e20, e21, e30, e31⟩ := idx2 t2_4
  refine ⟨t2_4, (flush2_2 t2_4).mpr rfl, ?_⟩
  show i ∈ ((View.whole main_v19_1).slice (win2_2.rect t2_4)).set
  rw [View.set_slice_whole, Rect.mem_set_unit]
  intro a
  match a with
  | ⟨0, _⟩ => show win2_2.index t2_4 (0 : Fin 2) * 1 ≤ (i 0).val ∧ (i 0).val < win2_2.index t2_4 (0 : Fin 2) * 1 + 1; omega
  | ⟨1, _⟩ => show win2_2.index t2_4 (1 : Fin 2) * 128 ≤ (i 1).val ∧ (i 1).val < win2_2.index t2_4 (1 : Fin 2) * 128 + 128; omega

/-- Accumulator 2 after the region. -/
theorem final2_2 (c : Dev nD) :
    (dat2 (F := Ideal) V c).arrAt 2 cfg2.N = Cert.Spec.rowOf (Cert.Spec.colSum (Cert.Spec.relu (V c (Pipeline.arrRef spec2 0)))) :=
  (dat2 (F := Ideal) V c).arrAt_eq_of_cover 2 _ (flushed2_2_eq V c) (cover2_2)

/-- The one write-back of accumulator 3, at the last point, writes the column sums over all 50000 rows. -/
theorem flushed2_3_eq (c : Dev nD) (t : Fin cfg2.N) (hf : (cfg2.win 3).flush t = true) :
    (dat2 (F := Ideal) V c).flushed 3 t = ((cfg2.win 3).blk t).view.read (Elt Ideal)
      (Cert.Spec.rowOf (Cert.Spec.colSum (Cert.Spec.sq (Cert.Spec.relu (V c (Pipeline.arrRef spec2 0)))))) := by
  have hN : grid2.N = 5 := N_2
  have htl : t.val < grid2.N := t.isLt
  have h4 : t.val = 4 := by have := (flush2_3 t).mp hf; omega
  generalize hG : Cert.Spec.rowOf (Cert.Spec.colSum (Cert.Spec.sq (Cert.Spec.relu (V c (Pipeline.arrRef spec2 0))))) = G
  show (cfg2.win 3).cut (grid2.coords t) ((dat2 V c).after 3 t) = _
  rw [after2_3]
  funext j
  obtain ⟨u, q, rfl⟩ : ∃ (u : Fin 1) (q : Fin 128), j = ix2 u q := ⟨j 0, j 1, eq_ix2 j⟩
  obtain rfl : u = 0 := Subsingleton.elim _ _
  show (outsAt2 V c t.val t.isLt).2.2 (ix2 (0 : Fin 1) q) = G (((cfg2.win 3).blk t).view.emb (ix2 (0 : Fin 1) q))
  rw [emb2_3 t q, ← hG]
  refine ((outsAt2_eq V c q t.val t.isLt).2).trans ?_
  rw [h4]
  exact total_Q (V c (Pipeline.arrRef spec2 0)) q

/-- The last point's block of accumulator 3 is the whole one-row array. -/
theorem cover2_3 (i : S1x128.Idx) :
    ∃ t : Fin cfg2.N, (cfg2.win 3).flush t = true ∧ i ∈ ((cfg2.win 3).blk t).view.set := by
  have hi0 : (i 0).val < 1 := (i 0).isLt
  have hi1 : (i 1).val < 128 := (i 1).isLt
  obtain ⟨e00, e01, e10, e11, e20, e21, e30, e31⟩ := idx2 t2_4
  refine ⟨t2_4, (flush2_3 t2_4).mpr rfl, ?_⟩
  show i ∈ ((View.whole main_v19_2).slice (win2_3.rect t2_4)).set
  rw [View.set_slice_whole, Rect.mem_set_unit]
  intro a
  match a with
  | ⟨0, _⟩ => show win2_3.index t2_4 (0 : Fin 2) * 1 ≤ (i 0).val ∧ (i 0).val < win2_3.index t2_4 (0 : Fin 2) * 1 + 1; omega
  | ⟨1, _⟩ => show win2_3.index t2_4 (1 : Fin 2) * 128 ≤ (i 1).val ∧ (i 1).val < win2_3.index t2_4 (1 : Fin 2) * 128 + 128; omega

/-- Accumulator 3 after the region. -/
theorem final2_3 (c : Dev nD) :
    (dat2 (F := Ideal) V c).arrAt 3 cfg2.N = Cert.Spec.rowOf (Cert.Spec.colSum (Cert.Spec.sq (Cert.Spec.relu (V c (Pipeline.arrRef spec2 0))))) :=
  (dat2 (F := Ideal) V c).arrAt_eq_of_cover 3 _ (flushed2_3_eq V c) (cover2_3)

/-! ## Region 6 -/

/-- The printed index maps over the five points: the input tile and the relu tile are block `t` of their arrays,
    the two accumulators stay at their only block. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- Row `r` of the input tile of point `t` is row `r + 10000·t` of the array. -/
theorem emb6_0 (t : Fin cfg6.N) (ht : t.val < 5) (r : Fin 10000) (q : Fin 128) :
    ((cfg6.win 0).blk t).view.emb (ix2 r q) = ix2 (rowIdx ⟨t.val, ht⟩ r) q := by
  obtain ⟨e00, e01, -⟩ := idx6 t
  funext a; apply Fin.ext
  match a with
  | ⟨0, _⟩ => show win6_0.index t (0 : Fin 2) * 10000 + 1 * r.val = r.val + 10000 * t.val; omega
  | ⟨1, _⟩ => show win6_0.index t (1 : Fin 2) * 128 + 1 * q.val = q.val; omega

theorem tile6 (c : Dev nD) (t : Fin cfg6.N) (ht : t.val < 5) (r : Fin 10000) (q : Fin 128) :
    iblk6 V c 0 t (ix2 r q) = (V c (Pipeline.arrRef spec6 0)) (ix2 (rowIdx ⟨t.val, ht⟩ r) q) :=
  congrArg (V c (Pipeline.arrRef spec6 0)) (emb6_0 t ht r q)

/-- The input tile and the relu tile of a point sit at the same rows of their arrays. -/
theorem emb6_1 (t : Fin cfg6.N) (r : Fin 10000) (q : Fin 128) :
    ((cfg6.win 0).blk t).view.emb (ix2 r q) = ((cfg6.win 1).blk t).view.emb (ix2 r q) := by
  obtain ⟨e00, e01, e10, e11, -⟩ := idx6 t
  funext a; apply Fin.ext
  match a with
  | ⟨0, _⟩ => show win6_0.index t (0 : Fin 2) * 10000 + 1 * r.val = win6_1.index t (0 : Fin 2) * 10000 + 1 * r.val; omega
  | ⟨1, _⟩ => show win6_0.index t (1 : Fin 2) * 128 + 1 * q.val = win6_1.index t (1 : Fin 2) * 128 + 1 * q.val; omega

theorem blk6_1 (c : Dev nD) (t : Fin cfg6.N) (r : Fin 10000) (q : Fin 128) :
    iblk6 V c 0 t (ix2 r q) = (V c (Pipeline.arrRef spec6 0)) (((cfg6.win 1).blk t).view.emb (ix2 r q)) :=
  congrArg (V c (Pipeline.arrRef spec6 0)) (emb6_1 t r q)

/-- An accumulator's one block is the whole one-row array. -/
theorem emb6_2 (t : Fin cfg6.N) (q : Fin 128) :
    ((cfg6.win 2).blk t).view.emb (ix2 (0 : Fin 1) q) = ix2 (0 : Fin 1) q := by
  obtain ⟨e00, e01, e10, e11, e20, e21, e30, e31⟩ := idx6 t
  funext a; apply Fin.ext
  match a with
  | ⟨0, _⟩ => show win6_2.index t (0 : Fin 2) * 1 + 1 * 0 = 0; omega
  | ⟨1, _⟩ => show win6_2.index t (1 : Fin 2) * 128 + 1 * q.val = q.val; omega
theorem emb6_3 (t : Fin cfg6.N) (q : Fin 128) :
    ((cfg6.win 3).blk t).view.emb (ix2 (0 : Fin 1) q) = ix2 (0 : Fin 1) q := by
  obtain ⟨e00, e01, e10, e11, e20, e21, e30, e31⟩ := idx6 t
  funext a; apply Fin.ext
  match a with
  | ⟨0, _⟩ => show win6_3.index t (0 : Fin 2) * 1 + 1 * 0 = 0; omega
  | ⟨1, _⟩ => show win6_3.index t (1 : Fin 2) * 128 + 1 * q.val = q.val; omega

/-! ### The relu output -/

/-- After every point the relu output's buffer holds the relu of the point's tile. -/
theorem outs6_1 (c : Dev nD) (t : Fin cfg6.N) : (outsAt6 V c t.val t.isLt).1 = k2_pay3 (iblk6 V c 0 t) := by
  by_cases h0 : t.val % 5 = 0
  · rw [outsAt6_A V c t h0]
    dsimp only
    exact out6_A_1_eq (F := Ideal) c (grid6.coords t) (ms6_0 t) (hs6_0 t) (ms6_1 t) (hs6_1 t) (ms6_2 t) (hs6_2 t) (ms6_3 t) (hs6_3 t) ((hcond6_0 t).mpr h0) (iblk6 V c 0 t)
  · rw [outsAt6_B V c t h0]
    dsimp only
    exact out6_B_1_eq (F := Ideal) c (grid6.coords t) (ms6_0 t) (hs6_0 t) (ms6_1 t) (hs6_1 t) (ms6_2 t) (hs6_2 t) (ms6_3 t) (hs6_3 t) (fun h => h0 ((hcond6_0 t).mp h)) (iblk6 V c 0 t) (outsAt6 V c (t.val - 1) (Nat.lt_of_le_of_lt (Nat.sub_le _ _) t.isLt)).2.1 (outsAt6 V c (t.val - 1) (Nat.lt_of_le_of_lt (Nat.sub_le _ _) t.isLt)).2.2

set_option maxHeartbeats 1000000 in
/-- What point `t` writes back to the relu output is block `t` of the relu of the input array. -/
theorem flushed6_1_eq (c : Dev nD) (t : Fin cfg6.N) :
    (dat6 (F := Ideal) V c).flushed 1 t = ((cfg6.win 1).blk t).view.read (Elt Ideal) (Cert.Spec.relu (V c (Pipeline.arrRef spec6 0))) := by
  show (cfg6.win 1).cut (grid6.coords t) ((dat6 V c).after 1 t) = _
  rw [after6_1, outs6_1]
  funext j
  obtain ⟨r, q, rfl⟩ : ∃ (r : Fin 10000) (q : Fin 128), j = ix2 r q := ⟨j 0, j 1, eq_ix2 j⟩
  show k2_pay3 (iblk6 V c 0 t) (ix2 r q) = Cert.Spec.relu (V c (Pipeline.arrRef spec6 0)) (((cfg6.win 1).blk t).view.emb (ix2 r q))
  refine (k2_pay3_apply (iblk6 V c 0 t) r q).trans ?_
  exact congrArg (max · 0) (blk6_1 V c t r q)

/-- An index of the relu output is in point `t`'s block iff each coordinate is in the block's range. -/
theorem mem_blk6_1 (t : Fin cfg6.N) (i : S50000x128.Idx) :
    i ∈ ((cfg6.win 1).blk t).view.set ↔ ∀ a : Fin 2, win6_1.index t a * S10000x128.size a ≤ (i a).val ∧ (i a).val < win6_1.index t a * S10000x128.size a + S10000x128.size a := by
  show i ∈ ((View.whole main_v48_0).slice (win6_1.rect t)).set ↔ _
  rw [View.set_slice_whole, Rect.mem_set_unit]
  exact Iff.rfl

/-- Every row of the relu output lies in the block of the point numbered by its tile. -/
theorem cover6_1 (i : S50000x128.Idx) :
    ∃ t : Fin cfg6.N, (cfg6.win 1).flush t = true ∧ i ∈ ((cfg6.win 1).blk t).view.set := by
  have hi0 : (i 0).val < 50000 := (i 0).isLt
  have hi1 : (i 1).val < 128 := (i 1).isLt
  have hN : grid6.N = 5 := N_6
  have ht : (i 0).val / 10000 < cfg6.N := by show _ < grid6.N; rw [hN]; omega
  obtain ⟨e00, e01, e10, e11, -⟩ := idx6 ⟨(i 0).val / 10000, ht⟩
  have e10' : win6_1.index ⟨(i 0).val / 10000, ht⟩ (0 : Fin 2) = (i 0).val / 10000 := e10
  refine ⟨⟨(i 0).val / 10000, ht⟩, flush6_1 _, ?_⟩
  rw [mem_blk6_1]
  intro a
  match a with
  | ⟨0, _⟩ => show win6_1.index ⟨(i 0).val / 10000, ht⟩ (0 : Fin 2) * 10000 ≤ (i 0).val ∧ (i 0).val < win6_1.index ⟨(i 0).val / 10000, ht⟩ (0 : Fin 2) * 10000 + 10000; omega
  | ⟨1, _⟩ => show win6_1.index ⟨(i 0).val / 10000, ht⟩ (1 : Fin 2) * 128 ≤ (i 1).val ∧ (i 1).val < win6_1.index ⟨(i 0).val / 10000, ht⟩ (1 : Fin 2) * 128 + 128; omega

/-- The relu output after the region: the relu of the input array. -/
theorem final6_1 (c : Dev nD) :
    (dat6 (F := Ideal) V c).arrAt 1 cfg6.N = Cert.Spec.relu (V c (Pipeline.arrRef spec6 0)) :=
  (dat6 (F := Ideal) V c).arrAt_eq_of_cover 1 _ (fun t _ => flushed6_1_eq V c t) (cover6_1)

/-! ### The two accumulators -/

/-- One tile added to the sum accumulator: the tile's column sums of the relu. -/
theorem step6_S (c : Dev nD) (t : Fin cfg6.N) (ht : t.val < 5) (q : Fin 128) (xo : Vec Ideal S1x128 .f32) :
    k2_pay4 (iblk6 V c 0 t) xo (ix2 (0 : Fin 1) q) = xo (ix2 (0 : Fin 1) q) + partS (V c (Pipeline.arrRef spec6 0)) q t.val := by
  refine (k2_pay4_apply (iblk6 V c 0 t) xo q).trans ?_
  refine congrArg (xo (ix2 (0 : Fin 1) q) + ·) ?_
  unfold partS
  rw [dif_pos ht]
  exact Finset.sum_congr rfl fun r _ => congrArg (max · 0) (tile6 V c t ht r q)

/-- One tile added to the sum-of-squares accumulator: the tile's column sums of the squared relu. -/
theorem step6_Q (c : Dev nD) (t : Fin cfg6.N) (ht : t.val < 5) (q : Fin 128) (xo : Vec Ideal S1x128 .f32) :
    k2_pay5 (iblk6 V c 0 t) xo (ix2 (0 : Fin 1) q) = xo (ix2 (0 : Fin 1) q) + partQ (V c (Pipeline.arrRef spec6 0)) q t.val := by
  refine (k2_pay5_apply (iblk6 V c 0 t) xo q).trans ?_
  refine congrArg (xo (ix2 (0 : Fin 1) q) + ·) ?_
  unfold partQ
  rw [dif_pos ht]
  exact Finset.sum_congr rfl fun r _ => by rw [tile6 V c t ht r q]

/-- At the first point the accumulators are reset and hold the first tile's column sums. -/
theorem acc6_A (c : Dev nD) (t : Fin cfg6.N) (h0 : t.val % 5 = 0) (ht : t.val < 5) (q : Fin 128) :
    (outsAt6 V c t.val t.isLt).2.1 (ix2 (0 : Fin 1) q) = partS (V c (Pipeline.arrRef spec6 0)) q t.val
    ∧ (outsAt6 V c t.val t.isLt).2.2 (ix2 (0 : Fin 1) q) = partQ (V c (Pipeline.arrRef spec6 0)) q t.val := by
  rw [outsAt6_A V c t h0]
  dsimp only
  constructor
  · refine (congrFun (out6_A_2_eq (F := Ideal) c (grid6.coords t) (ms6_0 t) (hs6_0 t) (ms6_1 t) (hs6_1 t) (ms6_2 t) (hs6_2 t) (ms6_3 t) (hs6_3 t) ((hcond6_0 t).mpr h0) (iblk6 V c 0 t)) (ix2 (0 : Fin 1) q)).trans ?_
    refine (step6_S V c t ht q (k2_pay1 (F := Ideal))).trans ?_
    rw [k2_pay1_apply, zero_add]
  · refine (congrFun (out6_A_3_eq (F := Ideal) c (grid6.coords t) (ms6_0 t) (hs6_0 t) (ms6_1 t) (hs6_1 t) (ms6_2 t) (hs6_2 t) (ms6_3 t) (hs6_3 t) ((hcond6_0 t).mpr h0) (iblk6 V c 0 t)) (ix2 (0 : Fin 1) q)).trans ?_
    refine (step6_Q V c t ht q (k2_pay2 (F := Ideal))).trans ?_
    rw [k2_pay2_apply, zero_add]

/-- At a later point each accumulator holds what the point before left plus the tile's column sums. -/
theorem acc6_B (c : Dev nD) (t : Fin cfg6.N) (h0 : ¬t.val % 5 = 0) (ht : t.val < 5) (q : Fin 128) :
    (outsAt6 V c t.val t.isLt).2.1 (ix2 (0 : Fin 1) q)
        = (outsAt6 V c (t.val - 1) (Nat.lt_of_le_of_lt (Nat.sub_le _ _) t.isLt)).2.1 (ix2 (0 : Fin 1) q) + partS (V c (Pipeline.arrRef spec6 0)) q t.val
    ∧ (outsAt6 V c t.val t.isLt).2.2 (ix2 (0 : Fin 1) q)
        = (outsAt6 V c (t.val - 1) (Nat.lt_of_le_of_lt (Nat.sub_le _ _) t.isLt)).2.2 (ix2 (0 : Fin 1) q) + partQ (V c (Pipeline.arrRef spec6 0)) q t.val := by
  rw [outsAt6_B V c t h0]
  dsimp only
  constructor
  · refine (congrFun (out6_B_2_eq (F := Ideal) c (grid6.coords t) (ms6_0 t) (hs6_0 t) (ms6_1 t) (hs6_1 t) (ms6_2 t) (hs6_2 t) (ms6_3 t) (hs6_3 t) (fun h => h0 ((hcond6_0 t).mp h)) (iblk6 V c 0 t) (outsAt6 V c (t.val - 1) (Nat.lt_of_le_of_lt (Nat.sub_le _ _) t.isLt)).2.1 (outsAt6 V c (t.val - 1) (Nat.lt_of_le_of_lt (Nat.sub_le _ _) t.isLt)).2.2) (ix2 (0 : Fin 1) q)).trans ?_
    exact step6_S V c t ht q (outsAt6 V c (t.val - 1) (Nat.lt_of_le_of_lt (Nat.sub_le _ _) t.isLt)).2.1
  · refine (congrFun (out6_B_3_eq (F := Ideal) c (grid6.coords t) (ms6_0 t) (hs6_0 t) (ms6_1 t) (hs6_1 t) (ms6_2 t) (hs6_2 t) (ms6_3 t) (hs6_3 t) (fun h => h0 ((hcond6_0 t).mp h)) (iblk6 V c 0 t) (outsAt6 V c (t.val - 1) (Nat.lt_of_le_of_lt (Nat.sub_le _ _) t.isLt)).2.1 (outsAt6 V c (t.val - 1) (Nat.lt_of_le_of_lt (Nat.sub_le _ _) t.isLt)).2.2) (ix2 (0 : Fin 1) q)).trans ?_
    exact step6_Q V c t ht q (outsAt6 V c (t.val - 1) (Nat.lt_of_le_of_lt (Nat.sub_le _ _) t.isLt)).2.2

/-- After point `n` the accumulators hold the column sums over the first `n + 1` tiles. -/
theorem outsAt6_eq (c : Dev nD) (q : Fin 128) : ∀ (n : ℕ) (h : n < cfg6.N),
    (outsAt6 V c n h).2.1 (ix2 (0 : Fin 1) q) = ∑ s ∈ Finset.range (n + 1), partS (V c (Pipeline.arrRef spec6 0)) q s
    ∧ (outsAt6 V c n h).2.2 (ix2 (0 : Fin 1) q) = ∑ s ∈ Finset.range (n + 1), partQ (V c (Pipeline.arrRef spec6 0)) q s
  | 0, h => by
    have st := acc6_A V c ⟨0, h⟩ rfl (Nat.succ_pos 4) q
    rw [Finset.sum_range_one, Finset.sum_range_one]
    exact st
  | n + 1, h => by
    have hN : grid6.N = 5 := N_6
    have h' : n + 1 < grid6.N := h
    have ht : n + 1 < 5 := by omega
    have hB : ¬(n + 1) % 5 = 0 := by omega
    have ih := outsAt6_eq c q n (Nat.lt_of_succ_lt h)
    have st := acc6_B V c ⟨n + 1, h⟩ hB ht q
    rw [Finset.sum_range_succ _ (n + 1), Finset.sum_range_succ _ (n + 1)]
    exact ⟨st.1.trans (congrArg (· + partS (V c (Pipeline.arrRef spec6 0)) q (n + 1)) ih.1), st.2.trans (congrArg (· + partQ (V c (Pipeline.arrRef spec6 0)) q (n + 1)) ih.2)⟩

/-- The one write-back of accumulator 2, at the last point, writes the column sums over all 50000 rows. -/
theorem flushed6_2_eq (c : Dev nD) (t : Fin cfg6.N) (hf : (cfg6.win 2).flush t = true) :
    (dat6 (F := Ideal) V c).flushed 2 t = ((cfg6.win 2).blk t).view.read (Elt Ideal)
      (Cert.Spec.rowOf (Cert.Spec.colSum (Cert.Spec.relu (V c (Pipeline.arrRef spec6 0))))) := by
  have hN : grid6.N = 5 := N_6
  have htl : t.val < grid6.N := t.isLt
  have h4 : t.val = 4 := by have := (flush6_2 t).mp hf; omega
  generalize hG : Cert.Spec.rowOf (Cert.Spec.colSum (Cert.Spec.relu (V c (Pipeline.arrRef spec6 0)))) = G
  show (cfg6.win 2).cut (grid6.coords t) ((dat6 V c).after 2 t) = _
  rw [after6_2]
  funext j
  obtain ⟨u, q, rfl⟩ : ∃ (u : Fin 1) (q : Fin 128), j = ix2 u q := ⟨j 0, j 1, eq_ix2 j⟩
  obtain rfl : u = 0 := Subsingleton.elim _ _
  show (outsAt6 V c t.val t.isLt).2.1 (ix2 (0 : Fin 1) q) = G (((cfg6.win 2).blk t).view.emb (ix2 (0 : Fin 1) q))
  rw [emb6_2 t q, ← hG]
  refine ((outsAt6_eq V c q t.val t.isLt).1).trans ?_
  rw [h4]
  exact total_S (V c (Pipeline.arrRef spec6 0)) q

/-- The last point's block of accumulator 2 is the whole one-row array. -/
theorem cover6_2 (i : S1x128.Idx) :
    ∃ t : Fin cfg6.N, (cfg6.win 2).flush t = true ∧ i ∈ ((cfg6.win 2).blk t).view.set := by
  have hi0 : (i 0).val < 1 := (i 0).isLt
  have hi1 : (i 1).val < 128 := (i 1).isLt
  obtain ⟨e00, e01, e10, e11, e20, e21, e30, e31⟩ := idx6 t6_4
  refine ⟨t6_4, (flush6_2 t6_4).mpr rfl, ?_⟩
  show i ∈ ((View.whole main_v48_1).slice (win6_2.rect t6_4)).set
  rw [View.set_slice_whole, Rect.mem_set_unit]
  intro a
  match a with
  | ⟨0, _⟩ => show win6_2.index t6_4 (0 : Fin 2) * 1 ≤ (i 0).val ∧ (i 0).val < win6_2.index t6_4 (0 : Fin 2) * 1 + 1; omega
  | ⟨1, _⟩ => show win6_2.index t6_4 (1 : Fin 2) * 128 ≤ (i 1).val ∧ (i 1).val < win6_2.index t6_4 (1 : Fin 2) * 128 + 128; omega

/-- Accumulator 2 after the region. -/
theorem final6_2 (c : Dev nD) :
    (dat6 (F := Ideal) V c).arrAt 2 cfg6.N = Cert.Spec.rowOf (Cert.Spec.colSum (Cert.Spec.relu (V c (Pipeline.arrRef spec6 0)))) :=
  (dat6 (F := Ideal) V c).arrAt_eq_of_cover 2 _ (flushed6_2_eq V c) (cover6_2)

/-- The one write-back of accumulator 3, at the last point, writes the column sums over all 50000 rows. -/
theorem flushed6_3_eq (c : Dev nD) (t : Fin cfg6.N) (hf : (cfg6.win 3).flush t = true) :
    (dat6 (F := Ideal) V c).flushed 3 t = ((cfg6.win 3).blk t).view.read (Elt Ideal)
      (Cert.Spec.rowOf (Cert.Spec.colSum (Cert.Spec.sq (Cert.Spec.relu (V c (Pipeline.arrRef spec6 0)))))) := by
  have hN : grid6.N = 5 := N_6
  have htl : t.val < grid6.N := t.isLt
  have h4 : t.val = 4 := by have := (flush6_3 t).mp hf; omega
  generalize hG : Cert.Spec.rowOf (Cert.Spec.colSum (Cert.Spec.sq (Cert.Spec.relu (V c (Pipeline.arrRef spec6 0))))) = G
  show (cfg6.win 3).cut (grid6.coords t) ((dat6 V c).after 3 t) = _
  rw [after6_3]
  funext j
  obtain ⟨u, q, rfl⟩ : ∃ (u : Fin 1) (q : Fin 128), j = ix2 u q := ⟨j 0, j 1, eq_ix2 j⟩
  obtain rfl : u = 0 := Subsingleton.elim _ _
  show (outsAt6 V c t.val t.isLt).2.2 (ix2 (0 : Fin 1) q) = G (((cfg6.win 3).blk t).view.emb (ix2 (0 : Fin 1) q))
  rw [emb6_3 t q, ← hG]
  refine ((outsAt6_eq V c q t.val t.isLt).2).trans ?_
  rw [h4]
  exact total_Q (V c (Pipeline.arrRef spec6 0)) q

/-- The last point's block of accumulator 3 is the whole one-row array. -/
theorem cover6_3 (i : S1x128.Idx) :
    ∃ t : Fin cfg6.N, (cfg6.win 3).flush t = true ∧ i ∈ ((cfg6.win 3).blk t).view.set := by
  have hi0 : (i 0).val < 1 := (i 0).isLt
  have hi1 : (i 1).val < 128 := (i 1).isLt
  obtain ⟨e00, e01, e10, e11, e20, e21, e30, e31⟩ := idx6 t6_4
  refine ⟨t6_4, (flush6_3 t6_4).mpr rfl, ?_⟩
  show i ∈ ((View.whole main_v48_2).slice (win6_3.rect t6_4)).set
  rw [View.set_slice_whole, Rect.mem_set_unit]
  intro a
  match a with
  | ⟨0, _⟩ => show win6_3.index t6_4 (0 : Fin 2) * 1 ≤ (i 0).val ∧ (i 0).val < win6_3.index t6_4 (0 : Fin 2) * 1 + 1; omega
  | ⟨1, _⟩ => show win6_3.index t6_4 (1 : Fin 2) * 128 ≤ (i 1).val ∧ (i 1).val < win6_3.index t6_4 (1 : Fin 2) * 128 + 128; omega

/-- Accumulator 3 after the region. -/
theorem final6_3 (c : Dev nD) :
    (dat6 (F := Ideal) V c).arrAt 3 cfg6.N = Cert.Spec.rowOf (Cert.Spec.colSum (Cert.Spec.sq (Cert.Spec.relu (V c (Pipeline.arrRef spec6 0))))) :=
  (dat6 (F := Ideal) V c).arrAt_eq_of_cover 3 _ (flushed6_3_eq V c) (cover6_3)

/-! ## Region 10 -/

/-- The printed index maps over the five points: the input tile and the relu tile are block `t` of their arrays,
    the two accumulators stay at their only block. -/
theorem idx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0 :=
  (by decide +kernel : ∀ t : Fin grid10.N, _)

/-- Row `r` of the input tile of point `t` is row `r + 10000·t` of the array. -/
theorem emb10_0 (t : Fin cfg10.N) (ht : t.val < 5) (r : Fin 10000) (q : Fin 128) :
    ((cfg10.win 0).blk t).view.emb (ix2 r q) = ix2 (rowIdx ⟨t.val, ht⟩ r) q := by
  obtain ⟨e00, e01, -⟩ := idx10 t
  funext a; apply Fin.ext
  match a with
  | ⟨0, _⟩ => show win10_0.index t (0 : Fin 2) * 10000 + 1 * r.val = r.val + 10000 * t.val; omega
  | ⟨1, _⟩ => show win10_0.index t (1 : Fin 2) * 128 + 1 * q.val = q.val; omega

theorem tile10 (c : Dev nD) (t : Fin cfg10.N) (ht : t.val < 5) (r : Fin 10000) (q : Fin 128) :
    iblk10 V c 0 t (ix2 r q) = (V c (Pipeline.arrRef spec10 0)) (ix2 (rowIdx ⟨t.val, ht⟩ r) q) :=
  congrArg (V c (Pipeline.arrRef spec10 0)) (emb10_0 t ht r q)

/-- The input tile and the relu tile of a point sit at the same rows of their arrays. -/
theorem emb10_1 (t : Fin cfg10.N) (r : Fin 10000) (q : Fin 128) :
    ((cfg10.win 0).blk t).view.emb (ix2 r q) = ((cfg10.win 1).blk t).view.emb (ix2 r q) := by
  obtain ⟨e00, e01, e10, e11, -⟩ := idx10 t
  funext a; apply Fin.ext
  match a with
  | ⟨0, _⟩ => show win10_0.index t (0 : Fin 2) * 10000 + 1 * r.val = win10_1.index t (0 : Fin 2) * 10000 + 1 * r.val; omega
  | ⟨1, _⟩ => show win10_0.index t (1 : Fin 2) * 128 + 1 * q.val = win10_1.index t (1 : Fin 2) * 128 + 1 * q.val; omega

theorem blk10_1 (c : Dev nD) (t : Fin cfg10.N) (r : Fin 10000) (q : Fin 128) :
    iblk10 V c 0 t (ix2 r q) = (V c (Pipeline.arrRef spec10 0)) (((cfg10.win 1).blk t).view.emb (ix2 r q)) :=
  congrArg (V c (Pipeline.arrRef spec10 0)) (emb10_1 t r q)

/-- An accumulator's one block is the whole one-row array. -/
theorem emb10_2 (t : Fin cfg10.N) (q : Fin 128) :
    ((cfg10.win 2).blk t).view.emb (ix2 (0 : Fin 1) q) = ix2 (0 : Fin 1) q := by
  obtain ⟨e00, e01, e10, e11, e20, e21, e30, e31⟩ := idx10 t
  funext a; apply Fin.ext
  match a with
  | ⟨0, _⟩ => show win10_2.index t (0 : Fin 2) * 1 + 1 * 0 = 0; omega
  | ⟨1, _⟩ => show win10_2.index t (1 : Fin 2) * 128 + 1 * q.val = q.val; omega
theorem emb10_3 (t : Fin cfg10.N) (q : Fin 128) :
    ((cfg10.win 3).blk t).view.emb (ix2 (0 : Fin 1) q) = ix2 (0 : Fin 1) q := by
  obtain ⟨e00, e01, e10, e11, e20, e21, e30, e31⟩ := idx10 t
  funext a; apply Fin.ext
  match a with
  | ⟨0, _⟩ => show win10_3.index t (0 : Fin 2) * 1 + 1 * 0 = 0; omega
  | ⟨1, _⟩ => show win10_3.index t (1 : Fin 2) * 128 + 1 * q.val = q.val; omega

/-! ### The relu output -/

/-- After every point the relu output's buffer holds the relu of the point's tile. -/
theorem outs10_1 (c : Dev nD) (t : Fin cfg10.N) : (outsAt10 V c t.val t.isLt).1 = k2_pay3 (iblk10 V c 0 t) := by
  by_cases h0 : t.val % 5 = 0
  · rw [outsAt10_A V c t h0]
    dsimp only
    exact out10_A_1_eq (F := Ideal) c (grid10.coords t) (ms10_0 t) (hs10_0 t) (ms10_1 t) (hs10_1 t) (ms10_2 t) (hs10_2 t) (ms10_3 t) (hs10_3 t) ((hcond10_0 t).mpr h0) (iblk10 V c 0 t)
  · rw [outsAt10_B V c t h0]
    dsimp only
    exact out10_B_1_eq (F := Ideal) c (grid10.coords t) (ms10_0 t) (hs10_0 t) (ms10_1 t) (hs10_1 t) (ms10_2 t) (hs10_2 t) (ms10_3 t) (hs10_3 t) (fun h => h0 ((hcond10_0 t).mp h)) (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2

set_option maxHeartbeats 1000000 in
/-- What point `t` writes back to the relu output is block `t` of the relu of the input array. -/
theorem flushed10_1_eq (c : Dev nD) (t : Fin cfg10.N) :
    (dat10 (F := Ideal) V c).flushed 1 t = ((cfg10.win 1).blk t).view.read (Elt Ideal) (Cert.Spec.relu (V c (Pipeline.arrRef spec10 0))) := by
  show (cfg10.win 1).cut (grid10.coords t) ((dat10 V c).after 1 t) = _
  rw [after10_1, outs10_1]
  funext j
  obtain ⟨r, q, rfl⟩ : ∃ (r : Fin 10000) (q : Fin 128), j = ix2 r q := ⟨j 0, j 1, eq_ix2 j⟩
  show k2_pay3 (iblk10 V c 0 t) (ix2 r q) = Cert.Spec.relu (V c (Pipeline.arrRef spec10 0)) (((cfg10.win 1).blk t).view.emb (ix2 r q))
  refine (k2_pay3_apply (iblk10 V c 0 t) r q).trans ?_
  exact congrArg (max · 0) (blk10_1 V c t r q)

/-- An index of the relu output is in point `t`'s block iff each coordinate is in the block's range. -/
theorem mem_blk10_1 (t : Fin cfg10.N) (i : S50000x128.Idx) :
    i ∈ ((cfg10.win 1).blk t).view.set ↔ ∀ a : Fin 2, win10_1.index t a * S10000x128.size a ≤ (i a).val ∧ (i a).val < win10_1.index t a * S10000x128.size a + S10000x128.size a := by
  show i ∈ ((View.whole main_v77_0).slice (win10_1.rect t)).set ↔ _
  rw [View.set_slice_whole, Rect.mem_set_unit]
  exact Iff.rfl

/-- Every row of the relu output lies in the block of the point numbered by its tile. -/
theorem cover10_1 (i : S50000x128.Idx) :
    ∃ t : Fin cfg10.N, (cfg10.win 1).flush t = true ∧ i ∈ ((cfg10.win 1).blk t).view.set := by
  have hi0 : (i 0).val < 50000 := (i 0).isLt
  have hi1 : (i 1).val < 128 := (i 1).isLt
  have hN : grid10.N = 5 := N_10
  have ht : (i 0).val / 10000 < cfg10.N := by show _ < grid10.N; rw [hN]; omega
  obtain ⟨e00, e01, e10, e11, -⟩ := idx10 ⟨(i 0).val / 10000, ht⟩
  have e10' : win10_1.index ⟨(i 0).val / 10000, ht⟩ (0 : Fin 2) = (i 0).val / 10000 := e10
  refine ⟨⟨(i 0).val / 10000, ht⟩, flush10_1 _, ?_⟩
  rw [mem_blk10_1]
  intro a
  match a with
  | ⟨0, _⟩ => show win10_1.index ⟨(i 0).val / 10000, ht⟩ (0 : Fin 2) * 10000 ≤ (i 0).val ∧ (i 0).val < win10_1.index ⟨(i 0).val / 10000, ht⟩ (0 : Fin 2) * 10000 + 10000; omega
  | ⟨1, _⟩ => show win10_1.index ⟨(i 0).val / 10000, ht⟩ (1 : Fin 2) * 128 ≤ (i 1).val ∧ (i 1).val < win10_1.index ⟨(i 0).val / 10000, ht⟩ (1 : Fin 2) * 128 + 128; omega

/-- The relu output after the region: the relu of the input array. -/
theorem final10_1 (c : Dev nD) :
    (dat10 (F := Ideal) V c).arrAt 1 cfg10.N = Cert.Spec.relu (V c (Pipeline.arrRef spec10 0)) :=
  (dat10 (F := Ideal) V c).arrAt_eq_of_cover 1 _ (fun t _ => flushed10_1_eq V c t) (cover10_1)

/-! ### The two accumulators -/

/-- One tile added to the sum accumulator: the tile's column sums of the relu. -/
theorem step10_S (c : Dev nD) (t : Fin cfg10.N) (ht : t.val < 5) (q : Fin 128) (xo : Vec Ideal S1x128 .f32) :
    k2_pay4 (iblk10 V c 0 t) xo (ix2 (0 : Fin 1) q) = xo (ix2 (0 : Fin 1) q) + partS (V c (Pipeline.arrRef spec10 0)) q t.val := by
  refine (k2_pay4_apply (iblk10 V c 0 t) xo q).trans ?_
  refine congrArg (xo (ix2 (0 : Fin 1) q) + ·) ?_
  unfold partS
  rw [dif_pos ht]
  exact Finset.sum_congr rfl fun r _ => congrArg (max · 0) (tile10 V c t ht r q)

/-- One tile added to the sum-of-squares accumulator: the tile's column sums of the squared relu. -/
theorem step10_Q (c : Dev nD) (t : Fin cfg10.N) (ht : t.val < 5) (q : Fin 128) (xo : Vec Ideal S1x128 .f32) :
    k2_pay5 (iblk10 V c 0 t) xo (ix2 (0 : Fin 1) q) = xo (ix2 (0 : Fin 1) q) + partQ (V c (Pipeline.arrRef spec10 0)) q t.val := by
  refine (k2_pay5_apply (iblk10 V c 0 t) xo q).trans ?_
  refine congrArg (xo (ix2 (0 : Fin 1) q) + ·) ?_
  unfold partQ
  rw [dif_pos ht]
  exact Finset.sum_congr rfl fun r _ => by rw [tile10 V c t ht r q]

/-- At the first point the accumulators are reset and hold the first tile's column sums. -/
theorem acc10_A (c : Dev nD) (t : Fin cfg10.N) (h0 : t.val % 5 = 0) (ht : t.val < 5) (q : Fin 128) :
    (outsAt10 V c t.val t.isLt).2.1 (ix2 (0 : Fin 1) q) = partS (V c (Pipeline.arrRef spec10 0)) q t.val
    ∧ (outsAt10 V c t.val t.isLt).2.2 (ix2 (0 : Fin 1) q) = partQ (V c (Pipeline.arrRef spec10 0)) q t.val := by
  rw [outsAt10_A V c t h0]
  dsimp only
  constructor
  · refine (congrFun (out10_A_2_eq (F := Ideal) c (grid10.coords t) (ms10_0 t) (hs10_0 t) (ms10_1 t) (hs10_1 t) (ms10_2 t) (hs10_2 t) (ms10_3 t) (hs10_3 t) ((hcond10_0 t).mpr h0) (iblk10 V c 0 t)) (ix2 (0 : Fin 1) q)).trans ?_
    refine (step10_S V c t ht q (k2_pay1 (F := Ideal))).trans ?_
    rw [k2_pay1_apply, zero_add]
  · refine (congrFun (out10_A_3_eq (F := Ideal) c (grid10.coords t) (ms10_0 t) (hs10_0 t) (ms10_1 t) (hs10_1 t) (ms10_2 t) (hs10_2 t) (ms10_3 t) (hs10_3 t) ((hcond10_0 t).mpr h0) (iblk10 V c 0 t)) (ix2 (0 : Fin 1) q)).trans ?_
    refine (step10_Q V c t ht q (k2_pay2 (F := Ideal))).trans ?_
    rw [k2_pay2_apply, zero_add]

/-- At a later point each accumulator holds what the point before left plus the tile's column sums. -/
theorem acc10_B (c : Dev nD) (t : Fin cfg10.N) (h0 : ¬t.val % 5 = 0) (ht : t.val < 5) (q : Fin 128) :
    (outsAt10 V c t.val t.isLt).2.1 (ix2 (0 : Fin 1) q)
        = (outsAt10 V c (t.val - 1) (Nat.lt_of_le_of_lt (Nat.sub_le _ _) t.isLt)).2.1 (ix2 (0 : Fin 1) q) + partS (V c (Pipeline.arrRef spec10 0)) q t.val
    ∧ (outsAt10 V c t.val t.isLt).2.2 (ix2 (0 : Fin 1) q)
        = (outsAt10 V c (t.val - 1) (Nat.lt_of_le_of_lt (Nat.sub_le _ _) t.isLt)).2.2 (ix2 (0 : Fin 1) q) + partQ (V c (Pipeline.arrRef spec10 0)) q t.val := by
  rw [outsAt10_B V c t h0]
  dsimp only
  constructor
  · refine (congrFun (out10_B_2_eq (F := Ideal) c (grid10.coords t) (ms10_0 t) (hs10_0 t) (ms10_1 t) (hs10_1 t) (ms10_2 t) (hs10_2 t) (ms10_3 t) (hs10_3 t) (fun h => h0 ((hcond10_0 t).mp h)) (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2) (ix2 (0 : Fin 1) q)).trans ?_
    exact step10_S V c t ht q (outsAt10 V c (t.val - 1) (Nat.lt_of_le_of_lt (Nat.sub_le _ _) t.isLt)).2.1
  · refine (congrFun (out10_B_3_eq (F := Ideal) c (grid10.coords t) (ms10_0 t) (hs10_0 t) (ms10_1 t) (hs10_1 t) (ms10_2 t) (hs10_2 t) (ms10_3 t) (hs10_3 t) (fun h => h0 ((hcond10_0 t).mp h)) (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2) (ix2 (0 : Fin 1) q)).trans ?_
    exact step10_Q V c t ht q (outsAt10 V c (t.val - 1) (Nat.lt_of_le_of_lt (Nat.sub_le _ _) t.isLt)).2.2

/-- After point `n` the accumulators hold the column sums over the first `n + 1` tiles. -/
theorem outsAt10_eq (c : Dev nD) (q : Fin 128) : ∀ (n : ℕ) (h : n < cfg10.N),
    (outsAt10 V c n h).2.1 (ix2 (0 : Fin 1) q) = ∑ s ∈ Finset.range (n + 1), partS (V c (Pipeline.arrRef spec10 0)) q s
    ∧ (outsAt10 V c n h).2.2 (ix2 (0 : Fin 1) q) = ∑ s ∈ Finset.range (n + 1), partQ (V c (Pipeline.arrRef spec10 0)) q s
  | 0, h => by
    have st := acc10_A V c ⟨0, h⟩ rfl (Nat.succ_pos 4) q
    rw [Finset.sum_range_one, Finset.sum_range_one]
    exact st
  | n + 1, h => by
    have hN : grid10.N = 5 := N_10
    have h' : n + 1 < grid10.N := h
    have ht : n + 1 < 5 := by omega
    have hB : ¬(n + 1) % 5 = 0 := by omega
    have ih := outsAt10_eq c q n (Nat.lt_of_succ_lt h)
    have st := acc10_B V c ⟨n + 1, h⟩ hB ht q
    rw [Finset.sum_range_succ _ (n + 1), Finset.sum_range_succ _ (n + 1)]
    exact ⟨st.1.trans (congrArg (· + partS (V c (Pipeline.arrRef spec10 0)) q (n + 1)) ih.1), st.2.trans (congrArg (· + partQ (V c (Pipeline.arrRef spec10 0)) q (n + 1)) ih.2)⟩

/-- The one write-back of accumulator 2, at the last point, writes the column sums over all 50000 rows. -/
theorem flushed10_2_eq (c : Dev nD) (t : Fin cfg10.N) (hf : (cfg10.win 2).flush t = true) :
    (dat10 (F := Ideal) V c).flushed 2 t = ((cfg10.win 2).blk t).view.read (Elt Ideal)
      (Cert.Spec.rowOf (Cert.Spec.colSum (Cert.Spec.relu (V c (Pipeline.arrRef spec10 0))))) := by
  have hN : grid10.N = 5 := N_10
  have htl : t.val < grid10.N := t.isLt
  have h4 : t.val = 4 := by have := (flush10_2 t).mp hf; omega
  generalize hG : Cert.Spec.rowOf (Cert.Spec.colSum (Cert.Spec.relu (V c (Pipeline.arrRef spec10 0)))) = G
  show (cfg10.win 2).cut (grid10.coords t) ((dat10 V c).after 2 t) = _
  rw [after10_2]
  funext j
  obtain ⟨u, q, rfl⟩ : ∃ (u : Fin 1) (q : Fin 128), j = ix2 u q := ⟨j 0, j 1, eq_ix2 j⟩
  obtain rfl : u = 0 := Subsingleton.elim _ _
  show (outsAt10 V c t.val t.isLt).2.1 (ix2 (0 : Fin 1) q) = G (((cfg10.win 2).blk t).view.emb (ix2 (0 : Fin 1) q))
  rw [emb10_2 t q, ← hG]
  refine ((outsAt10_eq V c q t.val t.isLt).1).trans ?_
  rw [h4]
  exact total_S (V c (Pipeline.arrRef spec10 0)) q

/-- The last point's block of accumulator 2 is the whole one-row array. -/
theorem cover10_2 (i : S1x128.Idx) :
    ∃ t : Fin cfg10.N, (cfg10.win 2).flush t = true ∧ i ∈ ((cfg10.win 2).blk t).view.set := by
  have hi0 : (i 0).val < 1 := (i 0).isLt
  have hi1 : (i 1).val < 128 := (i 1).isLt
  obtain ⟨e00, e01, e10, e11, e20, e21, e30, e31⟩ := idx10 t10_4
  refine ⟨t10_4, (flush10_2 t10_4).mpr rfl, ?_⟩
  show i ∈ ((View.whole main_v77_1).slice (win10_2.rect t10_4)).set
  rw [View.set_slice_whole, Rect.mem_set_unit]
  intro a
  match a with
  | ⟨0, _⟩ => show win10_2.index t10_4 (0 : Fin 2) * 1 ≤ (i 0).val ∧ (i 0).val < win10_2.index t10_4 (0 : Fin 2) * 1 + 1; omega
  | ⟨1, _⟩ => show win10_2.index t10_4 (1 : Fin 2) * 128 ≤ (i 1).val ∧ (i 1).val < win10_2.index t10_4 (1 : Fin 2) * 128 + 128; omega

/-- Accumulator 2 after the region. -/
theorem final10_2 (c : Dev nD) :
    (dat10 (F := Ideal) V c).arrAt 2 cfg10.N = Cert.Spec.rowOf (Cert.Spec.colSum (Cert.Spec.relu (V c (Pipeline.arrRef spec10 0)))) :=
  (dat10 (F := Ideal) V c).arrAt_eq_of_cover 2 _ (flushed10_2_eq V c) (cover10_2)

/-- The one write-back of accumulator 3, at the last point, writes the column sums over all 50000 rows. -/
theorem flushed10_3_eq (c : Dev nD) (t : Fin cfg10.N) (hf : (cfg10.win 3).flush t = true) :
    (dat10 (F := Ideal) V c).flushed 3 t = ((cfg10.win 3).blk t).view.read (Elt Ideal)
      (Cert.Spec.rowOf (Cert.Spec.colSum (Cert.Spec.sq (Cert.Spec.relu (V c (Pipeline.arrRef spec10 0)))))) := by
  have hN : grid10.N = 5 := N_10
  have htl : t.val < grid10.N := t.isLt
  have h4 : t.val = 4 := by have := (flush10_3 t).mp hf; omega
  generalize hG : Cert.Spec.rowOf (Cert.Spec.colSum (Cert.Spec.sq (Cert.Spec.relu (V c (Pipeline.arrRef spec10 0))))) = G
  show (cfg10.win 3).cut (grid10.coords t) ((dat10 V c).after 3 t) = _
  rw [after10_3]
  funext j
  obtain ⟨u, q, rfl⟩ : ∃ (u : Fin 1) (q : Fin 128), j = ix2 u q := ⟨j 0, j 1, eq_ix2 j⟩
  obtain rfl : u = 0 := Subsingleton.elim _ _
  show (outsAt10 V c t.val t.isLt).2.2 (ix2 (0 : Fin 1) q) = G (((cfg10.win 3).blk t).view.emb (ix2 (0 : Fin 1) q))
  rw [emb10_3 t q, ← hG]
  refine ((outsAt10_eq V c q t.val t.isLt).2).trans ?_
  rw [h4]
  exact total_Q (V c (Pipeline.arrRef spec10 0)) q

/-- The last point's block of accumulator 3 is the whole one-row array. -/
theorem cover10_3 (i : S1x128.Idx) :
    ∃ t : Fin cfg10.N, (cfg10.win 3).flush t = true ∧ i ∈ ((cfg10.win 3).blk t).view.set := by
  have hi0 : (i 0).val < 1 := (i 0).isLt
  have hi1 : (i 1).val < 128 := (i 1).isLt
  obtain ⟨e00, e01, e10, e11, e20, e21, e30, e31⟩ := idx10 t10_4
  refine ⟨t10_4, (flush10_3 t10_4).mpr rfl, ?_⟩
  show i ∈ ((View.whole main_v77_2).slice (win10_3.rect t10_4)).set
  rw [View.set_slice_whole, Rect.mem_set_unit]
  intro a
  match a with
  | ⟨0, _⟩ => show win10_3.index t10_4 (0 : Fin 2) * 1 ≤ (i 0).val ∧ (i 0).val < win10_3.index t10_4 (0 : Fin 2) * 1 + 1; omega
  | ⟨1, _⟩ => show win10_3.index t10_4 (1 : Fin 2) * 128 ≤ (i 1).val ∧ (i 1).val < win10_3.index t10_4 (1 : Fin 2) * 128 + 128; omega

/-- Accumulator 3 after the region. -/
theorem final10_3 (c : Dev nD) :
    (dat10 (F := Ideal) V c).arrAt 3 cfg10.N = Cert.Spec.rowOf (Cert.Spec.colSum (Cert.Spec.sq (Cert.Spec.relu (V c (Pipeline.arrRef spec10 0))))) :=
  (dat10 (F := Ideal) V c).arrAt_eq_of_cover 3 _ (flushed10_3_eq V c) (cover10_3)

end Cert.KernelIdeal.StatRegions

end
-- ==== Proof.BnPayload.lean ====
/-
  The batch-normalisation body at an index.

  The body reads a tile of 10000 rows of the features and four one-row arrays (column mean, column variance,
  scale, shift) and stores, at row r and column q of the tile,
      (h(r,q) − mean(q)) · rsqrt(var(q) + ε) · scale(q) + shift(q),
  every one-row array broadcast down the rows.  The three normalisation kernels of the network are the same
  text, so their payloads are one function.
-/
import proofs.«152577_j46067819217044_1_alg».proof.Proof.Gen.KernelIdeal.Skeleton
import proofs.«152577_j46067819217044_1_alg».proof.Proof.Spec
import Idealize.ShloMosaic.Lib.Pipeline.Value
import Idealize.ShloMosaic.Lib.ValueIdx
import Idealize.ShloMosaic.Lib.ValueLayout

noncomputable section

namespace Cert.KernelIdeal.BnRegions

open Idealize.ShloMosaic Idealize.ShloMosaic.ValueIdx
open Cert.KernelIdeal Cert.KernelIdeal.Gen

/-- The normalisation of one entry from the entry and its column's four numbers. -/
def bnAt (h mu var g bt : EReal) : EReal := (h - mu) * Ideal.rsqrt (var + Cert.Spec.eps) * g + bt

/-- The body's stored value at row `r`, column `q` of the tile: the first operand is the variance row, the
    second the feature tile, then the mean, the scale and the shift rows. -/
theorem k3_pay1_apply (v0 : Vec Ideal S1x128 .f32) (v5 : Vec Ideal S10000x128 .f32) (v7 v13 v17 : Vec Ideal S1x128 .f32)
    (r : Fin 10000) (q : Fin 128) :
    k3_pay1 (F := Ideal) v0 v5 v7 v13 v17 (ix2 r q)
      = bnAt (v5 (ix2 r q)) (v7 (ix2 (0 : Fin 1) q)) (v0 (ix2 (0 : Fin 1) q)) (v13 (ix2 (0 : Fin 1) q))
          (v17 (ix2 (0 : Fin 1) q)) := by
  have b : ∀ v : Vec Ideal S1x128 .f32,
      broadcastTo S10000x128 v broadcasts_S1x128_S10000x128 (ix2 r q) = v (ix2 (0 : Fin 1) q) :=
    fun v => broadcastTo_1b_ab_apply v broadcasts_S1x128_S10000x128 r q
  unfold k3_pay1 bnAt
  simp only [shapeCast_self, mulf_apply, addf_apply, subf_apply, b]
  rfl

/-- The specification's normalised array at an index, in the same form. -/
theorem bnRow_apply (h : FVec Ideal Cert.Spec.SN .f32) (mu var g bt : FVec Ideal Cert.Spec.SR .f32) (e : Cert.Spec.SN.Idx) :
    Cert.Spec.bnRow h mu var g bt e
      = bnAt (h e) (mu (ix2 (0 : Fin 1) (e 1))) (var (ix2 (0 : Fin 1) (e 1))) (g (ix2 (0 : Fin 1) (e 1)))
          (bt (ix2 (0 : Fin 1) (e 1))) := rfl

/-- The second and third normalisation kernels have the same body. -/
theorem k7_pay1_eq : @k7_pay1 Ideal _ = @k3_pay1 Ideal _ := rfl
theorem k11_pay1_eq : @k11_pay1 Ideal _ = @k3_pay1 Ideal _ := rfl

end Cert.KernelIdeal.BnRegions

end
-- ==== Proof.BnRegions.lean ====
/-
  The three batch-normalisation regions: the output array after each region.

  Each region walks five tiles of 10000 rows.  At tile t the body reads rows 10000·t … 10000·t + 9999 of the
  features and the four one-row arrays, and writes the normalised tile back to the same rows of the output, so
  the five write-backs together are the whole array, index by index the normalisation of the feature array.
-/
import proofs.«152577_j46067819217044_1_alg».proof.Proof.Gen.KernelIdeal.Frame
import proofs.«152577_j46067819217044_1_alg».proof.Proof.BnPayload
import Idealize.ShloMosaic.Lib.Pipeline.Value

set_option maxRecDepth 16384

noncomputable section

namespace Cert.KernelIdeal.BnRegions

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 3 -/

/-- The printed index maps over the five points: the feature tile and the output tile are block `t` of their
    arrays, the four one-row arrays stay at their only block. -/
theorem idx3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The feature tile and the output tile of a point sit at the same rows of their arrays. -/
theorem emb3_0 (t : Fin cfg3.N) (r : Fin 10000) (q : Fin 128) :
    ((cfg3.win 0).blk t).view.emb (ix2 r q) = ((cfg3.win 5).blk t).view.emb (ix2 r q) := by
  obtain ⟨e00, e01, e50, e51, -⟩ := idx3 t
  funext a; apply Fin.ext
  match a with
  | ⟨0, _⟩ => show win3_0.index t (0 : Fin 2) * 10000 + 1 * r.val = win3_5.index t (0 : Fin 2) * 10000 + 1 * r.val; omega
  | ⟨1, _⟩ => show win3_0.index t (1 : Fin 2) * 128 + 1 * q.val = win3_5.index t (1 : Fin 2) * 128 + 1 * q.val; omega

/-- One-row array 1 is read at the output entry's column. -/
theorem emb3_1 (t : Fin cfg3.N) (r : Fin 10000) (q : Fin 128) :
    ((cfg3.win 1).blk t).view.emb (ix2 (0 : Fin 1) q) = ix2 (0 : Fin 1) ((((cfg3.win 5).blk t).view.emb (ix2 r q)) 1) := by
  obtain ⟨e00, e01, e50, e51, e10, e11, e20, e21, e30, e31, e40, e41⟩ := idx3 t
  funext a; apply Fin.ext
  match a with
  | ⟨0, _⟩ => show win3_1.index t (0 : Fin 2) * 1 + 1 * 0 = 0; omega
  | ⟨1, _⟩ => show win3_1.index t (1 : Fin 2) * 128 + 1 * q.val = win3_5.index t (1 : Fin 2) * 128 + 1 * q.val; omega

/-- One-row array 2 is read at the output entry's column. -/
theorem emb3_2 (t : Fin cfg3.N) (r : Fin 10000) (q : Fin 128) :
    ((cfg3.win 2).blk t).view.emb (ix2 (0 : Fin 1) q) = ix2 (0 : Fin 1) ((((cfg3.win 5).blk t).view.emb (ix2 r q)) 1) := by
  obtain ⟨e00, e01, e50, e51, e10, e11, e20, e21, e30, e31, e40, e41⟩ := idx3 t
  funext a; apply Fin.ext
  match a with
  | ⟨0, _⟩ => show win3_2.index t (0 : Fin 2) * 1 + 1 * 0 = 0; omega
  | ⟨1, _⟩ => show win3_2.index t (1 : Fin 2) * 128 + 1 * q.val = win3_5.index t (1 : Fin 2) * 128 + 1 * q.val; omega

/-- One-row array 3 is read at the output entry's column. -/
theorem emb3_3 (t : Fin cfg3.N) (r : Fin 10000) (q : Fin 128) :
    ((cfg3.win 3).blk t).view.emb (ix2 (0 : Fin 1) q) = ix2 (0 : Fin 1) ((((cfg3.win 5).blk t).view.emb (ix2 r q)) 1) := by
  obtain ⟨e00, e01, e50, e51, e10, e11, e20, e21, e30, e31, e40, e41⟩ := idx3 t
  funext a; apply Fin.ext
  match a with
  | ⟨0, _⟩ => show win3_3.index t (0 : Fin 2) * 1 + 1 * 0 = 0; omega
  | ⟨1, _⟩ => show win3_3.index t (1 : Fin 2) * 128 + 1 * q.val = win3_5.index t (1 : Fin 2) * 128 + 1 * q.val; omega

/-- One-row array 4 is read at the output entry's column. -/
theorem emb3_4 (t : Fin cfg3.N) (r : Fin 10000) (q : Fin 128) :
    ((cfg3.win 4).blk t).view.emb (ix2 (0 : Fin 1) q) = ix2 (0 : Fin 1) ((((cfg3.win 5).blk t).view.emb (ix2 r q)) 1) := by
  obtain ⟨e00, e01, e50, e51, e10, e11, e20, e21, e30, e31, e40, e41⟩ := idx3 t
  funext a; apply Fin.ext
  match a with
  | ⟨0, _⟩ => show win3_4.index t (0 : Fin 2) * 1 + 1 * 0 = 0; omega
  | ⟨1, _⟩ => show win3_4.index t (1 : Fin 2) * 128 + 1 * q.val = win3_5.index t (1 : Fin 2) * 128 + 1 * q.val; omega

/-- The feature block of a point, read where the output block's entry sits. -/
theorem blk3_0 (c : Dev nD) (t : Fin cfg3.N) (r : Fin 10000) (q : Fin 128) :
    iblk3 V c 0 t (ix2 r q) = V c (Pipeline.arrRef spec3 0) (((cfg3.win 5).blk t).view.emb (ix2 r q)) :=
  congrArg (V c (Pipeline.arrRef spec3 0)) (emb3_0 t r q)
theorem blk3_1 (c : Dev nD) (t : Fin cfg3.N) (r : Fin 10000) (q : Fin 128) :
    iblk3 V c 1 t (ix2 (0 : Fin 1) q) = V c (Pipeline.arrRef spec3 1) (ix2 (0 : Fin 1) ((((cfg3.win 5).blk t).view.emb (ix2 r q)) 1)) :=
  congrArg (V c (Pipeline.arrRef spec3 1)) (emb3_1 t r q)
theorem blk3_2 (c : Dev nD) (t : Fin cfg3.N) (r : Fin 10000) (q : Fin 128) :
    iblk3 V c 2 t (ix2 (0 : Fin 1) q) = V c (Pipeline.arrRef spec3 2) (ix2 (0 : Fin 1) ((((cfg3.win 5).blk t).view.emb (ix2 r q)) 1)) :=
  congrArg (V c (Pipeline.arrRef spec3 2)) (emb3_2 t r q)
theorem blk3_3 (c : Dev nD) (t : Fin cfg3.N) (r : Fin 10000) (q : Fin 128) :
    iblk3 V c 3 t (ix2 (0 : Fin 1) q) = V c (Pipeline.arrRef spec3 3) (ix2 (0 : Fin 1) ((((cfg3.win 5).blk t).view.emb (ix2 r q)) 1)) :=
  congrArg (V c (Pipeline.arrRef spec3 3)) (emb3_3 t r q)
theorem blk3_4 (c : Dev nD) (t : Fin cfg3.N) (r : Fin 10000) (q : Fin 128) :
    iblk3 V c 4 t (ix2 (0 : Fin 1) q) = V c (Pipeline.arrRef spec3 4) (ix2 (0 : Fin 1) ((((cfg3.win 5).blk t).view.emb (ix2 r q)) 1)) :=
  congrArg (V c (Pipeline.arrRef spec3 4)) (emb3_4 t r q)

set_option maxHeartbeats 1000000 in
/-- What point `t` writes back is block `t` of the normalised array. -/
theorem flushed3_eq (c : Dev nD) (t : Fin cfg3.N) :
    (dat3 (F := Ideal) V c).flushed 5 t = ((cfg3.win 5).blk t).view.read (Elt Ideal)
      (Cert.Spec.bnRow (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S10000x128) hz, View.ld_unit_zero (S := S1x128) hz]
  funext j
  obtain ⟨r, q, rfl⟩ : ∃ (r : Fin 10000) (q : Fin 128), j = ix2 r q := ⟨j 0, j 1, eq_ix2 j⟩
  show k3_pay1 (iblk3 V c 2 t) (iblk3 V c 0 t) (iblk3 V c 1 t) (iblk3 V c 3 t) (iblk3 V c 4 t) (ix2 r q)
    = Cert.Spec.bnRow (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 r q))
  refine (k3_pay1_apply (iblk3 V c 2 t) (iblk3 V c 0 t) (iblk3 V c 1 t) (iblk3 V c 3 t) (iblk3 V c 4 t) r q).trans ?_
  refine Eq.trans ?_ (bnRow_apply (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 r q))).symm
  exact congr (congr (congr (congr (congrArg bnAt (blk3_0 V c t r q)) (blk3_1 V c t r q)) (blk3_2 V c t r q))
    (blk3_3 V c t r q)) (blk3_4 V c t r q)

/-- An index of the output array is in point `t`'s block iff each coordinate is in the block's range. -/
theorem mem_blk3 (t : Fin cfg3.N) (i : S50000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v32).slice (win3_5.rect t)).set ↔ _
  rw [View.set_slice_whole, Rect.mem_set_unit]
  exact Iff.rfl

/-- Every row of the output array lies in the block of the point numbered by its tile. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : grid3.N = 5 := N_3
  have ht : (i 0).val / 10000 < cfg3.N := by show _ < grid3.N; rw [hN]; omega
  obtain ⟨e00, e01, e50, e51, -⟩ := idx3 ⟨(i 0).val / 10000, ht⟩
  have e50' : win3_5.index ⟨(i 0).val / 10000, ht⟩ (0 : Fin 2) = (i 0).val / 10000 := e50
  refine ⟨⟨(i 0).val / 10000, ht⟩, flush3_5 _, ?_⟩
  rw [mem_blk3]
  intro a
  match a with
  | ⟨0, _⟩ => show win3_5.index ⟨(i 0).val / 10000, ht⟩ (0 : Fin 2) * 10000 ≤ (i 0).val ∧ (i 0).val < win3_5.index ⟨(i 0).val / 10000, ht⟩ (0 : Fin 2) * 10000 + 10000; omega
  | ⟨1, _⟩ => show win3_5.index ⟨(i 0).val / 10000, ht⟩ (1 : Fin 2) * 128 ≤ (i 1).val ∧ (i 1).val < win3_5.index ⟨(i 0).val / 10000, ht⟩ (1 : Fin 2) * 128 + 128; omega

/-- The output array after the region: the normalisation of the feature array by the four rows. -/
theorem final3 (c : Dev nD) :
    (dat3 (F := Ideal) V c).arrAt 5 cfg3.N
      = Cert.Spec.bnRow (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => flushed3_eq V c t) (cover3)

/-! ## Region 7 -/

/-- The printed index maps over the five points: the feature tile and the output tile are block `t` of their
    arrays, the four one-row arrays stay at their only block. -/
theorem idx7 : ∀ t : Fin cfg7.N, win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- The feature tile and the output tile of a point sit at the same rows of their arrays. -/
theorem emb7_0 (t : Fin cfg7.N) (r : Fin 10000) (q : Fin 128) :
    ((cfg7.win 0).blk t).view.emb (ix2 r q) = ((cfg7.win 5).blk t).view.emb (ix2 r q) := by
  obtain ⟨e00, e01, e50, e51, -⟩ := idx7 t
  funext a; apply Fin.ext
  match a with
  | ⟨0, _⟩ => show win7_0.index t (0 : Fin 2) * 10000 + 1 * r.val = win7_5.index t (0 : Fin 2) * 10000 + 1 * r.val; omega
  | ⟨1, _⟩ => show win7_0.index t (1 : Fin 2) * 128 + 1 * q.val = win7_5.index t (1 : Fin 2) * 128 + 1 * q.val; omega

/-- One-row array 1 is read at the output entry's column. -/
theorem emb7_1 (t : Fin cfg7.N) (r : Fin 10000) (q : Fin 128) :
    ((cfg7.win 1).blk t).view.emb (ix2 (0 : Fin 1) q) = ix2 (0 : Fin 1) ((((cfg7.win 5).blk t).view.emb (ix2 r q)) 1) := by
  obtain ⟨e00, e01, e50, e51, e10, e11, e20, e21, e30, e31, e40, e41⟩ := idx7 t
  funext a; apply Fin.ext
  match a with
  | ⟨0, _⟩ => show win7_1.index t (0 : Fin 2) * 1 + 1 * 0 = 0; omega
  | ⟨1, _⟩ => show win7_1.index t (1 : Fin 2) * 128 + 1 * q.val = win7_5.index t (1 : Fin 2) * 128 + 1 * q.val; omega

/-- One-row array 2 is read at the output entry's column. -/
theorem emb7_2 (t : Fin cfg7.N) (r : Fin 10000) (q : Fin 128) :
    ((cfg7.win 2).blk t).view.emb (ix2 (0 : Fin 1) q) = ix2 (0 : Fin 1) ((((cfg7.win 5).blk t).view.emb (ix2 r q)) 1) := by
  obtain ⟨e00, e01, e50, e51, e10, e11, e20, e21, e30, e31, e40, e41⟩ := idx7 t
  funext a; apply Fin.ext
  match a with
  | ⟨0, _⟩ => show win7_2.index t (0 : Fin 2) * 1 + 1 * 0 = 0; omega
  | ⟨1, _⟩ => show win7_2.index t (1 : Fin 2) * 128 + 1 * q.val = win7_5.index t (1 : Fin 2) * 128 + 1 * q.val; omega

/-- One-row array 3 is read at the output entry's column. -/
theorem emb7_3 (t : Fin cfg7.N) (r : Fin 10000) (q : Fin 128) :
    ((cfg7.win 3).blk t).view.emb (ix2 (0 : Fin 1) q) = ix2 (0 : Fin 1) ((((cfg7.win 5).blk t).view.emb (ix2 r q)) 1) := by
  obtain ⟨e00, e01, e50, e51, e10, e11, e20, e21, e30, e31, e40, e41⟩ := idx7 t
  funext a; apply Fin.ext
  match a with
  | ⟨0, _⟩ => show win7_3.index t (0 : Fin 2) * 1 + 1 * 0 = 0; omega
  | ⟨1, _⟩ => show win7_3.index t (1 : Fin 2) * 128 + 1 * q.val = win7_5.index t (1 : Fin 2) * 128 + 1 * q.val; omega

/-- One-row array 4 is read at the output entry's column. -/
theorem emb7_4 (t : Fin cfg7.N) (r : Fin 10000) (q : Fin 128) :
    ((cfg7.win 4).blk t).view.emb (ix2 (0 : Fin 1) q) = ix2 (0 : Fin 1) ((((cfg7.win 5).blk t).view.emb (ix2 r q)) 1) := by
  obtain ⟨e00, e01, e50, e51, e10, e11, e20, e21, e30, e31, e40, e41⟩ := idx7 t
  funext a; apply Fin.ext
  match a with
  | ⟨0, _⟩ => show win7_4.index t (0 : Fin 2) * 1 + 1 * 0 = 0; omega
  | ⟨1, _⟩ => show win7_4.index t (1 : Fin 2) * 128 + 1 * q.val = win7_5.index t (1 : Fin 2) * 128 + 1 * q.val; omega

/-- The feature block of a point, read where the output block's entry sits. -/
theorem blk7_0 (c : Dev nD) (t : Fin cfg7.N) (r : Fin 10000) (q : Fin 128) :
    iblk7 V c 0 t (ix2 r q) = V c (Pipeline.arrRef spec7 0) (((cfg7.win 5).blk t).view.emb (ix2 r q)) :=
  congrArg (V c (Pipeline.arrRef spec7 0)) (emb7_0 t r q)
theorem blk7_1 (c : Dev nD) (t : Fin cfg7.N) (r : Fin 10000) (q : Fin 128) :
    iblk7 V c 1 t (ix2 (0 : Fin 1) q) = V c (Pipeline.arrRef spec7 1) (ix2 (0 : Fin 1) ((((cfg7.win 5).blk t).view.emb (ix2 r q)) 1)) :=
  congrArg (V c (Pipeline.arrRef spec7 1)) (emb7_1 t r q)
theorem blk7_2 (c : Dev nD) (t : Fin cfg7.N) (r : Fin 10000) (q : Fin 128) :
    iblk7 V c 2 t (ix2 (0 : Fin 1) q) = V c (Pipeline.arrRef spec7 2) (ix2 (0 : Fin 1) ((((cfg7.win 5).blk t).view.emb (ix2 r q)) 1)) :=
  congrArg (V c (Pipeline.arrRef spec7 2)) (emb7_2 t r q)
theorem blk7_3 (c : Dev nD) (t : Fin cfg7.N) (r : Fin 10000) (q : Fin 128) :
    iblk7 V c 3 t (ix2 (0 : Fin 1) q) = V c (Pipeline.arrRef spec7 3) (ix2 (0 : Fin 1) ((((cfg7.win 5).blk t).view.emb (ix2 r q)) 1)) :=
  congrArg (V c (Pipeline.arrRef spec7 3)) (emb7_3 t r q)
theorem blk7_4 (c : Dev nD) (t : Fin cfg7.N) (r : Fin 10000) (q : Fin 128) :
    iblk7 V c 4 t (ix2 (0 : Fin 1) q) = V c (Pipeline.arrRef spec7 4) (ix2 (0 : Fin 1) ((((cfg7.win 5).blk t).view.emb (ix2 r q)) 1)) :=
  congrArg (V c (Pipeline.arrRef spec7 4)) (emb7_4 t r q)

set_option maxHeartbeats 1000000 in
/-- What point `t` writes back is block `t` of the normalised array. -/
theorem flushed7_eq (c : Dev nD) (t : Fin cfg7.N) :
    (dat7 (F := Ideal) V c).flushed 5 t = ((cfg7.win 5).blk t).view.read (Elt Ideal)
      (Cert.Spec.bnRow (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  unfold out7_5
  rw [View.canon_unit_zero hz]
  simp only [View.ld_unit_zero (S := S10000x128) hz, View.ld_unit_zero (S := S1x128) hz]
  funext j
  obtain ⟨r, q, rfl⟩ : ∃ (r : Fin 10000) (q : Fin 128), j = ix2 r q := ⟨j 0, j 1, eq_ix2 j⟩
  show k3_pay1 (iblk7 V c 2 t) (iblk7 V c 0 t) (iblk7 V c 1 t) (iblk7 V c 3 t) (iblk7 V c 4 t) (ix2 r q)
    = Cert.Spec.bnRow (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb (ix2 r q))
  refine (k3_pay1_apply (iblk7 V c 2 t) (iblk7 V c 0 t) (iblk7 V c 1 t) (iblk7 V c 3 t) (iblk7 V c 4 t) r q).trans ?_
  refine Eq.trans ?_ (bnRow_apply (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb (ix2 r q))).symm
  exact congr (congr (congr (congr (congrArg bnAt (blk7_0 V c t r q)) (blk7_1 V c t r q)) (blk7_2 V c t r q))
    (blk7_3 V c t r q)) (blk7_4 V c t r q)

/-- An index of the output array is in point `t`'s block iff each coordinate is in the block's range. -/
theorem mem_blk7 (t : Fin cfg7.N) (i : S50000x128.Idx) :
    i ∈ ((cfg7.win 5).blk t).view.set ↔ ∀ a : Fin 2, win7_5.index t a * S10000x128.size a ≤ (i a).val ∧ (i a).val < win7_5.index t a * S10000x128.size a + S10000x128.size a := by
  show i ∈ ((View.whole main_v61).slice (win7_5.rect t)).set ↔ _
  rw [View.set_slice_whole, Rect.mem_set_unit]
  exact Iff.rfl

/-- Every row of the output array lies in the block of the point numbered by its tile. -/
theorem cover7 (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  have hN : grid7.N = 5 := N_7
  have ht : (i 0).val / 10000 < cfg7.N := by show _ < grid7.N; rw [hN]; omega
  obtain ⟨e00, e01, e50, e51, -⟩ := idx7 ⟨(i 0).val / 10000, ht⟩
  have e50' : win7_5.index ⟨(i 0).val / 10000, ht⟩ (0 : Fin 2) = (i 0).val / 10000 := e50
  refine ⟨⟨(i 0).val / 10000, ht⟩, flush7_5 _, ?_⟩
  rw [mem_blk7]
  intro a
  match a with
  | ⟨0, _⟩ => show win7_5.index ⟨(i 0).val / 10000, ht⟩ (0 : Fin 2) * 10000 ≤ (i 0).val ∧ (i 0).val < win7_5.index ⟨(i 0).val / 10000, ht⟩ (0 : Fin 2) * 10000 + 10000; omega
  | ⟨1, _⟩ => show win7_5.index ⟨(i 0).val / 10000, ht⟩ (1 : Fin 2) * 128 ≤ (i 1).val ∧ (i 1).val < win7_5.index ⟨(i 0).val / 10000, ht⟩ (1 : Fin 2) * 128 + 128; omega

/-- The output array after the region: the normalisation of the feature array by the four rows. -/
theorem final7 (c : Dev nD) :
    (dat7 (F := Ideal) V c).arrAt 5 cfg7.N
      = Cert.Spec.bnRow (V c (Pipeline.arrRef spec7 0)) (V c (Pipeline.arrRef spec7 1)) (V c (Pipeline.arrRef spec7 2))
          (V c (Pipeline.arrRef spec7 3)) (V c (Pipeline.arrRef spec7 4)) :=
  (dat7 (F := Ideal) V c).arrAt_eq_of_cover 5 _ (fun t _ => flushed7_eq V c t) (cover7)

/-! ## Region 11 -/

/-- The printed index maps over the five points: the feature tile and the output tile are block `t` of their
    arrays, the four one-row arrays stay at their only block. -/
theorem idx11 : ∀ t : Fin cfg11.N, win11_0.index t (0 : Fin 2) = t.val ∧ win11_0.index t (1 : Fin 2) = 0
    ∧ win11_5.index t (0 : Fin 2) = t.val ∧ win11_5.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- The feature tile and the output tile of a point sit at the same rows of their arrays. -/
theorem emb11_0 (t : Fin cfg11.N) (r : Fin 10000) (q : Fin 128) :
    ((cfg11.win 0).blk t).view.emb (ix2 r q) = ((cfg11.win 5).blk t).view.emb (ix2 r q) := by
  obtain ⟨e00, e01, e50, e51, -⟩ := idx11 t
  funext a; apply Fin.ext
  match a with
  | ⟨0, _⟩ => show win11_0.index t (0 : Fin 2) * 10000 + 1 * r.val = win11_5.index t (0 : Fin 2) * 10000 + 1 * r.val; omega
  | ⟨1, _⟩ => show win11_0.index t (1 : Fin 2) * 128 + 1 * q.val = win11_5.index t (1 : Fin 2) * 128 + 1 * q.val; omega

/-- One-row array 1 is read at the output entry's column. -/
theorem emb11_1 (t : Fin cfg11.N) (r : Fin 10000) (q : Fin 128) :
    ((cfg11.win 1).blk t).view.emb (ix2 (0 : Fin 1) q) = ix2 (0 : Fin 1) ((((cfg11.win 5).blk t).view.emb (ix2 r q)) 1) := by
  obtain ⟨e00, e01, e50, e51, e10, e11, e20, e21, e30, e31, e40, e41⟩ := idx11 t
  funext a; apply Fin.ext
  match a with
  | ⟨0, _⟩ => show win11_1.index t (0 : Fin 2) * 1 + 1 * 0 = 0; omega
  | ⟨1, _⟩ => show win11_1.index t (1 : Fin 2) * 128 + 1 * q.val = win11_5.index t (1 : Fin 2) * 128 + 1 * q.val; omega

/-- One-row array 2 is read at the output entry's column. -/
theorem emb11_2 (t : Fin cfg11.N) (r : Fin 10000) (q : Fin 128) :
    ((cfg11.win 2).blk t).view.emb (ix2 (0 : Fin 1) q) = ix2 (0 : Fin 1) ((((cfg11.win 5).blk t).view.emb (ix2 r q)) 1) := by
  obtain ⟨e00, e01, e50, e51, e10, e11, e20, e21, e30, e31, e40, e41⟩ := idx11 t
  funext a; apply Fin.ext
  match a with
  | ⟨0, _⟩ => show win11_2.index t (0 : Fin 2) * 1 + 1 * 0 = 0; omega
  | ⟨1, _⟩ => show win11_2.index t (1 : Fin 2) * 128 + 1 * q.val = win11_5.index t (1 : Fin 2) * 128 + 1 * q.val; omega

/-- One-row array 3 is read at the output entry's column. -/
theorem emb11_3 (t : Fin cfg11.N) (r : Fin 10000) (q : Fin 128) :
    ((cfg11.win 3).blk t).view.emb (ix2 (0 : Fin 1) q) = ix2 (0 : Fin 1) ((((cfg11.win 5).blk t).view.emb (ix2 r q)) 1) := by
  obtain ⟨e00, e01, e50, e51, e10, e11, e20, e21, e30, e31, e40, e41⟩ := idx11 t
  funext a; apply Fin.ext
  match a with
  | ⟨0, _⟩ => show win11_3.index t (0 : Fin 2) * 1 + 1 * 0 = 0; omega
  | ⟨1, _⟩ => show win11_3.index t (1 : Fin 2) * 128 + 1 * q.val = win11_5.index t (1 : Fin 2) * 128 + 1 * q.val; omega

/-- One-row array 4 is read at the output entry's column. -/
theorem emb11_4 (t : Fin cfg11.N) (r : Fin 10000) (q : Fin 128) :
    ((cfg11.win 4).blk t).view.emb (ix2 (0 : Fin 1) q) = ix2 (0 : Fin 1) ((((cfg11.win 5).blk t).view.emb (ix2 r q)) 1) := by
  obtain ⟨e00, e01, e50, e51, e10, e11, e20, e21, e30, e31, e40, e41⟩ := idx11 t
  funext a; apply Fin.ext
  match a with
  | ⟨0, _⟩ => show win11_4.index t (0 : Fin 2) * 1 + 1 * 0 = 0; omega
  | ⟨1, _⟩ => show win11_4.index t (1 : Fin 2) * 128 + 1 * q.val = win11_5.index t (1 : Fin 2) * 128 + 1 * q.val; omega

/-- The feature block of a point, read where the output block's entry sits. -/
theorem blk11_0 (c : Dev nD) (t : Fin cfg11.N) (r : Fin 10000) (q : Fin 128) :
    iblk11 V c 0 t (ix2 r q) = V c (Pipeline.arrRef spec11 0) (((cfg11.win 5).blk t).view.emb (ix2 r q)) :=
  congrArg (V c (Pipeline.arrRef spec11 0)) (emb11_0 t r q)
theorem blk11_1 (c : Dev nD) (t : Fin cfg11.N) (r : Fin 10000) (q : Fin 128) :
    iblk11 V c 1 t (ix2 (0 : Fin 1) q) = V c (Pipeline.arrRef spec11 1) (ix2 (0 : Fin 1) ((((cfg11.win 5).blk t).view.emb (ix2 r q)) 1)) :=
  congrArg (V c (Pipeline.arrRef spec11 1)) (emb11_1 t r q)
theorem blk11_2 (c : Dev nD) (t : Fin cfg11.N) (r : Fin 10000) (q : Fin 128) :
    iblk11 V c 2 t (ix2 (0 : Fin 1) q) = V c (Pipeline.arrRef spec11 2) (ix2 (0 : Fin 1) ((((cfg11.win 5).blk t).view.emb (ix2 r q)) 1)) :=
  congrArg (V c (Pipeline.arrRef spec11 2)) (emb11_2 t r q)
theorem blk11_3 (c : Dev nD) (t : Fin cfg11.N) (r : Fin 10000) (q : Fin 128) :
    iblk11 V c 3 t (ix2 (0 : Fin 1) q) = V c (Pipeline.arrRef spec11 3) (ix2 (0 : Fin 1) ((((cfg11.win 5).blk t).view.emb (ix2 r q)) 1)) :=
  congrArg (V c (Pipeline.arrRef spec11 3)) (emb11_3 t r q)
theorem blk11_4 (c : Dev nD) (t : Fin cfg11.N) (r : Fin 10000) (q : Fin 128) :
    iblk11 V c 4 t (ix2 (0 : Fin 1) q) = V c (Pipeline.arrRef spec11 4) (ix2 (0 : Fin 1) ((((cfg11.win 5).blk t).view.emb (ix2 r q)) 1)) :=
  congrArg (V c (Pipeline.arrRef spec11 4)) (emb11_4 t r q)

set_option maxHeartbeats 1000000 in
/-- What point `t` writes back is block `t` of the normalised array. -/
theorem flushed11_eq (c : Dev nD) (t : Fin cfg11.N) :
    (dat11 (F := Ideal) V c).flushed 5 t = ((cfg11.win 5).blk t).view.read (Elt Ideal)
      (Cert.Spec.bnRow (V c (Pipeline.arrRef spec11 0)) (V c (Pipeline.arrRef spec11 1)) (V c (Pipeline.arrRef spec11 2))
        (V c (Pipeline.arrRef spec11 3)) (V c (Pipeline.arrRef spec11 4))) := by
  show (cfg11.win 5).cut (grid11.coords t) ((dat11 V c).after 5 t) = _
  rw [after11_5]
  unfold out11_5
  rw [View.canon_unit_zero hz]
  simp only [View.ld_unit_zero (S := S10000x128) hz, View.ld_unit_zero (S := S1x128) hz]
  funext j
  obtain ⟨r, q, rfl⟩ : ∃ (r : Fin 10000) (q : Fin 128), j = ix2 r q := ⟨j 0, j 1, eq_ix2 j⟩
  show k3_pay1 (iblk11 V c 2 t) (iblk11 V c 0 t) (iblk11 V c 1 t) (iblk11 V c 3 t) (iblk11 V c 4 t) (ix2 r q)
    = Cert.Spec.bnRow (V c (Pipeline.arrRef spec11 0)) (V c (Pipeline.arrRef spec11 1)) (V c (Pipeline.arrRef spec11 2))
        (V c (Pipeline.arrRef spec11 3)) (V c (Pipeline.arrRef spec11 4)) (((cfg11.win 5).blk t).view.emb (ix2 r q))
  refine (k3_pay1_apply (iblk11 V c 2 t) (iblk11 V c 0 t) (iblk11 V c 1 t) (iblk11 V c 3 t) (iblk11 V c 4 t) r q).trans ?_
  refine Eq.trans ?_ (bnRow_apply (V c (Pipeline.arrRef spec11 0)) (V c (Pipeline.arrRef spec11 1)) (V c (Pipeline.arrRef spec11 2))
        (V c (Pipeline.arrRef spec11 3)) (V c (Pipeline.arrRef spec11 4)) (((cfg11.win 5).blk t).view.emb (ix2 r q))).symm
  exact congr (congr (congr (congr (congrArg bnAt (blk11_0 V c t r q)) (blk11_1 V c t r q)) (blk11_2 V c t r q))
    (blk11_3 V c t r q)) (blk11_4 V c t r q)

/-- An index of the output array is in point `t`'s block iff each coordinate is in the block's range. -/
theorem mem_blk11 (t : Fin cfg11.N) (i : S50000x128.Idx) :
    i ∈ ((cfg11.win 5).blk t).view.set ↔ ∀ a : Fin 2, win11_5.index t a * S10000x128.size a ≤ (i a).val ∧ (i a).val < win11_5.index t a * S10000x128.size a + S10000x128.size a := by
  show i ∈ ((View.whole main_v90).slice (win11_5.rect t)).set ↔ _
  rw [View.set_slice_whole, Rect.mem_set_unit]
  exact Iff.rfl

/-- Every row of the output array lies in the block of the point numbered by its tile. -/
theorem cover11 (i : S50000x128.Idx) :
    ∃ t : Fin cfg11.N, (cfg11.win 5).flush t = true ∧ i ∈ ((cfg11.win 5).blk t).view.set := by
  have hi0 : (i 0).val < 50000 := (i 0).isLt
  have hi1 : (i 1).val < 128 := (i 1).isLt
  have hN : grid11.N = 5 := N_11
  have ht : (i 0).val / 10000 < cfg11.N := by show _ < grid11.N; rw [hN]; omega
  obtain ⟨e00, e01, e50, e51, -⟩ := idx11 ⟨(i 0).val / 10000, ht⟩
  have e50' : win11_5.index ⟨(i 0).val / 10000, ht⟩ (0 : Fin 2) = (i 0).val / 10000 := e50
  refine ⟨⟨(i 0).val / 10000, ht⟩, flush11_5 _, ?_⟩
  rw [mem_blk11]
  intro a
  match a with
  | ⟨0, _⟩ => show win11_5.index ⟨(i 0).val / 10000, ht⟩ (0 : Fin 2) * 10000 ≤ (i 0).val ∧ (i 0).val < win11_5.index ⟨(i 0).val / 10000, ht⟩ (0 : Fin 2) * 10000 + 10000; omega
  | ⟨1, _⟩ => show win11_5.index ⟨(i 0).val / 10000, ht⟩ (1 : Fin 2) * 128 ≤ (i 1).val ∧ (i 1).val < win11_5.index ⟨(i 0).val / 10000, ht⟩ (1 : Fin 2) * 128 + 128; omega

/-- The output array after the region: the normalisation of the feature array by the four rows. -/
theorem final11 (c : Dev nD) :
    (dat11 (F := Ideal) V c).arrAt 5 cfg11.N
      = Cert.Spec.bnRow (V c (Pipeline.arrRef spec11 0)) (V c (Pipeline.arrRef spec11 1)) (V c (Pipeline.arrRef spec11 2))
          (V c (Pipeline.arrRef spec11 3)) (V c (Pipeline.arrRef spec11 4)) :=
  (dat11 (F := Ideal) V c).arrAt_eq_of_cover 5 _ (fun t _ => flushed11_eq V c t) (cover11)

end Cert.KernelIdeal.BnRegions

end
-- ==== Proof.KVal.lean ====
/-
  The kernel program's result, read back to the argument arrays.

  The fold of the program's segments is read backwards from the result buffer.  The last stretch of host operations
  is the column mean of the third layer's output.  Each layer's output is its last region's array: the batch
  normalisation of the rectified aggregation with the mean and variance rows the host arithmetic makes from the
  statistics region's two rows of column sums; the aggregation is the host's gather, sum and accumulating scatter
  of the two linear regions' outputs through the edge list, the same function in the three layers.  Buffers that a
  segment does not write are carried across it.  Together: the result is the column mean of the three-layer
  network with the one-pass variance, applied to the argument arrays.
-/
import proofs.«152577_j46067819217044_1_alg».proof.Proof.KWalk
import proofs.«152577_j46067819217044_1_alg».proof.Proof.KHost
import proofs.«152577_j46067819217044_1_alg».proof.Proof.LinRegions
import proofs.«152577_j46067819217044_1_alg».proof.Proof.StatRegions
import proofs.«152577_j46067819217044_1_alg».proof.Proof.BnRegions

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-! ## The two index vectors -/

/-- The source nodes, as the first stretch leaves them. -/
theorem src1 : W1 m ρ c (Proc.devRef .tc main_v1) = edgeSrc (m ((c.tc : Thread nD τ).loc main_arg1)) := src_stretch0 (W0 m ρ c)
/-- The destination nodes, as the first stretch leaves them. -/
theorem dst1 : W1 m ρ c (Proc.devRef .tc main_v3) = edgeDst (m ((c.tc : Thread nD τ).loc main_arg1)) := dst_stretch0 (W0 m ρ c)

/-! ## Layer 1 -/

/-- The node image of layer 1: region 0's output from its three arrays as entered. -/
theorem node1 : W2 m ρ c (Proc.devRef .tc main_v5) = Cert.Spec.linRow (m ((c.tc : Thread nD τ).loc main_arg0)) (m ((c.tc : Thread nD τ).loc main_arg3)) (rowVec (m ((c.tc : Thread nD τ).loc main_arg4))) := by
  have h : W2 m ρ c (Proc.devRef .tc main_v5)
      = Cert.Spec.linRow (W1 m ρ c (Proc.devRef .tc main_arg0)) (W1 m ρ c (Proc.devRef .tc main_arg3)) (W1 m ρ c (Proc.devRef .tc main_v4)) :=
    (W2_arr m ρ c 3).trans (LinRegions.final0 (V1 m ρ) c)
  have hb : W1 m ρ c (Proc.devRef .tc main_v4) = rowVec (m ((c.tc : Thread nD τ).loc main_arg4)) := row_stretch0 (W0 m ρ c)
  rw [h, hb, at1_arg0, at1_arg3]
/-- The edge image of layer 1: region 1's output. -/
theorem edge1 : W4 m ρ c (Proc.devRef .tc main_v7) = Cert.Spec.linRow (m ((c.tc : Thread nD τ).loc main_arg2)) (m ((c.tc : Thread nD τ).loc main_arg5)) (rowVec (m ((c.tc : Thread nD τ).loc main_arg6))) := by
  have h : W4 m ρ c (Proc.devRef .tc main_v7)
      = Cert.Spec.linRow (W3 m ρ c (Proc.devRef .tc main_arg2)) (W3 m ρ c (Proc.devRef .tc main_arg5)) (W3 m ρ c (Proc.devRef .tc main_v6)) :=
    (W4_arr m ρ c 3).trans (LinRegions.final1 (V3 m ρ) c)
  have hb : W3 m ρ c (Proc.devRef .tc main_v6) = rowVec (W2 m ρ c (Proc.devRef .tc main_arg6)) := row_stretch1 (W2 m ρ c)
  rw [h, hb, at3_arg2, at3_arg5, at2_arg6]
/-- The aggregation of layer 1: the host stretch before region 2, through the edge list. -/
theorem agg1 : W5 m ρ c (Proc.devRef .tc main_v18) = aggK (m ((c.tc : Thread nD τ).loc main_arg1)) (Cert.Spec.linRow (m ((c.tc : Thread nD τ).loc main_arg0)) (m ((c.tc : Thread nD τ).loc main_arg3)) (rowVec (m ((c.tc : Thread nD τ).loc main_arg4)))) (Cert.Spec.linRow (m ((c.tc : Thread nD τ).loc main_arg2)) (m ((c.tc : Thread nD τ).loc main_arg5)) (rowVec (m ((c.tc : Thread nD τ).loc main_arg6)))) := by
  have h : W5 m ρ c (Proc.devRef .tc main_v18)
      = aggOf (W4 m ρ c (Proc.devRef .tc main_v1)) (W4 m ρ c (Proc.devRef .tc main_v3)) (W4 m ρ c (Proc.devRef .tc main_v5)) (W4 m ρ c (Proc.devRef .tc main_v7)) :=
    agg_stretch2 (W4 m ρ c)
  rw [h, at4_v1, at4_v3, at4_v5, src1, dst1, node1, edge1]
  rfl
/-- Region 2's three outputs: the rectified aggregation, its column sums, the column sums of its squares. -/
theorem relu1 : W6 m ρ c (Proc.devRef .tc main_v19_0) = Cert.Spec.relu (aggK (m ((c.tc : Thread nD τ).loc main_arg1)) (Cert.Spec.linRow (m ((c.tc : Thread nD τ).loc main_arg0)) (m ((c.tc : Thread nD τ).loc main_arg3)) (rowVec (m ((c.tc : Thread nD τ).loc main_arg4)))) (Cert.Spec.linRow (m ((c.tc : Thread nD τ).loc main_arg2)) (m ((c.tc : Thread nD τ).loc main_arg5)) (rowVec (m ((c.tc : Thread nD τ).loc main_arg6))))) := by
  have h : W6 m ρ c (Proc.devRef .tc main_v19_0) = Cert.Spec.relu (W5 m ρ c (Proc.devRef .tc main_v18)) :=
    (W6_arr m ρ c 1).trans (StatRegions.final2_1 (V5 m ρ) c)
  rw [h, agg1]
theorem sum1 : W6 m ρ c (Proc.devRef .tc main_v19_1) = Cert.Spec.rowOf (Cert.Spec.colSum (Cert.Spec.relu (aggK (m ((c.tc : Thread nD τ).loc main_arg1)) (Cert.Spec.linRow (m ((c.tc : Thread nD τ).loc main_arg0)) (m ((c.tc : Thread nD τ).loc main_arg3)) (rowVec (m ((c.tc : Thread nD τ).loc main_arg4)))) (Cert.Spec.linRow (m ((c.tc : Thread nD τ).loc main_arg2)) (m ((c.tc : Thread nD τ).loc main_arg5)) (rowVec (m ((c.tc : Thread nD τ).loc main_arg6))))))) := by
  have h : W6 m ρ c (Proc.devRef .tc main_v19_1) = Cert.Spec.rowOf (Cert.Spec.colSum (Cert.Spec.relu (W5 m ρ c (Proc.devRef .tc main_v18)))) :=
    (W6_arr m ρ c 2).trans (StatRegions.final2_2 (V5 m ρ) c)
  rw [h, agg1]
theorem sumsq1 : W6 m ρ c (Proc.devRef .tc main_v19_2) = Cert.Spec.rowOf (Cert.Spec.colSum (Cert.Spec.sq (Cert.Spec.relu (aggK (m ((c.tc : Thread nD τ).loc main_arg1)) (Cert.Spec.linRow (m ((c.tc : Thread nD τ).loc main_arg0)) (m ((c.tc : Thread nD τ).loc main_arg3)) (rowVec (m ((c.tc : Thread nD τ).loc main_arg4)))) (Cert.Spec.linRow (m ((c.tc : Thread nD τ).loc main_arg2)) (m ((c.tc : Thread nD τ).loc main_arg5)) (rowVec (m ((c.tc : Thread nD τ).loc main_arg6)))))))) := by
  have h : W6 m ρ c (Proc.devRef .tc main_v19_2) = Cert.Spec.rowOf (Cert.Spec.colSum (Cert.Spec.sq (Cert.Spec.relu (W5 m ρ c (Proc.devRef .tc main_v18))))) :=
    (W6_arr m ρ c 3).trans (StatRegions.final2_3 (V5 m ρ) c)
  rw [h, agg1]
/-- Layer 1: region 3's output is the layer of the mathematics applied to the node features. -/
theorem layer1 : W8 m ρ c (Proc.devRef .tc main_v32)
    = Cert.Spec.layerOnePass (aggK (m ((c.tc : Thread nD τ).loc main_arg1))) (m ((c.tc : Thread nD τ).loc main_arg0)) (m ((c.tc : Thread nD τ).loc main_arg3)) (m ((c.tc : Thread nD τ).loc main_arg4)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  have h : W8 m ρ c (Proc.devRef .tc main_v32)
      = Cert.Spec.bnRow (W7 m ρ c (Proc.devRef .tc main_v19_0)) (W7 m ρ c (Proc.devRef .tc main_v28)) (W7 m ρ c (Proc.devRef .tc main_v29)) (W7 m ρ c (Proc.devRef .tc main_v30)) (W7 m ρ c (Proc.devRef .tc main_v31)) :=
    (W8_arr m ρ c 5).trans (BnRegions.final3 (V7 m ρ) c)
  have hmu : W7 m ρ c (Proc.devRef .tc main_v28) = rowVec (meanVec (W6 m ρ c (Proc.devRef .tc main_v19_1))) := mean_stretch3 (W6 m ρ c)
  have hva : W7 m ρ c (Proc.devRef .tc main_v29) = rowVec (varVec (W6 m ρ c (Proc.devRef .tc main_v19_1)) (W6 m ρ c (Proc.devRef .tc main_v19_2))) := var_stretch3 (W6 m ρ c)
  have hg : W7 m ρ c (Proc.devRef .tc main_v30) = rowVec (W6 m ρ c (Proc.devRef .tc main_arg7)) := scale_stretch3 (W6 m ρ c)
  have hbt : W7 m ρ c (Proc.devRef .tc main_v31) = rowVec (W6 m ρ c (Proc.devRef .tc main_arg8)) := shift_stretch3 (W6 m ρ c)
  rw [h, hmu, hva, hg, hbt, at7_v19_0, at6_arg7, at6_arg8, relu1, sum1, sumsq1]
  exact layer_eq (aggK (m ((c.tc : Thread nD τ).loc main_arg1))) _ _ _ _ _ _ _ _

/-! ## Layer 2 -/

/-- The node image of layer 2: region 4's output from its three arrays as entered. -/
theorem node2 : W10 m ρ c (Proc.devRef .tc main_v34) = Cert.Spec.linRow (W8 m ρ c (Proc.devRef .tc main_v32)) (m ((c.tc : Thread nD τ).loc main_arg9)) (rowVec (m ((c.tc : Thread nD τ).loc main_arg10))) := by
  have h : W10 m ρ c (Proc.devRef .tc main_v34)
      = Cert.Spec.linRow (W9 m ρ c (Proc.devRef .tc main_v32)) (W9 m ρ c (Proc.devRef .tc main_arg9)) (W9 m ρ c (Proc.devRef .tc main_v33)) :=
    (W10_arr m ρ c 3).trans (LinRegions.final4 (V9 m ρ) c)
  have hb : W9 m ρ c (Proc.devRef .tc main_v33) = rowVec (W8 m ρ c (Proc.devRef .tc main_arg10)) := row_stretch4 (W8 m ρ c)
  rw [h, hb, at9_v32, at9_arg9, at8_arg10]
/-- The edge image of layer 2: region 5's output. -/
theorem edge2 : W12 m ρ c (Proc.devRef .tc main_v36) = Cert.Spec.linRow (m ((c.tc : Thread nD τ).loc main_arg2)) (m ((c.tc : Thread nD τ).loc main_arg11)) (rowVec (m ((c.tc : Thread nD τ).loc main_arg12))) := by
  have h : W12 m ρ c (Proc.devRef .tc main_v36)
      = Cert.Spec.linRow (W11 m ρ c (Proc.devRef .tc main_arg2)) (W11 m ρ c (Proc.devRef .tc main_arg11)) (W11 m ρ c (Proc.devRef .tc main_v35)) :=
    (W12_arr m ρ c 3).trans (LinRegions.final5 (V11 m ρ) c)
  have hb : W11 m ρ c (Proc.devRef .tc main_v35) = rowVec (W10 m ρ c (Proc.devRef .tc main_arg12)) := row_stretch5 (W10 m ρ c)
  rw [h, hb, at11_arg2, at11_arg11, at10_arg12]
/-- The aggregation of layer 2: the host stretch before region 6, through the edge list. -/
theorem agg2 : W13 m ρ c (Proc.devRef .tc main_v47) = aggK (m ((c.tc : Thread nD τ).loc main_arg1)) (Cert.Spec.linRow (W8 m ρ c (Proc.devRef .tc main_v32)) (m ((c.tc : Thread nD τ).loc main_arg9)) (rowVec (m ((c.tc : Thread nD τ).loc main_arg10)))) (Cert.Spec.linRow (m ((c.tc : Thread nD τ).loc main_arg2)) (m ((c.tc : Thread nD τ).loc main_arg11)) (rowVec (m ((c.tc : Thread nD τ).loc main_arg12)))) := by
  have h : W13 m ρ c (Proc.devRef .tc main_v47)
      = aggOf (W12 m ρ c (Proc.devRef .tc main_v1)) (W12 m ρ c (Proc.devRef .tc main_v3)) (W12 m ρ c (Proc.devRef .tc main_v34)) (W12 m ρ c (Proc.devRef .tc main_v36)) :=
    agg_stretch6 (W12 m ρ c)
  rw [h, at12_v1, at12_v3, at12_v34, src1, dst1, node2, edge2]
  rfl
/-- Region 6's three outputs: the rectified aggregation, its column sums, the column sums of its squares. -/
theorem relu2 : W14 m ρ c (Proc.devRef .tc main_v48_0) = Cert.Spec.relu (aggK (m ((c.tc : Thread nD τ).loc main_arg1)) (Cert.Spec.linRow (W8 m ρ c (Proc.devRef .tc main_v32)) (m ((c.tc : Thread nD τ).loc main_arg9)) (rowVec (m ((c.tc : Thread nD τ).loc main_arg10)))) (Cert.Spec.linRow (m ((c.tc : Thread nD τ).loc main_arg2)) (m ((c.tc : Thread nD τ).loc main_arg11)) (rowVec (m ((c.tc : Thread nD τ).loc main_arg12))))) := by
  have h : W14 m ρ c (Proc.devRef .tc main_v48_0) = Cert.Spec.relu (W13 m ρ c (Proc.devRef .tc main_v47)) :=
    (W14_arr m ρ c 1).trans (StatRegions.final6_1 (V13 m ρ) c)
  rw [h, agg2]
theorem sum2 : W14 m ρ c (Proc.devRef .tc main_v48_1) = Cert.Spec.rowOf (Cert.Spec.colSum (Cert.Spec.relu (aggK (m ((c.tc : Thread nD τ).loc main_arg1)) (Cert.Spec.linRow (W8 m ρ c (Proc.devRef .tc main_v32)) (m ((c.tc : Thread nD τ).loc main_arg9)) (rowVec (m ((c.tc : Thread nD τ).loc main_arg10)))) (Cert.Spec.linRow (m ((c.tc : Thread nD τ).loc main_arg2)) (m ((c.tc : Thread nD τ).loc main_arg11)) (rowVec (m ((c.tc : Thread nD τ).loc main_arg12))))))) := by
  have h : W14 m ρ c (Proc.devRef .tc main_v48_1) = Cert.Spec.rowOf (Cert.Spec.colSum (Cert.Spec.relu (W13 m ρ c (Proc.devRef .tc main_v47)))) :=
    (W14_arr m ρ c 2).trans (StatRegions.final6_2 (V13 m ρ) c)
  rw [h, agg2]
theorem sumsq2 : W14 m ρ c (Proc.devRef .tc main_v48_2) = Cert.Spec.rowOf (Cert.Spec.colSum (Cert.Spec.sq (Cert.Spec.relu (aggK (m ((c.tc : Thread nD τ).loc main_arg1)) (Cert.Spec.linRow (W8 m ρ c (Proc.devRef .tc main_v32)) (m ((c.tc : Thread nD τ).loc main_arg9)) (rowVec (m ((c.tc : Thread nD τ).loc main_arg10)))) (Cert.Spec.linRow (m ((c.tc : Thread nD τ).loc main_arg2)) (m ((c.tc : Thread nD τ).loc main_arg11)) (rowVec (m ((c.tc : Thread nD τ).loc main_arg12)))))))) := by
  have h : W14 m ρ c (Proc.devRef .tc main_v48_2) = Cert.Spec.rowOf (Cert.Spec.colSum (Cert.Spec.sq (Cert.Spec.relu (W13 m ρ c (Proc.devRef .tc main_v47))))) :=
    (W14_arr m ρ c 3).trans (StatRegions.final6_3 (V13 m ρ) c)
  rw [h, agg2]
/-- Layer 2: region 7's output is the layer of the mathematics applied to layer 1's output. -/
theorem layer2 : W16 m ρ c (Proc.devRef .tc main_v61)
    = Cert.Spec.layerOnePass (aggK (m ((c.tc : Thread nD τ).loc main_arg1))) (W8 m ρ c (Proc.devRef .tc main_v32)) (m ((c.tc : Thread nD τ).loc main_arg9)) (m ((c.tc : Thread nD τ).loc main_arg10)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  have h : W16 m ρ c (Proc.devRef .tc main_v61)
      = Cert.Spec.bnRow (W15 m ρ c (Proc.devRef .tc main_v48_0)) (W15 m ρ c (Proc.devRef .tc main_v57)) (W15 m ρ c (Proc.devRef .tc main_v58)) (W15 m ρ c (Proc.devRef .tc main_v59)) (W15 m ρ c (Proc.devRef .tc main_v60)) :=
    (W16_arr m ρ c 5).trans (BnRegions.final7 (V15 m ρ) c)
  have hmu : W15 m ρ c (Proc.devRef .tc main_v57) = rowVec (meanVec (W14 m ρ c (Proc.devRef .tc main_v48_1))) := mean_stretch7 (W14 m ρ c)
  have hva : W15 m ρ c (Proc.devRef .tc main_v58) = rowVec (varVec (W14 m ρ c (Proc.devRef .tc main_v48_1)) (W14 m ρ c (Proc.devRef .tc main_v48_2))) := var_stretch7 (W14 m ρ c)
  have hg : W15 m ρ c (Proc.devRef .tc main_v59) = rowVec (W14 m ρ c (Proc.devRef .tc main_arg13)) := scale_stretch7 (W14 m ρ c)
  have hbt : W15 m ρ c (Proc.devRef .tc main_v60) = rowVec (W14 m ρ c (Proc.devRef .tc main_arg14)) := shift_stretch7 (W14 m ρ c)
  rw [h, hmu, hva, hg, hbt, at15_v48_0, at14_arg13, at14_arg14, relu2, sum2, sumsq2]
  exact layer_eq (aggK (m ((c.tc : Thread nD τ).loc main_arg1))) _ _ _ _ _ _ _ _

/-! ## Layer 3 -/

/-- The node image of layer 3: region 8's output from its three arrays as entered. -/
theorem node3 : W18 m ρ c (Proc.devRef .tc main_v63) = Cert.Spec.linRow (W16 m ρ c (Proc.devRef .tc main_v61)) (m ((c.tc : Thread nD τ).loc main_arg15)) (rowVec (m ((c.tc : Thread nD τ).loc main_arg16))) := by
  have h : W18 m ρ c (Proc.devRef .tc main_v63)
      = Cert.Spec.linRow (W17 m ρ c (Proc.devRef .tc main_v61)) (W17 m ρ c (Proc.devRef .tc main_arg15)) (W17 m ρ c (Proc.devRef .tc main_v62)) :=
    (W18_arr m ρ c 3).trans (LinRegions.final8 (V17 m ρ) c)
  have hb : W17 m ρ c (Proc.devRef .tc main_v62) = rowVec (W16 m ρ c (Proc.devRef .tc main_arg16)) := row_stretch8 (W16 m ρ c)
  rw [h, hb, at17_v61, at17_arg15, at16_arg16]
/-- The edge image of layer 3: region 9's output. -/
theorem edge3 : W20 m ρ c (Proc.devRef .tc main_v65) = Cert.Spec.linRow (m ((c.tc : Thread nD τ).loc main_arg2)) (m ((c.tc : Thread nD τ).loc main_arg17)) (rowVec (m ((c.tc : Thread nD τ).loc main_arg18))) := by
  have h : W20 m ρ c (Proc.devRef .tc main_v65)
      = Cert.Spec.linRow (W19 m ρ c (Proc.devRef .tc main_arg2)) (W19 m ρ c (Proc.devRef .tc main_arg17)) (W19 m ρ c (Proc.devRef .tc main_v64)) :=
    (W20_arr m ρ c 3).trans (LinRegions.final9 (V19 m ρ) c)
  have hb : W19 m ρ c (Proc.devRef .tc main_v64) = rowVec (W18 m ρ c (Proc.devRef .tc main_arg18)) := row_stretch9 (W18 m ρ c)
  rw [h, hb, at19_arg2, at19_arg17, at18_arg18]
/-- The aggregation of layer 3: the host stretch before region 10, through the edge list. -/
theorem agg3 : W21 m ρ c (Proc.devRef .tc main_v76) = aggK (m ((c.tc : Thread nD τ).loc main_arg1)) (Cert.Spec.linRow (W16 m ρ c (Proc.devRef .tc main_v61)) (m ((c.tc : Thread nD τ).loc main_arg15)) (rowVec (m ((c.tc : Thread nD τ).loc main_arg16)))) (Cert.Spec.linRow (m ((c.tc : Thread nD τ).loc main_arg2)) (m ((c.tc : Thread nD τ).loc main_arg17)) (rowVec (m ((c.tc : Thread nD τ).loc main_arg18)))) := by
  have h : W21 m ρ c (Proc.devRef .tc main_v76)
      = aggOf (W20 m ρ c (Proc.devRef .tc main_v1)) (W20 m ρ c (Proc.devRef .tc main_v3)) (W20 m ρ c (Proc.devRef .tc main_v63)) (W20 m ρ c (Proc.devRef .tc main_v65)) :=
    agg_stretch10 (W20 m ρ c)
  rw [h, at20_v1, at20_v3, at20_v63, src1, dst1, node3, edge3]
  rfl
/-- Region 10's three outputs: the rectified aggregation, its column sums, the column sums of its squares. -/
theorem relu3 : W22 m ρ c (Proc.devRef .tc main_v77_0) = Cert.Spec.relu (aggK (m ((c.tc : Thread nD τ).loc main_arg1)) (Cert.Spec.linRow (W16 m ρ c (Proc.devRef .tc main_v61)) (m ((c.tc : Thread nD τ).loc main_arg15)) (rowVec (m ((c.tc : Thread nD τ).loc main_arg16)))) (Cert.Spec.linRow (m ((c.tc : Thread nD τ).loc main_arg2)) (m ((c.tc : Thread nD τ).loc main_arg17)) (rowVec (m ((c.tc : Thread nD τ).loc main_arg18))))) := by
  have h : W22 m ρ c (Proc.devRef .tc main_v77_0) = Cert.Spec.relu (W21 m ρ c (Proc.devRef .tc main_v76)) :=
    (W22_arr m ρ c 1).trans (StatRegions.final10_1 (V21 m ρ) c)
  rw [h, agg3]
theorem sum3 : W22 m ρ c (Proc.devRef .tc main_v77_1) = Cert.Spec.rowOf (Cert.Spec.colSum (Cert.Spec.relu (aggK (m ((c.tc : Thread nD τ).loc main_arg1)) (Cert.Spec.linRow (W16 m ρ c (Proc.devRef .tc main_v61)) (m ((c.tc : Thread nD τ).loc main_arg15)) (rowVec (m ((c.tc : Thread nD τ).loc main_arg16)))) (Cert.Spec.linRow (m ((c.tc : Thread nD τ).loc main_arg2)) (m ((c.tc : Thread nD τ).loc main_arg17)) (rowVec (m ((c.tc : Thread nD τ).loc main_arg18))))))) := by
  have h : W22 m ρ c (Proc.devRef .tc main_v77_1) = Cert.Spec.rowOf (Cert.Spec.colSum (Cert.Spec.relu (W21 m ρ c (Proc.devRef .tc main_v76)))) :=
    (W22_arr m ρ c 2).trans (StatRegions.final10_2 (V21 m ρ) c)
  rw [h, agg3]
theorem sumsq3 : W22 m ρ c (Proc.devRef .tc main_v77_2) = Cert.Spec.rowOf (Cert.Spec.colSum (Cert.Spec.sq (Cert.Spec.relu (aggK (m ((c.tc : Thread nD τ).loc main_arg1)) (Cert.Spec.linRow (W16 m ρ c (Proc.devRef .tc main_v61)) (m ((c.tc : Thread nD τ).loc main_arg15)) (rowVec (m ((c.tc : Thread nD τ).loc main_arg16)))) (Cert.Spec.linRow (m ((c.tc : Thread nD τ).loc main_arg2)) (m ((c.tc : Thread nD τ).loc main_arg17)) (rowVec (m ((c.tc : Thread nD τ).loc main_arg18)))))))) := by
  have h : W22 m ρ c (Proc.devRef .tc main_v77_2) = Cert.Spec.rowOf (Cert.Spec.colSum (Cert.Spec.sq (Cert.Spec.relu (W21 m ρ c (Proc.devRef .tc main_v76))))) :=
    (W22_arr m ρ c 3).trans (StatRegions.final10_3 (V21 m ρ) c)
  rw [h, agg3]
/-- Layer 3: region 11's output is the layer of the mathematics applied to layer 2's output. -/
theorem layer3 : W24 m ρ c (Proc.devRef .tc main_v90)
    = Cert.Spec.layerOnePass (aggK (m ((c.tc : Thread nD τ).loc main_arg1))) (W16 m ρ c (Proc.devRef .tc main_v61)) (m ((c.tc : Thread nD τ).loc main_arg15)) (m ((c.tc : Thread nD τ).loc main_arg16)) (m ((c.tc : Thread nD τ).loc main_arg2)) (m ((c.tc : Thread nD τ).loc main_arg17)) (m ((c.tc : Thread nD τ).loc main_arg18)) (m ((c.tc : Thread nD τ).loc main_arg19)) (m ((c.tc : Thread nD τ).loc main_arg20)) := by
  have h : W24 m ρ c (Proc.devRef .tc main_v90)
      = Cert.Spec.bnRow (W23 m ρ c (Proc.devRef .tc main_v77_0)) (W23 m ρ c (Proc.devRef .tc main_v86)) (W23 m ρ c (Proc.devRef .tc main_v87)) (W23 m ρ c (Proc.devRef .tc main_v88)) (W23 m ρ c (Proc.devRef .tc main_v89)) :=
    (W24_arr m ρ c 5).trans (BnRegions.final11 (V23 m ρ) c)
  have hmu : W23 m ρ c (Proc.devRef .tc main_v86) = rowVec (meanVec (W22 m ρ c (Proc.devRef .tc main_v77_1))) := mean_stretch11 (W22 m ρ c)
  have hva : W23 m ρ c (Proc.devRef .tc main_v87) = rowVec (varVec (W22 m ρ c (Proc.devRef .tc main_v77_1)) (W22 m ρ c (Proc.devRef .tc main_v77_2))) := var_stretch11 (W22 m ρ c)
  have hg : W23 m ρ c (Proc.devRef .tc main_v88) = rowVec (W22 m ρ c (Proc.devRef .tc main_arg19)) := scale_stretch11 (W22 m ρ c)
  have hbt : W23 m ρ c (Proc.devRef .tc main_v89) = rowVec (W22 m ρ c (Proc.devRef .tc main_arg20)) := shift_stretch11 (W22 m ρ c)
  rw [h, hmu, hva, hg, hbt, at23_v77_0, at22_arg19, at22_arg20, relu3, sum3, sumsq3]
  exact layer_eq (aggK (m ((c.tc : Thread nD τ).loc main_arg1))) _ _ _ _ _ _ _ _

/-! ## The result -/

/-- The program's result is the column mean of the three-layer network, one-pass variance, at the argument arrays,
    the aggregation being the host's through the edge list. -/
theorem kvalue : W25 m ρ c (Proc.devRef .tc main_v93)
    = Cert.Spec.mean (Cert.Spec.netOnePass (aggK (m ((c.tc : Thread nD τ).loc main_arg1)))
        (m ((c.tc : Thread nD τ).loc main_arg0))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20))) := by
  have h : W25 m ρ c (Proc.devRef .tc main_v93) = meanOut (W24 m ρ c (Proc.devRef .tc main_v90)) := out_stretch12 (W24 m ρ c)
  rw [h, meanOut_eq, layer3, layer2, layer1]
  rfl

end Cert.KernelIdeal.KVal

end
-- ==== Proof.KResult.lean ====
/-
  The kernel program's run with its result in the words of the mathematics.

  Every execution of the program terminates; its final memory holds at the result buffer the column mean of the
  three-layer network (one-pass variance, the aggregation the host's through the edge list) applied to the argument
  arrays as launched, and holds the argument arrays as launched.
-/
import proofs.«152577_j46067819217044_1_alg».proof.Proof.KRun
import proofs.«152577_j46067819217044_1_alg».proof.Proof.KVal

set_option maxRecDepth 16384

noncomputable section

namespace Cert.KernelIdeal.KVal

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg)

/-- The result of the kernel program on core `c`, from the launch memory. -/
def kernelResult (c : Dev nD) : Buf (Elt Ideal) ((c.tc : Thread nD τ).loc main_v93) :=
  Cert.Spec.mean (Cert.Spec.netOnePass (aggK (m ((c.tc : Thread nD τ).loc main_arg1)))
    (m ((c.tc : Thread nD τ).loc main_arg0))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20)))

/-- The run of the kernel program: it terminates, its result is `kernelResult`, its arguments end as launched. -/
theorem run_result : θ_run defs (onTc (τ := τ) (main (F := Ideal))) ⟨m, fun _ => 0, ρ⟩ (fun r => ∀ c : Dev nD,
      r.2.mem ((c.tc : Thread nD τ).loc main_v93) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (kvalue m ρ c), (h c).2⟩) (run_value m ρ)

end Cert.KernelIdeal.KVal

end
-- ==== Proof.RRunOps.lean ====
/-
  The reference program's host function as one list of its 216 operations, in order: the three outlined
  functions (the maximum with zero; the column variance, which itself calls the selection between a quotient
  and a not-a-number word) written out at each of their calls over that call's own buffers.  The program is
  the list run in sequence, and every operation touches only buffers of the device.
-/
import proofs.«152577_j46067819217044_1_alg».proof.Proof.Gen.ReferenceIdeal
import Idealize.ShloMosaic.Lib.StableHlo.Run

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The 216 operations, in order. -/
abbrev ops : List (HloOp τ sig (Elt F)) :=
  [ StableHlo.unary main_arg1 main_v0 ((extractStridedSlice S600000x1 ![0, 0] · slices_S600000x2_S600000x1_0_0) : (⟨S600000x2, .i32⟩ : BufTy).Contents (Elt F) → (⟨S600000x1, .i32⟩ : BufTy).Contents (Elt F)),
    StableHlo.reshape main_v0 main_v1 rfl shapeCasts_S600000x1_S600000,
    StableHlo.unary main_arg1 main_v2 ((extractStridedSlice S600000x1 ![0, 1] · slices_S600000x2_S600000x1_0_1) : (⟨S600000x2, .i32⟩ : BufTy).Contents (Elt F) → (⟨S600000x1, .i32⟩ : BufTy).Contents (Elt F)),
    StableHlo.reshape main_v2 main_v3 rfl shapeCasts_S600000x1_S600000,
    StableHlo.binary main_arg0 main_arg3 main_v4 ((fun l r => Host.dotGeneral dot_S50000x19_S19x128_S50000x128_1_0_0_1_n_n none l r) : (⟨S50000x19, .f32⟩ : BufTy).Contents (Elt F) → (⟨S19x128, .f32⟩ : BufTy).Contents (Elt F) → (⟨S50000x128, .f32⟩ : BufTy).Contents (Elt F)),
    StableHlo.unary main_arg4 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.binary main_arg2 main_arg5 main_v8 ((fun l r => Host.dotGeneral dot_S600000x6_S6x128_S600000x128_1_0_0_1_n_n none l r) : (⟨S600000x6, .f32⟩ : BufTy).Contents (Elt F) → (⟨S6x128, .f32⟩ : BufTy).Contents (Elt F) → (⟨S600000x128, .f32⟩ : BufTy).Contents (Elt F)),
    StableHlo.unary main_arg6 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S600000x128 ![0, 1] bcast_S1x128_S600000x128_0_1 : (⟨S1x128, .f32⟩ : BufTy).Contents (Elt F) → (⟨S600000x128, .f32⟩ : BufTy).Contents (Elt F)),
    StableHlo.binary main_v8 main_v10 main_v11 (addf : (⟨S600000x128, .f32⟩ : BufTy).Contents (Elt F) → (⟨S600000x128, .f32⟩ : BufTy).Contents (Elt F) → (⟨S600000x128, .f32⟩ : BufTy).Contents (Elt F)),
    StableHlo.nullary main_c (constantI S_ 32 0#32),
    StableHlo.unary main_c main_v12 (broadcastInDim S600000 ![] bcast_S_S600000 : (⟨S_, .i32⟩ : BufTy).Contents (Elt F) → (⟨S600000, .i32⟩ : BufTy).Contents (Elt F)),
    StableHlo.binary main_v1 main_v12 main_v13 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v14 (broadcastInDim S600000 ![] bcast_S_S600000 : (⟨S_, .i32⟩ : BufTy).Contents (Elt F) → (⟨S600000, .i32⟩ : BufTy).Contents (Elt F)),
    StableHlo.binary main_v1 main_v14 main_v15 (addi : (⟨S600000, .i32⟩ : BufTy).Contents (Elt F) → (⟨S600000, .i32⟩ : BufTy).Contents (Elt F) → (⟨S600000, .i32⟩ : BufTy).Contents (Elt F)),
    StableHlo.ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v16 main_v17 (broadcastInDim S600000x1 ![0] bcast_S600000_S600000x1_0 : (⟨S600000, .i32⟩ : BufTy).Contents (Elt F) → (⟨S600000x1, .i32⟩ : BufTy).Contents (Elt F)),
    StableHlo.binary main_v7 main_v17 main_v18 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v18 main_v11 main_v19 (addf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v20 (broadcastInDim S50000x128 ![] bcast_S_S50000x128 : (⟨S_, .f32⟩ : BufTy).Contents (Elt F) → (⟨S50000x128, .f32⟩ : BufTy).Contents (Elt F)),
    StableHlo.unary main_v3 main_v21 (broadcastInDim S600000x1 ![0] bcast_S600000_S600000x1_0 : (⟨S600000, .i32⟩ : BufTy).Contents (Elt F) → (⟨S600000x1, .i32⟩ : BufTy).Contents (Elt F)),
    StableHlo.ternary main_v20 main_v21 main_v19 main_v22 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (TRef.of main_v22 : TRef sig ⟨S50000x128, .f32⟩) main_call0.v0 main_call0.v1 maximumf,
    StableHlo.nullary main_cst_1 (constant S_ .f32 0x00000000#32),
    StableHlo.binary main_v23 main_cst_1 main_v24 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v25 (broadcastInDim S128 ![] bcast_S_S128 : (⟨S_, .f32⟩ : BufTy).Contents (Elt F) → (⟨S128, .f32⟩ : BufTy).Contents (Elt F)),
    StableHlo.binary main_v24 main_v25 main_v26 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (TRef.of main_v23 : TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (TRef.of main_v23 : TRef sig ⟨S50000x128, .f32⟩) main_call1.v4 main_call1.v5 subf,
    StableHlo.TRef.binary main_call1.v5 main_call1.v5 main_call1.v6 mulf,
    StableHlo.TRef.unary (TRef.of main_c_3 : TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v26 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v29 main_v30 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v31 (broadcastInDim S128 ![] bcast_S_S128 : (⟨S_, .f32⟩ : BufTy).Contents (Elt F) → (⟨S128, .f32⟩ : BufTy).Contents (Elt F)),
    StableHlo.binary main_v27 main_v31 main_v32 (addf : (⟨S128, .f32⟩ : BufTy).Contents (Elt F) → (⟨S128, .f32⟩ : BufTy).Contents (Elt F) → (⟨S128, .f32⟩ : BufTy).Contents (Elt F)),
    StableHlo.unary main_v32 main_v33 (Host.rsqrt : (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v35 main_v36 (mulf : (⟨S50000x128, .f32⟩ : BufTy).Contents (Elt F) → (⟨S50000x128, .f32⟩ : BufTy).Contents (Elt F) → (⟨S50000x128, .f32⟩ : BufTy).Contents (Elt F)),
    StableHlo.unary main_arg7 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v38 main_v39 (mulf : (⟨S50000x128, .f32⟩ : BufTy).Contents (Elt F) → (⟨S50000x128, .f32⟩ : BufTy).Contents (Elt F) → (⟨S50000x128, .f32⟩ : BufTy).Contents (Elt F)),
    StableHlo.unary main_arg8 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (addf : (⟨S50000x128, .f32⟩ : BufTy).Contents (Elt F) → (⟨S50000x128, .f32⟩ : BufTy).Contents (Elt F) → (⟨S50000x128, .f32⟩ : BufTy).Contents (Elt F)),
    StableHlo.binary main_v42 main_arg9 main_v43 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.binary main_arg2 main_arg11 main_v47 ((fun l r => Host.dotGeneral dot_S600000x6_S6x128_S600000x128_1_0_0_1_n_n none l r) : (⟨S600000x6, .f32⟩ : BufTy).Contents (Elt F) → (⟨S6x128, .f32⟩ : BufTy).Contents (Elt F) → (⟨S600000x128, .f32⟩ : BufTy).Contents (Elt F)),
    StableHlo.unary main_arg12 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S600000x128 ![0, 1] bcast_S1x128_S600000x128_0_1 : (⟨S1x128, .f32⟩ : BufTy).Contents (Elt F) → (⟨S600000x128, .f32⟩ : BufTy).Contents (Elt F)),
    StableHlo.binary main_v47 main_v49 main_v50 (addf : (⟨S600000x128, .f32⟩ : BufTy).Contents (Elt F) → (⟨S600000x128, .f32⟩ : BufTy).Contents (Elt F) → (⟨S600000x128, .f32⟩ : BufTy).Contents (Elt F)),
    StableHlo.nullary main_c_5 (constantI S_ 32 0#32),
    StableHlo.unary main_c_5 main_v51 (broadcastInDim S600000 ![] bcast_S_S600000 : (⟨S_, .i32⟩ : BufTy).Contents (Elt F) → (⟨S600000, .i32⟩ : BufTy).Contents (Elt F)),
    StableHlo.binary main_v1 main_v51 main_v52 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v53 (broadcastInDim S600000 ![] bcast_S_S600000 : (⟨S_, .i32⟩ : BufTy).Contents (Elt F) → (⟨S600000, .i32⟩ : BufTy).Contents (Elt F)),
    StableHlo.binary main_v1 main_v53 main_v54 (addi : (⟨S600000, .i32⟩ : BufTy).Contents (Elt F) → (⟨S600000, .i32⟩ : BufTy).Contents (Elt F) → (⟨S600000, .i32⟩ : BufTy).Contents (Elt F)),
    StableHlo.ternary main_v52 main_v54 main_v1 main_v55 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v55 main_v56 (broadcastInDim S600000x1 ![0] bcast_S600000_S600000x1_0 : (⟨S600000, .i32⟩ : BufTy).Contents (Elt F) → (⟨S600000x1, .i32⟩ : BufTy).Contents (Elt F)),
    StableHlo.binary main_v46 main_v56 main_v57 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v57 main_v50 main_v58 (addf : (⟨S600000x128, .f32⟩ : BufTy).Contents (Elt F) → (⟨S600000x128, .f32⟩ : BufTy).Contents (Elt F) → (⟨S600000x128, .f32⟩ : BufTy).Contents (Elt F)),
    StableHlo.nullary main_cst_7 (constant S_ .f32 0x00000000#32),
    StableHlo.unary main_cst_7 main_v59 (broadcastInDim S50000x128 ![] bcast_S_S50000x128 : (⟨S_, .f32⟩ : BufTy).Contents (Elt F) → (⟨S50000x128, .f32⟩ : BufTy).Contents (Elt F)),
    StableHlo.unary main_v3 main_v60 (broadcastInDim S600000x1 ![0] bcast_S600000_S600000x1_0 : (⟨S600000, .i32⟩ : BufTy).Contents (Elt F) → (⟨S600000x1, .i32⟩ : BufTy).Contents (Elt F)),
    StableHlo.ternary main_v59 main_v60 main_v58 main_v61 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (TRef.of main_v61 : TRef sig ⟨S50000x128, .f32⟩) main_call2.v0 main_call2.v1 maximumf,
    StableHlo.nullary main_cst_8 (constant S_ .f32 0x00000000#32),
    StableHlo.binary main_v62 main_cst_8 main_v63 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v64 (broadcastInDim S128 ![] bcast_S_S128 : (⟨S_, .f32⟩ : BufTy).Contents (Elt F) → (⟨S128, .f32⟩ : BufTy).Contents (Elt F)),
    StableHlo.binary main_v63 main_v64 main_v65 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call3.cst (constant S_ .f32 0x00000000#32),
    StableHlo.TRef.binary (TRef.of main_v62 : TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (TRef.of main_v62 : TRef sig ⟨S50000x128, .f32⟩) main_call3.v4 main_call3.v5 subf,
    StableHlo.TRef.binary main_call3.v5 main_call3.v5 main_call3.v6 mulf,
    StableHlo.TRef.unary (TRef.of main_c_10 : TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v65 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v62 main_v68 main_v69 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v70 (broadcastInDim S128 ![] bcast_S_S128 : (⟨S_, .f32⟩ : BufTy).Contents (Elt F) → (⟨S128, .f32⟩ : BufTy).Contents (Elt F)),
    StableHlo.binary main_v66 main_v70 main_v71 (addf : (⟨S128, .f32⟩ : BufTy).Contents (Elt F) → (⟨S128, .f32⟩ : BufTy).Contents (Elt F) → (⟨S128, .f32⟩ : BufTy).Contents (Elt F)),
    StableHlo.unary main_v71 main_v72 (Host.rsqrt : (⟨S128, .f32⟩ : BufTy).Contents (Elt F) → (⟨S128, .f32⟩ : BufTy).Contents (Elt F)),
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v74 main_v75 (mulf : (⟨S50000x128, .f32⟩ : BufTy).Contents (Elt F) → (⟨S50000x128, .f32⟩ : BufTy).Contents (Elt F) → (⟨S50000x128, .f32⟩ : BufTy).Contents (Elt F)),
    StableHlo.unary main_arg13 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v75 main_v77 main_v78 (mulf : (⟨S50000x128, .f32⟩ : BufTy).Contents (Elt F) → (⟨S50000x128, .f32⟩ : BufTy).Contents (Elt F) → (⟨S50000x128, .f32⟩ : BufTy).Contents (Elt F)),
    StableHlo.unary main_arg14 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v80 main_v81 (addf : (⟨S50000x128, .f32⟩ : BufTy).Contents (Elt F) → (⟨S50000x128, .f32⟩ : BufTy).Contents (Elt F) → (⟨S50000x128, .f32⟩ : BufTy).Contents (Elt F)),
    StableHlo.binary main_v81 main_arg15 main_v82 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg16 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)),
    StableHlo.binary main_arg2 main_arg17 main_v86 ((fun l r => Host.dotGeneral dot_S600000x6_S6x128_S600000x128_1_0_0_1_n_n none l r) : (⟨S600000x6, .f32⟩ : BufTy).Contents (Elt F) → (⟨S6x128, .f32⟩ : BufTy).Contents (Elt F) → (⟨S600000x128, .f32⟩ : BufTy).Contents (Elt F)),
    StableHlo.unary main_arg18 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S600000x128 ![0, 1] bcast_S1x128_S600000x128_0_1 : (⟨S1x128, .f32⟩ : BufTy).Contents (Elt F) → (⟨S600000x128, .f32⟩ : BufTy).Contents (Elt F)),
    StableHlo.binary main_v86 main_v88 main_v89 (addf : (⟨S600000x128, .f32⟩ : BufTy).Contents (Elt F) → (⟨S600000x128, .f32⟩ : BufTy).Contents (Elt F) → (⟨S600000x128, .f32⟩ : BufTy).Contents (Elt F)),
    StableHlo.nullary main_c_12 (constantI S_ 32 0#32),
    StableHlo.unary main_c_12 main_v90 (broadcastInDim S600000 ![] bcast_S_S600000 : (⟨S_, .i32⟩ : BufTy).Contents (Elt F) → (⟨S600000, .i32⟩ : BufTy).Contents (Elt F)),
    StableHlo.binary main_v1 main_v90 main_v91 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v92 (broadcastInDim S600000 ![] bcast_S_S600000 : (⟨S_, .i32⟩ : BufTy).Contents (Elt F) → (⟨S600000, .i32⟩ : BufTy).Contents (Elt F)),
    StableHlo.binary main_v1 main_v92 main_v93 (addi : (⟨S600000, .i32⟩ : BufTy).Contents (Elt F) → (⟨S600000, .i32⟩ : BufTy).Contents (Elt F) → (⟨S600000, .i32⟩ : BufTy).Contents (Elt F)),
    StableHlo.ternary main_v91 main_v93 main_v1 main_v94 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v94 main_v95 (broadcastInDim S600000x1 ![0] bcast_S600000_S600000x1_0 : (⟨S600000, .i32⟩ : BufTy).Contents (Elt F) → (⟨S600000x1, .i32⟩ : BufTy).Contents (Elt F)),
    StableHlo.binary main_v85 main_v95 main_v96 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v96 main_v89 main_v97 (addf : (⟨S600000x128, .f32⟩ : BufTy).Contents (Elt F) → (⟨S600000x128, .f32⟩ : BufTy).Contents (Elt F) → (⟨S600000x128, .f32⟩ : BufTy).Contents (Elt F)),
    StableHlo.nullary main_cst_14 (constant S_ .f32 0x00000000#32),
    StableHlo.unary main_cst_14 main_v98 (broadcastInDim S50000x128 ![] bcast_S_S50000x128 : (⟨S_, .f32⟩ : BufTy).Contents (Elt F) → (⟨S50000x128, .f32⟩ : BufTy).Contents (Elt F)),
    StableHlo.unary main_v3 main_v99 (broadcastInDim S600000x1 ![0] bcast_S600000_S600000x1_0 : (⟨S600000, .i32⟩ : BufTy).Contents (Elt F) → (⟨S600000x1, .i32⟩ : BufTy).Contents (Elt F)),
    StableHlo.ternary main_v98 main_v99 main_v97 main_v100 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (TRef.of main_v100 : TRef sig ⟨S50000x128, .f32⟩) main_call4.v0 main_call4.v1 maximumf,
    StableHlo.nullary main_cst_15 (constant S_ .f32 0x00000000#32),
    StableHlo.binary main_v101 main_cst_15 main_v102 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v103 (broadcastInDim S128 ![] bcast_S_S128 : (⟨S_, .f32⟩ : BufTy).Contents (Elt F) → (⟨S128, .f32⟩ : BufTy).Contents (Elt F)),
    StableHlo.binary main_v102 main_v103 main_v104 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call5.cst (constant S_ .f32 0x00000000#32),
    StableHlo.TRef.binary (TRef.of main_v101 : TRef sig ⟨S50000x128, .f32⟩) main_call5.cst main_call5.v0 (fun x v => Host.reduceAdd x v reducesTo_S50000x128_S128_d0 h_S_),
    StableHlo.TRef.unary main_call5.v0 main_call5.v1 (broadcastInDim S1x128 ![1] bcast_S128_S1x128_1),
    StableHlo.TRef.nullary main_call5.cst_0 (constant S_ .f32 0x47435000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S50000x128 ![0, 1] bcast_S1x128_S50000x128_0_1),
    StableHlo.TRef.binary (TRef.of main_v101 : TRef sig ⟨S50000x128, .f32⟩) main_call5.v4 main_call5.v5 subf,
    StableHlo.TRef.binary main_call5.v5 main_call5.v5 main_call5.v6 mulf,
    StableHlo.TRef.unary (TRef.of main_c_17 : TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v104 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v107 main_v108 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v109 (broadcastInDim S128 ![] bcast_S_S128 : (⟨S_, .f32⟩ : BufTy).Contents (Elt F) → (⟨S128, .f32⟩ : BufTy).Contents (Elt F)),
    StableHlo.binary main_v105 main_v109 main_v110 (addf : (⟨S128, .f32⟩ : BufTy).Contents (Elt F) → (⟨S128, .f32⟩ : BufTy).Contents (Elt F) → (⟨S128, .f32⟩ : BufTy).Contents (Elt F)),
    StableHlo.unary main_v110 main_v111 (Host.rsqrt : (⟨S128, .f32⟩ : BufTy).Contents (Elt F) → (⟨S128, .f32⟩ : BufTy).Contents (Elt F)),
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v113 main_v114 (mulf : (⟨S50000x128, .f32⟩ : BufTy).Contents (Elt F) → (⟨S50000x128, .f32⟩ : BufTy).Contents (Elt F) → (⟨S50000x128, .f32⟩ : BufTy).Contents (Elt F)),
    StableHlo.unary main_arg19 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v116 main_v117 (mulf : (⟨S50000x128, .f32⟩ : BufTy).Contents (Elt F) → (⟨S50000x128, .f32⟩ : BufTy).Contents (Elt F) → (⟨S50000x128, .f32⟩ : BufTy).Contents (Elt F)),
    StableHlo.unary main_arg20 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x00000000#32),
    StableHlo.binary main_v120 main_cst_19 main_v121 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v122 (broadcastInDim S128 ![] bcast_S_S128 : (⟨S_, .f32⟩ : BufTy).Contents (Elt F) → (⟨S128, .f32⟩ : BufTy).Contents (Elt F)),
    StableHlo.binary main_v121 main_v122 main_v123 (Host.divf : (⟨S128, .f32⟩ : BufTy).Contents (Elt F) → (⟨S128, .f32⟩ : BufTy).Contents (Elt F) → (⟨S128, .f32⟩ : BufTy).Contents (Elt F)) ]

set_option maxRecDepth 65536 in
set_option maxHeartbeats 4000000 in
/-- The host function is that straight line: the outlined functions unfolded at their calls, the three
    consecutive parts joined, and the sequencing reassociated. -/
theorem main_eq (c : Dev nD) : main (F := F) c = seq ops := by
  simp only [main, main_part0, main_part1, main_part2, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub ..⟩

end Cert.ReferenceIdeal.RVal

end
-- ==== Proof.RRunDefs.lean ====
/-
  The reference network's result as a composition of named pieces, each the host operations the program
  prints for it, in the program's order and at any float type: the two index columns of the edge list, the
  aggregation through them (a gather of the node image at the source column, the sum with the edge image,
  an accumulating scatter into zeros at the destination column), the two linear images with their bias
  broadcast as a row and then over the rows, the maximum with zero, the column mean, the column variance as
  the library function spells it (deviations from the mean, squared, summed, divided by the count minus a
  converted integer zero, guarded by a comparison that count is positive), the normalisation, one layer,
  and the three layers followed by the column mean.
-/
import proofs.«152577_j46067819217044_1_alg».proof.Proof.Gen.ReferenceIdeal
import Idealize.ShloMosaic.Lib.StableHlo.Run

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The source column of the edge list: the first column, as a vector. -/
def srcR (idx : (⟨S600000x2, .i32⟩ : BufTy).Contents (Elt F)) : (⟨S600000, .i32⟩ : BufTy).Contents (Elt F) :=
  fun i => shapeCast S600000 (extractStridedSlice S600000x1 ![0, 0] idx slices_S600000x2_S600000x1_0_0) shapeCasts_S600000x1_S600000 i

/-- The destination column of the edge list: the second column, as a vector. -/
def dstR (idx : (⟨S600000x2, .i32⟩ : BufTy).Contents (Elt F)) : (⟨S600000, .i32⟩ : BufTy).Contents (Elt F) :=
  fun i => shapeCast S600000 (extractStridedSlice S600000x1 ![0, 1] idx slices_S600000x2_S600000x1_0_1) shapeCasts_S600000x1_S600000 i

/-- The aggregation through given source and destination columns: gather the rows of `T` at the source
    indices (a negative index first moved up by the row count), add the edge image, and accumulate the rows
    into zeros at the destination indices. -/
def aggV (src dst : (⟨S600000, .i32⟩ : BufTy).Contents (Elt F)) (T : (⟨S50000x128, .f32⟩ : BufTy).Contents (Elt F)) (msg : (⟨S600000x128, .f32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant (F := F) S_ .f32 0x00000000#32))
    (broadcastInDim S600000x1 ![0] bcast_S600000_S600000x1_0 dst)
    (addf (Host.gather gather_S50000x128_S600000x1_S600000x128_1_0_n_n_0_1_1128 T
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src))) msg)

/-- The aggregation through the edge list. -/
def aggR (idx : (⟨S600000x2, .i32⟩ : BufTy).Contents (Elt F)) : (⟨S50000x128, .f32⟩ : BufTy).Contents (Elt F) → (⟨S600000x128, .f32⟩ : BufTy).Contents (Elt F) → (⟨S50000x128, .f32⟩ : BufTy).Contents (Elt F) :=
  fun T msg => aggV (srcR idx) (dstR idx) T msg

/-- The node image of the first layer: x·W + b over 19 input features. -/
def linNode0 (x : (⟨S50000x19, .f32⟩ : BufTy).Contents (Elt F)) (W : (⟨S19x128, .f32⟩ : BufTy).Contents (Elt F)) (b : (⟨S128, .f32⟩ : BufTy).Contents (Elt F)) : (⟨S50000x128, .f32⟩ : BufTy).Contents (Elt F) :=
  addf (Host.dotGeneral dot_S50000x19_S19x128_S50000x128_1_0_0_1_n_n none x W) (broadcastInDim S50000x128 ![0, 1] bcast_S1x128_S50000x128_0_1 (broadcastInDim S1x128 ![1] bcast_S128_S1x128_1 b))

/-- The node image of the later layers: x·W + b over 128 input features. -/
def linNode1 (x : (⟨S50000x128, .f32⟩ : BufTy).Contents (Elt F)) (W : (⟨S128x128, .f32⟩ : BufTy).Contents (Elt F)) (b : (⟨S128, .f32⟩ : BufTy).Contents (Elt F)) : (⟨S50000x128, .f32⟩ : BufTy).Contents (Elt F) :=
  addf (Host.dotGeneral dot_S50000x128_S128x128_S50000x128_1_0_0_1_n_n none x W) (broadcastInDim S50000x128 ![0, 1] bcast_S1x128_S50000x128_0_1 (broadcastInDim S1x128 ![1] bcast_S128_S1x128_1 b))

/-- The edge image: e·We + be over 6 input features. -/
def linEdge (e : (⟨S600000x6, .f32⟩ : BufTy).Contents (Elt F)) (We : (⟨S6x128, .f32⟩ : BufTy).Contents (Elt F)) (be : (⟨S128, .f32⟩ : BufTy).Contents (Elt F)) : (⟨S600000x128, .f32⟩ : BufTy).Contents (Elt F) :=
  addf (Host.dotGeneral dot_S600000x6_S6x128_S600000x128_1_0_0_1_n_n none e We) (broadcastInDim S600000x128 ![0, 1] bcast_S1x128_S600000x128_0_1 (broadcastInDim S1x128 ![1] bcast_S128_S1x128_1 be))

/-- The maximum with zero. -/
def reluR (a : (⟨S50000x128, .f32⟩ : BufTy).Contents (Elt F)) : (⟨S50000x128, .f32⟩ : BufTy).Contents (Elt F) :=
  maximumf a (broadcastInDim S50000x128 ![] bcast_S_S50000x128 (constant (F := F) S_ .f32 0x00000000#32))

/-- The column sums, from zero. -/
def colSumR (h : (⟨S50000x128, .f32⟩ : BufTy).Contents (Elt F)) : (⟨S128, .f32⟩ : BufTy).Contents (Elt F) :=
  Host.reduceAdd h (constant (F := F) S_ .f32 0x00000000#32) reducesTo_S50000x128_S128_d0 h_S_

/-- The column mean: the column sums over the count. -/
def meanR (h : (⟨S50000x128, .f32⟩ : BufTy).Contents (Elt F)) : (⟨S128, .f32⟩ : BufTy).Contents (Elt F) :=
  Host.divf (colSumR h) (broadcastInDim S128 ![] bcast_S_S128 (constant (F := F) S_ .f32 0x47435000#32))

/-- The deviations from the column mean, the mean taken as a row. -/
def devR (h : (⟨S50000x128, .f32⟩ : BufTy).Contents (Elt F)) : (⟨S50000x128, .f32⟩ : BufTy).Contents (Elt F) :=
  subf h (broadcastInDim S50000x128 ![0, 1] bcast_S1x128_S50000x128_0_1 (Host.divf (broadcastInDim S1x128 ![1] bcast_S128_S1x128_1 (colSumR h)) (broadcastInDim S1x128 ![] bcast_S_S1x128 (constant (F := F) S_ .f32 0x47435000#32))))

/-- The divisor of the variance: the count minus the converted integer zero. -/
def cntMinusR : (⟨S_, .f32⟩ : BufTy).Contents (Elt F) :=
  subf (constant (F := F) S_ .f32 0x47435000#32) (sitofp .f32 (constantI S_ 32 0#32))

/-- The column variance as the library function computes it. -/
def varR (h : (⟨S50000x128, .f32⟩ : BufTy).Contents (Elt F)) : (⟨S128, .f32⟩ : BufTy).Contents (Elt F) :=
  select (broadcastInDim S128 ![] bcast_S_S128 (cmpf .ogt (cntMinusR (F := F)) (constant (F := F) S_ .f32 0x00000000#32)))
    (Host.divf (Host.reduceAdd (mulf (devR h) (devR h)) (constant (F := F) S_ .f32 0x00000000#32) reducesTo_S50000x128_S128_d0 h_S_) (broadcastInDim S128 ![] bcast_S_S128 (cntMinusR (F := F))))
    (broadcastInDim S128 ![] bcast_S_S128 (id (constant (F := F) S_ .f32 0x7FC00000#32)))

/-- The normalisation with given column statistics, scale and shift. -/
def bnR (h : (⟨S50000x128, .f32⟩ : BufTy).Contents (Elt F)) (mu var g bt : (⟨S128, .f32⟩ : BufTy).Contents (Elt F)) : (⟨S50000x128, .f32⟩ : BufTy).Contents (Elt F) :=
  addf (mulf (mulf (subf h (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf var (broadcastInDim S128 ![] bcast_S_S128 (constant (F := F) S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 bt))

/-- What follows the aggregation in a layer: the maximum with zero, then the normalisation by its own
    column mean and variance. -/
def layerTail (a : (⟨S50000x128, .f32⟩ : BufTy).Contents (Elt F)) (g bt : (⟨S128, .f32⟩ : BufTy).Contents (Elt F)) : (⟨S50000x128, .f32⟩ : BufTy).Contents (Elt F) :=
  bnR (reluR a) (meanR (reluR a)) (varR (reluR a)) g bt

/-- The first layer, through given index columns. -/
def layer0V (src dst : (⟨S600000, .i32⟩ : BufTy).Contents (Elt F)) (x : (⟨S50000x19, .f32⟩ : BufTy).Contents (Elt F)) (e : (⟨S600000x6, .f32⟩ : BufTy).Contents (Elt F))
    (W : (⟨S19x128, .f32⟩ : BufTy).Contents (Elt F)) (b : (⟨S128, .f32⟩ : BufTy).Contents (Elt F)) (We : (⟨S6x128, .f32⟩ : BufTy).Contents (Elt F)) (be g bt : (⟨S128, .f32⟩ : BufTy).Contents (Elt F)) : (⟨S50000x128, .f32⟩ : BufTy).Contents (Elt F) :=
  layerTail (aggV src dst (linNode0 x W b) (linEdge e We be)) g bt

/-- A later layer, through given index columns. -/
def layer1V (src dst : (⟨S600000, .i32⟩ : BufTy).Contents (Elt F)) (x : (⟨S50000x128, .f32⟩ : BufTy).Contents (Elt F)) (e : (⟨S600000x6, .f32⟩ : BufTy).Contents (Elt F))
    (W : (⟨S128x128, .f32⟩ : BufTy).Contents (Elt F)) (b : (⟨S128, .f32⟩ : BufTy).Contents (Elt F)) (We : (⟨S6x128, .f32⟩ : BufTy).Contents (Elt F)) (be g bt : (⟨S128, .f32⟩ : BufTy).Contents (Elt F)) : (⟨S50000x128, .f32⟩ : BufTy).Contents (Elt F) :=
  layerTail (aggV src dst (linNode1 x W b) (linEdge e We be)) g bt

/-- The network's result of its 21 arguments, in the program's argument order. -/
def rterm (a0 : (⟨S50000x19, .f32⟩ : BufTy).Contents (Elt F)) (a1 : (⟨S600000x2, .i32⟩ : BufTy).Contents (Elt F)) (a2 : (⟨S600000x6, .f32⟩ : BufTy).Contents (Elt F))
    (a3 : (⟨S19x128, .f32⟩ : BufTy).Contents (Elt F)) (a4 : (⟨S128, .f32⟩ : BufTy).Contents (Elt F)) (a5 : (⟨S6x128, .f32⟩ : BufTy).Contents (Elt F)) (a6 a7 a8 : (⟨S128, .f32⟩ : BufTy).Contents (Elt F))
    (a9 : (⟨S128x128, .f32⟩ : BufTy).Contents (Elt F)) (a10 : (⟨S128, .f32⟩ : BufTy).Contents (Elt F)) (a11 : (⟨S6x128, .f32⟩ : BufTy).Contents (Elt F)) (a12 a13 a14 : (⟨S128, .f32⟩ : BufTy).Contents (Elt F))
    (a15 : (⟨S128x128, .f32⟩ : BufTy).Contents (Elt F)) (a16 : (⟨S128, .f32⟩ : BufTy).Contents (Elt F)) (a17 : (⟨S6x128, .f32⟩ : BufTy).Contents (Elt F)) (a18 a19 a20 : (⟨S128, .f32⟩ : BufTy).Contents (Elt F)) : (⟨S128, .f32⟩ : BufTy).Contents (Elt F) :=
  meanR (layer1V (srcR a1) (dstR a1)
    (layer1V (srcR a1) (dstR a1)
      (layer0V (srcR a1) (dstR a1) a0 a2 a3 a4 a5 a6 a7 a8)
      a2 a9 a10 a11 a12 a13 a14)
    a2 a15 a16 a17 a18 a19 a20)

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.RVal

end
-- ==== Proof.RRunL0.lean ====
/-
  Layer 1 of the reference network as a window of the program's operations: run from any buffer contents,
  the window leaves the layer's output at the layer's function of what it reads, and leaves the arguments
  (and the two index columns) as they were.
-/
import proofs.«152577_j46067819217044_1_alg».proof.Proof.RRunDefs

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The operations of layer 1, in order: the two linear images, the aggregation, the maximum with zero, the
    column mean, the column variance, the normalisation. -/
def opsL0 : List (HloOp τ sig (Elt F)) :=
  [ StableHlo.binary main_arg0 main_arg3 main_v4 ((fun l r => Host.dotGeneral dot_S50000x19_S19x128_S50000x128_1_0_0_1_n_n none l r) : (⟨S50000x19, .f32⟩ : BufTy).Contents (Elt F) → (⟨S19x128, .f32⟩ : BufTy).Contents (Elt F) → (⟨S50000x128, .f32⟩ : BufTy).Contents (Elt F)),
    StableHlo.unary main_arg4 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.binary main_arg2 main_arg5 main_v8 ((fun l r => Host.dotGeneral dot_S600000x6_S6x128_S600000x128_1_0_0_1_n_n none l r) : (⟨S600000x6, .f32⟩ : BufTy).Contents (Elt F) → (⟨S6x128, .f32⟩ : BufTy).Contents (Elt F) → (⟨S600000x128, .f32⟩ : BufTy).Contents (Elt F)),
    StableHlo.unary main_arg6 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S600000x128 ![0, 1] bcast_S1x128_S600000x128_0_1 : (⟨S1x128, .f32⟩ : BufTy).Contents (Elt F) → (⟨S600000x128, .f32⟩ : BufTy).Contents (Elt F)),
    StableHlo.binary main_v8 main_v10 main_v11 (addf : (⟨S600000x128, .f32⟩ : BufTy).Contents (Elt F) → (⟨S600000x128, .f32⟩ : BufTy).Contents (Elt F) → (⟨S600000x128, .f32⟩ : BufTy).Contents (Elt F)),
    StableHlo.nullary main_c (constantI S_ 32 0#32),
    StableHlo.unary main_c main_v12 (broadcastInDim S600000 ![] bcast_S_S600000 : (⟨S_, .i32⟩ : BufTy).Contents (Elt F) → (⟨S600000, .i32⟩ : BufTy).Contents (Elt F)),
    StableHlo.binary main_v1 main_v12 main_v13 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v14 (broadcastInDim S600000 ![] bcast_S_S600000 : (⟨S_, .i32⟩ : BufTy).Contents (Elt F) → (⟨S600000, .i32⟩ : BufTy).Contents (Elt F)),
    StableHlo.binary main_v1 main_v14 main_v15 (addi : (⟨S600000, .i32⟩ : BufTy).Contents (Elt F) → (⟨S600000, .i32⟩ : BufTy).Contents (Elt F) → (⟨S600000, .i32⟩ : BufTy).Contents (Elt F)),
    StableHlo.ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v16 main_v17 (broadcastInDim S600000x1 ![0] bcast_S600000_S600000x1_0 : (⟨S600000, .i32⟩ : BufTy).Contents (Elt F) → (⟨S600000x1, .i32⟩ : BufTy).Contents (Elt F)),
    StableHlo.binary main_v7 main_v17 main_v18 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v18 main_v11 main_v19 (addf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v20 (broadcastInDim S50000x128 ![] bcast_S_S50000x128 : (⟨S_, .f32⟩ : BufTy).Contents (Elt F) → (⟨S50000x128, .f32⟩ : BufTy).Contents (Elt F)),
    StableHlo.unary main_v3 main_v21 (broadcastInDim S600000x1 ![0] bcast_S600000_S600000x1_0 : (⟨S600000, .i32⟩ : BufTy).Contents (Elt F) → (⟨S600000x1, .i32⟩ : BufTy).Contents (Elt F)),
    StableHlo.ternary main_v20 main_v21 main_v19 main_v22 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (TRef.of main_v22 : TRef sig ⟨S50000x128, .f32⟩) main_call0.v0 main_call0.v1 maximumf,
    StableHlo.nullary main_cst_1 (constant S_ .f32 0x00000000#32),
    StableHlo.binary main_v23 main_cst_1 main_v24 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v25 (broadcastInDim S128 ![] bcast_S_S128 : (⟨S_, .f32⟩ : BufTy).Contents (Elt F) → (⟨S128, .f32⟩ : BufTy).Contents (Elt F)),
    StableHlo.binary main_v24 main_v25 main_v26 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (TRef.of main_v23 : TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (TRef.of main_v23 : TRef sig ⟨S50000x128, .f32⟩) main_call1.v4 main_call1.v5 subf,
    StableHlo.TRef.binary main_call1.v5 main_call1.v5 main_call1.v6 mulf,
    StableHlo.TRef.unary (TRef.of main_c_3 : TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v26 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v29 main_v30 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v31 (broadcastInDim S128 ![] bcast_S_S128 : (⟨S_, .f32⟩ : BufTy).Contents (Elt F) → (⟨S128, .f32⟩ : BufTy).Contents (Elt F)),
    StableHlo.binary main_v27 main_v31 main_v32 (addf : (⟨S128, .f32⟩ : BufTy).Contents (Elt F) → (⟨S128, .f32⟩ : BufTy).Contents (Elt F) → (⟨S128, .f32⟩ : BufTy).Contents (Elt F)),
    StableHlo.unary main_v32 main_v33 (Host.rsqrt : (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v35 main_v36 (mulf : (⟨S50000x128, .f32⟩ : BufTy).Contents (Elt F) → (⟨S50000x128, .f32⟩ : BufTy).Contents (Elt F) → (⟨S50000x128, .f32⟩ : BufTy).Contents (Elt F)),
    StableHlo.unary main_arg7 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v38 main_v39 (mulf : (⟨S50000x128, .f32⟩ : BufTy).Contents (Elt F) → (⟨S50000x128, .f32⟩ : BufTy).Contents (Elt F) → (⟨S50000x128, .f32⟩ : BufTy).Contents (Elt F)),
    StableHlo.unary main_arg8 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (addf : (⟨S50000x128, .f32⟩ : BufTy).Contents (Elt F) → (⟨S50000x128, .f32⟩ : BufTy).Contents (Elt F) → (⟨S50000x128, .f32⟩ : BufTy).Contents (Elt F)) ]

attribute [local irreducible] Host.gather Host.scatterAdd Host.reduceAdd in
set_option maxRecDepth 65536 in
set_option maxHeartbeats 4000000 in
/-- From any contents, the layer's operations leave its output buffer at the layer's function of the
    contents of the buffers it reads. -/
theorem L0_out (W : Valuation τ sig (Elt F)) :
    after opsL0 W (Proc.devRef (τ := τ) .tc main_v42) = layer0V (W (Proc.devRef (τ := τ) .tc main_v1)) (W (Proc.devRef (τ := τ) .tc main_v3)) (W (Proc.devRef (τ := τ) .tc main_arg0)) (W (Proc.devRef (τ := τ) .tc main_arg2)) (W (Proc.devRef (τ := τ) .tc main_arg3)) (W (Proc.devRef (τ := τ) .tc main_arg4)) (W (Proc.devRef (τ := τ) .tc main_arg5)) (W (Proc.devRef (τ := τ) .tc main_arg6)) (W (Proc.devRef (τ := τ) .tc main_arg7)) (W (Proc.devRef (τ := τ) .tc main_arg8)) := by
  unfold opsL0
  after_results_simp <;> rfl

set_option maxRecDepth 65536 in
set_option maxHeartbeats 4000000 in
theorem L0_keep_main_v1 (W : Valuation τ sig (Elt F)) : after opsL0 W (Proc.devRef (τ := τ) .tc main_v1) = W (Proc.devRef (τ := τ) .tc main_v1) := by
  unfold opsL0
  after_results_simp

set_option maxRecDepth 65536 in
set_option maxHeartbeats 4000000 in
theorem L0_keep_main_v3 (W : Valuation τ sig (Elt F)) : after opsL0 W (Proc.devRef (τ := τ) .tc main_v3) = W (Proc.devRef (τ := τ) .tc main_v3) := by
  unfold opsL0
  after_results_simp

set_option maxRecDepth 65536 in
set_option maxHeartbeats 4000000 in
theorem L0_keep_main_arg0 (W : Valuation τ sig (Elt F)) : after opsL0 W (Proc.devRef (τ := τ) .tc main_arg0) = W (Proc.devRef (τ := τ) .tc main_arg0) := by
  unfold opsL0
  after_results_simp

set_option maxRecDepth 65536 in
set_option maxHeartbeats 4000000 in
theorem L0_keep_main_arg1 (W : Valuation τ sig (Elt F)) : after opsL0 W (Proc.devRef (τ := τ) .tc main_arg1) = W (Proc.devRef (τ := τ) .tc main_arg1) := by
  unfold opsL0
  after_results_simp

set_option maxRecDepth 65536 in
set_option maxHeartbeats 4000000 in
theorem L0_keep_main_arg2 (W : Valuation τ sig (Elt F)) : after opsL0 W (Proc.devRef (τ := τ) .tc main_arg2) = W (Proc.devRef (τ := τ) .tc main_arg2) := by
  unfold opsL0
  after_results_simp

set_option maxRecDepth 65536 in
set_option maxHeartbeats 4000000 in
theorem L0_keep_main_arg3 (W : Valuation τ sig (Elt F)) : after opsL0 W (Proc.devRef (τ := τ) .tc main_arg3) = W (Proc.devRef (τ := τ) .tc main_arg3) := by
  unfold opsL0
  after_results_simp

set_option maxRecDepth 65536 in
set_option maxHeartbeats 4000000 in
theorem L0_keep_main_arg4 (W : Valuation τ sig (Elt F)) : after opsL0 W (Proc.devRef (τ := τ) .tc main_arg4) = W (Proc.devRef (τ := τ) .tc main_arg4) := by
  unfold opsL0
  after_results_simp

set_option maxRecDepth 65536 in
set_option maxHeartbeats 4000000 in
theorem L0_keep_main_arg5 (W : Valuation τ sig (Elt F)) : after opsL0 W (Proc.devRef (τ := τ) .tc main_arg5) = W (Proc.devRef (τ := τ) .tc main_arg5) := by
  unfold opsL0
  after_results_simp

set_option maxRecDepth 65536 in
set_option maxHeartbeats 4000000 in
theorem L0_keep_main_arg6 (W : Valuation τ sig (Elt F)) : after opsL0 W (Proc.devRef (τ := τ) .tc main_arg6) = W (Proc.devRef (τ := τ) .tc main_arg6) := by
  unfold opsL0
  after_results_simp

set_option maxRecDepth 65536 in
set_option maxHeartbeats 4000000 in
theorem L0_keep_main_arg7 (W : Valuation τ sig (Elt F)) : after opsL0 W (Proc.devRef (τ := τ) .tc main_arg7) = W (Proc.devRef (τ := τ) .tc main_arg7) := by
  unfold opsL0
  after_results_simp

set_option maxRecDepth 65536 in
set_option maxHeartbeats 4000000 in
theorem L0_keep_main_arg8 (W : Valuation τ sig (Elt F)) : after opsL0 W (Proc.devRef (τ := τ) .tc main_arg8) = W (Proc.devRef (τ := τ) .tc main_arg8) := by
  unfold opsL0
  after_results_simp

set_option maxRecDepth 65536 in
set_option maxHeartbeats 4000000 in
theorem L0_keep_main_arg9 (W : Valuation τ sig (Elt F)) : after opsL0 W (Proc.devRef (τ := τ) .tc main_arg9) = W (Proc.devRef (τ := τ) .tc main_arg9) := by
  unfold opsL0
  after_results_simp

set_option maxRecDepth 65536 in
set_option maxHeartbeats 4000000 in
theorem L0_keep_main_arg10 (W : Valuation τ sig (Elt F)) : after opsL0 W (Proc.devRef (τ := τ) .tc main_arg10) = W (Proc.devRef (τ := τ) .tc main_arg10) := by
  unfold opsL0
  after_results_simp

set_option maxRecDepth 65536 in
set_option maxHeartbeats 4000000 in
theorem L0_keep_main_arg11 (W : Valuation τ sig (Elt F)) : after opsL0 W (Proc.devRef (τ := τ) .tc main_arg11) = W (Proc.devRef (τ := τ) .tc main_arg11) := by
  unfold opsL0
  after_results_simp

set_option maxRecDepth 65536 in
set_option maxHeartbeats 4000000 in
theorem L0_keep_main_arg12 (W : Valuation τ sig (Elt F)) : after opsL0 W (Proc.devRef (τ := τ) .tc main_arg12) = W (Proc.devRef (τ := τ) .tc main_arg12) := by
  unfold opsL0
  after_results_simp

set_option maxRecDepth 65536 in
set_option maxHeartbeats 4000000 in
theorem L0_keep_main_arg13 (W : Valuation τ sig (Elt F)) : after opsL0 W (Proc.devRef (τ := τ) .tc main_arg13) = W (Proc.devRef (τ := τ) .tc main_arg13) := by
  unfold opsL0
  after_results_simp

set_option maxRecDepth 65536 in
set_option maxHeartbeats 4000000 in
theorem L0_keep_main_arg14 (W : Valuation τ sig (Elt F)) : after opsL0 W (Proc.devRef (τ := τ) .tc main_arg14) = W (Proc.devRef (τ := τ) .tc main_arg14) := by
  unfold opsL0
  after_results_simp

set_option maxRecDepth 65536 in
set_option maxHeartbeats 4000000 in
theorem L0_keep_main_arg15 (W : Valuation τ sig (Elt F)) : after opsL0 W (Proc.devRef (τ := τ) .tc main_arg15) = W (Proc.devRef (τ := τ) .tc main_arg15) := by
  unfold opsL0
  after_results_simp

set_option maxRecDepth 65536 in
set_option maxHeartbeats 4000000 in
theorem L0_keep_main_arg16 (W : Valuation τ sig (Elt F)) : after opsL0 W (Proc.devRef (τ := τ) .tc main_arg16) = W (Proc.devRef (τ := τ) .tc main_arg16) := by
  unfold opsL0
  after_results_simp

set_option maxRecDepth 65536 in
set_option maxHeartbeats 4000000 in
theorem L0_keep_main_arg17 (W : Valuation τ sig (Elt F)) : after opsL0 W (Proc.devRef (τ := τ) .tc main_arg17) = W (Proc.devRef (τ := τ) .tc main_arg17) := by
  unfold opsL0
  after_results_simp

set_option maxRecDepth 65536 in
set_option maxHeartbeats 4000000 in
theorem L0_keep_main_arg18 (W : Valuation τ sig (Elt F)) : after opsL0 W (Proc.devRef (τ := τ) .tc main_arg18) = W (Proc.devRef (τ := τ) .tc main_arg18) := by
  unfold opsL0
  after_results_simp

set_option maxRecDepth 65536 in
set_option maxHeartbeats 4000000 in
theorem L0_keep_main_arg19 (W : Valuation τ sig (Elt F)) : after opsL0 W (Proc.devRef (τ := τ) .tc main_arg19) = W (Proc.devRef (τ := τ) .tc main_arg19) := by
  unfold opsL0
  after_results_simp

set_option maxRecDepth 65536 in
set_option maxHeartbeats 4000000 in
theorem L0_keep_main_arg20 (W : Valuation τ sig (Elt F)) : after opsL0 W (Proc.devRef (τ := τ) .tc main_arg20) = W (Proc.devRef (τ := τ) .tc main_arg20) := by
  unfold opsL0
  after_results_simp

end Cert.ReferenceIdeal.RVal

end
-- ==== Proof.RRunL1.lean ====
/-
  Layer 2 of the reference network as a window of the program's operations: run from any buffer contents,
  the window leaves the layer's output at the layer's function of what it reads, and leaves the arguments
  (and the two index columns) as they were.
-/
import proofs.«152577_j46067819217044_1_alg».proof.Proof.RRunDefs

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The operations of layer 2, in order: the two linear images, the aggregation, the maximum with zero, the
    column mean, the column variance, the normalisation. -/
def opsL1 : List (HloOp τ sig (Elt F)) :=
  [ StableHlo.binary main_v42 main_arg9 main_v43 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.binary main_arg2 main_arg11 main_v47 ((fun l r => Host.dotGeneral dot_S600000x6_S6x128_S600000x128_1_0_0_1_n_n none l r) : (⟨S600000x6, .f32⟩ : BufTy).Contents (Elt F) → (⟨S6x128, .f32⟩ : BufTy).Contents (Elt F) → (⟨S600000x128, .f32⟩ : BufTy).Contents (Elt F)),
    StableHlo.unary main_arg12 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S600000x128 ![0, 1] bcast_S1x128_S600000x128_0_1 : (⟨S1x128, .f32⟩ : BufTy).Contents (Elt F) → (⟨S600000x128, .f32⟩ : BufTy).Contents (Elt F)),
    StableHlo.binary main_v47 main_v49 main_v50 (addf : (⟨S600000x128, .f32⟩ : BufTy).Contents (Elt F) → (⟨S600000x128, .f32⟩ : BufTy).Contents (Elt F) → (⟨S600000x128, .f32⟩ : BufTy).Contents (Elt F)),
    StableHlo.nullary main_c_5 (constantI S_ 32 0#32),
    StableHlo.unary main_c_5 main_v51 (broadcastInDim S600000 ![] bcast_S_S600000 : (⟨S_, .i32⟩ : BufTy).Contents (Elt F) → (⟨S600000, .i32⟩ : BufTy).Contents (Elt F)),
    StableHlo.binary main_v1 main_v51 main_v52 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v53 (broadcastInDim S600000 ![] bcast_S_S600000 : (⟨S_, .i32⟩ : BufTy).Contents (Elt F) → (⟨S600000, .i32⟩ : BufTy).Contents (Elt F)),
    StableHlo.binary main_v1 main_v53 main_v54 (addi : (⟨S600000, .i32⟩ : BufTy).Contents (Elt F) → (⟨S600000, .i32⟩ : BufTy).Contents (Elt F) → (⟨S600000, .i32⟩ : BufTy).Contents (Elt F)),
    StableHlo.ternary main_v52 main_v54 main_v1 main_v55 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v55 main_v56 (broadcastInDim S600000x1 ![0] bcast_S600000_S600000x1_0 : (⟨S600000, .i32⟩ : BufTy).Contents (Elt F) → (⟨S600000x1, .i32⟩ : BufTy).Contents (Elt F)),
    StableHlo.binary main_v46 main_v56 main_v57 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v57 main_v50 main_v58 (addf : (⟨S600000x128, .f32⟩ : BufTy).Contents (Elt F) → (⟨S600000x128, .f32⟩ : BufTy).Contents (Elt F) → (⟨S600000x128, .f32⟩ : BufTy).Contents (Elt F)),
    StableHlo.nullary main_cst_7 (constant S_ .f32 0x00000000#32),
    StableHlo.unary main_cst_7 main_v59 (broadcastInDim S50000x128 ![] bcast_S_S50000x128 : (⟨S_, .f32⟩ : BufTy).Contents (Elt F) → (⟨S50000x128, .f32⟩ : BufTy).Contents (Elt F)),
    StableHlo.unary main_v3 main_v60 (broadcastInDim S600000x1 ![0] bcast_S600000_S600000x1_0 : (⟨S600000, .i32⟩ : BufTy).Contents (Elt F) → (⟨S600000x1, .i32⟩ : BufTy).Contents (Elt F)),
    StableHlo.ternary main_v59 main_v60 main_v58 main_v61 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (TRef.of main_v61 : TRef sig ⟨S50000x128, .f32⟩) main_call2.v0 main_call2.v1 maximumf,
    StableHlo.nullary main_cst_8 (constant S_ .f32 0x00000000#32),
    StableHlo.binary main_v62 main_cst_8 main_v63 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v64 (broadcastInDim S128 ![] bcast_S_S128 : (⟨S_, .f32⟩ : BufTy).Contents (Elt F) → (⟨S128, .f32⟩ : BufTy).Contents (Elt F)),
    StableHlo.binary main_v63 main_v64 main_v65 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call3.cst (constant S_ .f32 0x00000000#32),
    StableHlo.TRef.binary (TRef.of main_v62 : TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (TRef.of main_v62 : TRef sig ⟨S50000x128, .f32⟩) main_call3.v4 main_call3.v5 subf,
    StableHlo.TRef.binary main_call3.v5 main_call3.v5 main_call3.v6 mulf,
    StableHlo.TRef.unary (TRef.of main_c_10 : TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v65 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v62 main_v68 main_v69 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v70 (broadcastInDim S128 ![] bcast_S_S128 : (⟨S_, .f32⟩ : BufTy).Contents (Elt F) → (⟨S128, .f32⟩ : BufTy).Contents (Elt F)),
    StableHlo.binary main_v66 main_v70 main_v71 (addf : (⟨S128, .f32⟩ : BufTy).Contents (Elt F) → (⟨S128, .f32⟩ : BufTy).Contents (Elt F) → (⟨S128, .f32⟩ : BufTy).Contents (Elt F)),
    StableHlo.unary main_v71 main_v72 (Host.rsqrt : (⟨S128, .f32⟩ : BufTy).Contents (Elt F) → (⟨S128, .f32⟩ : BufTy).Contents (Elt F)),
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v74 main_v75 (mulf : (⟨S50000x128, .f32⟩ : BufTy).Contents (Elt F) → (⟨S50000x128, .f32⟩ : BufTy).Contents (Elt F) → (⟨S50000x128, .f32⟩ : BufTy).Contents (Elt F)),
    StableHlo.unary main_arg13 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v75 main_v77 main_v78 (mulf : (⟨S50000x128, .f32⟩ : BufTy).Contents (Elt F) → (⟨S50000x128, .f32⟩ : BufTy).Contents (Elt F) → (⟨S50000x128, .f32⟩ : BufTy).Contents (Elt F)),
    StableHlo.unary main_arg14 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v80 main_v81 (addf : (⟨S50000x128, .f32⟩ : BufTy).Contents (Elt F) → (⟨S50000x128, .f32⟩ : BufTy).Contents (Elt F) → (⟨S50000x128, .f32⟩ : BufTy).Contents (Elt F)) ]

attribute [local irreducible] Host.gather Host.scatterAdd Host.reduceAdd in
set_option maxRecDepth 65536 in
set_option maxHeartbeats 4000000 in
/-- From any contents, the layer's operations leave its output buffer at the layer's function of the
    contents of the buffers it reads. -/
theorem L1_out (W : Valuation τ sig (Elt F)) :
    after opsL1 W (Proc.devRef (τ := τ) .tc main_v81) = layer1V (W (Proc.devRef (τ := τ) .tc main_v1)) (W (Proc.devRef (τ := τ) .tc main_v3)) (W (Proc.devRef (τ := τ) .tc main_v42)) (W (Proc.devRef (τ := τ) .tc main_arg2)) (W (Proc.devRef (τ := τ) .tc main_arg9)) (W (Proc.devRef (τ := τ) .tc main_arg10)) (W (Proc.devRef (τ := τ) .tc main_arg11)) (W (Proc.devRef (τ := τ) .tc main_arg12)) (W (Proc.devRef (τ := τ) .tc main_arg13)) (W (Proc.devRef (τ := τ) .tc main_arg14)) := by
  unfold opsL1
  after_results_simp <;> rfl

set_option maxRecDepth 65536 in
set_option maxHeartbeats 4000000 in
theorem L1_keep_main_v1 (W : Valuation τ sig (Elt F)) : after opsL1 W (Proc.devRef (τ := τ) .tc main_v1) = W (Proc.devRef (τ := τ) .tc main_v1) := by
  unfold opsL1
  after_results_simp

set_option maxRecDepth 65536 in
set_option maxHeartbeats 4000000 in
theorem L1_keep_main_v3 (W : Valuation τ sig (Elt F)) : after opsL1 W (Proc.devRef (τ := τ) .tc main_v3) = W (Proc.devRef (τ := τ) .tc main_v3) := by
  unfold opsL1
  after_results_simp

set_option maxRecDepth 65536 in
set_option maxHeartbeats 4000000 in
theorem L1_keep_main_arg0 (W : Valuation τ sig (Elt F)) : after opsL1 W (Proc.devRef (τ := τ) .tc main_arg0) = W (Proc.devRef (τ := τ) .tc main_arg0) := by
  unfold opsL1
  after_results_simp

set_option maxRecDepth 65536 in
set_option maxHeartbeats 4000000 in
theorem L1_keep_main_arg1 (W : Valuation τ sig (Elt F)) : after opsL1 W (Proc.devRef (τ := τ) .tc main_arg1) = W (Proc.devRef (τ := τ) .tc main_arg1) := by
  unfold opsL1
  after_results_simp

set_option maxRecDepth 65536 in
set_option maxHeartbeats 4000000 in
theorem L1_keep_main_arg2 (W : Valuation τ sig (Elt F)) : after opsL1 W (Proc.devRef (τ := τ) .tc main_arg2) = W (Proc.devRef (τ := τ) .tc main_arg2) := by
  unfold opsL1
  after_results_simp

set_option maxRecDepth 65536 in
set_option maxHeartbeats 4000000 in
theorem L1_keep_main_arg3 (W : Valuation τ sig (Elt F)) : after opsL1 W (Proc.devRef (τ := τ) .tc main_arg3) = W (Proc.devRef (τ := τ) .tc main_arg3) := by
  unfold opsL1
  after_results_simp

set_option maxRecDepth 65536 in
set_option maxHeartbeats 4000000 in
theorem L1_keep_main_arg4 (W : Valuation τ sig (Elt F)) : after opsL1 W (Proc.devRef (τ := τ) .tc main_arg4) = W (Proc.devRef (τ := τ) .tc main_arg4) := by
  unfold opsL1
  after_results_simp

set_option maxRecDepth 65536 in
set_option maxHeartbeats 4000000 in
theorem L1_keep_main_arg5 (W : Valuation τ sig (Elt F)) : after opsL1 W (Proc.devRef (τ := τ) .tc main_arg5) = W (Proc.devRef (τ := τ) .tc main_arg5) := by
  unfold opsL1
  after_results_simp

set_option maxRecDepth 65536 in
set_option maxHeartbeats 4000000 in
theorem L1_keep_main_arg6 (W : Valuation τ sig (Elt F)) : after opsL1 W (Proc.devRef (τ := τ) .tc main_arg6) = W (Proc.devRef (τ := τ) .tc main_arg6) := by
  unfold opsL1
  after_results_simp

set_option maxRecDepth 65536 in
set_option maxHeartbeats 4000000 in
theorem L1_keep_main_arg7 (W : Valuation τ sig (Elt F)) : after opsL1 W (Proc.devRef (τ := τ) .tc main_arg7) = W (Proc.devRef (τ := τ) .tc main_arg7) := by
  unfold opsL1
  after_results_simp

set_option maxRecDepth 65536 in
set_option maxHeartbeats 4000000 in
theorem L1_keep_main_arg8 (W : Valuation τ sig (Elt F)) : after opsL1 W (Proc.devRef (τ := τ) .tc main_arg8) = W (Proc.devRef (τ := τ) .tc main_arg8) := by
  unfold opsL1
  after_results_simp

set_option maxRecDepth 65536 in
set_option maxHeartbeats 4000000 in
theorem L1_keep_main_arg9 (W : Valuation τ sig (Elt F)) : after opsL1 W (Proc.devRef (τ := τ) .tc main_arg9) = W (Proc.devRef (τ := τ) .tc main_arg9) := by
  unfold opsL1
  after_results_simp

set_option maxRecDepth 65536 in
set_option maxHeartbeats 4000000 in
theorem L1_keep_main_arg10 (W : Valuation τ sig (Elt F)) : after opsL1 W (Proc.devRef (τ := τ) .tc main_arg10) = W (Proc.devRef (τ := τ) .tc main_arg10) := by
  unfold opsL1
  after_results_simp

set_option maxRecDepth 65536 in
set_option maxHeartbeats 4000000 in
theorem L1_keep_main_arg11 (W : Valuation τ sig (Elt F)) : after opsL1 W (Proc.devRef (τ := τ) .tc main_arg11) = W (Proc.devRef (τ := τ) .tc main_arg11) := by
  unfold opsL1
  after_results_simp

set_option maxRecDepth 65536 in
set_option maxHeartbeats 4000000 in
theorem L1_keep_main_arg12 (W : Valuation τ sig (Elt F)) : after opsL1 W (Proc.devRef (τ := τ) .tc main_arg12) = W (Proc.devRef (τ := τ) .tc main_arg12) := by
  unfold opsL1
  after_results_simp

set_option maxRecDepth 65536 in
set_option maxHeartbeats 4000000 in
theorem L1_keep_main_arg13 (W : Valuation τ sig (Elt F)) : after opsL1 W (Proc.devRef (τ := τ) .tc main_arg13) = W (Proc.devRef (τ := τ) .tc main_arg13) := by
  unfold opsL1
  after_results_simp

set_option maxRecDepth 65536 in
set_option maxHeartbeats 4000000 in
theorem L1_keep_main_arg14 (W : Valuation τ sig (Elt F)) : after opsL1 W (Proc.devRef (τ := τ) .tc main_arg14) = W (Proc.devRef (τ := τ) .tc main_arg14) := by
  unfold opsL1
  after_results_simp

set_option maxRecDepth 65536 in
set_option maxHeartbeats 4000000 in
theorem L1_keep_main_arg15 (W : Valuation τ sig (Elt F)) : after opsL1 W (Proc.devRef (τ := τ) .tc main_arg15) = W (Proc.devRef (τ := τ) .tc main_arg15) := by
  unfold opsL1
  after_results_simp

set_option maxRecDepth 65536 in
set_option maxHeartbeats 4000000 in
theorem L1_keep_main_arg16 (W : Valuation τ sig (Elt F)) : after opsL1 W (Proc.devRef (τ := τ) .tc main_arg16) = W (Proc.devRef (τ := τ) .tc main_arg16) := by
  unfold opsL1
  after_results_simp

set_option maxRecDepth 65536 in
set_option maxHeartbeats 4000000 in
theorem L1_keep_main_arg17 (W : Valuation τ sig (Elt F)) : after opsL1 W (Proc.devRef (τ := τ) .tc main_arg17) = W (Proc.devRef (τ := τ) .tc main_arg17) := by
  unfold opsL1
  after_results_simp

set_option maxRecDepth 65536 in
set_option maxHeartbeats 4000000 in
theorem L1_keep_main_arg18 (W : Valuation τ sig (Elt F)) : after opsL1 W (Proc.devRef (τ := τ) .tc main_arg18) = W (Proc.devRef (τ := τ) .tc main_arg18) := by
  unfold opsL1
  after_results_simp

set_option maxRecDepth 65536 in
set_option maxHeartbeats 4000000 in
theorem L1_keep_main_arg19 (W : Valuation τ sig (Elt F)) : after opsL1 W (Proc.devRef (τ := τ) .tc main_arg19) = W (Proc.devRef (τ := τ) .tc main_arg19) := by
  unfold opsL1
  after_results_simp

set_option maxRecDepth 65536 in
set_option maxHeartbeats 4000000 in
theorem L1_keep_main_arg20 (W : Valuation τ sig (Elt F)) : after opsL1 W (Proc.devRef (τ := τ) .tc main_arg20) = W (Proc.devRef (τ := τ) .tc main_arg20) := by
  unfold opsL1
  after_results_simp

end Cert.ReferenceIdeal.RVal

end
-- ==== Proof.RRunL2.lean ====
/-
  Layer 3 of the reference network as a window of the program's operations: run from any buffer contents,
  the window leaves the layer's output at the layer's function of what it reads, and leaves the arguments
  (and the two index columns) as they were.
-/
import proofs.«152577_j46067819217044_1_alg».proof.Proof.RRunDefs

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The operations of layer 3, in order: the two linear images, the aggregation, the maximum with zero, the
    column mean, the column variance, the normalisation. -/
def opsL2 : List (HloOp τ sig (Elt F)) :=
  [ StableHlo.binary main_v81 main_arg15 main_v82 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg16 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)),
    StableHlo.binary main_arg2 main_arg17 main_v86 ((fun l r => Host.dotGeneral dot_S600000x6_S6x128_S600000x128_1_0_0_1_n_n none l r) : (⟨S600000x6, .f32⟩ : BufTy).Contents (Elt F) → (⟨S6x128, .f32⟩ : BufTy).Contents (Elt F) → (⟨S600000x128, .f32⟩ : BufTy).Contents (Elt F)),
    StableHlo.unary main_arg18 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S600000x128 ![0, 1] bcast_S1x128_S600000x128_0_1 : (⟨S1x128, .f32⟩ : BufTy).Contents (Elt F) → (⟨S600000x128, .f32⟩ : BufTy).Contents (Elt F)),
    StableHlo.binary main_v86 main_v88 main_v89 (addf : (⟨S600000x128, .f32⟩ : BufTy).Contents (Elt F) → (⟨S600000x128, .f32⟩ : BufTy).Contents (Elt F) → (⟨S600000x128, .f32⟩ : BufTy).Contents (Elt F)),
    StableHlo.nullary main_c_12 (constantI S_ 32 0#32),
    StableHlo.unary main_c_12 main_v90 (broadcastInDim S600000 ![] bcast_S_S600000 : (⟨S_, .i32⟩ : BufTy).Contents (Elt F) → (⟨S600000, .i32⟩ : BufTy).Contents (Elt F)),
    StableHlo.binary main_v1 main_v90 main_v91 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v92 (broadcastInDim S600000 ![] bcast_S_S600000 : (⟨S_, .i32⟩ : BufTy).Contents (Elt F) → (⟨S600000, .i32⟩ : BufTy).Contents (Elt F)),
    StableHlo.binary main_v1 main_v92 main_v93 (addi : (⟨S600000, .i32⟩ : BufTy).Contents (Elt F) → (⟨S600000, .i32⟩ : BufTy).Contents (Elt F) → (⟨S600000, .i32⟩ : BufTy).Contents (Elt F)),
    StableHlo.ternary main_v91 main_v93 main_v1 main_v94 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v94 main_v95 (broadcastInDim S600000x1 ![0] bcast_S600000_S600000x1_0 : (⟨S600000, .i32⟩ : BufTy).Contents (Elt F) → (⟨S600000x1, .i32⟩ : BufTy).Contents (Elt F)),
    StableHlo.binary main_v85 main_v95 main_v96 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v96 main_v89 main_v97 (addf : (⟨S600000x128, .f32⟩ : BufTy).Contents (Elt F) → (⟨S600000x128, .f32⟩ : BufTy).Contents (Elt F) → (⟨S600000x128, .f32⟩ : BufTy).Contents (Elt F)),
    StableHlo.nullary main_cst_14 (constant S_ .f32 0x00000000#32),
    StableHlo.unary main_cst_14 main_v98 (broadcastInDim S50000x128 ![] bcast_S_S50000x128 : (⟨S_, .f32⟩ : BufTy).Contents (Elt F) → (⟨S50000x128, .f32⟩ : BufTy).Contents (Elt F)),
    StableHlo.unary main_v3 main_v99 (broadcastInDim S600000x1 ![0] bcast_S600000_S600000x1_0 : (⟨S600000, .i32⟩ : BufTy).Contents (Elt F) → (⟨S600000x1, .i32⟩ : BufTy).Contents (Elt F)),
    StableHlo.ternary main_v98 main_v99 main_v97 main_v100 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (TRef.of main_v100 : TRef sig ⟨S50000x128, .f32⟩) main_call4.v0 main_call4.v1 maximumf,
    StableHlo.nullary main_cst_15 (constant S_ .f32 0x00000000#32),
    StableHlo.binary main_v101 main_cst_15 main_v102 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v103 (broadcastInDim S128 ![] bcast_S_S128 : (⟨S_, .f32⟩ : BufTy).Contents (Elt F) → (⟨S128, .f32⟩ : BufTy).Contents (Elt F)),
    StableHlo.binary main_v102 main_v103 main_v104 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call5.cst (constant S_ .f32 0x00000000#32),
    StableHlo.TRef.binary (TRef.of main_v101 : TRef sig ⟨S50000x128, .f32⟩) main_call5.cst main_call5.v0 (fun x v => Host.reduceAdd x v reducesTo_S50000x128_S128_d0 h_S_),
    StableHlo.TRef.unary main_call5.v0 main_call5.v1 (broadcastInDim S1x128 ![1] bcast_S128_S1x128_1),
    StableHlo.TRef.nullary main_call5.cst_0 (constant S_ .f32 0x47435000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S50000x128 ![0, 1] bcast_S1x128_S50000x128_0_1),
    StableHlo.TRef.binary (TRef.of main_v101 : TRef sig ⟨S50000x128, .f32⟩) main_call5.v4 main_call5.v5 subf,
    StableHlo.TRef.binary main_call5.v5 main_call5.v5 main_call5.v6 mulf,
    StableHlo.TRef.unary (TRef.of main_c_17 : TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v104 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v107 main_v108 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v109 (broadcastInDim S128 ![] bcast_S_S128 : (⟨S_, .f32⟩ : BufTy).Contents (Elt F) → (⟨S128, .f32⟩ : BufTy).Contents (Elt F)),
    StableHlo.binary main_v105 main_v109 main_v110 (addf : (⟨S128, .f32⟩ : BufTy).Contents (Elt F) → (⟨S128, .f32⟩ : BufTy).Contents (Elt F) → (⟨S128, .f32⟩ : BufTy).Contents (Elt F)),
    StableHlo.unary main_v110 main_v111 (Host.rsqrt : (⟨S128, .f32⟩ : BufTy).Contents (Elt F) → (⟨S128, .f32⟩ : BufTy).Contents (Elt F)),
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v113 main_v114 (mulf : (⟨S50000x128, .f32⟩ : BufTy).Contents (Elt F) → (⟨S50000x128, .f32⟩ : BufTy).Contents (Elt F) → (⟨S50000x128, .f32⟩ : BufTy).Contents (Elt F)),
    StableHlo.unary main_arg19 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v116 main_v117 (mulf : (⟨S50000x128, .f32⟩ : BufTy).Contents (Elt F) → (⟨S50000x128, .f32⟩ : BufTy).Contents (Elt F) → (⟨S50000x128, .f32⟩ : BufTy).Contents (Elt F)),
    StableHlo.unary main_arg20 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)) ]

attribute [local irreducible] Host.gather Host.scatterAdd Host.reduceAdd in
set_option maxRecDepth 65536 in
set_option maxHeartbeats 4000000 in
/-- From any contents, the layer's operations leave its output buffer at the layer's function of the
    contents of the buffers it reads. -/
theorem L2_out (W : Valuation τ sig (Elt F)) :
    after opsL2 W (Proc.devRef (τ := τ) .tc main_v120) = layer1V (W (Proc.devRef (τ := τ) .tc main_v1)) (W (Proc.devRef (τ := τ) .tc main_v3)) (W (Proc.devRef (τ := τ) .tc main_v81)) (W (Proc.devRef (τ := τ) .tc main_arg2)) (W (Proc.devRef (τ := τ) .tc main_arg15)) (W (Proc.devRef (τ := τ) .tc main_arg16)) (W (Proc.devRef (τ := τ) .tc main_arg17)) (W (Proc.devRef (τ := τ) .tc main_arg18)) (W (Proc.devRef (τ := τ) .tc main_arg19)) (W (Proc.devRef (τ := τ) .tc main_arg20)) := by
  unfold opsL2
  after_results_simp <;> rfl

set_option maxRecDepth 65536 in
set_option maxHeartbeats 4000000 in
theorem L2_keep_main_arg0 (W : Valuation τ sig (Elt F)) : after opsL2 W (Proc.devRef (τ := τ) .tc main_arg0) = W (Proc.devRef (τ := τ) .tc main_arg0) := by
  unfold opsL2
  after_results_simp

set_option maxRecDepth 65536 in
set_option maxHeartbeats 4000000 in
theorem L2_keep_main_arg1 (W : Valuation τ sig (Elt F)) : after opsL2 W (Proc.devRef (τ := τ) .tc main_arg1) = W (Proc.devRef (τ := τ) .tc main_arg1) := by
  unfold opsL2
  after_results_simp

set_option maxRecDepth 65536 in
set_option maxHeartbeats 4000000 in
theorem L2_keep_main_arg2 (W : Valuation τ sig (Elt F)) : after opsL2 W (Proc.devRef (τ := τ) .tc main_arg2) = W (Proc.devRef (τ := τ) .tc main_arg2) := by
  unfold opsL2
  after_results_simp

set_option maxRecDepth 65536 in
set_option maxHeartbeats 4000000 in
theorem L2_keep_main_arg3 (W : Valuation τ sig (Elt F)) : after opsL2 W (Proc.devRef (τ := τ) .tc main_arg3) = W (Proc.devRef (τ := τ) .tc main_arg3) := by
  unfold opsL2
  after_results_simp

set_option maxRecDepth 65536 in
set_option maxHeartbeats 4000000 in
theorem L2_keep_main_arg4 (W : Valuation τ sig (Elt F)) : after opsL2 W (Proc.devRef (τ := τ) .tc main_arg4) = W (Proc.devRef (τ := τ) .tc main_arg4) := by
  unfold opsL2
  after_results_simp

set_option maxRecDepth 65536 in
set_option maxHeartbeats 4000000 in
theorem L2_keep_main_arg5 (W : Valuation τ sig (Elt F)) : after opsL2 W (Proc.devRef (τ := τ) .tc main_arg5) = W (Proc.devRef (τ := τ) .tc main_arg5) := by
  unfold opsL2
  after_results_simp

set_option maxRecDepth 65536 in
set_option maxHeartbeats 4000000 in
theorem L2_keep_main_arg6 (W : Valuation τ sig (Elt F)) : after opsL2 W (Proc.devRef (τ := τ) .tc main_arg6) = W (Proc.devRef (τ := τ) .tc main_arg6) := by
  unfold opsL2
  after_results_simp

set_option maxRecDepth 65536 in
set_option maxHeartbeats 4000000 in
theorem L2_keep_main_arg7 (W : Valuation τ sig (Elt F)) : after opsL2 W (Proc.devRef (τ := τ) .tc main_arg7) = W (Proc.devRef (τ := τ) .tc main_arg7) := by
  unfold opsL2
  after_results_simp

set_option maxRecDepth 65536 in
set_option maxHeartbeats 4000000 in
theorem L2_keep_main_arg8 (W : Valuation τ sig (Elt F)) : after opsL2 W (Proc.devRef (τ := τ) .tc main_arg8) = W (Proc.devRef (τ := τ) .tc main_arg8) := by
  unfold opsL2
  after_results_simp

set_option maxRecDepth 65536 in
set_option maxHeartbeats 4000000 in
theorem L2_keep_main_arg9 (W : Valuation τ sig (Elt F)) : after opsL2 W (Proc.devRef (τ := τ) .tc main_arg9) = W (Proc.devRef (τ := τ) .tc main_arg9) := by
  unfold opsL2
  after_results_simp

set_option maxRecDepth 65536 in
set_option maxHeartbeats 4000000 in
theorem L2_keep_main_arg10 (W : Valuation τ sig (Elt F)) : after opsL2 W (Proc.devRef (τ := τ) .tc main_arg10) = W (Proc.devRef (τ := τ) .tc main_arg10) := by
  unfold opsL2
  after_results_simp

set_option maxRecDepth 65536 in
set_option maxHeartbeats 4000000 in
theorem L2_keep_main_arg11 (W : Valuation τ sig (Elt F)) : after opsL2 W (Proc.devRef (τ := τ) .tc main_arg11) = W (Proc.devRef (τ := τ) .tc main_arg11) := by
  unfold opsL2
  after_results_simp

set_option maxRecDepth 65536 in
set_option maxHeartbeats 4000000 in
theorem L2_keep_main_arg12 (W : Valuation τ sig (Elt F)) : after opsL2 W (Proc.devRef (τ := τ) .tc main_arg12) = W (Proc.devRef (τ := τ) .tc main_arg12) := by
  unfold opsL2
  after_results_simp

set_option maxRecDepth 65536 in
set_option maxHeartbeats 4000000 in
theorem L2_keep_main_arg13 (W : Valuation τ sig (Elt F)) : after opsL2 W (Proc.devRef (τ := τ) .tc main_arg13) = W (Proc.devRef (τ := τ) .tc main_arg13) := by
  unfold opsL2
  after_results_simp

set_option maxRecDepth 65536 in
set_option maxHeartbeats 4000000 in
theorem L2_keep_main_arg14 (W : Valuation τ sig (Elt F)) : after opsL2 W (Proc.devRef (τ := τ) .tc main_arg14) = W (Proc.devRef (τ := τ) .tc main_arg14) := by
  unfold opsL2
  after_results_simp

set_option maxRecDepth 65536 in
set_option maxHeartbeats 4000000 in
theorem L2_keep_main_arg15 (W : Valuation τ sig (Elt F)) : after opsL2 W (Proc.devRef (τ := τ) .tc main_arg15) = W (Proc.devRef (τ := τ) .tc main_arg15) := by
  unfold opsL2
  after_results_simp

set_option maxRecDepth 65536 in
set_option maxHeartbeats 4000000 in
theorem L2_keep_main_arg16 (W : Valuation τ sig (Elt F)) : after opsL2 W (Proc.devRef (τ := τ) .tc main_arg16) = W (Proc.devRef (τ := τ) .tc main_arg16) := by
  unfold opsL2
  after_results_simp

set_option maxRecDepth 65536 in
set_option maxHeartbeats 4000000 in
theorem L2_keep_main_arg17 (W : Valuation τ sig (Elt F)) : after opsL2 W (Proc.devRef (τ := τ) .tc main_arg17) = W (Proc.devRef (τ := τ) .tc main_arg17) := by
  unfold opsL2
  after_results_simp

set_option maxRecDepth 65536 in
set_option maxHeartbeats 4000000 in
theorem L2_keep_main_arg18 (W : Valuation τ sig (Elt F)) : after opsL2 W (Proc.devRef (τ := τ) .tc main_arg18) = W (Proc.devRef (τ := τ) .tc main_arg18) := by
  unfold opsL2
  after_results_simp

set_option maxRecDepth 65536 in
set_option maxHeartbeats 4000000 in
theorem L2_keep_main_arg19 (W : Valuation τ sig (Elt F)) : after opsL2 W (Proc.devRef (τ := τ) .tc main_arg19) = W (Proc.devRef (τ := τ) .tc main_arg19) := by
  unfold opsL2
  after_results_simp

set_option maxRecDepth 65536 in
set_option maxHeartbeats 4000000 in
theorem L2_keep_main_arg20 (W : Valuation τ sig (Elt F)) : after opsL2 W (Proc.devRef (τ := τ) .tc main_arg20) = W (Proc.devRef (τ := τ) .tc main_arg20) := by
  unfold opsL2
  after_results_simp

end Cert.ReferenceIdeal.RVal

end
-- ==== Proof.RRun.lean ====
/-
  The reference program's run: its host function is a straight line of 216 operations, so every weakly fair
  execution terminates with each buffer at the fold of the operations' results over the launch contents.
  The fold is read window by window — the two index columns, the three layers, the final column mean —
  and the result buffer ends at the network's function of the 21 arguments, which end unchanged.
-/
import proofs.«152577_j46067819217044_1_alg».proof.Proof.RRunOps
import proofs.«152577_j46067819217044_1_alg».proof.Proof.RRunL0
import proofs.«152577_j46067819217044_1_alg».proof.Proof.RRunL1
import proofs.«152577_j46067819217044_1_alg».proof.Proof.RRunL2
import Idealize.ShloMosaic.PureOps.Ideal

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The first four operations: the two columns of the edge list, each sliced out and flattened. -/
def opsPre : List (HloOp τ sig (Elt F)) :=
  [ StableHlo.unary main_arg1 main_v0 ((extractStridedSlice S600000x1 ![0, 0] · slices_S600000x2_S600000x1_0_0) : (⟨S600000x2, .i32⟩ : BufTy).Contents (Elt F) → (⟨S600000x1, .i32⟩ : BufTy).Contents (Elt F)),
    StableHlo.reshape main_v0 main_v1 rfl shapeCasts_S600000x1_S600000,
    StableHlo.unary main_arg1 main_v2 ((extractStridedSlice S600000x1 ![0, 1] · slices_S600000x2_S600000x1_0_1) : (⟨S600000x2, .i32⟩ : BufTy).Contents (Elt F) → (⟨S600000x1, .i32⟩ : BufTy).Contents (Elt F)),
    StableHlo.reshape main_v2 main_v3 rfl shapeCasts_S600000x1_S600000 ]

/-- The last five operations: the column mean of the third layer's output. -/
def opsFin : List (HloOp τ sig (Elt F)) :=
  [ StableHlo.nullary main_cst_19 (constant S_ .f32 0x00000000#32),
    StableHlo.binary main_v120 main_cst_19 main_v121 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v122 (broadcastInDim S128 ![] bcast_S_S128 : (⟨S_, .f32⟩ : BufTy).Contents (Elt F) → (⟨S128, .f32⟩ : BufTy).Contents (Elt F)),
    StableHlo.binary main_v121 main_v122 main_v123 (Host.divf : (⟨S128, .f32⟩ : BufTy).Contents (Elt F) → (⟨S128, .f32⟩ : BufTy).Contents (Elt F) → (⟨S128, .f32⟩ : BufTy).Contents (Elt F)) ]

theorem pre_v1 (W : Valuation τ sig (Elt F)) : after opsPre W (Proc.devRef (τ := τ) .tc main_v1) = srcR (W (Proc.devRef (τ := τ) .tc main_arg1)) := by
  unfold opsPre
  after_results_simp <;> rfl

theorem pre_v3 (W : Valuation τ sig (Elt F)) : after opsPre W (Proc.devRef (τ := τ) .tc main_v3) = dstR (W (Proc.devRef (τ := τ) .tc main_arg1)) := by
  unfold opsPre
  after_results_simp <;> rfl

attribute [local irreducible] Host.reduceAdd in
theorem fin_out (W : Valuation τ sig (Elt F)) : after opsFin W (Proc.devRef (τ := τ) .tc main_v123) = meanR (W (Proc.devRef (τ := τ) .tc main_v120)) := by
  unfold opsFin
  after_results_simp <;> rfl

theorem pre_keep_main_arg0 (W : Valuation τ sig (Elt F)) : after opsPre W (Proc.devRef (τ := τ) .tc main_arg0) = W (Proc.devRef (τ := τ) .tc main_arg0) := by
  unfold opsPre
  after_results_simp

theorem fin_keep_main_arg0 (W : Valuation τ sig (Elt F)) : after opsFin W (Proc.devRef (τ := τ) .tc main_arg0) = W (Proc.devRef (τ := τ) .tc main_arg0) := by
  unfold opsFin
  after_results_simp

theorem pre_keep_main_arg1 (W : Valuation τ sig (Elt F)) : after opsPre W (Proc.devRef (τ := τ) .tc main_arg1) = W (Proc.devRef (τ := τ) .tc main_arg1) := by
  unfold opsPre
  after_results_simp

theorem fin_keep_main_arg1 (W : Valuation τ sig (Elt F)) : after opsFin W (Proc.devRef (τ := τ) .tc main_arg1) = W (Proc.devRef (τ := τ) .tc main_arg1) := by
  unfold opsFin
  after_results_simp

theorem pre_keep_main_arg2 (W : Valuation τ sig (Elt F)) : after opsPre W (Proc.devRef (τ := τ) .tc main_arg2) = W (Proc.devRef (τ := τ) .tc main_arg2) := by
  unfold opsPre
  after_results_simp

theorem fin_keep_main_arg2 (W : Valuation τ sig (Elt F)) : after opsFin W (Proc.devRef (τ := τ) .tc main_arg2) = W (Proc.devRef (τ := τ) .tc main_arg2) := by
  unfold opsFin
  after_results_simp

theorem pre_keep_main_arg3 (W : Valuation τ sig (Elt F)) : after opsPre W (Proc.devRef (τ := τ) .tc main_arg3) = W (Proc.devRef (τ := τ) .tc main_arg3) := by
  unfold opsPre
  after_results_simp

theorem fin_keep_main_arg3 (W : Valuation τ sig (Elt F)) : after opsFin W (Proc.devRef (τ := τ) .tc main_arg3) = W (Proc.devRef (τ := τ) .tc main_arg3) := by
  unfold opsFin
  after_results_simp

theorem pre_keep_main_arg4 (W : Valuation τ sig (Elt F)) : after opsPre W (Proc.devRef (τ := τ) .tc main_arg4) = W (Proc.devRef (τ := τ) .tc main_arg4) := by
  unfold opsPre
  after_results_simp

theorem fin_keep_main_arg4 (W : Valuation τ sig (Elt F)) : after opsFin W (Proc.devRef (τ := τ) .tc main_arg4) = W (Proc.devRef (τ := τ) .tc main_arg4) := by
  unfold opsFin
  after_results_simp

theorem pre_keep_main_arg5 (W : Valuation τ sig (Elt F)) : after opsPre W (Proc.devRef (τ := τ) .tc main_arg5) = W (Proc.devRef (τ := τ) .tc main_arg5) := by
  unfold opsPre
  after_results_simp

theorem fin_keep_main_arg5 (W : Valuation τ sig (Elt F)) : after opsFin W (Proc.devRef (τ := τ) .tc main_arg5) = W (Proc.devRef (τ := τ) .tc main_arg5) := by
  unfold opsFin
  after_results_simp

theorem pre_keep_main_arg6 (W : Valuation τ sig (Elt F)) : after opsPre W (Proc.devRef (τ := τ) .tc main_arg6) = W (Proc.devRef (τ := τ) .tc main_arg6) := by
  unfold opsPre
  after_results_simp

theorem fin_keep_main_arg6 (W : Valuation τ sig (Elt F)) : after opsFin W (Proc.devRef (τ := τ) .tc main_arg6) = W (Proc.devRef (τ := τ) .tc main_arg6) := by
  unfold opsFin
  after_results_simp

theorem pre_keep_main_arg7 (W : Valuation τ sig (Elt F)) : after opsPre W (Proc.devRef (τ := τ) .tc main_arg7) = W (Proc.devRef (τ := τ) .tc main_arg7) := by
  unfold opsPre
  after_results_simp

theorem fin_keep_main_arg7 (W : Valuation τ sig (Elt F)) : after opsFin W (Proc.devRef (τ := τ) .tc main_arg7) = W (Proc.devRef (τ := τ) .tc main_arg7) := by
  unfold opsFin
  after_results_simp

theorem pre_keep_main_arg8 (W : Valuation τ sig (Elt F)) : after opsPre W (Proc.devRef (τ := τ) .tc main_arg8) = W (Proc.devRef (τ := τ) .tc main_arg8) := by
  unfold opsPre
  after_results_simp

theorem fin_keep_main_arg8 (W : Valuation τ sig (Elt F)) : after opsFin W (Proc.devRef (τ := τ) .tc main_arg8) = W (Proc.devRef (τ := τ) .tc main_arg8) := by
  unfold opsFin
  after_results_simp

theorem pre_keep_main_arg9 (W : Valuation τ sig (Elt F)) : after opsPre W (Proc.devRef (τ := τ) .tc main_arg9) = W (Proc.devRef (τ := τ) .tc main_arg9) := by
  unfold opsPre
  after_results_simp

theorem fin_keep_main_arg9 (W : Valuation τ sig (Elt F)) : after opsFin W (Proc.devRef (τ := τ) .tc main_arg9) = W (Proc.devRef (τ := τ) .tc main_arg9) := by
  unfold opsFin
  after_results_simp

theorem pre_keep_main_arg10 (W : Valuation τ sig (Elt F)) : after opsPre W (Proc.devRef (τ := τ) .tc main_arg10) = W (Proc.devRef (τ := τ) .tc main_arg10) := by
  unfold opsPre
  after_results_simp

theorem fin_keep_main_arg10 (W : Valuation τ sig (Elt F)) : after opsFin W (Proc.devRef (τ := τ) .tc main_arg10) = W (Proc.devRef (τ := τ) .tc main_arg10) := by
  unfold opsFin
  after_results_simp

theorem pre_keep_main_arg11 (W : Valuation τ sig (Elt F)) : after opsPre W (Proc.devRef (τ := τ) .tc main_arg11) = W (Proc.devRef (τ := τ) .tc main_arg11) := by
  unfold opsPre
  after_results_simp

theorem fin_keep_main_arg11 (W : Valuation τ sig (Elt F)) : after opsFin W (Proc.devRef (τ := τ) .tc main_arg11) = W (Proc.devRef (τ := τ) .tc main_arg11) := by
  unfold opsFin
  after_results_simp

theorem pre_keep_main_arg12 (W : Valuation τ sig (Elt F)) : after opsPre W (Proc.devRef (τ := τ) .tc main_arg12) = W (Proc.devRef (τ := τ) .tc main_arg12) := by
  unfold opsPre
  after_results_simp

theorem fin_keep_main_arg12 (W : Valuation τ sig (Elt F)) : after opsFin W (Proc.devRef (τ := τ) .tc main_arg12) = W (Proc.devRef (τ := τ) .tc main_arg12) := by
  unfold opsFin
  after_results_simp

theorem pre_keep_main_arg13 (W : Valuation τ sig (Elt F)) : after opsPre W (Proc.devRef (τ := τ) .tc main_arg13) = W (Proc.devRef (τ := τ) .tc main_arg13) := by
  unfold opsPre
  after_results_simp

theorem fin_keep_main_arg13 (W : Valuation τ sig (Elt F)) : after opsFin W (Proc.devRef (τ := τ) .tc main_arg13) = W (Proc.devRef (τ := τ) .tc main_arg13) := by
  unfold opsFin
  after_results_simp

theorem pre_keep_main_arg14 (W : Valuation τ sig (Elt F)) : after opsPre W (Proc.devRef (τ := τ) .tc main_arg14) = W (Proc.devRef (τ := τ) .tc main_arg14) := by
  unfold opsPre
  after_results_simp

theorem fin_keep_main_arg14 (W : Valuation τ sig (Elt F)) : after opsFin W (Proc.devRef (τ := τ) .tc main_arg14) = W (Proc.devRef (τ := τ) .tc main_arg14) := by
  unfold opsFin
  after_results_simp

theorem pre_keep_main_arg15 (W : Valuation τ sig (Elt F)) : after opsPre W (Proc.devRef (τ := τ) .tc main_arg15) = W (Proc.devRef (τ := τ) .tc main_arg15) := by
  unfold opsPre
  after_results_simp

theorem fin_keep_main_arg15 (W : Valuation τ sig (Elt F)) : after opsFin W (Proc.devRef (τ := τ) .tc main_arg15) = W (Proc.devRef (τ := τ) .tc main_arg15) := by
  unfold opsFin
  after_results_simp

theorem pre_keep_main_arg16 (W : Valuation τ sig (Elt F)) : after opsPre W (Proc.devRef (τ := τ) .tc main_arg16) = W (Proc.devRef (τ := τ) .tc main_arg16) := by
  unfold opsPre
  after_results_simp

theorem fin_keep_main_arg16 (W : Valuation τ sig (Elt F)) : after opsFin W (Proc.devRef (τ := τ) .tc main_arg16) = W (Proc.devRef (τ := τ) .tc main_arg16) := by
  unfold opsFin
  after_results_simp

theorem pre_keep_main_arg17 (W : Valuation τ sig (Elt F)) : after opsPre W (Proc.devRef (τ := τ) .tc main_arg17) = W (Proc.devRef (τ := τ) .tc main_arg17) := by
  unfold opsPre
  after_results_simp

theorem fin_keep_main_arg17 (W : Valuation τ sig (Elt F)) : after opsFin W (Proc.devRef (τ := τ) .tc main_arg17) = W (Proc.devRef (τ := τ) .tc main_arg17) := by
  unfold opsFin
  after_results_simp

theorem pre_keep_main_arg18 (W : Valuation τ sig (Elt F)) : after opsPre W (Proc.devRef (τ := τ) .tc main_arg18) = W (Proc.devRef (τ := τ) .tc main_arg18) := by
  unfold opsPre
  after_results_simp

theorem fin_keep_main_arg18 (W : Valuation τ sig (Elt F)) : after opsFin W (Proc.devRef (τ := τ) .tc main_arg18) = W (Proc.devRef (τ := τ) .tc main_arg18) := by
  unfold opsFin
  after_results_simp

theorem pre_keep_main_arg19 (W : Valuation τ sig (Elt F)) : after opsPre W (Proc.devRef (τ := τ) .tc main_arg19) = W (Proc.devRef (τ := τ) .tc main_arg19) := by
  unfold opsPre
  after_results_simp

theorem fin_keep_main_arg19 (W : Valuation τ sig (Elt F)) : after opsFin W (Proc.devRef (τ := τ) .tc main_arg19) = W (Proc.devRef (τ := τ) .tc main_arg19) := by
  unfold opsFin
  after_results_simp

theorem pre_keep_main_arg20 (W : Valuation τ sig (Elt F)) : after opsPre W (Proc.devRef (τ := τ) .tc main_arg20) = W (Proc.devRef (τ := τ) .tc main_arg20) := by
  unfold opsPre
  after_results_simp

theorem fin_keep_main_arg20 (W : Valuation τ sig (Elt F)) : after opsFin W (Proc.devRef (τ := τ) .tc main_arg20) = W (Proc.devRef (τ := τ) .tc main_arg20) := by
  unfold opsFin
  after_results_simp

/-- The whole list is the five windows one after the other. -/
theorem ops_split : (ops : List (HloOp τ sig (Elt F))) = opsPre ++ (opsL0 ++ (opsL1 ++ (opsL2 ++ opsFin))) := rfl

set_option maxRecDepth 65536 in
/-- From any contents, the whole list leaves the result buffer at the network's function of the contents of
    the 21 argument buffers: the windows' values chained, each window leaving what later ones read. -/
theorem out_eq (V : Valuation τ sig (Elt F)) :
    after ops V (Proc.devRef (τ := τ) .tc main_v123) = rterm (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) := by
  unfold rterm
  rw [ops_split]
  simp only [after_append]
  rw [fin_out, L2_out, L1_out, L1_keep_main_v1, L1_keep_main_v3, L1_keep_main_arg2, L1_keep_main_arg15, L1_keep_main_arg16, L1_keep_main_arg17, L1_keep_main_arg18, L1_keep_main_arg19, L1_keep_main_arg20,
    L0_out, L0_keep_main_v1, L0_keep_main_v3, L0_keep_main_arg2, L0_keep_main_arg9, L0_keep_main_arg10, L0_keep_main_arg11, L0_keep_main_arg12, L0_keep_main_arg13, L0_keep_main_arg14, L0_keep_main_arg15, L0_keep_main_arg16, L0_keep_main_arg17, L0_keep_main_arg18, L0_keep_main_arg19, L0_keep_main_arg20,
    pre_v1, pre_v3, pre_keep_main_arg0, pre_keep_main_arg2, pre_keep_main_arg3, pre_keep_main_arg4, pre_keep_main_arg5, pre_keep_main_arg6, pre_keep_main_arg7, pre_keep_main_arg8, pre_keep_main_arg9, pre_keep_main_arg10, pre_keep_main_arg11, pre_keep_main_arg12, pre_keep_main_arg13, pre_keep_main_arg14, pre_keep_main_arg15, pre_keep_main_arg16, pre_keep_main_arg17, pre_keep_main_arg18, pre_keep_main_arg19, pre_keep_main_arg20]

theorem main_arg0_eq (V : Valuation τ sig (Elt F)) : after ops V (Proc.devRef (τ := τ) .tc main_arg0) = V (Proc.devRef (τ := τ) .tc main_arg0) := by
  rw [ops_split]
  simp only [after_append]
  rw [fin_keep_main_arg0, L2_keep_main_arg0, L1_keep_main_arg0, L0_keep_main_arg0, pre_keep_main_arg0]

theorem main_arg1_eq (V : Valuation τ sig (Elt F)) : after ops V (Proc.devRef (τ := τ) .tc main_arg1) = V (Proc.devRef (τ := τ) .tc main_arg1) := by
  rw [ops_split]
  simp only [after_append]
  rw [fin_keep_main_arg1, L2_keep_main_arg1, L1_keep_main_arg1, L0_keep_main_arg1, pre_keep_main_arg1]

theorem main_arg2_eq (V : Valuation τ sig (Elt F)) : after ops V (Proc.devRef (τ := τ) .tc main_arg2) = V (Proc.devRef (τ := τ) .tc main_arg2) := by
  rw [ops_split]
  simp only [after_append]
  rw [fin_keep_main_arg2, L2_keep_main_arg2, L1_keep_main_arg2, L0_keep_main_arg2, pre_keep_main_arg2]

theorem main_arg3_eq (V : Valuation τ sig (Elt F)) : after ops V (Proc.devRef (τ := τ) .tc main_arg3) = V (Proc.devRef (τ := τ) .tc main_arg3) := by
  rw [ops_split]
  simp only [after_append]
  rw [fin_keep_main_arg3, L2_keep_main_arg3, L1_keep_main_arg3, L0_keep_main_arg3, pre_keep_main_arg3]

theorem main_arg4_eq (V : Valuation τ sig (Elt F)) : after ops V (Proc.devRef (τ := τ) .tc main_arg4) = V (Proc.devRef (τ := τ) .tc main_arg4) := by
  rw [ops_split]
  simp only [after_append]
  rw [fin_keep_main_arg4, L2_keep_main_arg4, L1_keep_main_arg4, L0_keep_main_arg4, pre_keep_main_arg4]

theorem main_arg5_eq (V : Valuation τ sig (Elt F)) : after ops V (Proc.devRef (τ := τ) .tc main_arg5) = V (Proc.devRef (τ := τ) .tc main_arg5) := by
  rw [ops_split]
  simp only [after_append]
  rw [fin_keep_main_arg5, L2_keep_main_arg5, L1_keep_main_arg5, L0_keep_main_arg5, pre_keep_main_arg5]

theorem main_arg6_eq (V : Valuation τ sig (Elt F)) : after ops V (Proc.devRef (τ := τ) .tc main_arg6) = V (Proc.devRef (τ := τ) .tc main_arg6) := by
  rw [ops_split]
  simp only [after_append]
  rw [fin_keep_main_arg6, L2_keep_main_arg6, L1_keep_main_arg6, L0_keep_main_arg6, pre_keep_main_arg6]

theorem main_arg7_eq (V : Valuation τ sig (Elt F)) : after ops V (Proc.devRef (τ := τ) .tc main_arg7) = V (Proc.devRef (τ := τ) .tc main_arg7) := by
  rw [ops_split]
  simp only [after_append]
  rw [fin_keep_main_arg7, L2_keep_main_arg7, L1_keep_main_arg7, L0_keep_main_arg7, pre_keep_main_arg7]

theorem main_arg8_eq (V : Valuation τ sig (Elt F)) : after ops V (Proc.devRef (τ := τ) .tc main_arg8) = V (Proc.devRef (τ := τ) .tc main_arg8) := by
  rw [ops_split]
  simp only [after_append]
  rw [fin_keep_main_arg8, L2_keep_main_arg8, L1_keep_main_arg8, L0_keep_main_arg8, pre_keep_main_arg8]

theorem main_arg9_eq (V : Valuation τ sig (Elt F)) : after ops V (Proc.devRef (τ := τ) .tc main_arg9) = V (Proc.devRef (τ := τ) .tc main_arg9) := by
  rw [ops_split]
  simp only [after_append]
  rw [fin_keep_main_arg9, L2_keep_main_arg9, L1_keep_main_arg9, L0_keep_main_arg9, pre_keep_main_arg9]

theorem main_arg10_eq (V : Valuation τ sig (Elt F)) : after ops V (Proc.devRef (τ := τ) .tc main_arg10) = V (Proc.devRef (τ := τ) .tc main_arg10) := by
  rw [ops_split]
  simp only [after_append]
  rw [fin_keep_main_arg10, L2_keep_main_arg10, L1_keep_main_arg10, L0_keep_main_arg10, pre_keep_main_arg10]

theorem main_arg11_eq (V : Valuation τ sig (Elt F)) : after ops V (Proc.devRef (τ := τ) .tc main_arg11) = V (Proc.devRef (τ := τ) .tc main_arg11) := by
  rw [ops_split]
  simp only [after_append]
  rw [fin_keep_main_arg11, L2_keep_main_arg11, L1_keep_main_arg11, L0_keep_main_arg11, pre_keep_main_arg11]

theorem main_arg12_eq (V : Valuation τ sig (Elt F)) : after ops V (Proc.devRef (τ := τ) .tc main_arg12) = V (Proc.devRef (τ := τ) .tc main_arg12) := by
  rw [ops_split]
  simp only [after_append]
  rw [fin_keep_main_arg12, L2_keep_main_arg12, L1_keep_main_arg12, L0_keep_main_arg12, pre_keep_main_arg12]

theorem main_arg13_eq (V : Valuation τ sig (Elt F)) : after ops V (Proc.devRef (τ := τ) .tc main_arg13) = V (Proc.devRef (τ := τ) .tc main_arg13) := by
  rw [ops_split]
  simp only [after_append]
  rw [fin_keep_main_arg13, L2_keep_main_arg13, L1_keep_main_arg13, L0_keep_main_arg13, pre_keep_main_arg13]

theorem main_arg14_eq (V : Valuation τ sig (Elt F)) : after ops V (Proc.devRef (τ := τ) .tc main_arg14) = V (Proc.devRef (τ := τ) .tc main_arg14) := by
  rw [ops_split]
  simp only [after_append]
  rw [fin_keep_main_arg14, L2_keep_main_arg14, L1_keep_main_arg14, L0_keep_main_arg14, pre_keep_main_arg14]

theorem main_arg15_eq (V : Valuation τ sig (Elt F)) : after ops V (Proc.devRef (τ := τ) .tc main_arg15) = V (Proc.devRef (τ := τ) .tc main_arg15) := by
  rw [ops_split]
  simp only [after_append]
  rw [fin_keep_main_arg15, L2_keep_main_arg15, L1_keep_main_arg15, L0_keep_main_arg15, pre_keep_main_arg15]

theorem main_arg16_eq (V : Valuation τ sig (Elt F)) : after ops V (Proc.devRef (τ := τ) .tc main_arg16) = V (Proc.devRef (τ := τ) .tc main_arg16) := by
  rw [ops_split]
  simp only [after_append]
  rw [fin_keep_main_arg16, L2_keep_main_arg16, L1_keep_main_arg16, L0_keep_main_arg16, pre_keep_main_arg16]

theorem main_arg17_eq (V : Valuation τ sig (Elt F)) : after ops V (Proc.devRef (τ := τ) .tc main_arg17) = V (Proc.devRef (τ := τ) .tc main_arg17) := by
  rw [ops_split]
  simp only [after_append]
  rw [fin_keep_main_arg17, L2_keep_main_arg17, L1_keep_main_arg17, L0_keep_main_arg17, pre_keep_main_arg17]

theorem main_arg18_eq (V : Valuation τ sig (Elt F)) : after ops V (Proc.devRef (τ := τ) .tc main_arg18) = V (Proc.devRef (τ := τ) .tc main_arg18) := by
  rw [ops_split]
  simp only [after_append]
  rw [fin_keep_main_arg18, L2_keep_main_arg18, L1_keep_main_arg18, L0_keep_main_arg18, pre_keep_main_arg18]

theorem main_arg19_eq (V : Valuation τ sig (Elt F)) : after ops V (Proc.devRef (τ := τ) .tc main_arg19) = V (Proc.devRef (τ := τ) .tc main_arg19) := by
  rw [ops_split]
  simp only [after_append]
  rw [fin_keep_main_arg19, L2_keep_main_arg19, L1_keep_main_arg19, L0_keep_main_arg19, pre_keep_main_arg19]

theorem main_arg20_eq (V : Valuation τ sig (Elt F)) : after ops V (Proc.devRef (τ := τ) .tc main_arg20) = V (Proc.devRef (τ := τ) .tc main_arg20) := by
  rw [ops_split]
  simp only [after_append]
  rw [fin_keep_main_arg20, L2_keep_main_arg20, L1_keep_main_arg20, L0_keep_main_arg20, pre_keep_main_arg20]

set_option maxRecDepth 65536 in
set_option maxHeartbeats 4000000 in
/-- On every device, at any float type, from any memory with zero counters: every weakly fair execution of the
    host function terminates with the result buffer at the network's function of the arguments' launch
    contents, the arguments unchanged. -/
theorem runF (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v123) = rterm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c main_v123).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _),
      (h c main_arg10).trans (main_arg10_eq _),
      (h c main_arg11).trans (main_arg11_eq _),
      (h c main_arg12).trans (main_arg12_eq _),
      (h c main_arg13).trans (main_arg13_eq _),
      (h c main_arg14).trans (main_arg14_eq _),
      (h c main_arg15).trans (main_arg15_eq _),
      (h c main_arg16).trans (main_arg16_eq _),
      (h c main_arg17).trans (main_arg17_eq _),
      (h c main_arg18).trans (main_arg18_eq _),
      (h c main_arg19).trans (main_arg19_eq _),
      (h c main_arg20).trans (main_arg20_eq _)⟩)
    (run_seq scopedRefs_eq scopedSems_eq defs main (fun _ => ops) main_eq (fun _ => ops_sub) m ρ)

/-- The same at the ideal float type: floats extended reals, operations exact. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v123) = rterm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  runF m ρ

end Cert.ReferenceIdeal.RVal

end
-- ==== Proof.Bridge.lean ====
/-
  On real entries the two ways of writing the column variance agree, every intermediate array of a layer holds
  real numbers, and so the network with the one-pass variance and the network with the two-pass variance are the
  same function of real arguments.

  The mean of the squares minus the squared mean equals the mean of the squared deviations only where no entry is
  infinite (with an infinite entry the deviation is a difference of infinities), so realness has to be carried
  through the layer: a finite sum of products of reals is real, the aggregation is assumed to keep real arrays
  real, the maximum with zero of a real is real, a quotient by the count 50000 is a product with 1/50000, the
  two-pass variance of reals is a nonnegative real, epsilon is a positive real, and the reciprocal square root of
  a positive real is real.
-/
import proofs.«152577_j46067819217044_1_alg».proof.Proof.Spec
import proofs.«152577_j46067819217044_1_alg».proof.Proof.LibBatchStats
import Idealize.ShloMosaic.PureOps.Ideal
import Mathlib.Tactic

noncomputable section

namespace Cert.Bridge

open Idealize.ShloMosaic Idealize.ShloMosaic.ValueIdx Cert.Spec

/-! ## The two constants -/

/-- The word of 50000.0 denotes the real number 50000. -/
theorem cnt_eq : cnt = ((50000 : ℝ) : EReal) := by
  unfold cnt
  simp [Ideal.ofBits, Ideal.ieee, -EReal.coe_mul]; norm_num

/-- The epsilon word denotes a positive real number. -/
theorem eps_pos : ∃ e : ℝ, 0 < e ∧ eps = (e : EReal) := by
  unfold eps
  simp [Ideal.ofBits, Ideal.ieee, -EReal.coe_mul]

/-- A quotient by the count is a product with the real 1/50000. -/
theorem div_cnt (x : EReal) : Ideal.div x cnt = x * ((1 / 50000 : ℝ) : EReal) := by
  rw [cnt_eq]; exact Ideal.div_coe (by norm_num) x

/-! ## Real numbers are closed under the operations of a layer -/

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_max_zero {x : EReal} (hx : IsReal x) : IsReal (max x 0) := by
  obtain ⟨a, rfl⟩ := hx
  rcases le_total a 0 with h | h
  · exact ⟨0, by rw [max_eq_right (by exact_mod_cast h : (a : EReal) ≤ 0)]; rfl⟩
  · exact ⟨a, by rw [max_eq_left (by exact_mod_cast h : (0 : EReal) ≤ (a : EReal))]⟩

theorem isReal_sum {ι : Type*} (s : Finset ι) (f : ι → EReal) (hf : ∀ i ∈ s, IsReal (f i)) : IsReal (∑ i ∈ s, f i) := by
  classical
  induction s using Finset.induction_on with
  | empty => exact ⟨0, by rw [Finset.sum_empty, EReal.coe_zero]⟩
  | insert a s ha ih =>
    rw [Finset.sum_insert ha]
    exact isReal_add (hf a (Finset.mem_insert_self a s)) (ih fun i hi => hf i (Finset.mem_insert_of_mem hi))

theorem isReal_div_cnt {x : EReal} (hx : IsReal x) : IsReal (Ideal.div x cnt) := by
  rw [Cert.Bridge.div_cnt]; exact isReal_mul hx ⟨_, rfl⟩

/-- x·W + b of real arrays is real. -/
theorem lin_real {M K : Nat} (x : FVec Ideal (⟨2, ![M, K]⟩ : Shape) .f32) (W : FVec Ideal (⟨2, ![K, 128]⟩ : Shape) .f32)
    (b : FVec Ideal SV .f32) (hx : ∀ i, IsReal (x i)) (hW : ∀ i, IsReal (W i)) (hb : ∀ i, IsReal (b i)) (j) :
    IsReal (lin x W b j) :=
  isReal_add (isReal_sum _ _ fun k _ => isReal_mul (hx _) (hW _)) (hb _)

theorem relu_real (a : FVec Ideal SN .f32) (ha : ∀ i, IsReal (a i)) (j) : IsReal (relu a j) := isReal_max_zero (ha j)

theorem colSum_real (h : FVec Ideal SN .f32) (hh : ∀ i, IsReal (h i)) (j) : IsReal (colSum h j) :=
  isReal_sum _ _ fun r _ => hh _

theorem mean_real (h : FVec Ideal SN .f32) (hh : ∀ i, IsReal (h i)) (j) : IsReal (mean h j) :=
  isReal_div_cnt (colSum_real h hh j)

/-! ## The two variances -/

/-- On real entries the one-pass and the two-pass column variances agree. -/
theorem varOnePass_eq_varTwoPass (h : FVec Ideal SN .f32) (hh : ∀ i, IsReal (h i)) : varOnePass h = varTwoPass h := by
  funext j
  choose z hz using fun r : Fin 50000 => hh (ix2 r (j 0))
  have hv := Cert.Lib.BatchStats.var_ereal z 50000 (by norm_num) (by simp)
  unfold varOnePass varTwoPass mean colSum Spec.sq
  simp only [div_cnt, hz]
  exact hv.symm

/-- The two-pass column variance of real entries is a nonnegative real. -/
theorem varTwoPass_nonneg_real (h : FVec Ideal SN .f32) (hh : ∀ i, IsReal (h i)) (j) :
    ∃ v : ℝ, 0 ≤ v ∧ varTwoPass h j = (v : EReal) := by
  choose z hz using fun r : Fin 50000 => hh (ix2 r (j 0))
  refine ⟨(∑ r, (z r - (∑ s, z s) * (1 / 50000)) * (z r - (∑ s, z s) * (1 / 50000))) * (1 / 50000),
    mul_nonneg (Finset.sum_nonneg fun _ _ => mul_self_nonneg _) (by norm_num), ?_⟩
  unfold varTwoPass mean colSum
  simp only [div_cnt, hz]
  rw [← Cert.Lib.BatchStats.coe_sum, ← EReal.coe_mul]
  simp only [← EReal.coe_sub, ← EReal.coe_mul]
  rw [← Cert.Lib.BatchStats.coe_sum, ← EReal.coe_mul]

/-- The reciprocal square root of a nonnegative real plus epsilon is real. -/
theorem rsqrt_real {v : EReal} (hv : ∃ r : ℝ, 0 ≤ r ∧ v = (r : EReal)) : IsReal (Ideal.rsqrt (v + eps)) := by
  obtain ⟨r, hr, rfl⟩ := hv
  obtain ⟨e, he, hee⟩ := eps_pos
  rw [hee, ← EReal.coe_add, Ideal.rsqrt_coe, if_neg (not_lt.mpr (by linarith)), if_neg (by linarith)]
  exact ⟨_, rfl⟩

/-- Batch normalisation of real entries with real mean, scale and shift and a nonnegative real variance is real. -/
theorem bn_real (h : FVec Ideal SN .f32) (mu var g bt : FVec Ideal SV .f32) (hh : ∀ i, IsReal (h i)) (hmu : ∀ i, IsReal (mu i))
    (hvar : ∀ i, ∃ r : ℝ, 0 ≤ r ∧ var i = (r : EReal)) (hg : ∀ i, IsReal (g i)) (hbt : ∀ i, IsReal (bt i)) (j) :
    IsReal (bn h mu var g bt j) :=
  isReal_add (isReal_mul (isReal_mul (isReal_sub (hh j) (hmu _)) (rsqrt_real (hvar _))) (hg _)) (hbt _)

/-! ## A layer, and the network -/

section Layer

variable (A : FVec Ideal SN .f32 → FVec Ideal SE .f32 → FVec Ideal SN .f32)
  (hA : ∀ T msg, (∀ i, IsReal (T i)) → (∀ i, IsReal (msg i)) → ∀ i, IsReal (A T msg i))

include hA in
/-- On real arguments a layer's two spellings agree. -/
theorem layer_eq {K : Nat} (x : FVec Ideal (⟨2, ![50000, K]⟩ : Shape) .f32) (W : FVec Ideal (⟨2, ![K, 128]⟩ : Shape) .f32) (b : FVec Ideal SV .f32)
    (e : FVec Ideal (⟨2, ![600000, 6]⟩ : Shape) .f32) (We : FVec Ideal (⟨2, ![6, 128]⟩ : Shape) .f32) (be g bt : FVec Ideal SV .f32)
    (hx : ∀ i, IsReal (x i)) (hW : ∀ i, IsReal (W i)) (hb : ∀ i, IsReal (b i)) (he : ∀ i, IsReal (e i)) (hWe : ∀ i, IsReal (We i))
    (hbe : ∀ i, IsReal (be i)) :
    layerOnePass A x W b e We be g bt = layerTwoPass A x W b e We be g bt := by
  unfold layerOnePass layerTwoPass
  rw [varOnePass_eq_varTwoPass _ (relu_real _ (hA _ _ (lin_real x W b hx hW hb) (lin_real e We be he hWe hbe)))]

include hA in
/-- On real arguments a layer's result is real. -/
theorem layerTwoPass_real {K : Nat} (x : FVec Ideal (⟨2, ![50000, K]⟩ : Shape) .f32) (W : FVec Ideal (⟨2, ![K, 128]⟩ : Shape) .f32) (b : FVec Ideal SV .f32)
    (e : FVec Ideal (⟨2, ![600000, 6]⟩ : Shape) .f32) (We : FVec Ideal (⟨2, ![6, 128]⟩ : Shape) .f32) (be g bt : FVec Ideal SV .f32)
    (hx : ∀ i, IsReal (x i)) (hW : ∀ i, IsReal (W i)) (hb : ∀ i, IsReal (b i)) (he : ∀ i, IsReal (e i)) (hWe : ∀ i, IsReal (We i))
    (hbe : ∀ i, IsReal (be i)) (hg : ∀ i, IsReal (g i)) (hbt : ∀ i, IsReal (bt i)) (j) :
    IsReal (layerTwoPass A x W b e We be g bt j) := by
  have hr := relu_real _ (hA _ _ (lin_real x W b hx hW hb) (lin_real e We be he hWe hbe))
  exact bn_real _ _ _ g bt hr (mean_real _ hr) (varTwoPass_nonneg_real _ hr) hg hbt j

include hA in
/-- On real arguments the two spellings of the three-layer network agree. -/
theorem net_eq
    (x0 : FVec Ideal (⟨2, ![50000, 19]⟩ : Shape) .f32) (e : FVec Ideal (⟨2, ![600000, 6]⟩ : Shape) .f32)
    (W0 : FVec Ideal (⟨2, ![19, 128]⟩ : Shape) .f32) (b0 : FVec Ideal SV .f32) (We0 : FVec Ideal (⟨2, ![6, 128]⟩ : Shape) .f32) (be0 g0 bt0 : FVec Ideal SV .f32)
    (W1 : FVec Ideal (⟨2, ![128, 128]⟩ : Shape) .f32) (b1 : FVec Ideal SV .f32) (We1 : FVec Ideal (⟨2, ![6, 128]⟩ : Shape) .f32) (be1 g1 bt1 : FVec Ideal SV .f32)
    (W2 : FVec Ideal (⟨2, ![128, 128]⟩ : Shape) .f32) (b2 : FVec Ideal SV .f32) (We2 : FVec Ideal (⟨2, ![6, 128]⟩ : Shape) .f32) (be2 g2 bt2 : FVec Ideal SV .f32)
    (hx0 : ∀ i, IsReal (x0 i)) (he : ∀ i, IsReal (e i))
    (hW0 : ∀ i, IsReal (W0 i)) (hb0 : ∀ i, IsReal (b0 i)) (hWe0 : ∀ i, IsReal (We0 i)) (hbe0 : ∀ i, IsReal (be0 i)) (hg0 : ∀ i, IsReal (g0 i)) (hbt0 : ∀ i, IsReal (bt0 i))
    (hW1 : ∀ i, IsReal (W1 i)) (hb1 : ∀ i, IsReal (b1 i)) (hWe1 : ∀ i, IsReal (We1 i)) (hbe1 : ∀ i, IsReal (be1 i)) (hg1 : ∀ i, IsReal (g1 i)) (hbt1 : ∀ i, IsReal (bt1 i))
    (hW2 : ∀ i, IsReal (W2 i)) (hb2 : ∀ i, IsReal (b2 i)) (hWe2 : ∀ i, IsReal (We2 i)) (hbe2 : ∀ i, IsReal (be2 i)) :
    netOnePass A x0 e W0 b0 We0 be0 g0 bt0 W1 b1 We1 be1 g1 bt1 W2 b2 We2 be2 g2 bt2
      = netTwoPass A x0 e W0 b0 We0 be0 g0 bt0 W1 b1 We1 be1 g1 bt1 W2 b2 We2 be2 g2 bt2 := by
  unfold netOnePass netTwoPass
  have h1 := layerTwoPass_real A hA x0 W0 b0 e We0 be0 g0 bt0 hx0 hW0 hb0 he hWe0 hbe0 hg0 hbt0
  have h2 := layerTwoPass_real A hA _ W1 b1 e We1 be1 g1 bt1 h1 hW1 hb1 he hWe1 hbe1 hg1 hbt1
  rw [layer_eq A hA x0 W0 b0 e We0 be0 g0 bt0 hx0 hW0 hb0 he hWe0 hbe0,
    layer_eq A hA _ W1 b1 e We1 be1 g1 bt1 h1 hW1 hb1 he hWe1 hbe1,
    layer_eq A hA _ W2 b2 e We2 be2 g2 bt2 h2 hW2 hb2 he hWe2 hbe2]

end Layer

end Cert.Bridge

end
-- ==== Proof.RLayer.lean ====
/-
  The reference's host operations, read as the layer's mathematics on the extended reals: a host matrix product
  with the bias broadcast over the rows is x·W + b entry by entry; the maximum with a broadcast zero is relu; a
  sum over the rows divided by the broadcast count is the column mean; the variance function (the mean of the
  squared deviations, its count 50000 − 0 tested positive before the quotient is taken) is the two-pass column
  variance; and the subtract / reciprocal-square-root / multiply / multiply / add chain is batch normalisation.
-/
import proofs.«152577_j46067819217044_1_alg».proof.ReferenceIdeal
import proofs.«152577_j46067819217044_1_alg».proof.Proof.Spec
import proofs.«152577_j46067819217044_1_alg».proof.Proof.Bridge
import proofs.«152577_j46067819217044_1_alg».proof.Proof.LibPlainDot
import Idealize.ShloMosaic.PureOps.Ideal.Laws
import Idealize.ShloMosaic.Lib.Pipeline.Value
import Idealize.ShloMosaic.Lib.ValueLayout
import Idealize.ShloMosaic.Lib.ValueIdx

noncomputable section

namespace Cert.ReferenceIdeal.RLayer

open Cert.ReferenceIdeal Idealize.ShloMosaic Idealize.ShloMosaic.ValueIdx

variable [Cert.ReferenceIdeal.Facts]
open Cert.ReferenceIdeal.Facts₀ Cert.ReferenceIdeal.Facts

/-- A feature vector broadcast to one row and then over all rows, read at (p, q): entry q. -/
theorem rows_apply {M : Nat} (b : FVec Ideal S128 .f32) (h1 : S128.BroadcastsInDim S1x128 ![1])
    (h2 : S1x128.BroadcastsInDim (⟨2, ![M, 128]⟩ : Shape) ![0, 1]) (p : Fin M) (q : Fin 128) :
    broadcastInDim (⟨2, ![M, 128]⟩ : Shape) ![0, 1] h2 (broadcastInDim S1x128 ![1] h1 b) (ix2 p q) = b (ix1 q) := by
  rw [broadcastInDim_apply ![0, 1] h2 _ (ix2 p q) (ix2 (0 : Fin 1) q) (by intro a; match a with | ⟨0, _⟩ => rfl | ⟨1, _⟩ => rfl)]
  rw [broadcastInDim_apply ![1] h1 b (ix2 (0 : Fin 1) q) (ix1 q) (by intro a; match a with | ⟨0, _⟩ => rfl)]

/-- The host product of the node features with the first weight matrix plus the broadcast bias. -/
theorem lin_read19 (x : FVec Ideal S50000x19 .f32) (W : FVec Ideal S19x128 .f32) (b : FVec Ideal S128 .f32) :
    addf (Host.dotGeneral dot_S50000x19_S19x128_S50000x128_1_0_0_1_n_n none x W)
      (broadcastInDim S50000x128 ![0, 1] bcast_S1x128_S50000x128_0_1 (broadcastInDim S1x128 ![1] bcast_S128_S1x128_1 b))
    = Cert.Spec.lin x W b := by
  funext j
  obtain ⟨p, q, rfl⟩ : ∃ (p : Fin 50000) (q : Fin 128), j = ix2 p q := ⟨j 0, j 1, eq_ix2 j⟩
  rw [addf_apply, rows_apply]
  exact congrArg (· + b (ix1 q))
    (Cert.LibPlainDot.dotGeneral_apply dot_S50000x19_S19x128_S50000x128_1_0_0_1_n_n rfl rfl rfl rfl (fun _ _ => rfl) (fun _ _ => rfl)
      none .single x W p q)

/-- The host product of a layer's 128 input features with a 128 × 128 weight matrix plus the broadcast bias. -/
theorem lin_read128 (x : FVec Ideal S50000x128 .f32) (W : FVec Ideal S128x128 .f32) (b : FVec Ideal S128 .f32) :
    addf (Host.dotGeneral dot_S50000x128_S128x128_S50000x128_1_0_0_1_n_n none x W)
      (broadcastInDim S50000x128 ![0, 1] bcast_S1x128_S50000x128_0_1 (broadcastInDim S1x128 ![1] bcast_S128_S1x128_1 b))
    = Cert.Spec.lin x W b := by
  funext j
  obtain ⟨p, q, rfl⟩ : ∃ (p : Fin 50000) (q : Fin 128), j = ix2 p q := ⟨j 0, j 1, eq_ix2 j⟩
  rw [addf_apply, rows_apply]
  exact congrArg (· + b (ix1 q))
    (Cert.LibPlainDot.dotGeneral_apply dot_S50000x128_S128x128_S50000x128_1_0_0_1_n_n rfl rfl rfl rfl (fun _ _ => rfl) (fun _ _ => rfl)
      none .single x W p q)

/-- The host product of the edge features with a 6 × 128 weight matrix plus the broadcast bias. -/
theorem lin_read6 (x : FVec Ideal S600000x6 .f32) (W : FVec Ideal S6x128 .f32) (b : FVec Ideal S128 .f32) :
    addf (Host.dotGeneral dot_S600000x6_S6x128_S600000x128_1_0_0_1_n_n none x W)
      (broadcastInDim S600000x128 ![0, 1] bcast_S1x128_S600000x128_0_1 (broadcastInDim S1x128 ![1] bcast_S128_S1x128_1 b))
    = Cert.Spec.lin x W b := by
  funext j
  obtain ⟨p, q, rfl⟩ : ∃ (p : Fin 600000) (q : Fin 128), j = ix2 p q := ⟨j 0, j 1, eq_ix2 j⟩
  rw [addf_apply, rows_apply]
  exact congrArg (· + b (ix1 q))
    (Cert.LibPlainDot.dotGeneral_apply dot_S600000x6_S6x128_S600000x128_1_0_0_1_n_n rfl rfl rfl rfl (fun _ _ => rfl) (fun _ _ => rfl)
      none .single x W p q)

/-- The maximum with the broadcast zero word is relu. -/
theorem relu_read (a : FVec Ideal S50000x128 .f32) :
    maximumf a (broadcastInDim S50000x128 ![] bcast_S_S50000x128 (constant (F := Ideal) S_ .f32 0x00000000#32)) = Cert.Spec.relu a := by
  funext j
  rw [maximumf_apply, broadcastInDim_apply ![] bcast_S_S50000x128 _ j ix0 (fun a => a.elim0)]
  exact congrArg (max (a j)) Ideal.ofBits_zero_f32

/-- The host sum over the rows from the zero word is the column sum. -/
theorem colSum_read (h : FVec Ideal S50000x128 .f32) :
    Host.reduceAdd h (constant (F := Ideal) S_ .f32 0x00000000#32) reducesTo_S50000x128_S128_d0 h_S_ = Cert.Spec.colSum h := by
  funext j
  obtain ⟨q, rfl⟩ : ∃ q : Fin 128, j = ix1 q := ⟨j 0, eq_ix1 j⟩
  unfold Host.reduceAdd
  rw [Ideal.hostReduceAdd_def, Ideal.hostReduceAdd_single reducesTo_S50000x128_S128_d0 (by decide : S50000x128.Reduces [0] S128)]
  refine (congrArg (· + _) Ideal.ofBits_zero_f32).trans ((zero_add _).trans ?_)
  exact Finset.sum_congr rfl fun r _ => congrArg h (funext fun a => Fin.ext (by match a with | ⟨0, _⟩ => rfl | ⟨1, _⟩ => rfl))

/-- The broadcast of the count word holds the count at every index. -/
theorem cnt_apply (j : S128.Idx) :
    broadcastInDim S128 ![] bcast_S_S128 (constant (F := Ideal) S_ .f32 0x47435000#32) j = Cert.Spec.cnt := by
  rw [broadcastInDim_apply ![] bcast_S_S128 _ j ix0 (fun a => a.elim0)]; rfl

/-- The column sum divided by the broadcast count is the column mean. -/
theorem mean_read (h : FVec Ideal S50000x128 .f32) :
    Host.divf (Host.reduceAdd h (constant (F := Ideal) S_ .f32 0x00000000#32) reducesTo_S50000x128_S128_d0 h_S_)
      (broadcastInDim S128 ![] bcast_S_S128 (constant (F := Ideal) S_ .f32 0x47435000#32)) = Cert.Spec.mean h := by
  funext j
  unfold Host.divf
  rw [Ideal.hostDivf_def, cnt_apply, colSum_read]
  rfl

/-- The epsilon word broadcast over a feature vector holds epsilon at every index. -/
theorem eps_apply (j : S128.Idx) :
    broadcastInDim S128 ![] bcast_S_S128 (constant (F := Ideal) S_ .f32 0x3727C5AC#32) j = Cert.Spec.eps := by
  rw [broadcastInDim_apply ![] bcast_S_S128 _ j ix0 (fun a => a.elim0)]; rfl

/-- The subtract / reciprocal-square-root / multiply / multiply / add chain is batch normalisation. -/
theorem bn_read (h : FVec Ideal S50000x128 .f32) (mu var g bt : FVec Ideal S128 .f32) :
    addf (mulf (mulf (subf h (broadcastInDim S50000x128 ![0, 1] bcast_S1x128_S50000x128_0_1 (broadcastInDim S1x128 ![1] bcast_S128_S1x128_1 mu)))
        (broadcastInDim S50000x128 ![0, 1] bcast_S1x128_S50000x128_0_1 (broadcastInDim S1x128 ![1] bcast_S128_S1x128_1
          (Host.rsqrt (addf var (broadcastInDim S128 ![] bcast_S_S128 (constant (F := Ideal) S_ .f32 0x3727C5AC#32)))))))
        (broadcastInDim S50000x128 ![0, 1] bcast_S1x128_S50000x128_0_1 (broadcastInDim S1x128 ![1] bcast_S128_S1x128_1 g)))
      (broadcastInDim S50000x128 ![0, 1] bcast_S1x128_S50000x128_0_1 (broadcastInDim S1x128 ![1] bcast_S128_S1x128_1 bt))
    = Cert.Spec.bn h mu var g bt := by
  funext j
  obtain ⟨p, q, rfl⟩ : ∃ (p : Fin 50000) (q : Fin 128), j = ix2 p q := ⟨j 0, j 1, eq_ix2 j⟩
  rw [addf_apply, mulf_apply, mulf_apply, subf_apply, rows_apply, rows_apply, rows_apply, rows_apply]
  unfold Host.rsqrt
  rw [Ideal.hostUnary_rsqrt_def, addf_apply, eps_apply]
  rfl

/-- The variance function's term as the host prints it: the mean of the squared deviations over a count
    (50000 minus the converted integer) that is tested positive, a junk word otherwise. -/
def varTerm (h : FVec Ideal S50000x128 .f32) (z : IVec S_ 32) : FVec Ideal S128 .f32 :=
  select (broadcastInDim S128 ![] bcast_S_S128
      (cmpf .ogt (subf (constant (F := Ideal) S_ .f32 0x47435000#32) (sitofp .f32 z)) (constant (F := Ideal) S_ .f32 0x00000000#32)))
    (Host.divf
      (Host.reduceAdd
        (mulf
          (subf h (broadcastInDim S50000x128 ![0, 1] bcast_S1x128_S50000x128_0_1
            (Host.divf (broadcastInDim S1x128 ![1] bcast_S128_S1x128_1
                (Host.reduceAdd h (constant (F := Ideal) S_ .f32 0x00000000#32) reducesTo_S50000x128_S128_d0 h_S_))
              (broadcastInDim S1x128 ![] bcast_S_S1x128 (constant (F := Ideal) S_ .f32 0x47435000#32)))))
          (subf h (broadcastInDim S50000x128 ![0, 1] bcast_S1x128_S50000x128_0_1
            (Host.divf (broadcastInDim S1x128 ![1] bcast_S128_S1x128_1
                (Host.reduceAdd h (constant (F := Ideal) S_ .f32 0x00000000#32) reducesTo_S50000x128_S128_d0 h_S_))
              (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128 (subf (constant (F := Ideal) S_ .f32 0x47435000#32) (sitofp .f32 z))))
    (broadcastInDim S128 ![] bcast_S_S128 (id (constant (F := Ideal) S_ .f32 0x7FC00000#32)))

/-- The host quotient, entry by entry. -/
theorem hdivf_apply {s : Shape} (x y : FVec Ideal s .f32) (j : s.Idx) : Host.divf x y j = Ideal.div (x j) (y j) := rfl

/-- The deviation from the column mean as the variance function computes it, at (r, q). -/
theorem dev_apply (h : FVec Ideal S50000x128 .f32) (r : Fin 50000) (q : Fin 128) :
    subf h (broadcastInDim S50000x128 ![0, 1] bcast_S1x128_S50000x128_0_1
        (Host.divf (broadcastInDim S1x128 ![1] bcast_S128_S1x128_1
            (Host.reduceAdd h (constant (F := Ideal) S_ .f32 0x00000000#32) reducesTo_S50000x128_S128_d0 h_S_))
          (broadcastInDim S1x128 ![] bcast_S_S1x128 (constant (F := Ideal) S_ .f32 0x47435000#32)))) (ix2 r q)
      = h (ix2 r q) - Cert.Spec.mean h (ix1 q) := by
  rw [subf_apply, broadcastInDim_apply ![0, 1] bcast_S1x128_S50000x128_0_1 _ (ix2 r q) (ix2 (0 : Fin 1) q)
    (by intro a; match a with | ⟨0, _⟩ => rfl | ⟨1, _⟩ => rfl)]
  unfold Host.divf
  rw [Ideal.hostDivf_def, broadcastInDim_apply ![1] bcast_S128_S1x128_1 _ (ix2 (0 : Fin 1) q) (ix1 q)
    (by intro a; match a with | ⟨0, _⟩ => rfl), broadcastInDim_apply ![] bcast_S_S1x128 _ (ix2 (0 : Fin 1) q) ix0 (fun a => a.elim0),
    colSum_read]
  rfl

/-- With the integer zero the variance function is the two-pass column variance. -/
theorem var_read (h : FVec Ideal S50000x128 .f32) : varTerm h (constantI S_ 32 0#32) = Cert.Spec.varTwoPass h := by
  funext j
  obtain ⟨q, rfl⟩ : ∃ q : Fin 128, j = ix1 q := ⟨j 0, eq_ix1 j⟩
  have hcount : (subf (constant (F := Ideal) S_ .f32 0x47435000#32) (sitofp .f32 (constantI S_ 32 0#32)) : FVec Ideal S_ .f32) ix0
      = Cert.Spec.cnt := by
    rw [subf_apply]
    show Cert.Spec.cnt - (((0#32 : BitVec 32).toInt : ℝ) : EReal) = Cert.Spec.cnt
    rw [Cert.Bridge.cnt_eq]
    simp
  unfold varTerm
  rw [select_apply, broadcastInDim_apply ![] bcast_S_S128 _ (ix1 q) ix0 (fun a => a.elim0)]
  have hpos : (cmpf .ogt (subf (constant (F := Ideal) S_ .f32 0x47435000#32) (sitofp .f32 (constantI S_ 32 0#32)))
      (constant (F := Ideal) S_ .f32 0x00000000#32) : IVec S_ 1) ix0 = 1#1 := by
    show Ideal.cmp .ogt ((subf (constant (F := Ideal) S_ .f32 0x47435000#32) (sitofp .f32 (constantI S_ 32 0#32)) : FVec Ideal S_ .f32) ix0)
      (Ideal.ofBits .f32 0x00000000#32) = 1#1
    rw [hcount, Ideal.ofBits_zero_f32, Cert.Bridge.cnt_eq]
    unfold Ideal.cmp
    simp
  rw [hpos]
  show Host.divf _ _ (ix1 q) = _
  rw [hdivf_apply, broadcastInDim_apply ![] bcast_S_S128 _ (ix1 q) ix0 (fun a => a.elim0), hcount, colSum_read]
  unfold Cert.Spec.varTwoPass Cert.Spec.colSum
  refine congrArg (fun s => Ideal.div s Cert.Spec.cnt) (Finset.sum_congr rfl fun r _ => ?_)
  rw [mulf_apply]
  exact congrArg₂ (· * ·) (dev_apply h r q) (dev_apply h r q)

end Cert.ReferenceIdeal.RLayer

end
-- ==== Proof.RRead.lean ====
/-
  The reading of the reference's result: each named piece of the network's term is the function of the
  shared vocabulary it spells — a linear image, the maximum with zero, the column mean, the two-pass column
  variance, the normalisation — so each layer is the two-pass layer over the aggregation through the edge
  list, and the result is the column mean of the three layers in sequence.
-/
import proofs.«152577_j46067819217044_1_alg».proof.Proof.RRunDefs
import proofs.«152577_j46067819217044_1_alg».proof.Proof.RLayer
import proofs.«152577_j46067819217044_1_alg».proof.Proof.Spec

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.RLayer

/-- The node image of the first layer is x·W + b. -/
theorem linNode0_eq (x : FVec Ideal S50000x19 .f32) (W : FVec Ideal S19x128 .f32) (b : FVec Ideal S128 .f32) :
    linNode0 (F := Ideal) x W b = Cert.Spec.lin x W b := lin_read19 x W b

/-- The node image of a later layer is x·W + b. -/
theorem linNode1_eq (x : FVec Ideal S50000x128 .f32) (W : FVec Ideal S128x128 .f32) (b : FVec Ideal S128 .f32) :
    linNode1 (F := Ideal) x W b = Cert.Spec.lin x W b := lin_read128 x W b

/-- The edge image is e·We + be. -/
theorem linEdge_eq (e : FVec Ideal S600000x6 .f32) (We : FVec Ideal S6x128 .f32) (be : FVec Ideal S128 .f32) :
    linEdge (F := Ideal) e We be = Cert.Spec.lin e We be := lin_read6 e We be

/-- The maximum with the broadcast zero word is the maximum with zero. -/
theorem reluR_eq (a : FVec Ideal S50000x128 .f32) : reluR (F := Ideal) a = Cert.Spec.relu a := relu_read a

/-- The column sums over the broadcast count are the column mean. -/
theorem meanR_eq (h : FVec Ideal S50000x128 .f32) : meanR (F := Ideal) h = Cert.Spec.mean h := mean_read h

/-- The library's variance is the mean of the squared deviations from the mean. -/
theorem varR_eq (h : FVec Ideal S50000x128 .f32) : varR (F := Ideal) h = Cert.Spec.varTwoPass h := var_read h

/-- The subtract, reciprocal square root, multiply, multiply, add chain is the normalisation. -/
theorem bnR_eq (h : FVec Ideal S50000x128 .f32) (mu var g bt : FVec Ideal S128 .f32) : bnR (F := Ideal) h mu var g bt = Cert.Spec.bn h mu var g bt :=
  bn_read h mu var g bt

/-- The first layer through the edge list is the two-pass layer over the aggregation. -/
theorem layer0V_eq (idx : IVec S600000x2 32) (x : FVec Ideal S50000x19 .f32) (e : FVec Ideal S600000x6 .f32)
    (W : FVec Ideal S19x128 .f32) (b : FVec Ideal S128 .f32) (We : FVec Ideal S6x128 .f32) (be g bt : FVec Ideal S128 .f32) :
    layer0V (F := Ideal) (srcR idx) (dstR idx) x e W b We be g bt
      = Cert.Spec.layerTwoPass (aggR (F := Ideal) idx) x W b e We be g bt := by
  unfold layer0V layerTail
  rw [linNode0_eq, linEdge_eq, reluR_eq, meanR_eq, varR_eq, bnR_eq]
  rfl

/-- A later layer through the edge list is the two-pass layer over the aggregation. -/
theorem layer1V_eq (idx : IVec S600000x2 32) (x : FVec Ideal S50000x128 .f32) (e : FVec Ideal S600000x6 .f32)
    (W : FVec Ideal S128x128 .f32) (b : FVec Ideal S128 .f32) (We : FVec Ideal S6x128 .f32) (be g bt : FVec Ideal S128 .f32) :
    layer1V (F := Ideal) (srcR idx) (dstR idx) x e W b We be g bt
      = Cert.Spec.layerTwoPass (aggR (F := Ideal) idx) x W b e We be g bt := by
  unfold layer1V layerTail
  rw [linNode1_eq, linEdge_eq, reluR_eq, meanR_eq, varR_eq, bnR_eq]
  rfl

/-- The reference's result is the column mean of the three two-pass layers over the aggregation through the
    edge list. -/
theorem rvalue (a0 : FVec Ideal S50000x19 .f32) (a1 : IVec S600000x2 32) (a2 : FVec Ideal S600000x6 .f32)
    (a3 : FVec Ideal S19x128 .f32) (a4 : FVec Ideal S128 .f32) (a5 : FVec Ideal S6x128 .f32) (a6 a7 a8 : FVec Ideal S128 .f32)
    (a9 : FVec Ideal S128x128 .f32) (a10 : FVec Ideal S128 .f32) (a11 : FVec Ideal S6x128 .f32) (a12 a13 a14 : FVec Ideal S128 .f32)
    (a15 : FVec Ideal S128x128 .f32) (a16 : FVec Ideal S128 .f32) (a17 : FVec Ideal S6x128 .f32) (a18 a19 a20 : FVec Ideal S128 .f32) :
    rterm (F := Ideal) a0 a1 a2 a3 a4 a5 a6 a7 a8 a9 a10 a11 a12 a13 a14 a15 a16 a17 a18 a19 a20
      = Cert.Spec.mean (Cert.Spec.netTwoPass (aggR (F := Ideal) a1) a0 a2 a3 a4 a5 a6 a7 a8 a9 a10 a11 a12 a13 a14 a15 a16 a17 a18 a19 a20) := by
  unfold rterm
  rw [layer0V_eq, layer1V_eq, layer1V_eq, meanR_eq]
  rfl

end Cert.ReferenceIdeal.RVal

end
-- ==== Proof.PreReal.lean ====
/-
  The precondition says, array by array, that every entry's absolute value is below plus infinity; an extended
  real whose absolute value is below plus infinity is neither infinity, so it is a real number.  The conjunction
  of the twenty "all entries" tests being true makes each of them true, and each test being true makes every
  entry pass it.
-/
import proofs.«152577_j46067819217044_1_alg».proof.Proof.Spec
import proofs.«152577_j46067819217044_1_alg».proof.Pre_finite_inputs
import Idealize.ShloMosaic.Lib.ReduceAll
import Idealize.ShloMosaic.Lib.Affine
import Idealize.ShloMosaic.Lib.ValueIdx
import Mathlib.Tactic

noncomputable section

namespace Cert.PreReal

open Idealize.ShloMosaic Idealize.ShloMosaic.ValueIdx Cert.Spec

instance : Subsingleton (⟨0, ![]⟩ : Shape).Idx := ⟨fun a b => funext fun d => d.elim0⟩

/-- If the test "every |entry| < +∞" of an array comes out true, every entry of the array is a real number. -/
theorem all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi (cmpf .olt (Host.absf x) (broadcastInDim s ![] hb (constant (F := Ideal) ⟨0, ![]⟩ .f32 0x7F800000#32)))
        (constantI ⟨0, ![]⟩ 1 1#1) hr h0 ix0 = 1#1) (i : s.Idx) : IsReal (x i) := by
  have h := Host.reduce_andi_all _ _ hr h0 ix0 e i
  simp only [cmpf, Host.absf, broadcastInDim, constant] at h
  have h' : Ideal.cmp .olt (max (x i) (-(x i))) (Ideal.ofBits .f32 0x7F800000#32) = 1#1 := h
  have htop : Ideal.ofBits .f32 0x7F800000#32 = ⊤ := by simp [Ideal.ofBits, Ideal.ieee]
  rw [htop] at h'
  unfold Ideal.cmp at h'
  have hlt : max (x i) (-(x i)) < ⊤ := by
    by_contra hn
    simp [hn] at h'
  generalize x i = y at hlt ⊢
  induction y using EReal.rec with
  | bot => simp at hlt
  | top => simp at hlt
  | coe r => exact ⟨r, rfl⟩

open Cert.Pre_finite_inputs in
/-- Under the precondition every float argument holds real numbers. -/
theorem pre_real [Cert.Pre_finite_inputs.Facts] (a0 : FVec Ideal S50000x19 .f32) (a1 : IVec S600000x2 32) (a2 : FVec Ideal S600000x6 .f32) (a3 : FVec Ideal S19x128 .f32) (a4 : FVec Ideal S128 .f32) (a5 : FVec Ideal S6x128 .f32) (a6 : FVec Ideal S128 .f32) (a7 : FVec Ideal S128 .f32) (a8 : FVec Ideal S128 .f32) (a9 : FVec Ideal S128x128 .f32) (a10 : FVec Ideal S128 .f32) (a11 : FVec Ideal S6x128 .f32) (a12 : FVec Ideal S128 .f32) (a13 : FVec Ideal S128 .f32) (a14 : FVec Ideal S128 .f32) (a15 : FVec Ideal S128x128 .f32) (a16 : FVec Ideal S128 .f32) (a17 : FVec Ideal S6x128 .f32) (a18 : FVec Ideal S128 .f32) (a19 : FVec Ideal S128 .f32) (a20 : FVec Ideal S128 .f32)
    (h : Cert.Pre_finite_inputs.fn (F := Ideal) a0 a1 a2 a3 a4 a5 a6 a7 a8 a9 a10 a11 a12 a13 a14 a15 a16 a17 a18 a19 a20 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  have e0 := h0
  exact ⟨all_finite a0 _ _ _ e0,
    all_finite a2 _ _ _ e2,
    all_finite a3 _ _ _ e3,
    all_finite a4 _ _ _ e4,
    all_finite a5 _ _ _ e5,
    all_finite a6 _ _ _ e6,
    all_finite a7 _ _ _ e7,
    all_finite a8 _ _ _ e8,
    all_finite a9 _ _ _ e9,
    all_finite a10 _ _ _ e10,
    all_finite a11 _ _ _ e11,
    all_finite a12 _ _ _ e12,
    all_finite a13 _ _ _ e13,
    all_finite a14 _ _ _ e14,
    all_finite a15 _ _ _ e15,
    all_finite a16 _ _ _ e16,
    all_finite a17 _ _ _ e17,
    all_finite a18 _ _ _ e18,
    all_finite a19 _ _ _ e19,
    all_finite a20 _ _ _ e20⟩

end Cert.PreReal

end
-- ==== Proof.LibHostFinite.lean ====
/-
  Real entries through the host's gather and accumulating scatter, at the extended reals.

  An entry of a gather is an entry of its operand, so a gather of an array of real numbers holds real numbers.
  An entry of an accumulating scatter is the operand's entry plus the sum of the update entries that land on it:
  a finite sum of real numbers is a real number, so when the operand and the updates hold real numbers the result
  does, whatever the indices are (an update that lands outside contributes nothing).  General over the shapes and
  the dimension numbers.
-/
import Idealize.ShloMosaic.PureOps.Ideal

noncomputable section

namespace Cert.Lib.HostFinite

open Idealize.ShloMosaic

/-- A finite sum of real numbers is a real number. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r, hr⟩ := hf a (Finset.mem_insert_self a s)
    obtain ⟨t, ht⟩ := ih (fun i hi => hf i (Finset.mem_insert_of_mem hi))
    exact ⟨r + t, by rw [Finset.sum_insert ha, hr, ht, EReal.coe_add]⟩

/-- A gather of real numbers holds real numbers: each entry is an entry of the operand. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-- The exact accumulating scatter of real updates into real numbers holds real numbers. -/
theorem hostScatterAdd_real {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  obtain ⟨a, ha⟩ := hx i
  obtain ⟨b, hb⟩ := sum_real (Finset.univ.filter (fun j => d.resultIdx? j idx = some i)) upd (fun j _ => hu j)
  exact ⟨a + b, by unfold Ideal.hostScatterAdd; rw [ha, hb, EReal.coe_add]⟩

/-- The host program's accumulating scatter, at the extended reals, likewise. -/
theorem scatterAdd_real {φ : FTy} {s si su : Shape} (d : ScatterDims s si su) {w : Nat} (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) :=
  hostScatterAdd_real d x idx upd hx hu i

end Cert.Lib.HostFinite

end
-- ==== Proof.lean ====
/-
  The certificate's five claims.

  The two kernel programs' frames are the generated frame theorems; the reference's frame is its run with the
  result dropped; the idealisation rewrote nothing.  For the equivalence on the extended reals, the kernel
  program's run ends with its result at the column mean of the three-layer network written with the one-pass
  variance (mean of squares minus squared mean, from the column sums the statistics kernel accumulates), and the
  reference's run ends at the same network written with the two-pass variance (mean of squared deviations).
  Under the precondition every float argument holds real numbers; realness is kept by the linear images, the
  aggregation (a gathered entry is an entry; an accumulating scatter adds finitely many reals), relu, the column
  statistics and the normalisation (the variance of reals is a nonnegative real, so the reciprocal square root of
  variance plus epsilon is real); and on real entries the two variances are equal.  The aggregation is the same
  host term in both programs.
-/
import proofs.«152577_j46067819217044_1_alg».proof.Defs
import proofs.«152577_j46067819217044_1_alg».proof.Proof.Gen.Kernel
import proofs.«152577_j46067819217044_1_alg».proof.Proof.Gen.Kernel.Frame
import proofs.«152577_j46067819217044_1_alg».proof.Proof.Gen.KernelIdeal
import proofs.«152577_j46067819217044_1_alg».proof.Proof.Gen.KernelIdeal.Frame
import proofs.«152577_j46067819217044_1_alg».proof.Proof.Gen.ReferenceIdeal
import proofs.«152577_j46067819217044_1_alg».proof.Proof.Gen.Pre_finite_inputs
import proofs.«152577_j46067819217044_1_alg».proof.Proof.KResult
import proofs.«152577_j46067819217044_1_alg».proof.Proof.RRun
import proofs.«152577_j46067819217044_1_alg».proof.Proof.RRead
import proofs.«152577_j46067819217044_1_alg».proof.Proof.Bridge
import proofs.«152577_j46067819217044_1_alg».proof.Proof.PreReal
import proofs.«152577_j46067819217044_1_alg».proof.Proof.LibHostFinite
import Idealize.ShloMosaic.Adequacy
import Idealize.ShloMosaic.Init

noncomputable section

namespace Cert.Proof

open Idealize.ShloMosaic Idealize.ShloMosaic.ValueIdx Idealize.SL.Sem

/-- The aggregation is one host term: the two programs print the same operations over the same edge list. -/
theorem agg_eq (idx : (⟨Cert.KernelIdeal.S600000x2, .i32⟩ : BufTy).Contents (Elt Ideal)) :
    Cert.KernelIdeal.KVal.aggK idx = Cert.ReferenceIdeal.RVal.aggR (F := Ideal) idx := rfl

/-- The aggregation of real arrays is real: a gathered entry is an entry of the node image, the sum of two reals is
    real, and the accumulating scatter adds finitely many real rows into zeros. -/
theorem aggK_real (idx : (⟨Cert.KernelIdeal.S600000x2, .i32⟩ : BufTy).Contents (Elt Ideal)) (T : FVec Ideal Cert.Spec.SN .f32)
    (msg : FVec Ideal Cert.Spec.SE .f32) (hT : ∀ i, Cert.Spec.IsReal (T i)) (hm : ∀ i, Cert.Spec.IsReal (msg i)) (i : Cert.Spec.SN.Idx) :
    Cert.Spec.IsReal (Cert.KernelIdeal.KVal.aggK idx T msg i) := by
  unfold Cert.KernelIdeal.KVal.aggK Cert.KernelIdeal.KVal.aggOf
  refine Cert.Lib.HostFinite.scatterAdd_real _ _ _ _ (fun i => ⟨0, ?_⟩) (fun j => ?_) i
  · rw [broadcastInDim_apply ![] _ _ i ix0 (fun a => a.elim0)]
    exact Ideal.ofBits_zero_f32
  · obtain ⟨a, ha⟩ := Cert.Lib.HostFinite.gather_real _ T _ hT j
    obtain ⟨b, hb⟩ := hm j
    exact ⟨a + b, by rw [addf_apply, ha, hb, EReal.coe_add]⟩

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RVal.run m ρ)

/-- Both programs end at the column mean of the same network of real arguments. -/
theorem algebraic : Cert.algebraic_KernelIdeal_ReferenceIdeal := by
  intro m ρ m' ρ' hpre hagree
  refine ⟨Cert.KernelIdeal.KVal.kernelResult m, Cert.KernelIdeal.KVal.run_result m ρ, ?_⟩
  refine (θ_run Cert.ReferenceIdeal.defs _ _).mono (fun r h c => ⟨(h c).1.trans ?_, (h c).2⟩)
    (Cert.ReferenceIdeal.RVal.run m' ρ')
  obtain ⟨e0, e1, e2, e3, e4, e5, e6, e7, e8, e9, e10, e11, e12, e13, e14, e15, e16, e17, e18, e19, e20⟩ := hagree c
  obtain ⟨r0, r2, r3, r4, r5, r6, r7, r8, r9, r10, r11, r12, r13, r14, r15, r16, r17, r18, r19, r20⟩ := Cert.PreReal.pre_real _ _ _ _ _ _ _ _ _ _ _ _ _ _ _ _ _ _ _ _ _ (hpre c)
  rw [e0, e1, e2, e3, e4, e5, e6, e7, e8, e9, e10, e11, e12, e13, e14, e15, e16, e17, e18, e19, e20, Cert.ReferenceIdeal.RVal.rvalue]
  unfold Cert.KernelIdeal.KVal.kernelResult
  rw [← agg_eq, Cert.Bridge.net_eq _ (aggK_real _) _ _ _ _ _ _ _ _ _ _ _ _ _ _ _ _ _ _ _ _
    r0 r2 r3 r4 r5 r6 r7 r8 r9 r10 r11 r12 r13 r14 r15 r16 r17 r18]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
